-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 1024, 64, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 1024, 64, 128]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x64x64x64 .f32) (main_arg1 : FVec F S64x128 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Pre_finite_inputs_ReferenceIdeal.lean ====
abbrev S2x1024x64x64 : Shape := ⟨4, ![2, 1024, 64, 64]⟩
abbrev S64x128 : Shape := ⟨2, ![64, 128]⟩
abbrev S_ : Shape := ⟨0, ![]⟩

class Facts : Prop where
  bcast_S_S2x1024x64x64 : S_.BroadcastsInDim S2x1024x64x64 (![] : Fin 0 → Fin S2x1024x64x64.rank)
  reducesTo_S2x1024x64x64_S_d0_1_2_3 : S2x1024x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x1024x64x64 .f32) (main_arg1 : FVec F S64x128 .f32) : IVec S_ 1 :=
  let main_v0 : FVec F S2x1024x64x64 .f32 := Host.absf main_arg0
  let main_cst : FVec F S_ .f32 := constant S_ .f32 0x7F800000#32
  let main_v1 : FVec F S2x1024x64x64 .f32 := broadcastInDim S2x1024x64x64 ![] bcast_S_S2x1024x64x64 main_cst
  let main_v2 : IVec S2x1024x64x64 1 := cmpf .olt main_v0 main_v1
  let main_c : IVec S_ 1 := constantI S_ 1 1#1
  let main_v3 : IVec S_ 1 := (fun x v => Host.reduce IntOp.andi x v reducesTo_S2x1024x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S16x2x2x64 : Shape := ⟨4, ![16, 2, 2, 64]⟩
abbrev S16 : Shape := ⟨1, ![16]⟩
abbrev S_ : Shape := ⟨0, ![]⟩
abbrev S2x4096x64 : Shape := ⟨3, ![2, 4096, 64]⟩
abbrev S2x64 : Shape := ⟨2, ![2, 64]⟩
abbrev S1x1x2x64 : Shape := ⟨4, ![1, 1, 2, 64]⟩
abbrev S1 : Shape := ⟨1, ![1]⟩
abbrev S1x2x2x64 : Shape := ⟨4, ![1, 2, 2, 64]⟩
abbrev S2x2x64 : Shape := ⟨3, ![2, 2, 64]⟩
abbrev S16x1x2x64 : Shape := ⟨4, ![16, 1, 2, 64]⟩
abbrev S16x2x64 : Shape := ⟨3, ![16, 2, 64]⟩
abbrev S2x1x1x64 : Shape := ⟨4, ![2, 1, 1, 64]⟩
abbrev S8192x64 : Shape := ⟨2, ![8192, 64]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .f32⟩
  | .local _ .vmem, ⟨0, _⟩ => ⟨S2x64x64x64, .f32⟩
  | .local _ .vmem, ⟨1, _⟩ => ⟨S64x128, .f32⟩
  | .local _ .vmem, ⟨2, _⟩ => ⟨S2x64x64x128, .f32⟩
  | .local _ .vmem, ⟨3, _⟩ => ⟨S16x2x2x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  { ofTc nBuf bufTy 1 35 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_72 : BitVec 32 := 1#32
  let v76 : BitVec 32 := Scalar.addi v2 c1_i32_72
  let c16_i32_73 : BitVec 32 := 16#32
  let v77 : BitVec 32 := Scalar.remsi v76 c16_i32_73
  let c1_i32_78 : BitVec 32 := 1#32
  let v78 : BitVec 32 := Scalar.muli v77 c1_i32_78
  let v79 : BitVec 32 := Scalar.addi c0_i32_79 v78
  v79.toNat
def k0_dev17 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_86 : BitVec 32 := 2#32
  let v88 : BitVec 32 := Scalar.addi v2 c2_i32_86
  let c16_i32_87 : BitVec 32 := 16#32
  let v89 : BitVec 32 := Scalar.remsi v88 c16_i32_87
  let c1_i32_92 : BitVec 32 := 1#32
  let v90 : BitVec 32 := Scalar.muli v89 c1_i32_92
  let v91 : BitVec 32 := Scalar.addi c0_i32_93 v90
  v91.toNat
def k0_dev18 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_100 : BitVec 32 := 3#32
  let v100 : BitVec 32 := Scalar.addi v2 c3_i32_100
  let c16_i32_101 : BitVec 32 := 16#32
  let v101 : BitVec 32 := Scalar.remsi v100 c16_i32_101
  let c1_i32_106 : BitVec 32 := 1#32
  let v102 : BitVec 32 := Scalar.muli v101 c1_i32_106
  let v103 : BitVec 32 := Scalar.addi c0_i32_107 v102
  v103.toNat
def k0_dev19 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v112 : BitVec 32 := Scalar.addi v2 c4_i32_114
  let c16_i32_115 : BitVec 32 := 16#32
  let v113 : BitVec 32 := Scalar.remsi v112 c16_i32_115
  let c1_i32_120 : BitVec 32 := 1#32
  let v114 : BitVec 32 := Scalar.muli v113 c1_i32_120
  let v115 : BitVec 32 := Scalar.addi c0_i32_121 v114
  v115.toNat
def k0_dev20 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v124 : BitVec 32 := Scalar.addi v2 c5_i32_128
  let c16_i32_129 : BitVec 32 := 16#32
  let v125 : BitVec 32 := Scalar.remsi v124 c16_i32_129
  let c1_i32_134 : BitVec 32 := 1#32
  let v126 : BitVec 32 := Scalar.muli v125 c1_i32_134
  let v127 : BitVec 32 := Scalar.addi c0_i32_135 v126
  v127.toNat
def k0_dev21 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_142 : BitVec 32 := 6#32
  let v136 : BitVec 32 := Scalar.addi v2 c6_i32_142
  let c16_i32_143 : BitVec 32 := 16#32
  let v137 : BitVec 32 := Scalar.remsi v136 c16_i32_143
  let c1_i32_148 : BitVec 32 := 1#32
  let v138 : BitVec 32 := Scalar.muli v137 c1_i32_148
  let v139 : BitVec 32 := Scalar.addi c0_i32_149 v138
  v139.toNat
def k0_dev22 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_156 : BitVec 32 := 7#32
  let v148 : BitVec 32 := Scalar.addi v2 c7_i32_156
  let c16_i32_157 : BitVec 32 := 16#32
  let v149 : BitVec 32 := Scalar.remsi v148 c16_i32_157
  let c1_i32_162 : BitVec 32 := 1#32
  let v150 : BitVec 32 := Scalar.muli v149 c1_i32_162
  let v151 : BitVec 32 := Scalar.addi c0_i32_163 v150
  v151.toNat
def k0_dev23 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_170 : BitVec 32 := 8#32
  let v160 : BitVec 32 := Scalar.addi v2 c8_i32_170
  let c16_i32_171 : BitVec 32 := 16#32
  let v161 : BitVec 32 := Scalar.remsi v160 c16_i32_171
  let c1_i32_176 : BitVec 32 := 1#32
  let v162 : BitVec 32 := Scalar.muli v161 c1_i32_176
  let v163 : BitVec 32 := Scalar.addi c0_i32_177 v162
  v163.toNat
def k0_dev24 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_184 : BitVec 32 := 9#32
  let v172 : BitVec 32 := Scalar.addi v2 c9_i32_184
  let c16_i32_185 : BitVec 32 := 16#32
  let v173 : BitVec 32 := Scalar.remsi v172 c16_i32_185
  let c1_i32_190 : BitVec 32 := 1#32
  let v174 : BitVec 32 := Scalar.muli v173 c1_i32_190
  let v175 : BitVec 32 := Scalar.addi c0_i32_191 v174
  v175.toNat
def k0_dev25 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_198 : BitVec 32 := 10#32
  let v184 : BitVec 32 := Scalar.addi v2 c10_i32_198
  let c16_i32_199 : BitVec 32 := 16#32
  let v185 : BitVec 32 := Scalar.remsi v184 c16_i32_199
  let c1_i32_204 : BitVec 32 := 1#32
  let v186 : BitVec 32 := Scalar.muli v185 c1_i32_204
  let v187 : BitVec 32 := Scalar.addi c0_i32_205 v186
  v187.toNat
def k0_dev26 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_212 : BitVec 32 := 11#32
  let v196 : BitVec 32 := Scalar.addi v2 c11_i32_212
  let c16_i32_213 : BitVec 32 := 16#32
  let v197 : BitVec 32 := Scalar.remsi v196 c16_i32_213
  let c1_i32_218 : BitVec 32 := 1#32
  let v198 : BitVec 32 := Scalar.muli v197 c1_i32_218
  let v199 : BitVec 32 := Scalar.addi c0_i32_219 v198
  v199.toNat
def k0_dev27 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_226 : BitVec 32 := 12#32
  let v208 : BitVec 32 := Scalar.addi v2 c12_i32_226
  let c16_i32_227 : BitVec 32 := 16#32
  let v209 : BitVec 32 := Scalar.remsi v208 c16_i32_227
  let c1_i32_232 : BitVec 32 := 1#32
  let v210 : BitVec 32 := Scalar.muli v209 c1_i32_232
  let v211 : BitVec 32 := Scalar.addi c0_i32_233 v210
  v211.toNat
def k0_dev28 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_240 : BitVec 32 := 13#32
  let v220 : BitVec 32 := Scalar.addi v2 c13_i32_240
  let c16_i32_241 : BitVec 32 := 16#32
  let v221 : BitVec 32 := Scalar.remsi v220 c16_i32_241
  let c1_i32_246 : BitVec 32 := 1#32
  let v222 : BitVec 32 := Scalar.muli v221 c1_i32_246
  let v223 : BitVec 32 := Scalar.addi c0_i32_247 v222
  v223.toNat
def k0_dev29 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_254 : BitVec 32 := 14#32
  let v232 : BitVec 32 := Scalar.addi v2 c14_i32_254
  let c16_i32_255 : BitVec 32 := 16#32
  let v233 : BitVec 32 := Scalar.remsi v232 c16_i32_255
  let c1_i32_260 : BitVec 32 := 1#32
  let v234 : BitVec 32 := Scalar.muli v233 c1_i32_260
  let v235 : BitVec 32 := Scalar.addi c0_i32_261 v234
  v235.toNat
def k0_dev30 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_268 : BitVec 32 := 15#32
  let v244 : BitVec 32 := Scalar.addi v2 c15_i32_268
  let c16_i32_269 : BitVec 32 := 16#32
  let v245 : BitVec 32 := Scalar.remsi v244 c16_i32_269
  let c1_i32_274 : BitVec 32 := 1#32
  let v246 : BitVec 32 := Scalar.muli v245 c1_i32_274
  let v247 : BitVec 32 := Scalar.addi c0_i32_275 v246
  v247.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2x64x64x64_S2x64x64x64_0_0_0_0 : ∀ a, (![0, 0, 0, 0] : Fin 4 → Nat) a + S2x64x64x64.size a ≤ S2x64x64x64.size a
  h_S2x64x64x64 : 0 < S2x64x64x64.numel
  shapeCasts_S2x64x64x64_S2x64x64x64 : S2x64x64x64.ShapeCasts S2x64x64x64
  shapeCasts_S2x64x64x64_S2x4096x64 : S2x64x64x64.ShapeCasts S2x4096x64
  reduces_S2x4096x64_S2x64 : S2x4096x64.Reduces [1] S2x64
  inb_S16x2x2x64_S1x1x2x64_0_0_0_0 : ∀ a, (![0, 0, 0, 0] : Fin 4 → Nat) a + S1x1x2x64.size a ≤ S16x2x2x64.size a
  h_S1x1x2x64 : 0 < S1x1x2x64.numel
  shapeCasts_S1x1x2x64_S2x64 : S1x1x2x64.ShapeCasts S2x64
  shapeCasts_S2x64_S1x1x2x64 : S2x64.ShapeCasts S1x1x2x64
  inb_S16x2x2x64_S1x1x2x64_0_1_0_0 : ∀ a, (![0, 1, 0, 0] : Fin 4 → Nat) a + S1x1x2x64.size a ≤ S16x2x2x64.size a
  hamt_15 : (15#32 : BitVec 32).msb = false
  inb_S16_S1_1 : ∀ a, (![1] : Fin 1 → Nat) a + S1.size a ≤ S16.size a
  squeezes_S1_S_ : S1.Squeezes S_
  inb_S16x2x2x64_S1x2x2x64_1_0_0_0 : ∀ a, (![1, 0, 0, 0] : Fin 4 → Nat) a + S1x2x2x64.size a ≤ S16x2x2x64.size a
  squeezes_S1x2x2x64_S2x2x64 : S1x2x2x64.Squeezes S2x2x64
  inb_S16x2x2x64_S1x2x2x64_0_0_0_0 : ∀ a, (![0, 0, 0, 0] : Fin 4 → Nat) a + S1x2x2x64.size a ≤ S16x2x2x64.size a
  inb_S16_S1_2 : ∀ a, (![2] : Fin 1 → Nat) a + S1.size a ≤ S16.size a
  inb_S16x2x2x64_S1x2x2x64_2_0_0_0 : ∀ a, (![2, 0, 0, 0] : Fin 4 → Nat) a + S1x2x2x64.size a ≤ S16x2x2x64.size a
  inb_S16_S1_3 : ∀ a, (![3] : Fin 1 → Nat) a + S1.size a ≤ S16.size a
  inb_S16x2x2x64_S1x2x2x64_3_0_0_0 : ∀ a, (![3, 0, 0, 0] : Fin 4 → Nat) a + S1x2x2x64.size a ≤ S16x2x2x64.size a
  inb_S16_S1_4 : ∀ a, (![4] : Fin 1 → Nat) a + S1.size a ≤ S16.size a
  inb_S16x2x2x64_S1x2x2x64_4_0_0_0 : ∀ a, (![4, 0, 0, 0] : Fin 4 → Nat) a + S1x2x2x64.size a ≤ S16x2x2x64.size a
  inb_S16_S1_5 : ∀ a, (![5] : Fin 1 → Nat) a + S1.size a ≤ S16.size a
  inb_S16x2x2x64_S1x2x2x64_5_0_0_0 : ∀ a, (![5, 0, 0, 0] : Fin 4 → Nat) a + S1x2x2x64.size a ≤ S16x2x2x64.size a
  inb_S16_S1_6 : ∀ a, (![6] : Fin 1 → Nat) a + S1.size a ≤ S16.size a
  inb_S16x2x2x64_S1x2x2x64_6_0_0_0 : ∀ a, (![6, 0, 0, 0] : Fin 4 → Nat) a + S1x2x2x64.size a ≤ S16x2x2x64.size a
  inb_S16_S1_7 : ∀ a, (![7] : Fin 1 → Nat) a + S1.size a ≤ S16.size a
  inb_S16x2x2x64_S1x2x2x64_7_0_0_0 : ∀ a, (![7, 0, 0, 0] : Fin 4 → Nat) a + S1x2x2x64.size a ≤ S16x2x2x64.size a
  inb_S16_S1_8 : ∀ a, (![8] : Fin 1 → Nat) a + S1.size a ≤ S16.size a
  inb_S16x2x2x64_S1x2x2x64_8_0_0_0 : ∀ a, (![8, 0, 0, 0] : Fin 4 → Nat) a + S1x2x2x64.size a ≤ S16x2x2x64.size a
  inb_S16_S1_9 : ∀ a, (![9] : Fin 1 → Nat) a + S1.size a ≤ S16.size a
  inb_S16x2x2x64_S1x2x2x64_9_0_0_0 : ∀ a, (![9, 0, 0, 0] : Fin 4 → Nat) a + S1x2x2x64.size a ≤ S16x2x2x64.size a
  inb_S16_S1_10 : ∀ a, (![10] : Fin 1 → Nat) a + S1.size a ≤ S16.size a
  inb_S16x2x2x64_S1x2x2x64_10_0_0_0 : ∀ a, (![10, 0, 0, 0] : Fin 4 → Nat) a + S1x2x2x64.size a ≤ S16x2x2x64.size a
  inb_S16_S1_11 : ∀ a, (![11] : Fin 1 → Nat) a + S1.size a ≤ S16.size a
  inb_S16x2x2x64_S1x2x2x64_11_0_0_0 : ∀ a, (![11, 0, 0, 0] : Fin 4 → Nat) a + S1x2x2x64.size a ≤ S16x2x2x64.size a
  inb_S16_S1_12 : ∀ a, (![12] : Fin 1 → Nat) a + S1.size a ≤ S16.size a
  inb_S16x2x2x64_S1x2x2x64_12_0_0_0 : ∀ a, (![12, 0, 0, 0] : Fin 4 → Nat) a + S1x2x2x64.size a ≤ S16x2x2x64.size a
  inb_S16_S1_13 : ∀ a, (![13] : Fin 1 → Nat) a + S1.size a ≤ S16.size a
  inb_S16x2x2x64_S1x2x2x64_13_0_0_0 : ∀ a, (![13, 0, 0, 0] : Fin 4 → Nat) a + S1x2x2x64.size a ≤ S16x2x2x64.size a
  inb_S16_S1_14 : ∀ a, (![14] : Fin 1 → Nat) a + S1.size a ≤ S16.size a
  inb_S16x2x2x64_S1x2x2x64_14_0_0_0 : ∀ a, (![14, 0, 0, 0] : Fin 4 → Nat) a + S1x2x2x64.size a ≤ S16x2x2x64.size a
  inb_S16_S1_15 : ∀ a, (![15] : Fin 1 → Nat) a + S1.size a ≤ S16.size a
  inb_S16x2x2x64_S1x2x2x64_15_0_0_0 : ∀ a, (![15, 0, 0, 0] : Fin 4 → Nat) a + S1x2x2x64.size a ≤ S16x2x2x64.size a
  inb_S16x2x2x64_S16x2x2x64_0_0_0_0 : ∀ a, (![0, 0, 0, 0] : Fin 4 → Nat) a + S16x2x2x64.size a ≤ S16x2x2x64.size a
  h_S16x2x2x64 : 0 < S16x2x2x64.numel
  slices_S16x2x2x64_o0_0_0_0_S16x1x2x64 : S16x2x2x64.Slices ![0, 0, 0, 0] S16x1x2x64
  shapeCasts_S16x1x2x64_S16x2x64 : S16x1x2x64.ShapeCasts S16x2x64
  reduces_S16x2x64_S2x64 : S16x2x64.Reduces [0] S2x64
  slices_S16x2x2x64_o0_1_0_0_S16x1x2x64 : S16x2x2x64.Slices ![0, 1, 0, 0] S16x1x2x64
  shapeCasts_S2x64_S2x1x1x64 : S2x64.ShapeCasts S2x1x1x64
  broadcasts_S2x1x1x64_S2x64x64x64 : S2x1x1x64.Broadcasts S2x64x64x64
  shapeCasts_S2x64x64x64_S8192x64 : S2x64x64x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S8192x128_S2x64x64x128 : S8192x128.ShapeCasts S2x64x64x128
  inb_S2x64x64x128_S2x64x64x128_0_0_0_0 : ∀ a, (![0, 0, 0, 0] : Fin 4 → Nat) a + S2x64x64x128.size a ≤ S2x64x64x128.size a
  h_S2x64x64x128 : 0 < S2x64x64x128.numel
  dot_S8192x64_S64x128_S8192x128_1_0_0_1_n_n_wf : DotDims.WF S8192x64 S64x128 S8192x128 [1] [0] [0] [1] [] []
  hcc0_scratch1 : 3 + S16.numel ≤ 35
  hcc0_scratch2 : 19 + S16.numel ≤ 35
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S16 := SemArray.consecutive 3 S16 hcc0_scratch1
abbrev cc0_scratch2 : DmaSems sig S16 := SemArray.consecutive 19 S16 hcc0_scratch2
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x64x64 : Shape := ⟨4, ![2, 1024, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S131072x64 : Shape := ⟨2, ![131072, 64]⟩
abbrev S131072x128 : Shape := ⟨2, ![131072, 128]⟩
abbrev S2x1024x64x128 : Shape := ⟨4, ![2, 1024, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x1024x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x1024x64x64, .f32⟩
  | .hbm, ⟨16, _⟩ => ⟨S2x1024x64x64, .f32⟩
  | .hbm, ⟨17, _⟩ => ⟨S2x1024x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x1024x64x64, .f32⟩
  | .hbm, ⟨33, _⟩ => ⟨S2x1024x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x1024x64x64, .f32⟩
  | .hbm, ⟨39, _⟩ => ⟨S2x1024x64x64, .f32⟩
  | .hbm, ⟨40, _⟩ => ⟨S2x1024x64x64, .f32⟩
  | .hbm, ⟨41, _⟩ => ⟨S2x1024x64x64, .f32⟩
  | .hbm, ⟨42, _⟩ => ⟨S_, .f32⟩
  | .hbm, ⟨43, _⟩ => ⟨S2x1024x64x64, .f32⟩
  | .hbm, ⟨44, _⟩ => ⟨S2x1024x64x64, .f32⟩
  | .hbm, ⟨45, _⟩ => ⟨S2x1024x64x64, .f32⟩
  | .hbm, ⟨46, _⟩ => ⟨S131072x64, .f32⟩
  | .hbm, ⟨47, _⟩ => ⟨S131072x128, .f32⟩
  | .hbm, ⟨48, _⟩ => ⟨S2x1024x64x128, .f32⟩
  | _, _ => ⟨S2x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  reducesTo_S2x1024x64x64_S2x64_d1_2 : S2x1024x64x64.ReducesTo [1, 2] S2x64
  h_S_ : 0 < S_.numel
  bcast_S2x64_S2x1x1x64_0_3 : S2x64.BroadcastsInDim S2x1x1x64 (![0, 3] : Fin 2 → Fin S2x1x1x64.rank)
  bcast_S_S2x1x1x64 : S_.BroadcastsInDim S2x1x1x64 (![] : Fin 0 → Fin S2x1x1x64.rank)
  bcast_S2x1x1x64_S2x1024x64x64_0_1_2_3 : S2x1x1x64.BroadcastsInDim S2x1024x64x64 (![0, 1, 2, 3] : Fin 4 → Fin S2x1024x64x64.rank)
  bcast_S_S2x1024x64x64 : S_.BroadcastsInDim S2x1024x64x64 (![] : Fin 0 → Fin S2x1024x64x64.rank)
  shapeCasts_S2x1024x64x64_S131072x64 : S2x1024x64x64.ShapeCasts S131072x64
  shapeCasts_S131072x128_S2x1024x64x128 : S131072x128.ShapeCasts S2x1024x64x128
  dot_S131072x64_S64x128_S131072x128_1_0_0_1_n_n_wf : DotDims.WF S131072x64 S64x128 S131072x128 [1] [0] [0] [1] [] []

variable [Facts₀]

def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf

class Facts : Prop extends Facts₀ where

variable [Facts]
-- ==== Proof.KernelIdealRun.Proto.lean ====
/-
  The exchange of partial sums between the 16 devices, written down as a schedule of rounds.

  Device c adds up its own block (a sum and a sum of squares per batch entry and channel: 2 × 2 × 64
  numbers) into slot 0 of a table of 16 slots, and sends slot 0 to slot k of the device k places ahead
  of it on the ring, for k = 1 … 15; so slot k of device c ends holding the sums of the device k places
  behind c.  Before sending, a device tells every other device that it has entered (one unit on the
  other's entry counter) and waits until all 15 others have told it.  The unit a device d sends to the
  device j places ahead of it carries the right to write slot 16 - j of d's table: that is the slot the
  receiver's own copy to d lands in.

  Cells: per device one entry counter (15 duties of one unit, duty j paid by the device j places
  behind), and for k = 1 … 15 a departure counter (one duty: the copy has been read out of slot 0) and
  an arrival counter (one duty: slot k has been written, and holds the sender's sums).
-/
import proofs.«900424_g7700000000000425_dist_diff_noisepred_hshard_i_b2_h64_w64_c64_v7x_i16_f32_1_alg».proof.Proof.Gen.KernelIdeal
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.Gen.KernelIdeal.Launch
import proofs.«900424_g7700000000000425_dist_diff_noisepred_hshard_i_b2_h64_w64_c64_v7x_i16_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds' (duties named by a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the program starts from: the given memory, every counter at zero. -/
def s₀ : MemSt nD τ sig (Elt F) := ⟨m, fun _ => 0, ρ⟩

/-! ## The ring of 16 -/

/-- The device `k` places ahead of `c`. -/
def fwd (c : Dev nD) (k : Fin 16) : Dev nD := ⟨(c.val + k.val) % 16, Nat.mod_lt _ (by decide)⟩
/-- The device `k` places behind `c`. -/
def bwd (c : Dev nD) (k : Fin 16) : Dev nD := ⟨(c.val + 16 - k.val) % 16, Nat.mod_lt _ (by decide)⟩
/-- The offset that undoes `k`. -/
def opp (k : Fin 16) : Fin 16 := ⟨(16 - k.val) % 16, Nat.mod_lt _ (by decide)⟩

theorem bwd_fwd (c : Dev nD) (k : Fin 16) : bwd (fwd c k) k = c := by revert c k; decide
theorem fwd_bwd (c : Dev nD) (k : Fin 16) : fwd (bwd c k) k = c := by revert c k; decide
theorem fwd_opp (c : Dev nD) (k : Fin 16) : fwd c (opp k) = bwd c k := by revert c k; decide
theorem bwd_opp (c : Dev nD) (k : Fin 16) : bwd c (opp k) = fwd c k := by revert c k; decide
theorem opp_opp (k : Fin 16) : opp (opp k) = k := by revert k; decide
theorem opp_ne_zero {k : Fin 16} (h : k ≠ 0) : opp k ≠ 0 := by revert k; decide
theorem fwd_zero (c : Dev nD) : fwd c 0 = c := by revert c; decide
theorem bwd_zero (c : Dev nD) : bwd c 0 = c := by revert c; decide
theorem fwd_ne {c : Dev nD} {k : Fin 16} (h : k ≠ 0) : fwd c k ≠ c := by revert c k; decide
theorem fwd_inj_left (k : Fin 16) {a b : Dev nD} (h : fwd a k = fwd b k) : a = b := by revert a b k; decide
theorem fwd_inj_right (c : Dev nD) {j k : Fin 16} (h : fwd c j = fwd c k) : j = k := by revert c j k; decide

/-! ## The table of partial sums, its slots, and the counters -/

/-- The table: 16 slots of 2 × 2 × 64. -/
abbrev scr : Memref sig .tc .vmem S16x2x2x64 .f32 := Memref.whole cc0_scratch0

theorem slot_inb (k : Fin 16) : ∀ a, (![k.val, 0, 0, 0] : Fin 4 → Nat) a + S1x2x2x64.size a ≤ S16x2x2x64.size a := by
  revert k; decide

/-- Slot `k` of the table. -/
abbrev slotM (k : Fin 16) : Memref sig .tc .vmem S2x2x64 .f32 :=
  ((scr.slice (Rect.unit (s := S16x2x2x64) ![k.val, 0, 0, 0] S1x2x2x64.size (slot_inb k)) (fun _ => rfl) :
    Memref sig .tc .vmem S1x2x2x64 .f32)).squeeze S2x2x64 squeezes_S1x2x2x64_S2x2x64

theorem sem_inb (k : Fin 16) : ∀ a, (![k.val] : Fin 1 → Nat) a + S1.size a ≤ S16.size a := by revert k; decide

/-- The departure counter of copy `k`. -/
abbrev sendS (k : Fin 16) : DmaSem sig :=
  ((cc0_scratch1.slice (Rect.unit (s := S16) ![k.val] S1.size (sem_inb k))).squeeze S_ squeezes_S1_S_).sem
/-- The arrival counter of slot `k`. -/
abbrev recvS (k : Fin 16) : DmaSem sig :=
  ((cc0_scratch2.slice (Rect.unit (s := S16) ![k.val] S1.size (sem_inb k))).squeeze S_ squeezes_S1_S_).sem
/-- The entry counter. -/
abbrev barS : Sem sig := (SemArray.scalar (sig.barrier 0 rfl) : Sems sig S_).sem

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- The units one copy of a slot credits. -/
abbrev N : ℕ := (slotM 1 : Memref sig .tc .vmem S2x2x64 .f32).view.dmaCredit

/-! ## Contents -/

/-- Device `c`'s block of the input, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s copy of the matrix, as staged for the body. -/
def wstg (c : Dev nD) : (cc0_stg1_0 : Ref sig .tc).ty.Contents (Elt F) :=
  (win0_1.blk (0 : Fin 1)).view.read (Elt F) ((s₀ m ρ).mem ((c : Thread nD τ).loc main_arg1))

/-- What device `c`'s table ends holding: in slot `k`, row 0 the sums and row 1 the sums of squares of the
    block of the device `k` places behind `c`. -/
def gathered (c : Dev nD) : (cc0_scratch0 : Ref sig .tc).ty.Contents (Elt F) := fun i =>
  if (i 1).val = 0 then
    k0_pay3 (xstg m ρ (bwd c ⟨(i 0).val, (i 0).isLt⟩)) (ValueIdx.ix4 (0 : Fin 1) (0 : Fin 1) (⟨(i 2).val, (i 2).isLt⟩ : Fin 2) (⟨(i 3).val, (i 3).isLt⟩ : Fin 64))
  else
    k0_pay5 (k0_pay4 (xstg m ρ (bwd c ⟨(i 0).val, (i 0).isLt⟩))) (ValueIdx.ix4 (0 : Fin 1) (0 : Fin 1) (⟨(i 2).val, (i 2).isLt⟩ : Fin 2) (⟨(i 3).val, (i 3).isLt⟩ : Fin 64))

/-- The kernel's result on device `c`. -/
def outAt (c : Dev nD) : (cc0_stg2_0 : Ref sig .tc).ty.Contents (Elt F) :=
  k0_pay6 (k0_pay1 (xstg m ρ c)) (gathered m ρ c) (wstg m ρ c)

/-- Slot `k` of device `c`'s table held at share `q` with the table's contents `f` (only `f`'s values in the slot matter). -/
def slotPts (c : Dev nD) (k : Fin 16) (q : PosShare TreeShare)
    (f : Buf (Elt F) ((slotM k : Memref sig .tc .vmem S2x2x64 .f32).view.loc (c : Thread nD τ))) : sProp 𝕄 :=
  (slotM k : Memref sig .tc .vmem S2x2x64 .f32).view.loc (c : Thread nD τ) ↦[(slotM k : Memref sig .tc .vmem S2x2x64 .f32).view.set]{q} f

omit [FloatOps F] in
instance slotPts_storable (c : Dev nD) (k : Fin 16) (q) (f) : BI.Storable (upEmb : UEmb _ 𝕄) (slotPts (F := F) c k q f) := by
  unfold slotPts; infer_instance

/-! ## The schedule -/

/-- What the device `j` places behind `g` hands `g` with its entry unit: slot `16 - j` of its own table (where `g`'s
    copy to it lands) and that it has reached round 0 of that slot's arrival counter. -/
def barPay (g : Dev nD) (j : Fin 16) : sProp 𝕄 :=
  iprop((∃ f, slotPts (bwd g j) (opp j) fullShare f) ∗ reached ER (recvCell (bwd g j) (opp j)) 0)
/-- An arrival hands the owner slot `k` holding the sender's sums. -/
def recvPay (c : Dev nD) (k : Fin 16) : sProp 𝕄 := slotPts c k fullShare (gathered m ρ c)
/-- A departure hands back the share of slot 0 the copy read through. -/
def sendPay (c : Dev nD) (k : Fin 16) : sProp 𝕄 := slotPts c 0 (Transfers.shareTok fullShare 16 k) (gathered m ρ c)

/-- Which copy a departure counter belongs to, if any. -/
def sendIdx (s : SemLoc sig) : Option (Fin 16) := (List.finRange 16).find? fun k => decide (k ≠ 0 ∧ s = .dma (sendS k))
/-- Which slot an arrival counter belongs to, if any. -/
def recvIdx (s : SemLoc sig) : Option (Fin 16) := (List.finRange 16).find? fun k => decide (k ≠ 0 ∧ s = .dma (recvS k))

theorem sendIdx_send {k : Fin 16} (h : k ≠ 0) : sendIdx (.dma (sendS k)) = some k := by revert k; decide
theorem recvIdx_recv {k : Fin 16} (h : k ≠ 0) : recvIdx (.dma (recvS k)) = some k := by revert k; decide
theorem recvIdx_send (k : Fin 16) : recvIdx (.dma (sendS k)) = none := by revert k; decide
theorem sendIdx_recv (k : Fin 16) : sendIdx (.dma (recvS k)) = none := by revert k; decide
theorem sendIdx_bar : sendIdx (.reg barS) = none := by decide
theorem recvIdx_bar : recvIdx (.reg barS) = none := by decide

abbrev IsBar (g : GSem nD τ sig) : Prop := g.1.2 = .tc ∧ g.2 = .reg barS
abbrev IsXfer (g : GSem nD τ sig) : Prop := g.1.2 = .tc ∧ ((sendIdx g.2).isSome ∨ (recvIdx g.2).isSome)

/-- One round, round 0: an entry counter has the 15 duties 1 … 15 of one unit each; a departure or arrival counter
    the one duty 0 of a slot's credit. -/
def ringRd : Rounds.Schedule (GSem nD τ sig) (Fin 16) 𝕄 where
  duties g r := if r = 0 ∧ IsBar g then Finset.univ.erase 0 else if r = 0 ∧ IsXfer g then {0} else ∅
  unitless _ := False
  amount g _ _ := if g.2 = .reg barS then 1 else N
  payload g _ d :=
    if g.2 = .reg barS then barPay g.1.1 d
    else match recvIdx g.2 with
      | some k => recvPay m ρ g.1.1 k
      | none => match sendIdx g.2 with
        | some k => sendPay m ρ g.1.1 k
        | none => iprop(emp)
  amount_pos g _ _ _ := by
    by_cases h : g.2 = .reg barS
    · rw [if_pos h]; exact Nat.one_pos
    · rw [if_neg h]; exact View.dmaCredit_pos _ (by decide)

instance ringRd_payload_storable (g : GSem nD τ sig) (r : ℕ) (d : Fin 16) :
    BI.Storable (upEmb : UEmb _ 𝕄) ((ringRd (F := F) m ρ).payload g r d) := by
  show BI.Storable upEmb (if g.2 = .reg barS then barPay g.1.1 d
    else match recvIdx g.2 with
      | some k => recvPay m ρ g.1.1 k
      | none => match sendIdx g.2 with
        | some k => sendPay m ρ g.1.1 k
        | none => iprop(emp))
  unfold barPay recvPay sendPay
  (repeat' split) <;> infer_instance

end Cert.KernelIdealRun

end
-- ==== Proof.KernelIdealRun.Ghost.lean ====
/-
  What each device holds at the start of the exchange and what it must give back at the end: the counters'
  records, the tokens of the duties it pays (one entry unit and one arrival per other device, one departure
  per copy), the units it owes, the order in which counters may be waited on (entry counters before
  arrival counters), and the three staged arrays with the table of partial sums.
-/
import proofs.«900424_g7700000000000425_dist_diff_noisepred_hshard_i_b2_h64_w64_c64_v7x_i16_f32_1_alg».proof.Proof.KernelIdealRun.Proto

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters, listed per device: the entry counter, then 16 departure and 16 arrival counters -/

/-- The 33 counters of a device: 0 the entry counter, 1 + k the departure counter of copy k, 17 + k the arrival
    counter of slot k (copy 0 and slot 0 are never used: their counters stay at zero). -/
abbrev csem (j : Fin 33) : SemLoc sig :=
  if j.val = 0 then .reg barS
  else if h : j.val < 17 then .dma (sendS ⟨j.val - 1, by omega⟩)
  else .dma (recvS ⟨j.val - 17, by have := j.isLt; omega⟩)
abbrev kcell (cj : Dev nD × Fin 33) : GSem nD τ sig := ((cj.1 : Thread nD τ), csem cj.2)
/-- The departure counter's place in the list. -/
abbrev jS (k : Fin 16) : Fin 33 := ⟨1 + k.val, by have := k.isLt; omega⟩
/-- The arrival counter's place in the list. -/
abbrev jR (k : Fin 16) : Fin 33 := ⟨17 + k.val, by have := k.isLt; omega⟩

omit [FloatOps F] in
theorem kcell_bar (c : Dev nD) : kcell (c, 0) = barCell c := rfl
omit [FloatOps F] in
theorem csem_jS (k : Fin 16) : csem (jS k) = .dma (sendS k) := by revert k; decide
omit [FloatOps F] in
theorem csem_jR (k : Fin 16) : csem (jR k) = .dma (recvS k) := by revert k; decide
omit [FloatOps F] in
theorem kcell_send (c : Dev nD) (k : Fin 16) : kcell (c, jS k) = sendCell c k := congrArg (Prod.mk _) (csem_jS k)
omit [FloatOps F] in
theorem kcell_recv (c : Dev nD) (k : Fin 16) : kcell (c, jR k) = recvCell c k := congrArg (Prod.mk _) (csem_jR k)

/-- The kernel's own (scoped) counters, as the launch lists them: 16 departure then 16 arrival counters. -/
abbrev osem (i : Fin 32) : SemLoc sig :=
  if h : i.val < 16 then .dma (sendS ⟨i.val, h⟩) else .dma (recvS ⟨i.val - 16, by have := i.isLt; omega⟩)

/-- The offsets 1 … 15. -/
abbrev others : Finset (Fin 16) := Finset.univ.erase 0

/-! ## What each device owes at launch; the levels -/

/-- The entry units still owed to the devices at the offsets `S`, and the arrivals still owed at the offsets `T`. -/
def owedFrom (c : Dev nD) (S T : Finset (Fin 16)) : CellTallies nD τ sig Unit :=
  (∑ k ∈ T, tallyAt (recvCell (fwd c k) k) () N) + ∑ k ∈ S, tallyAt (barCell (fwd c k)) () 1

/-- At launch: one entry unit and one arrival to each of the 15 others. -/
def O₀ (c : Dev nD) : CellTallies nD τ sig Unit := owedFrom c others others

def L (g : GSem nD τ sig) : Finset Unit := if g.1.2 = .tc then {()} else ∅
/-- Entry counters at 1, arrival counters at 2, everything else (staging, departures) at 0. -/
def lv (g : GSem nD τ sig) (_ : Unit) : ℕ := if g.2 = .reg barS then 1 else if (recvIdx g.2).isSome then 2 else 0

/-! ## The ghost state -/

/-- Every counter's record under the names `K`, and that each has reached round 0: known to every device. -/
def records (K : Dev nD × Fin 33 → ℕ) : sProp 𝕄 :=
  iprop((bigSep Finset.univ fun cj : Dev nD × Fin 33 => cellInv ER (ringRd m ρ) (K cj) (kcell cj))
    ∗ bigSep Finset.univ fun cj : Dev nD × Fin 33 => reached ER (kcell cj) 0)

instance records_persistent (K : Dev nD × Fin 33 → ℕ) : BI.Persistent (records m ρ K) := by unfold records; infer_instance

/-- The tokens of the duties device `c` pays: towards the device `k` places ahead its entry unit (duty `k` there) and
    the arrival in slot `k` there, and its own departure `k`. -/
def payToks (c : Dev nD) : sProp 𝕄 :=
  bigSep others fun k => iprop(dutyTok ER (barCell (fwd c k)) 0 k ∗ dutyTok ER (recvCell (fwd c k) k) 0 0 ∗ dutyTok ER (sendCell c k) 0 0)

/-- Device `c`'s positions at round 0 of its own counters, and the tokens it pays with. -/
def linear (c : Dev nD) : sProp 𝕄 :=
  iprop((bigSep Finset.univ fun j : Fin 33 => atPos ER (kcell (c, j)) 0 ∅ 0) ∗ payToks c)

def ghost (K : Dev nD × Fin 33 → ℕ) (c : Dev nD) : sProp 𝕄 := iprop(records m ρ K ∗ linear c)

/-- The units dealt to device `c` at launch: 15 on its entry counter, a slot's credit on each arrival counter. -/
def launchCreds (c : Dev nD) : sProp 𝕄 :=
  iprop(cred (tallyAt (barCell c) () 15) ∗ bigSep others fun k => cred (tallyAt (recvCell c k) () N))

/-- What device `c`'s body starts from. -/
def start (c : Dev nD) : sProp 𝕄 :=
  iprop((∃ K, ghost m ρ K c) ∗ launchCreds c ∗ levAts L lv)

/-- The table held whole. -/
def scrPts (c : Dev nD) (f : Buf (Elt F) ((scr : Memref sig .tc .vmem S16x2x2x64 .f32).view.loc (c : Thread nD τ))) : sProp 𝕄 :=
  (scr : Memref sig .tc .vmem S16x2x2x64 .f32).view.loc (c : Thread nD τ) ↦[(scr : Memref sig .tc .vmem S16x2x2x64 .f32).view.set]{fullShare} f

omit [FloatOps F] in
theorem scr_set : (scr : Memref sig .tc .vmem S16x2x2x64 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

def Φ₀ (c : Dev nD) : sProp 𝕄 := iprop(start m ρ c ∗ ∃ f, scrPts c f)
/-- After the body: the table whole again at the gathered sums, and the device's own counters closed at zero. -/
def Φ₁ (c : Dev nD) : sProp 𝕄 :=
  iprop(scrPts c (gathered m ρ c) ∗ bigSep Finset.univ fun i : Fin 32 => semVal ((c : Thread nD τ), osem i) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- A staged array held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition in the form the launch hands it over. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

end Cert.KernelIdealRun

end
-- ==== Proof.KernelIdealRun.LaunchCells.lean ====
/-
  The launch's book of counters and tokens: the 33 counters of every device listed without repetition, the
  tokens minted at launch (for every device and every offset 1 … 15: duty k of its entry counter, the one duty
  of its departure counter k and of its arrival counter k) listed without repetition, and the launch element
  made of the two lists.
-/
import proofs.«900424_g7700000000000425_dist_diff_noisepred_hshard_i_b2_h64_w64_c64_v7x_i16_f32_1_alg».proof.Proof.KernelIdealRun.Ghost

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters and the tokens, listed -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : ∀ j j' : Fin 33, csem j = csem j' → j = j' := by decide

omit [FloatOps F] in
theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]

def ringCells : Finset (GSem nD τ sig) := Finset.univ.map ⟨kcell, kcell_injective⟩

/-- The counter and the duty of a minted token: for the offset i + 1, duty i + 1 of the entry counter, duty 0 of
    departure counter i + 1, duty 0 of arrival counter i + 1. -/
abbrev tokSem (p : Fin 15 × Fin 3) : SemLoc sig × Fin 16 := match p.2 with
  | 0 => (.reg barS, p.1.succ) | 1 => (.dma (sendS p.1.succ), 0) | 2 => (.dma (recvS p.1.succ), 0)

omit [FloatOps F] in
theorem tokSem_injective : ∀ p q : Fin 15 × Fin 3, tokSem p = tokSem q → p = q := by decide

/-- A device's own counters' tokens as minted. -/
abbrev tokOf (cp : Dev nD × Fin 15 × Fin 3) : GSem nD τ sig × ℕ × Fin 16 :=
  (((cp.1 : Thread nD τ), (tokSem cp.2).1), 0, (tokSem cp.2).2)

omit [FloatOps F] in
theorem tokOf_injective : Function.Injective (tokOf : Dev nD × Fin 15 × Fin 3 → GSem nD τ sig × ℕ × Fin 16) := by
  rintro ⟨c, p⟩ ⟨c', q⟩ h
  have h1 : c = c' := by have := congrArg (fun x : GSem nD τ sig × ℕ × Fin 16 => x.1.1.1) h; exact this
  subst h1
  have h2 : tokSem p = tokSem q := Prod.ext (congrArg (fun x : GSem nD τ sig × ℕ × Fin 16 => x.1.2) h) (congrArg (fun x : GSem nD τ sig × ℕ × Fin 16 => x.2.2) h)
  rw [tokSem_injective p q h2]

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

omit [FloatOps F] in
theorem others_eq : others = Finset.univ.map (Fin.succEmb 15) := by decide

omit [FloatOps F] in
theorem bigSep_others (Φ : Fin 16 → sProp 𝕄) : bigSep others Φ = bigSep Finset.univ fun i : Fin 15 => Φ i.succ := by
  rw [others_eq, bigSep_map]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A double conjunction may be taken in either order. -/
theorem bigSep_swap {A B : Type} [DecidableEq B] (s : Finset A) (t : Finset B) (Φ : A → B → sProp 𝕄) :
    bigSep s (fun a => bigSep t (Φ a)) = bigSep t (fun b => bigSep s fun a => Φ a b) := by
  induction t using Finset.induction_on with
  | empty => simp only [bigSep_empty]; exact bigSep_emp_const s
  | insert b t hb ih =>
    rw [bigSep_insert hb, ← ih, ← bigSep_sep]
    exact bigSep_congr fun a _ => bigSep_insert hb

/-- The tokens of device `c`'s own counters. -/
def toks (c : Dev nD) : sProp 𝕄 :=
  bigSep others fun k => iprop(dutyTok ER (barCell c) 0 k ∗ dutyTok ER (sendCell c k) 0 0 ∗ dutyTok ER (recvCell c k) 0 0)

omit [FloatOps F] in
theorem ringToks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks; rw [bigSep_others, bigSep_univ_prod]
  exact bigSep_congr fun i _ => by rw [bigSep_fin3]; rfl

omit [FloatOps F] in
theorem ringCells_eq (Φ : GSem nD τ sig → sProp 𝕄) :
    bigSep ringCells Φ = bigSep Finset.univ fun c : Dev nD => bigSep Finset.univ fun j : Fin 33 => Φ (kcell (c, j)) := by
  unfold ringCells; rw [bigSep_map, bigSep_univ_prod]; rfl

/-- info: 'Cert.KernelIdealRun.ringToks_eq' depends on axioms: [propext, Classical.choice, Quot.sound] -/
#guard_msgs in #print axioms ringToks_eq

end Cert.KernelIdealRun

end
-- ==== Proof.KernelIdealRun.LaunchFund.lean ====
/-
  From the launch element to every device's starting ghost state.  The element yields, for each of the 33
  counters of each device, its round state at zero, its owner's position at round 0 and the mark that round 0
  is reached, and the minted tokens.  With every counter at zero (the kernel's own 32 and the entry counter)
  each counter's record is opened; then the tokens are dealt to the payers: the token of duty k of an entry
  counter and the token of arrival counter k go to the device k places behind the owner, a departure's token
  stays with its owner.
-/
import proofs.«900424_g7700000000000425_dist_diff_noisepred_hshard_i_b2_h64_w64_c64_v7x_i16_f32_1_alg».proof.Proof.KernelIdealRun.LaunchCells

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch element deals each device, and what the global step makes of it -/

/-- What the launch element deals device `c`. -/
def G (c : Dev nD) : sProp 𝕄 :=
  iprop((bigSep Finset.univ fun j : Fin 33 => roundState ER (ringRd m ρ) (kcell (c, j)) 0)
    ∗ (bigSep Finset.univ fun j : Fin 33 => iprop(atPos ER (kcell (c, j)) 0 ∅ 0 ∗ reached ER (kcell (c, j)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (ringCells_eq fun g => roundState ER (ringRd m ρ) g 0)) $$ Hst
  ihave Hat' := (Entails.of_eq (ringCells_eq fun g => atPos ER g 0 ∅ 0)) $$ Hat
  ihave Hr' := (Entails.of_eq (ringCells_eq fun g => reached ER g 0)) $$ Hr
  ihave Htok' := (Entails.of_eq ringToks_eq) $$ Htok
  unfold G; simp only [bigSep_sep']
  isplitl [Hst']; · iexact Hst'
  isplitl [Hat' Hr']
  · isplitl [Hat'] <;> iassumption
  iexact Htok'

omit [FloatOps F] in
theorem csem_succ : ∀ i : Fin 32, csem i.succ = osem i := by decide

omit [FloatOps F] in
theorem erase0_eq : (Finset.univ.erase 0 : Finset (Fin 33)) = Finset.univ.map (Fin.succEmb 32) := by decide

omit [FloatOps F] in
/-- The entry counter is the launch's one counter that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  rw [unscopedSems0_eq, bigSep_univ_at _ (0 : Fin 33), erase0_eq, bigSep_map]
  unfold Pipeline.ownSems0
  iintro ⟨HS, HB⟩
  isplitl [HB]; · iexact HB
  iapply (Entails.of_eq (bigSep_congr fun (i : Fin 32) _ => show (semVal ((c : Thread nD τ), osem i) 0 : sProp 𝕄) = semVal (kcell (c, Fin.succEmb 32 i)) 0 from by
    rw [Fin.coe_succEmb]; show _ = semVal ((c : Thread nD τ), csem i.succ) 0; rw [csem_succ]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (ringRd m ρ) κ (kcell (c, j))))
          ∗ (bigSep Finset.univ fun j : Fin 33 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 33 => semVal (kcell (c, j)) 0) ∗ bigSep Finset.univ fun j : Fin 33 => roundState ER (ringRd m ρ) (kcell (c, j)) 0)
      ⊢ (|={Set.univ}=> bigSep Finset.univ fun j => iprop(∃ κ : ℕ, cellInv ER (ringRd m ρ) κ (kcell (c, j))) : sProp 𝕄) from by
        rw [← bigSep_sep']
        exact (bigSep_mono fun j _ => (Rounds.body_intro ER (ringRd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The ring's turn by `k` places. -/
def ringE (k : Fin 16) : Dev nD ≃ Dev nD := ⟨fun c => fwd c k, fun c => bwd c k, fun c => bwd_fwd c k, fun c => fwd_bwd c k⟩

omit [FloatOps F] in
/-- The tokens dealt around the ring: the token of duty `k` of an entry counter and that of arrival counter `k` go to
    the device `k` places behind the counter's owner; a departure's token stays. -/
theorem toks_around : (bigSep Finset.univ fun c : Dev nD => (toks c : sProp 𝕄)) ⊢ bigSep Finset.univ fun c : Dev nD => payToks c := by
  have e1 : (bigSep Finset.univ fun c : Dev nD => (toks c : sProp 𝕄))
      = bigSep others fun k => bigSep Finset.univ fun c : Dev nD =>
          iprop(dutyTok ER (barCell c) 0 k ∗ dutyTok ER (sendCell c k) 0 0 ∗ dutyTok ER (recvCell c k) 0 0) := by
    unfold toks; exact bigSep_swap _ _ _
  have e2 : (bigSep Finset.univ fun c : Dev nD => (payToks c : sProp 𝕄))
      = bigSep others fun k => bigSep Finset.univ fun c : Dev nD =>
          iprop(dutyTok ER (barCell (fwd c k)) 0 k ∗ dutyTok ER (recvCell (fwd c k) k) 0 0 ∗ dutyTok ER (sendCell c k) 0 0) := by
    unfold payToks; exact bigSep_swap _ _ _
  have hk (k : Fin 16) : (bigSep Finset.univ fun c : Dev nD =>
        iprop(dutyTok ER (barCell c) 0 k ∗ dutyTok ER (sendCell c k) 0 0 ∗ dutyTok ER (recvCell c k) 0 0) : sProp 𝕄)
      ⊢ bigSep Finset.univ fun c : Dev nD =>
        iprop(dutyTok ER (barCell (fwd c k)) 0 k ∗ dutyTok ER (recvCell (fwd c k) k) 0 0 ∗ dutyTok ER (sendCell c k) 0 0) := by
    rw [bigSep_sep', bigSep_sep', bigSep_sep', bigSep_sep',
      bigSep_univ_equiv (ringE k) (fun c : Dev nD => (dutyTok ER (barCell c) 0 k : sProp 𝕄)),
      bigSep_univ_equiv (ringE k) (fun c : Dev nD => (dutyTok ER (recvCell c k) 0 0 : sProp 𝕄))]
    iintro ⟨H1, H2, H3⟩
    isplitl [H1]; · iexact H1
    isplitl [H3]; · iexact H3
    iexact H2
  rw [e1, e2]
  exact bigSep_mono fun k _ => hk k

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 33 → ℕ) (c : Dev nD) : iprop(records m ρ K ∗ linear c) ⊢ G' m ρ c := by
  unfold G' ghost
  iintro H; iexists K; iexact H

theorem regroup :
    (bigSep Finset.univ fun c : Dev nD => iprop((bigSep Finset.univ fun j => iprop(∃ κ : ℕ, cellInv ER (ringRd m ρ) κ (kcell (c, j))))
          ∗ (bigSep Finset.univ fun j : Fin 33 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 33 => iprop(∃ κ : ℕ, cellInv ER (ringRd m ρ) κ (kcell cj))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun cj : Dev nD × Fin 33 => (reached ER (kcell cj) 0 : sProp 𝕄))]
  iintro ⟨HI, ⟨Hat, #HR⟩, Htok⟩
  ihave HK := (BI.bigSep_exists_pi Finset.univ (fun (cj : Dev nD × Fin 33) (κ : ℕ) => (cellInv ER (ringRd m ρ) κ (kcell cj) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 33 => (atPos ER (kcell (c, j)) 0 ∅ 0 : sProp 𝕄)) payToks).symm).trans
      (bigSep_mono fun c _ => show _ ⊢ linear c from Entails.of_eq (by unfold linear; rfl)))
    isplitl [Hat]; · iexact Hat
    iexact Htk

/-- The global step: own and unscoped counters of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelIdealRun.glob' depends on axioms: [propext, Classical.choice, Quot.sound] -/
#guard_msgs in #print axioms glob

end Cert.KernelIdealRun

end
-- ==== Proof.KernelIdealRun.Sched.lean ====
/-
  The schedule's tables: for each counter, its duties at round 0, their amounts, what they hand over, and
  the total a wait for the whole round expects (15 units on an entry counter, one slot's credit on a
  departure or arrival counter).
-/
import proofs.«900424_g7700000000000425_dist_diff_noisepred_hshard_i_b2_h64_w64_c64_v7x_i16_f32_1_alg».proof.Proof.KernelIdealRun.Proto

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

omit [FloatOps F] in
theorem send_ne_bar (k : Fin 16) : (SemLoc.dma (sendS k) : SemLoc sig) ≠ .reg barS := fun h => by cases h
omit [FloatOps F] in
theorem recv_ne_bar (k : Fin 16) : (SemLoc.dma (recvS k) : SemLoc sig) ≠ .reg barS := fun h => by cases h
omit [FloatOps F] in
theorem isXfer_send {k : Fin 16} (h : k ≠ 0) : IsXfer (sendCell c k) := ⟨rfl, .inl (by rw [sendIdx_send h]; rfl)⟩
omit [FloatOps F] in
theorem isXfer_recv {k : Fin 16} (h : k ≠ 0) : IsXfer (recvCell c k) := ⟨rfl, .inr (by rw [recvIdx_recv h]; rfl)⟩

theorem duties_bar : (ringRd (F := F) m ρ).duties (barCell c) 0 = Finset.univ.erase 0 := by
  dsimp only [ringRd]; exact if_pos ⟨rfl, rfl, rfl⟩
theorem duties_send {k : Fin 16} (h : k ≠ 0) : (ringRd (F := F) m ρ).duties (sendCell c k) 0 = {0} := by
  dsimp only [ringRd]; rw [if_neg (fun h' => send_ne_bar k h'.2.2)]; exact if_pos ⟨rfl, isXfer_send c h⟩
theorem duties_recv {k : Fin 16} (h : k ≠ 0) : (ringRd (F := F) m ρ).duties (recvCell c k) 0 = {0} := by
  dsimp only [ringRd]; rw [if_neg (fun h' => recv_ne_bar k h'.2.2)]; exact if_pos ⟨rfl, isXfer_recv c h⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 16) : (ringRd (F := F) m ρ).amount (barCell c) 0 d = 1 := by dsimp only [ringRd]; exact if_pos rfl
theorem amount_send (k d : Fin 16) : (ringRd (F := F) m ρ).amount (sendCell c k) 0 d = N := by
  dsimp only [ringRd]; exact if_neg (send_ne_bar k)
theorem amount_recv (k d : Fin 16) : (ringRd (F := F) m ρ).amount (recvCell c k) 0 d = N := by
  dsimp only [ringRd]; exact if_neg (recv_ne_bar k)

theorem expect_bar : (ringRd (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send {k : Fin 16} (h : k ≠ 0) : (ringRd (F := F) m ρ).expect (sendCell c k) 0 = N := by
  unfold Schedule.expect Schedule.amountOf; rw [duties_send m ρ c h, Finset.sum_singleton, amount_send]
theorem expect_recv {k : Fin 16} (h : k ≠ 0) : (ringRd (F := F) m ρ).expect (recvCell c k) 0 = N := by
  unfold Schedule.expect Schedule.amountOf; rw [duties_recv m ρ c h, Finset.sum_singleton, amount_recv]

theorem payload_bar (d : Fin 16) : (ringRd (F := F) m ρ).payload (barCell c) 0 d = barPay c d := by
  dsimp only [ringRd]; rw [if_pos rfl]
theorem payload_send {k : Fin 16} (h : k ≠ 0) (d : Fin 16) : (ringRd (F := F) m ρ).payload (sendCell c k) 0 d = sendPay m ρ c k := by
  dsimp only [ringRd]; rw [if_neg (send_ne_bar k)]; simp only [recvIdx_send, sendIdx_send h]
theorem payload_recv {k : Fin 16} (h : k ≠ 0) (d : Fin 16) : (ringRd (F := F) m ρ).payload (recvCell c k) 0 d = recvPay m ρ c k := by
  dsimp only [ringRd]; rw [if_neg (recv_ne_bar k)]; simp only [recvIdx_recv h]

/-- The rest of an entry counter's round, no duty taken: what the 15 others hand over. -/
theorem rest_bar : bigSep ((ringRd (F := F) m ρ).duties (barCell c) 0 \ ∅) (fun d => (ringRd (F := F) m ρ).payload (barCell c) 0 d)
    = bigSep (Finset.univ.erase (0 : Fin 16)) (fun d => barPay (F := F) c d) := by
  rw [Finset.sdiff_empty, duties_bar]
  exact bigSep_congr fun d _ => payload_bar m ρ c d
theorem rest_send {k : Fin 16} (h : k ≠ 0) :
    bigSep ((ringRd (F := F) m ρ).duties (sendCell c k) 0 \ ∅) (fun d => (ringRd (F := F) m ρ).payload (sendCell c k) 0 d) = sendPay m ρ c k := by
  rw [Finset.sdiff_empty, duties_send m ρ c h, bigSep_singleton, payload_send m ρ c h]
theorem rest_recv {k : Fin 16} (h : k ≠ 0) :
    bigSep ((ringRd (F := F) m ρ).duties (recvCell c k) 0 \ ∅) (fun d => (ringRd (F := F) m ρ).payload (recvCell c k) 0 d) = recvPay m ρ c k := by
  rw [Finset.sdiff_empty, duties_recv m ρ c h, bigSep_singleton, payload_recv m ρ c h]

end Sched

end Cert.KernelIdealRun

end
-- ==== Proof.KernelIdealRun.LaunchCredit.lean ====
/-
  The units dealt at launch and the order of waiting.  Every device owes, to each of the 15 others, one unit
  on the other's entry counter and one slot's credit on the other's arrival counter; summed over the payers
  that is 15 units on every entry counter and one slot's credit on every arrival counter 1 … 15.  Staging
  counters sit at level 0, entry counters at 1, arrival counters at 2: a staging counter may be waited on
  while everything owed at launch is still owed.
-/
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.Ghost

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
theorem others_card : others.card = 15 := by decide

omit [FloatOps F] in
/-- Fifteen single units on one counter are fifteen units on it. -/
theorem sum_units (g : GSem nD τ sig) : (∑ _k ∈ others, (tallyAt g () 1 : CellTallies nD τ sig Unit)) = tallyAt g () 15 := by
  rw [Finset.sum_const, others_card]
  funext g'; refine Finsupp.ext fun i => ?_
  rw [Pi.smul_apply, Finsupp.smul_apply, tallyAt_apply, tallyAt_apply, smul_eq_mul]
  split <;> simp

omit [FloatOps F] in
/-- The units every device owes at launch, summed per counter: device `c` is dealt 15 units on its entry counter and a
    slot's credit on each of its arrival counters 1 … 15. -/
theorem creds (c : Dev nD) : (Pipeline.launchCred O₀ c : sProp 𝕄) ⊢ launchCreds c := by
  have h : (O₀ : Dev nD → CellTallies nD τ sig Unit)
      = fun d => (∑ k ∈ others, tallyAt (recvCell (fwd d k) k) () N) + ∑ k ∈ others, tallyAt (barCell (fwd d k)) () 1 := rfl
  have hB : (bigSep others fun k => (Pipeline.launchCred (fun d => tallyAt (barCell (fwd d k)) () 1) c : sProp 𝕄)) ⊢ cred (tallyAt (barCell c) () 15) := by
    rw [← sum_units, Pipeline.cred_finsetSum]
    exact bigSep_mono fun k _ => Pipeline.launchCred_tallyAt (.reg barS) (fun d => fwd d k) (fun d => bwd d k) (fun d => fwd_bwd d k) (fun d => bwd_fwd d k) () 1 c
  have hR : (bigSep others fun k => (Pipeline.launchCred (fun d => tallyAt (recvCell (fwd d k) k) () N) c : sProp 𝕄))
      ⊢ bigSep others fun k => cred (tallyAt (recvCell c k) () N) :=
    bigSep_mono fun k _ => Pipeline.launchCred_tallyAt (.dma (recvS k)) (fun d => fwd d k) (fun d => bwd d k) (fun d => fwd_bwd d k) (fun d => bwd_fwd d k) () N c
  rw [h, Pipeline.launchCred_add, Pipeline.launchCred_sum, Pipeline.launchCred_sum]
  unfold launchCreds
  iintro ⟨HR, HB⟩
  isplitl [HB]
  · iapply hB; iexact HB
  · iapply hR; iexact HR

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
/-- A device owes only arrival counters and entry counters of the devices 1 … 15 places ahead. -/
theorem O₀_pos {c : Dev nD} {g : GSem nD τ sig} {u : Unit} (h : 0 < O₀ c g u) :
    ∃ k ∈ others, g = recvCell (fwd c k) k ∨ g = barCell (fwd c k) := by
  unfold O₀ owedFrom at h
  rcases Pipeline.add_pos_cases h with h | h
  · obtain ⟨k, hk, hp⟩ := Pipeline.sum_pos_exists h
    exact ⟨k, hk, .inl (Pipeline.tallyAt_pos hp).1⟩
  · obtain ⟨k, hk, hp⟩ := Pipeline.sum_pos_exists h
    exact ⟨k, hk, .inr (Pipeline.tallyAt_pos hp).1⟩

omit [FloatOps F] in
theorem lv_recv (c : Dev nD) {k : Fin 16} (hk : k ∈ others) : lv (recvCell c k) () = 2 := by
  dsimp only [lv]; rw [if_neg (recv_ne_bar k), recvIdx_recv (Finset.ne_of_mem_erase hk)]; rfl

omit [FloatOps F] in
/-- A staging counter (level 0) may be waited on while owing what is owed at launch (levels 1 and 2), or nothing. -/
theorem mayWait_stage (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), .dma q) () = 0 := by
      dsimp only [lv]; rw [if_neg (fun h => by cases h), hq]; rfl
    obtain ⟨k, hk, rfl | rfl⟩ := O₀_pos hg
    · exact ⟨by rw [L_tc]; exact Finset.mem_singleton_self _, by rw [h0, lv_recv _ hk]; decide⟩
    · refine ⟨by rw [L_tc]; exact Finset.mem_singleton_self _, ?_⟩
      rw [h0]; dsimp only [lv]; rw [if_pos rfl]; decide
  · rw [MayWait_zero]; iintro -; iempintro

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.KernelIdealRun.stage_waits' depends on axioms: [propext, Classical.choice, Quot.sound] -/
#guard_msgs in #print axioms stage_waits

end Cert.KernelIdealRun

end
-- ==== Proof.KernelIdealRun.Launch.lean ====
/-
  The run of the whole program on the 16 devices, from the body's proof on each device.  The launch deals
  every device its starting state (the counters' records, its positions, the tokens of the duties it pays,
  the units it may wait for, the order of waiting) and the table of partial sums at arbitrary contents; at
  the end the table and the device's own counters, closed at zero, are handed back.  Every final state then
  has the input arrays as they began and the result array at what the body left staged at the one point.
-/
import proofs.«900424_g7700000000000425_dist_diff_noisepred_hshard_i_b2_h64_w64_c64_v7x_i16_f32_1_alg».proof.Proof.KernelIdealRun.LaunchFund
import proofs.«900424_g7700000000000425_dist_diff_noisepred_hshard_i_b2_h64_w64_c64_v7x_i16_f32_1_alg».proof.Proof.KernelIdealRun.LaunchCredit

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gathered m ρ c); rw [← scrPts_eq]; iexact Hr

/-! ## The run -/

/-- Every device's arrays end as the proof data says. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On the 16 devices, for any float values, from any memory with every counter at zero: given the body's proof on every
    device, every weakly fair execution of the program terminates, faults nowhere, and every final state has each
    device's arrays at the contents the proof data computes. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input arrays end as they began. -/
theorem final_in0 (c : Dev nD) : (dats m ρ 0 c).arrAt (0 : Fin 3) cfg0.N = m ((c : Thread nD τ).loc main_arg0) :=
  (dats (F := F) m ρ 0 c).arrAt_in (0 : Fin 3) rfl _
theorem final_in1 (c : Dev nD) : (dats m ρ 0 c).arrAt (1 : Fin 3) cfg0.N = m ((c : Thread nD τ).loc main_arg1) :=
  (dats (F := F) m ρ 0 c).arrAt_in (1 : Fin 3) rfl _

/-- The result array ends as what the body left staged at the one point. -/
theorem final_out (c : Dev nD) : (dats m ρ 0 c).arrAt (2 : Fin 3) cfg0.N = outAt m ρ c := by
  show (dats m ρ 0 c).arrAt (2 : Fin 3) ((t₀ : Fin cfg0.N).val + 1) = outAt m ρ c
  rw [Dat.arrAt_succ, flush0_2 t₀, if_pos rfl]
  exact Memref.write_access_unit_zero_univ (Elt F) main_v1 (funext fun _ => Nat.zero_mul _) _ _ (outAt m ρ c)

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (final_out m ρ c), (h c 0).trans (final_in0 m ρ c), (h c 1).trans (final_in1 m ρ c)⟩)
    (run_main m ρ hbody)

/-- info: 'Cert.KernelIdealRun.run_main' depends on axioms: [propext, Classical.choice, Quot.sound] -/
#guard_msgs in #print axioms run_main

/-- info: 'Cert.KernelIdealRun.run_values' depends on axioms: [propext, Classical.choice, Quot.sound] -/
#guard_msgs in #print axioms run_values

end Cert.KernelIdealRun

end
-- ==== Proof.KernelIdealRun.Claims.lean ====
/-
  The frame of the program on the 16 devices, read off its run: the run's post names the result array and
  both argument arrays of every device; dropping the result leaves the frame.
-/
import proofs.«900424_g7700000000000425_dist_diff_noisepred_hshard_i_b2_h64_w64_c64_v7x_i16_f32_1_alg».proof.Proof.KernelIdealRun.Launch

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The frame: given the body's proof on every device from every memory, from any memory with every counter at zero the
    program runs to the end on the 16 devices, faults nowhere, and both argument arrays of every device end as they began. -/
theorem frame_of_body
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_values m ρ (hbody m ρ))

/-- info: 'Cert.KernelIdealRun.frame_of_body' depends on axioms: [propext, Classical.choice, Quot.sound] -/
#guard_msgs in #print axioms frame_of_body

end Cert.KernelIdealRun

end
-- ==== Proof.KernelRun.Proto.lean ====
/-
  The exchange of partial sums between the 16 devices, written down as a schedule of rounds.

  Device c adds up its own block (a sum and a sum of squares per batch entry and channel: 2 × 2 × 64
  numbers) into slot 0 of a table of 16 slots, and sends slot 0 to slot k of the device k places ahead
  of it on the ring, for k = 1 … 15; so slot k of device c ends holding the sums of the device k places
  behind c.  Before sending, a device tells every other device that it has entered (one unit on the
  other's entry counter) and waits until all 15 others have told it.  The unit a device d sends to the
  device j places ahead of it carries the right to write slot 16 - j of d's table: that is the slot the
  receiver's own copy to d lands in.

  Cells: per device one entry counter (15 duties of one unit, duty j paid by the device j places
  behind), and for k = 1 … 15 a departure counter (one duty: the copy has been read out of slot 0) and
  an arrival counter (one duty: slot k has been written, and holds the sender's sums).
-/
import proofs.«900424_g7700000000000425_dist_diff_noisepred_hshard_i_b2_h64_w64_c64_v7x_i16_f32_1_alg».proof.Proof.Gen.Kernel
import proofs.«900424_g7700000000000425_dist_diff_noisepred_hshard_i_b2_h64_w64_c64_v7x_i16_f32_1_alg».proof.Proof.Gen.Kernel.Skeleton
import proofs.«900424_g7700000000000425_dist_diff_noisepred_hshard_i_b2_h64_w64_c64_v7x_i16_f32_1_alg».proof.Proof.Gen.Kernel.Launch
import proofs.«900424_g7700000000000425_dist_diff_noisepred_hshard_i_b2_h64_w64_c64_v7x_i16_f32_1_alg».proof.Proof.Gen.Kernel.Points
import Idealize.ShloMosaic.Lib.Pipeline.Launch
import Idealize.ShloMosaic.Lib.Pipeline.Kit
import Idealize.ShloMosaic.Lib.Transfers
import Idealize.ShloMosaic.Lib.ValueIdx
import Idealize.ShloMosaic.Lib.Tactic

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds' (duties named by a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the program starts from: the given memory, every counter at zero. -/
def s₀ : MemSt nD τ sig (Elt F) := ⟨m, fun _ => 0, ρ⟩

/-! ## The ring of 16 -/

/-- The device `k` places ahead of `c`. -/
def fwd (c : Dev nD) (k : Fin 16) : Dev nD := ⟨(c.val + k.val) % 16, Nat.mod_lt _ (by decide)⟩
/-- The device `k` places behind `c`. -/
def bwd (c : Dev nD) (k : Fin 16) : Dev nD := ⟨(c.val + 16 - k.val) % 16, Nat.mod_lt _ (by decide)⟩
/-- The offset that undoes `k`. -/
def opp (k : Fin 16) : Fin 16 := ⟨(16 - k.val) % 16, Nat.mod_lt _ (by decide)⟩

theorem bwd_fwd (c : Dev nD) (k : Fin 16) : bwd (fwd c k) k = c := by revert c k; decide
theorem fwd_bwd (c : Dev nD) (k : Fin 16) : fwd (bwd c k) k = c := by revert c k; decide
theorem fwd_opp (c : Dev nD) (k : Fin 16) : fwd c (opp k) = bwd c k := by revert c k; decide
theorem bwd_opp (c : Dev nD) (k : Fin 16) : bwd c (opp k) = fwd c k := by revert c k; decide
theorem opp_opp (k : Fin 16) : opp (opp k) = k := by revert k; decide
theorem opp_ne_zero {k : Fin 16} (h : k ≠ 0) : opp k ≠ 0 := by revert k; decide
theorem fwd_zero (c : Dev nD) : fwd c 0 = c := by revert c; decide
theorem bwd_zero (c : Dev nD) : bwd c 0 = c := by revert c; decide
theorem fwd_ne {c : Dev nD} {k : Fin 16} (h : k ≠ 0) : fwd c k ≠ c := by revert c k; decide
theorem fwd_inj_left (k : Fin 16) {a b : Dev nD} (h : fwd a k = fwd b k) : a = b := by revert a b k; decide
theorem fwd_inj_right (c : Dev nD) {j k : Fin 16} (h : fwd c j = fwd c k) : j = k := by revert c j k; decide

/-! ## The table of partial sums, its slots, and the counters -/

/-- The table: 16 slots of 2 × 2 × 64. -/
abbrev scr : Memref sig .tc .vmem S16x2x2x64 .f32 := Memref.whole cc0_scratch0

theorem slot_inb (k : Fin 16) : ∀ a, (![k.val, 0, 0, 0] : Fin 4 → Nat) a + S1x2x2x64.size a ≤ S16x2x2x64.size a := by
  revert k; decide

/-- Slot `k` of the table. -/
abbrev slotM (k : Fin 16) : Memref sig .tc .vmem S2x2x64 .f32 :=
  ((scr.slice (Rect.unit (s := S16x2x2x64) ![k.val, 0, 0, 0] S1x2x2x64.size (slot_inb k)) (fun _ => rfl) :
    Memref sig .tc .vmem S1x2x2x64 .f32)).squeeze S2x2x64 squeezes_S1x2x2x64_S2x2x64

theorem sem_inb (k : Fin 16) : ∀ a, (![k.val] : Fin 1 → Nat) a + S1.size a ≤ S16.size a := by revert k; decide

/-- The departure counter of copy `k`. -/
abbrev sendS (k : Fin 16) : DmaSem sig :=
  ((cc0_scratch1.slice (Rect.unit (s := S16) ![k.val] S1.size (sem_inb k))).squeeze S_ squeezes_S1_S_).sem
/-- The arrival counter of slot `k`. -/
abbrev recvS (k : Fin 16) : DmaSem sig :=
  ((cc0_scratch2.slice (Rect.unit (s := S16) ![k.val] S1.size (sem_inb k))).squeeze S_ squeezes_S1_S_).sem
/-- The entry counter. -/
abbrev barS : Sem sig := (SemArray.scalar (sig.barrier 0 rfl) : Sems sig S_).sem

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))

/-- The units one copy of a slot credits. -/
abbrev N : ℕ := (slotM 1 : Memref sig .tc .vmem S2x2x64 .f32).view.dmaCredit

/-! ## Contents -/

/-- Device `c`'s block of the input, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s copy of the matrix, as staged for the body. -/
def wstg (c : Dev nD) : (cc0_stg1_0 : Ref sig .tc).ty.Contents (Elt F) :=
  (win0_1.blk (0 : Fin 1)).view.read (Elt F) ((s₀ m ρ).mem ((c : Thread nD τ).loc main_arg1))

/-- What device `c`'s table ends holding: in slot `k`, row 0 the sums and row 1 the sums of squares of the
    block of the device `k` places behind `c`. -/
def gathered (c : Dev nD) : (cc0_scratch0 : Ref sig .tc).ty.Contents (Elt F) := fun i =>
  if (i 1).val = 0 then
    k0_pay3 (xstg m ρ (bwd c ⟨(i 0).val, (i 0).isLt⟩)) (ValueIdx.ix4 (0 : Fin 1) (0 : Fin 1) (⟨(i 2).val, (i 2).isLt⟩ : Fin 2) (⟨(i 3).val, (i 3).isLt⟩ : Fin 64))
  else
    k0_pay5 (k0_pay4 (xstg m ρ (bwd c ⟨(i 0).val, (i 0).isLt⟩))) (ValueIdx.ix4 (0 : Fin 1) (0 : Fin 1) (⟨(i 2).val, (i 2).isLt⟩ : Fin 2) (⟨(i 3).val, (i 3).isLt⟩ : Fin 64))

/-- The kernel's result on device `c`. -/
def outAt (c : Dev nD) : (cc0_stg2_0 : Ref sig .tc).ty.Contents (Elt F) :=
  k0_pay6 (k0_pay1 (xstg m ρ c)) (gathered m ρ c) (wstg m ρ c)

/-- Slot `k` of device `c`'s table held at share `q` with the table's contents `f` (only `f`'s values in the slot matter). -/
def slotPts (c : Dev nD) (k : Fin 16) (q : PosShare TreeShare)
    (f : Buf (Elt F) ((slotM k : Memref sig .tc .vmem S2x2x64 .f32).view.loc (c : Thread nD τ))) : sProp 𝕄 :=
  (slotM k : Memref sig .tc .vmem S2x2x64 .f32).view.loc (c : Thread nD τ) ↦[(slotM k : Memref sig .tc .vmem S2x2x64 .f32).view.set]{q} f

omit [FloatOps F] in
instance slotPts_storable (c : Dev nD) (k : Fin 16) (q) (f) : BI.Storable (upEmb : UEmb _ 𝕄) (slotPts (F := F) c k q f) := by
  unfold slotPts; infer_instance

/-! ## The schedule -/

/-- What the device `j` places behind `g` hands `g` with its entry unit: slot `16 - j` of its own table (where `g`'s
    copy to it lands) and that it has reached round 0 of that slot's arrival counter. -/
def barPay (g : Dev nD) (j : Fin 16) : sProp 𝕄 :=
  iprop((∃ f, slotPts (bwd g j) (opp j) fullShare f) ∗ reached ER (recvCell (bwd g j) (opp j)) 0)
/-- An arrival hands the owner slot `k` holding the sender's sums. -/
def recvPay (c : Dev nD) (k : Fin 16) : sProp 𝕄 := slotPts c k fullShare (gathered m ρ c)
/-- A departure hands back the share of slot 0 the copy read through. -/
def sendPay (c : Dev nD) (k : Fin 16) : sProp 𝕄 := slotPts c 0 (Transfers.shareTok fullShare 16 k) (gathered m ρ c)

/-- Which copy a departure counter belongs to, if any. -/
def sendIdx (s : SemLoc sig) : Option (Fin 16) := (List.finRange 16).find? fun k => decide (k ≠ 0 ∧ s = .dma (sendS k))
/-- Which slot an arrival counter belongs to, if any. -/
def recvIdx (s : SemLoc sig) : Option (Fin 16) := (List.finRange 16).find? fun k => decide (k ≠ 0 ∧ s = .dma (recvS k))

theorem sendIdx_send {k : Fin 16} (h : k ≠ 0) : sendIdx (.dma (sendS k)) = some k := by revert k; decide
theorem recvIdx_recv {k : Fin 16} (h : k ≠ 0) : recvIdx (.dma (recvS k)) = some k := by revert k; decide
theorem recvIdx_send (k : Fin 16) : recvIdx (.dma (sendS k)) = none := by revert k; decide
theorem sendIdx_recv (k : Fin 16) : sendIdx (.dma (recvS k)) = none := by revert k; decide
theorem sendIdx_bar : sendIdx (.reg barS) = none := by decide
theorem recvIdx_bar : recvIdx (.reg barS) = none := by decide

abbrev IsBar (g : GSem nD τ sig) : Prop := g.1.2 = .tc ∧ g.2 = .reg barS
abbrev IsXfer (g : GSem nD τ sig) : Prop := g.1.2 = .tc ∧ ((sendIdx g.2).isSome ∨ (recvIdx g.2).isSome)

/-- One round, round 0: an entry counter has the 15 duties 1 … 15 of one unit each; a departure or arrival counter
    the one duty 0 of a slot's credit. -/
def ringRd : Rounds.Schedule (GSem nD τ sig) (Fin 16) 𝕄 where
  duties g r := if r = 0 ∧ IsBar g then Finset.univ.erase 0 else if r = 0 ∧ IsXfer g then {0} else ∅
  unitless _ := False
  amount g _ _ := if g.2 = .reg barS then 1 else N
  payload g _ d :=
    if g.2 = .reg barS then barPay g.1.1 d
    else match recvIdx g.2 with
      | some k => recvPay m ρ g.1.1 k
      | none => match sendIdx g.2 with
        | some k => sendPay m ρ g.1.1 k
        | none => iprop(emp)
  amount_pos g _ _ _ := by
    by_cases h : g.2 = .reg barS
    · rw [if_pos h]; exact Nat.one_pos
    · rw [if_neg h]; exact View.dmaCredit_pos _ (by decide)

instance ringRd_payload_storable (g : GSem nD τ sig) (r : ℕ) (d : Fin 16) :
    BI.Storable (upEmb : UEmb _ 𝕄) ((ringRd (F := F) m ρ).payload g r d) := by
  show BI.Storable upEmb (if g.2 = .reg barS then barPay g.1.1 d
    else match recvIdx g.2 with
      | some k => recvPay m ρ g.1.1 k
      | none => match sendIdx g.2 with
        | some k => sendPay m ρ g.1.1 k
        | none => iprop(emp))
  unfold barPay recvPay sendPay
  (repeat' split) <;> infer_instance

end Cert.KernelRun

end
-- ==== Proof.KernelRun.Ghost.lean ====
/-
  What each device holds at the start of the exchange and what it must give back at the end: the counters'
  records, the tokens of the duties it pays (one entry unit and one arrival per other device, one departure
  per copy), the units it owes, the order in which counters may be waited on (entry counters before
  arrival counters), and the three staged arrays with the table of partial sums.
-/
import proofs.«900424_g7700000000000425_dist_diff_noisepred_hshard_i_b2_h64_w64_c64_v7x_i16_f32_1_alg».proof.Proof.KernelRun.Proto

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters, listed per device: the entry counter, then 16 departure and 16 arrival counters -/

/-- The 33 counters of a device: 0 the entry counter, 1 + k the departure counter of copy k, 17 + k the arrival
    counter of slot k (copy 0 and slot 0 are never used: their counters stay at zero). -/
abbrev csem (j : Fin 33) : SemLoc sig :=
  if j.val = 0 then .reg barS
  else if h : j.val < 17 then .dma (sendS ⟨j.val - 1, by omega⟩)
  else .dma (recvS ⟨j.val - 17, by have := j.isLt; omega⟩)
abbrev kcell (cj : Dev nD × Fin 33) : GSem nD τ sig := ((cj.1 : Thread nD τ), csem cj.2)
/-- The departure counter's place in the list. -/
abbrev jS (k : Fin 16) : Fin 33 := ⟨1 + k.val, by have := k.isLt; omega⟩
/-- The arrival counter's place in the list. -/
abbrev jR (k : Fin 16) : Fin 33 := ⟨17 + k.val, by have := k.isLt; omega⟩

omit [FloatOps F] in
theorem kcell_bar (c : Dev nD) : kcell (c, 0) = barCell c := rfl
omit [FloatOps F] in
theorem csem_jS (k : Fin 16) : csem (jS k) = .dma (sendS k) := by revert k; decide
omit [FloatOps F] in
theorem csem_jR (k : Fin 16) : csem (jR k) = .dma (recvS k) := by revert k; decide
omit [FloatOps F] in
theorem kcell_send (c : Dev nD) (k : Fin 16) : kcell (c, jS k) = sendCell c k := congrArg (Prod.mk _) (csem_jS k)
omit [FloatOps F] in
theorem kcell_recv (c : Dev nD) (k : Fin 16) : kcell (c, jR k) = recvCell c k := congrArg (Prod.mk _) (csem_jR k)

/-- The kernel's own (scoped) counters, as the launch lists them: 16 departure then 16 arrival counters. -/
abbrev osem (i : Fin 32) : SemLoc sig :=
  if h : i.val < 16 then .dma (sendS ⟨i.val, h⟩) else .dma (recvS ⟨i.val - 16, by have := i.isLt; omega⟩)

/-- The offsets 1 … 15. -/
abbrev others : Finset (Fin 16) := Finset.univ.erase 0

/-! ## What each device owes at launch; the levels -/

/-- The entry units still owed to the devices at the offsets `S`, and the arrivals still owed at the offsets `T`. -/
def owedFrom (c : Dev nD) (S T : Finset (Fin 16)) : CellTallies nD τ sig Unit :=
  (∑ k ∈ T, tallyAt (recvCell (fwd c k) k) () N) + ∑ k ∈ S, tallyAt (barCell (fwd c k)) () 1

/-- At launch: one entry unit and one arrival to each of the 15 others. -/
def O₀ (c : Dev nD) : CellTallies nD τ sig Unit := owedFrom c others others

def L (g : GSem nD τ sig) : Finset Unit := if g.1.2 = .tc then {()} else ∅
/-- Entry counters at 1, arrival counters at 2, everything else (staging, departures) at 0. -/
def lv (g : GSem nD τ sig) (_ : Unit) : ℕ := if g.2 = .reg barS then 1 else if (recvIdx g.2).isSome then 2 else 0

/-! ## The ghost state -/

/-- Every counter's record under the names `K`, and that each has reached round 0: known to every device. -/
def records (K : Dev nD × Fin 33 → ℕ) : sProp 𝕄 :=
  iprop((bigSep Finset.univ fun cj : Dev nD × Fin 33 => cellInv ER (ringRd m ρ) (K cj) (kcell cj))
    ∗ bigSep Finset.univ fun cj : Dev nD × Fin 33 => reached ER (kcell cj) 0)

instance records_persistent (K : Dev nD × Fin 33 → ℕ) : BI.Persistent (records m ρ K) := by unfold records; infer_instance

/-- The tokens of the duties device `c` pays: towards the device `k` places ahead its entry unit (duty `k` there) and
    the arrival in slot `k` there, and its own departure `k`. -/
def payToks (c : Dev nD) : sProp 𝕄 :=
  bigSep others fun k => iprop(dutyTok ER (barCell (fwd c k)) 0 k ∗ dutyTok ER (recvCell (fwd c k) k) 0 0 ∗ dutyTok ER (sendCell c k) 0 0)

/-- Device `c`'s positions at round 0 of its own counters, and the tokens it pays with. -/
def linear (c : Dev nD) : sProp 𝕄 :=
  iprop((bigSep Finset.univ fun j : Fin 33 => atPos ER (kcell (c, j)) 0 ∅ 0) ∗ payToks c)

def ghost (K : Dev nD × Fin 33 → ℕ) (c : Dev nD) : sProp 𝕄 := iprop(records m ρ K ∗ linear c)

/-- The units dealt to device `c` at launch: 15 on its entry counter, a slot's credit on each arrival counter. -/
def launchCreds (c : Dev nD) : sProp 𝕄 :=
  iprop(cred (tallyAt (barCell c) () 15) ∗ bigSep others fun k => cred (tallyAt (recvCell c k) () N))

/-- What device `c`'s body starts from. -/
def start (c : Dev nD) : sProp 𝕄 :=
  iprop((∃ K, ghost m ρ K c) ∗ launchCreds c ∗ levAts L lv)

/-- The table held whole. -/
def scrPts (c : Dev nD) (f : Buf (Elt F) ((scr : Memref sig .tc .vmem S16x2x2x64 .f32).view.loc (c : Thread nD τ))) : sProp 𝕄 :=
  (scr : Memref sig .tc .vmem S16x2x2x64 .f32).view.loc (c : Thread nD τ) ↦[(scr : Memref sig .tc .vmem S16x2x2x64 .f32).view.set]{fullShare} f

omit [FloatOps F] in
theorem scr_set : (scr : Memref sig .tc .vmem S16x2x2x64 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

def Φ₀ (c : Dev nD) : sProp 𝕄 := iprop(start m ρ c ∗ ∃ f, scrPts c f)
/-- After the body: the table whole again at the gathered sums, and the device's own counters closed at zero. -/
def Φ₁ (c : Dev nD) : sProp 𝕄 :=
  iprop(scrPts c (gathered m ρ c) ∗ bigSep Finset.univ fun i : Fin 32 => semVal ((c : Thread nD τ), osem i) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-- A staged array held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition in the form the launch hands it over. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

end Cert.KernelRun

end
-- ==== Proof.KernelRun.LaunchCells.lean ====
/-
  The launch's book of counters and tokens: the 33 counters of every device listed without repetition, the
  tokens minted at launch (for every device and every offset 1 … 15: duty k of its entry counter, the one duty
  of its departure counter k and of its arrival counter k) listed without repetition, and the launch element
  made of the two lists.
-/
import proofs.«900424_g7700000000000425_dist_diff_noisepred_hshard_i_b2_h64_w64_c64_v7x_i16_f32_1_alg».proof.Proof.KernelRun.Ghost

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters and the tokens, listed -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : ∀ j j' : Fin 33, csem j = csem j' → j = j' := by decide

omit [FloatOps F] in
theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]

def ringCells : Finset (GSem nD τ sig) := Finset.univ.map ⟨kcell, kcell_injective⟩

/-- The counter and the duty of a minted token: for the offset i + 1, duty i + 1 of the entry counter, duty 0 of
    departure counter i + 1, duty 0 of arrival counter i + 1. -/
abbrev tokSem (p : Fin 15 × Fin 3) : SemLoc sig × Fin 16 := match p.2 with
  | 0 => (.reg barS, p.1.succ) | 1 => (.dma (sendS p.1.succ), 0) | 2 => (.dma (recvS p.1.succ), 0)

omit [FloatOps F] in
theorem tokSem_injective : ∀ p q : Fin 15 × Fin 3, tokSem p = tokSem q → p = q := by decide

/-- A device's own counters' tokens as minted. -/
abbrev tokOf (cp : Dev nD × Fin 15 × Fin 3) : GSem nD τ sig × ℕ × Fin 16 :=
  (((cp.1 : Thread nD τ), (tokSem cp.2).1), 0, (tokSem cp.2).2)

omit [FloatOps F] in
theorem tokOf_injective : Function.Injective (tokOf : Dev nD × Fin 15 × Fin 3 → GSem nD τ sig × ℕ × Fin 16) := by
  rintro ⟨c, p⟩ ⟨c', q⟩ h
  have h1 : c = c' := by have := congrArg (fun x : GSem nD τ sig × ℕ × Fin 16 => x.1.1.1) h; exact this
  subst h1
  have h2 : tokSem p = tokSem q := Prod.ext (congrArg (fun x : GSem nD τ sig × ℕ × Fin 16 => x.1.2) h) (congrArg (fun x : GSem nD τ sig × ℕ × Fin 16 => x.2.2) h)
  rw [tokSem_injective p q h2]

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

omit [FloatOps F] in
theorem others_eq : others = Finset.univ.map (Fin.succEmb 15) := by decide

omit [FloatOps F] in
theorem bigSep_others (Φ : Fin 16 → sProp 𝕄) : bigSep others Φ = bigSep Finset.univ fun i : Fin 15 => Φ i.succ := by
  rw [others_eq, bigSep_map]; rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A double conjunction may be taken in either order. -/
theorem bigSep_swap {A B : Type} [DecidableEq B] (s : Finset A) (t : Finset B) (Φ : A → B → sProp 𝕄) :
    bigSep s (fun a => bigSep t (Φ a)) = bigSep t (fun b => bigSep s fun a => Φ a b) := by
  induction t using Finset.induction_on with
  | empty => simp only [bigSep_empty]; exact bigSep_emp_const s
  | insert b t hb ih =>
    rw [bigSep_insert hb, ← ih, ← bigSep_sep]
    exact bigSep_congr fun a _ => bigSep_insert hb

/-- The tokens of device `c`'s own counters. -/
def toks (c : Dev nD) : sProp 𝕄 :=
  bigSep others fun k => iprop(dutyTok ER (barCell c) 0 k ∗ dutyTok ER (sendCell c k) 0 0 ∗ dutyTok ER (recvCell c k) 0 0)

omit [FloatOps F] in
theorem ringToks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  unfold toks; rw [bigSep_others, bigSep_univ_prod]
  exact bigSep_congr fun i _ => by rw [bigSep_fin3]; rfl

omit [FloatOps F] in
theorem ringCells_eq (Φ : GSem nD τ sig → sProp 𝕄) :
    bigSep ringCells Φ = bigSep Finset.univ fun c : Dev nD => bigSep Finset.univ fun j : Fin 33 => Φ (kcell (c, j)) := by
  unfold ringCells; rw [bigSep_map, bigSep_univ_prod]; rfl

/-- info: 'Cert.KernelRun.ringToks_eq' depends on axioms: [propext, Classical.choice, Quot.sound] -/
#guard_msgs in #print axioms ringToks_eq

end Cert.KernelRun

end
-- ==== Proof.KernelRun.LaunchFund.lean ====
/-
  From the launch element to every device's starting ghost state.  The element yields, for each of the 33
  counters of each device, its round state at zero, its owner's position at round 0 and the mark that round 0
  is reached, and the minted tokens.  With every counter at zero (the kernel's own 32 and the entry counter)
  each counter's record is opened; then the tokens are dealt to the payers: the token of duty k of an entry
  counter and the token of arrival counter k go to the device k places behind the owner, a departure's token
  stays with its owner.
-/
import proofs.«900424_g7700000000000425_dist_diff_noisepred_hshard_i_b2_h64_w64_c64_v7x_i16_f32_1_alg».proof.Proof.KernelRun.LaunchCells

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch element deals each device, and what the global step makes of it -/

/-- What the launch element deals device `c`. -/
def G (c : Dev nD) : sProp 𝕄 :=
  iprop((bigSep Finset.univ fun j : Fin 33 => roundState ER (ringRd m ρ) (kcell (c, j)) 0)
    ∗ (bigSep Finset.univ fun j : Fin 33 => iprop(atPos ER (kcell (c, j)) 0 ∅ 0 ∗ reached ER (kcell (c, j)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  iintro HX
  imod (Rounds.fund ER (ringRd m ρ) ringCells ringToks) $$ HX with ⟨Hst, Hr, Hat, Htok⟩
  imodintro
  ihave Hst' := (Entails.of_eq (ringCells_eq fun g => roundState ER (ringRd m ρ) g 0)) $$ Hst
  ihave Hat' := (Entails.of_eq (ringCells_eq fun g => atPos ER g 0 ∅ 0)) $$ Hat
  ihave Hr' := (Entails.of_eq (ringCells_eq fun g => reached ER g 0)) $$ Hr
  ihave Htok' := (Entails.of_eq ringToks_eq) $$ Htok
  unfold G; simp only [bigSep_sep']
  isplitl [Hst']; · iexact Hst'
  isplitl [Hat' Hr']
  · isplitl [Hat'] <;> iassumption
  iexact Htok'

omit [FloatOps F] in
theorem csem_succ : ∀ i : Fin 32, csem i.succ = osem i := by decide

omit [FloatOps F] in
theorem erase0_eq : (Finset.univ.erase 0 : Finset (Fin 33)) = Finset.univ.map (Fin.succEmb 32) := by decide

omit [FloatOps F] in
/-- The entry counter is the launch's one counter that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  rw [unscopedSems0_eq, bigSep_univ_at _ (0 : Fin 33), erase0_eq, bigSep_map]
  unfold Pipeline.ownSems0
  iintro ⟨HS, HB⟩
  isplitl [HB]; · iexact HB
  iapply (Entails.of_eq (bigSep_congr fun (i : Fin 32) _ => show (semVal ((c : Thread nD τ), osem i) 0 : sProp 𝕄) = semVal (kcell (c, Fin.succEmb 32 i)) 0 from by
    rw [Fin.coe_succEmb]; show _ = semVal ((c : Thread nD τ), csem i.succ) 0; rw [csem_succ]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (ringRd m ρ) κ (kcell (c, j))))
          ∗ (bigSep Finset.univ fun j : Fin 33 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 33 => semVal (kcell (c, j)) 0) ∗ bigSep Finset.univ fun j : Fin 33 => roundState ER (ringRd m ρ) (kcell (c, j)) 0)
      ⊢ (|={Set.univ}=> bigSep Finset.univ fun j => iprop(∃ κ : ℕ, cellInv ER (ringRd m ρ) κ (kcell (c, j))) : sProp 𝕄) from by
        rw [← bigSep_sep']
        exact (bigSep_mono fun j _ => (Rounds.body_intro ER (ringRd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- The ring's turn by `k` places. -/
def ringE (k : Fin 16) : Dev nD ≃ Dev nD := ⟨fun c => fwd c k, fun c => bwd c k, fun c => bwd_fwd c k, fun c => fwd_bwd c k⟩

omit [FloatOps F] in
/-- The tokens dealt around the ring: the token of duty `k` of an entry counter and that of arrival counter `k` go to
    the device `k` places behind the counter's owner; a departure's token stays. -/
theorem toks_around : (bigSep Finset.univ fun c : Dev nD => (toks c : sProp 𝕄)) ⊢ bigSep Finset.univ fun c : Dev nD => payToks c := by
  have e1 : (bigSep Finset.univ fun c : Dev nD => (toks c : sProp 𝕄))
      = bigSep others fun k => bigSep Finset.univ fun c : Dev nD =>
          iprop(dutyTok ER (barCell c) 0 k ∗ dutyTok ER (sendCell c k) 0 0 ∗ dutyTok ER (recvCell c k) 0 0) := by
    unfold toks; exact bigSep_swap _ _ _
  have e2 : (bigSep Finset.univ fun c : Dev nD => (payToks c : sProp 𝕄))
      = bigSep others fun k => bigSep Finset.univ fun c : Dev nD =>
          iprop(dutyTok ER (barCell (fwd c k)) 0 k ∗ dutyTok ER (recvCell (fwd c k) k) 0 0 ∗ dutyTok ER (sendCell c k) 0 0) := by
    unfold payToks; exact bigSep_swap _ _ _
  have hk (k : Fin 16) : (bigSep Finset.univ fun c : Dev nD =>
        iprop(dutyTok ER (barCell c) 0 k ∗ dutyTok ER (sendCell c k) 0 0 ∗ dutyTok ER (recvCell c k) 0 0) : sProp 𝕄)
      ⊢ bigSep Finset.univ fun c : Dev nD =>
        iprop(dutyTok ER (barCell (fwd c k)) 0 k ∗ dutyTok ER (recvCell (fwd c k) k) 0 0 ∗ dutyTok ER (sendCell c k) 0 0) := by
    rw [bigSep_sep', bigSep_sep', bigSep_sep', bigSep_sep',
      bigSep_univ_equiv (ringE k) (fun c : Dev nD => (dutyTok ER (barCell c) 0 k : sProp 𝕄)),
      bigSep_univ_equiv (ringE k) (fun c : Dev nD => (dutyTok ER (recvCell c k) 0 0 : sProp 𝕄))]
    iintro ⟨H1, H2, H3⟩
    isplitl [H1]; · iexact H1
    isplitl [H3]; · iexact H3
    iexact H2
  rw [e1, e2]
  exact bigSep_mono fun k _ => hk k

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 33 → ℕ) (c : Dev nD) : iprop(records m ρ K ∗ linear c) ⊢ G' m ρ c := by
  unfold G' ghost
  iintro H; iexists K; iexact H

theorem regroup :
    (bigSep Finset.univ fun c : Dev nD => iprop((bigSep Finset.univ fun j => iprop(∃ κ : ℕ, cellInv ER (ringRd m ρ) κ (kcell (c, j))))
          ∗ (bigSep Finset.univ fun j : Fin 33 => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 33 => iprop(∃ κ : ℕ, cellInv ER (ringRd m ρ) κ (kcell cj))),
    bigSep_congr (s := Finset.univ) (fun (c : Dev nD) _ => bigSep_sep' Finset.univ (fun j : Fin 33 => (atPos ER (kcell (c, j)) 0 ∅ 0 : sProp 𝕄)) (fun j => reached ER (kcell (c, j)) 0)),
    bigSep_sep', ← bigSep_univ_prod (fun cj : Dev nD × Fin 33 => (reached ER (kcell cj) 0 : sProp 𝕄))]
  iintro ⟨HI, ⟨Hat, #HR⟩, Htok⟩
  ihave HK := (BI.bigSep_exists_pi Finset.univ (fun (cj : Dev nD × Fin 33) (κ : ℕ) => (cellInv ER (ringRd m ρ) κ (kcell cj) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun j : Fin 33 => (atPos ER (kcell (c, j)) 0 ∅ 0 : sProp 𝕄)) payToks).symm).trans
      (bigSep_mono fun c _ => show _ ⊢ linear c from Entails.of_eq (by unfold linear; rfl)))
    isplitl [Hat]; · iexact Hat
    iexact Htk

/-- The global step: own and unscoped counters of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- info: 'Cert.KernelRun.glob' depends on axioms: [propext, Classical.choice, Quot.sound] -/
#guard_msgs in #print axioms glob

end Cert.KernelRun

end
-- ==== Proof.KernelRun.Sched.lean ====
/-
  The schedule's tables: for each counter, its duties at round 0, their amounts, what they hand over, and
  the total a wait for the whole round expects (15 units on an entry counter, one slot's credit on a
  departure or arrival counter).
-/
import proofs.«900424_g7700000000000425_dist_diff_noisepred_hshard_i_b2_h64_w64_c64_v7x_i16_f32_1_alg».proof.Proof.KernelRun.Proto

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

omit [FloatOps F] in
theorem send_ne_bar (k : Fin 16) : (SemLoc.dma (sendS k) : SemLoc sig) ≠ .reg barS := fun h => by cases h
omit [FloatOps F] in
theorem recv_ne_bar (k : Fin 16) : (SemLoc.dma (recvS k) : SemLoc sig) ≠ .reg barS := fun h => by cases h
omit [FloatOps F] in
theorem isXfer_send {k : Fin 16} (h : k ≠ 0) : IsXfer (sendCell c k) := ⟨rfl, .inl (by rw [sendIdx_send h]; rfl)⟩
omit [FloatOps F] in
theorem isXfer_recv {k : Fin 16} (h : k ≠ 0) : IsXfer (recvCell c k) := ⟨rfl, .inr (by rw [recvIdx_recv h]; rfl)⟩

theorem duties_bar : (ringRd (F := F) m ρ).duties (barCell c) 0 = Finset.univ.erase 0 := by
  dsimp only [ringRd]; exact if_pos ⟨rfl, rfl, rfl⟩
theorem duties_send {k : Fin 16} (h : k ≠ 0) : (ringRd (F := F) m ρ).duties (sendCell c k) 0 = {0} := by
  dsimp only [ringRd]; rw [if_neg (fun h' => send_ne_bar k h'.2.2)]; exact if_pos ⟨rfl, isXfer_send c h⟩
theorem duties_recv {k : Fin 16} (h : k ≠ 0) : (ringRd (F := F) m ρ).duties (recvCell c k) 0 = {0} := by
  dsimp only [ringRd]; rw [if_neg (fun h' => recv_ne_bar k h'.2.2)]; exact if_pos ⟨rfl, isXfer_recv c h⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 16) : (ringRd (F := F) m ρ).amount (barCell c) 0 d = 1 := by dsimp only [ringRd]; exact if_pos rfl
theorem amount_send (k d : Fin 16) : (ringRd (F := F) m ρ).amount (sendCell c k) 0 d = N := by
  dsimp only [ringRd]; exact if_neg (send_ne_bar k)
theorem amount_recv (k d : Fin 16) : (ringRd (F := F) m ρ).amount (recvCell c k) 0 d = N := by
  dsimp only [ringRd]; exact if_neg (recv_ne_bar k)

theorem expect_bar : (ringRd (F := F) m ρ).expect (barCell c) 0 = 15 := by
  unfold Schedule.expect Schedule.amountOf
  rw [duties_bar, Finset.sum_congr rfl fun d _ => amount_bar m ρ c d, Finset.sum_const, smul_eq_mul, Nat.mul_one]
  decide
theorem expect_send {k : Fin 16} (h : k ≠ 0) : (ringRd (F := F) m ρ).expect (sendCell c k) 0 = N := by
  unfold Schedule.expect Schedule.amountOf; rw [duties_send m ρ c h, Finset.sum_singleton, amount_send]
theorem expect_recv {k : Fin 16} (h : k ≠ 0) : (ringRd (F := F) m ρ).expect (recvCell c k) 0 = N := by
  unfold Schedule.expect Schedule.amountOf; rw [duties_recv m ρ c h, Finset.sum_singleton, amount_recv]

theorem payload_bar (d : Fin 16) : (ringRd (F := F) m ρ).payload (barCell c) 0 d = barPay c d := by
  dsimp only [ringRd]; rw [if_pos rfl]
theorem payload_send {k : Fin 16} (h : k ≠ 0) (d : Fin 16) : (ringRd (F := F) m ρ).payload (sendCell c k) 0 d = sendPay m ρ c k := by
  dsimp only [ringRd]; rw [if_neg (send_ne_bar k)]; simp only [recvIdx_send, sendIdx_send h]
theorem payload_recv {k : Fin 16} (h : k ≠ 0) (d : Fin 16) : (ringRd (F := F) m ρ).payload (recvCell c k) 0 d = recvPay m ρ c k := by
  dsimp only [ringRd]; rw [if_neg (recv_ne_bar k)]; simp only [recvIdx_recv h]

/-- The rest of an entry counter's round, no duty taken: what the 15 others hand over. -/
theorem rest_bar : bigSep ((ringRd (F := F) m ρ).duties (barCell c) 0 \ ∅) (fun d => (ringRd (F := F) m ρ).payload (barCell c) 0 d)
    = bigSep (Finset.univ.erase (0 : Fin 16)) (fun d => barPay (F := F) c d) := by
  rw [Finset.sdiff_empty, duties_bar]
  exact bigSep_congr fun d _ => payload_bar m ρ c d
theorem rest_send {k : Fin 16} (h : k ≠ 0) :
    bigSep ((ringRd (F := F) m ρ).duties (sendCell c k) 0 \ ∅) (fun d => (ringRd (F := F) m ρ).payload (sendCell c k) 0 d) = sendPay m ρ c k := by
  rw [Finset.sdiff_empty, duties_send m ρ c h, bigSep_singleton, payload_send m ρ c h]
theorem rest_recv {k : Fin 16} (h : k ≠ 0) :
    bigSep ((ringRd (F := F) m ρ).duties (recvCell c k) 0 \ ∅) (fun d => (ringRd (F := F) m ρ).payload (recvCell c k) 0 d) = recvPay m ρ c k := by
  rw [Finset.sdiff_empty, duties_recv m ρ c h, bigSep_singleton, payload_recv m ρ c h]

end Sched

end Cert.KernelRun

end
-- ==== Proof.KernelRun.LaunchCredit.lean ====
/-
  The units dealt at launch and the order of waiting.  Every device owes, to each of the 15 others, one unit
  on the other's entry counter and one slot's credit on the other's arrival counter; summed over the payers
  that is 15 units on every entry counter and one slot's credit on every arrival counter 1 … 15.  Staging
  counters sit at level 0, entry counters at 1, arrival counters at 2: a staging counter may be waited on
  while everything owed at launch is still owed.
-/
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.Ghost

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

omit [FloatOps F] in
theorem others_card : others.card = 15 := by decide

omit [FloatOps F] in
/-- Fifteen single units on one counter are fifteen units on it. -/
theorem sum_units (g : GSem nD τ sig) : (∑ _k ∈ others, (tallyAt g () 1 : CellTallies nD τ sig Unit)) = tallyAt g () 15 := by
  rw [Finset.sum_const, others_card]
  funext g'; refine Finsupp.ext fun i => ?_
  rw [Pi.smul_apply, Finsupp.smul_apply, tallyAt_apply, tallyAt_apply, smul_eq_mul]
  split <;> simp

omit [FloatOps F] in
/-- The units every device owes at launch, summed per counter: device `c` is dealt 15 units on its entry counter and a
    slot's credit on each of its arrival counters 1 … 15. -/
theorem creds (c : Dev nD) : (Pipeline.launchCred O₀ c : sProp 𝕄) ⊢ launchCreds c := by
  have h : (O₀ : Dev nD → CellTallies nD τ sig Unit)
      = fun d => (∑ k ∈ others, tallyAt (recvCell (fwd d k) k) () N) + ∑ k ∈ others, tallyAt (barCell (fwd d k)) () 1 := rfl
  have hB : (bigSep others fun k => (Pipeline.launchCred (fun d => tallyAt (barCell (fwd d k)) () 1) c : sProp 𝕄)) ⊢ cred (tallyAt (barCell c) () 15) := by
    rw [← sum_units, Pipeline.cred_finsetSum]
    exact bigSep_mono fun k _ => Pipeline.launchCred_tallyAt (.reg barS) (fun d => fwd d k) (fun d => bwd d k) (fun d => fwd_bwd d k) (fun d => bwd_fwd d k) () 1 c
  have hR : (bigSep others fun k => (Pipeline.launchCred (fun d => tallyAt (recvCell (fwd d k) k) () N) c : sProp 𝕄))
      ⊢ bigSep others fun k => cred (tallyAt (recvCell c k) () N) :=
    bigSep_mono fun k _ => Pipeline.launchCred_tallyAt (.dma (recvS k)) (fun d => fwd d k) (fun d => bwd d k) (fun d => fwd_bwd d k) (fun d => bwd_fwd d k) () N c
  rw [h, Pipeline.launchCred_add, Pipeline.launchCred_sum, Pipeline.launchCred_sum]
  unfold launchCreds
  iintro ⟨HR, HB⟩
  isplitl [HB]
  · iapply hB; iexact HB
  · iapply hR; iexact HR

/-! ## The levels -/

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
/-- A device owes only arrival counters and entry counters of the devices 1 … 15 places ahead. -/
theorem O₀_pos {c : Dev nD} {g : GSem nD τ sig} {u : Unit} (h : 0 < O₀ c g u) :
    ∃ k ∈ others, g = recvCell (fwd c k) k ∨ g = barCell (fwd c k) := by
  unfold O₀ owedFrom at h
  rcases Pipeline.add_pos_cases h with h | h
  · obtain ⟨k, hk, hp⟩ := Pipeline.sum_pos_exists h
    exact ⟨k, hk, .inl (Pipeline.tallyAt_pos hp).1⟩
  · obtain ⟨k, hk, hp⟩ := Pipeline.sum_pos_exists h
    exact ⟨k, hk, .inr (Pipeline.tallyAt_pos hp).1⟩

omit [FloatOps F] in
theorem lv_recv (c : Dev nD) {k : Fin 16} (hk : k ∈ others) : lv (recvCell c k) () = 2 := by
  dsimp only [lv]; rw [if_neg (recv_ne_bar k), recvIdx_recv (Finset.ne_of_mem_erase hk)]; rfl

omit [FloatOps F] in
/-- A staging counter (level 0) may be waited on while owing what is owed at launch (levels 1 and 2), or nothing. -/
theorem mayWait_stage (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have h0 : lv ((c : Thread nD τ), .dma q) () = 0 := by
      dsimp only [lv]; rw [if_neg (fun h => by cases h), hq]; rfl
    obtain ⟨k, hk, rfl | rfl⟩ := O₀_pos hg
    · exact ⟨by rw [L_tc]; exact Finset.mem_singleton_self _, by rw [h0, lv_recv _ hk]; decide⟩
    · refine ⟨by rw [L_tc]; exact Finset.mem_singleton_self _, ?_⟩
      rw [h0]; dsimp only [lv]; rw [if_pos rfl]; decide
  · rw [MayWait_zero]; iintro -; iempintro

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.KernelRun.stage_waits' depends on axioms: [propext, Classical.choice, Quot.sound] -/
#guard_msgs in #print axioms stage_waits

end Cert.KernelRun

end
-- ==== Proof.KernelRun.Launch.lean ====
/-
  The run of the whole program on the 16 devices, from the body's proof on each device.  The launch deals
  every device its starting state (the counters' records, its positions, the tokens of the duties it pays,
  the units it may wait for, the order of waiting) and the table of partial sums at arbitrary contents; at
  the end the table and the device's own counters, closed at zero, are handed back.  Every final state then
  has the input arrays as they began and the result array at what the body left staged at the one point.
-/
import proofs.«900424_g7700000000000425_dist_diff_noisepred_hshard_i_b2_h64_w64_c64_v7x_i16_f32_1_alg».proof.Proof.KernelRun.LaunchFund
import proofs.«900424_g7700000000000425_dist_diff_noisepred_hshard_i_b2_h64_w64_c64_v7x_i16_f32_1_alg».proof.Proof.KernelRun.LaunchCredit

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gathered m ρ c); rw [← scrPts_eq]; iexact Hr

/-! ## The run -/

/-- Every device's arrays end as the proof data says. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On the 16 devices, for any float values, from any memory with every counter at zero: given the body's proof on every
    device, every weakly fair execution of the program terminates, faults nowhere, and every final state has each
    device's arrays at the contents the proof data computes. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input arrays end as they began. -/
theorem final_in0 (c : Dev nD) : (dats m ρ 0 c).arrAt (0 : Fin 3) cfg0.N = m ((c : Thread nD τ).loc main_arg0) :=
  (dats (F := F) m ρ 0 c).arrAt_in (0 : Fin 3) rfl _
theorem final_in1 (c : Dev nD) : (dats m ρ 0 c).arrAt (1 : Fin 3) cfg0.N = m ((c : Thread nD τ).loc main_arg1) :=
  (dats (F := F) m ρ 0 c).arrAt_in (1 : Fin 3) rfl _

/-- The result array ends as what the body left staged at the one point. -/
theorem final_out (c : Dev nD) : (dats m ρ 0 c).arrAt (2 : Fin 3) cfg0.N = outAt m ρ c := by
  show (dats m ρ 0 c).arrAt (2 : Fin 3) ((t₀ : Fin cfg0.N).val + 1) = outAt m ρ c
  rw [Dat.arrAt_succ, flush0_2 t₀, if_pos rfl]
  exact Memref.write_access_unit_zero_univ (Elt F) main_v1 (funext fun _ => Nat.zero_mul _) _ _ (outAt m ρ c)

theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (final_out m ρ c), (h c 0).trans (final_in0 m ρ c), (h c 1).trans (final_in1 m ρ c)⟩)
    (run_main m ρ hbody)

/-- info: 'Cert.KernelRun.run_main' depends on axioms: [propext, Classical.choice, Quot.sound] -/
#guard_msgs in #print axioms run_main

/-- info: 'Cert.KernelRun.run_values' depends on axioms: [propext, Classical.choice, Quot.sound] -/
#guard_msgs in #print axioms run_values

end Cert.KernelRun

end
-- ==== Proof.KernelRun.Claims.lean ====
/-
  The frame of the program on the 16 devices, read off its run: the run's post names the result array and
  both argument arrays of every device; dropping the result leaves the frame.
-/
import proofs.«900424_g7700000000000425_dist_diff_noisepred_hshard_i_b2_h64_w64_c64_v7x_i16_f32_1_alg».proof.Proof.KernelRun.Launch

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The frame: given the body's proof on every device from every memory, from any memory with every counter at zero the
    program runs to the end on the 16 devices, faults nowhere, and both argument arrays of every device end as they began. -/
theorem frame_of_body
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_values m ρ (hbody m ρ))

/-- info: 'Cert.KernelRun.frame_of_body' depends on axioms: [propext, Classical.choice, Quot.sound] -/
#guard_msgs in #print axioms frame_of_body

end Cert.KernelRun

end
-- ==== Proof.KernelIdealRun.PhaseDefs.lean ====
/-
  The body's four repeated phases as programs over a list of ring offsets: an entry unit to each device
  ahead, a copy of slot 0 to each device ahead, and a wait on each arrival or departure counter; and the
  units still owed while a phase runs, as sums over the offsets not yet served.
-/
import proofs.«900424_g7700000000000425_dist_diff_noisepred_hshard_i_b2_h64_w64_c64_v7x_i16_f32_1_alg».proof.Proof.KernelIdealRun.Proto
import proofs.«900424_g7700000000000425_dist_diff_noisepred_hshard_i_b2_h64_w64_c64_v7x_i16_f32_1_alg».proof.Proof.KernelIdealRun.Ghost

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type}

/-- One entry unit to the device `j` places ahead, for each `j` of the list in order, then `k`. -/
def sigs (c : Dev nD) : List (Fin 16) → Prog (TpuEff nD τ sig (Elt F) Λ₀ .tc) α → Prog (TpuEff nD τ sig (Elt F) Λ₀ .tc) α
  | [], k => k
  | j :: l, k => .op (.semSignal (fwd c j : Thread nD τ) barS 1) fun _ => sigs c l k

/-- One copy of slot 0 into slot `j` of the device `dv j` (which will be the device `j` places ahead), crediting the
    departure counter `j` here and the arrival counter `j` there, for each `j` of the list in order, then `k`. The target
    device is a family of its own because the program computes it by its own arithmetic. -/
def sends (dv : Fin 16 → Dev nD)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j))) :
    List (Fin 16) → Prog (TpuEff nD τ sig (Elt F) Λ₀ .tc) α → Prog (TpuEff nD τ sig (Elt F) Λ₀ .tc) α
  | [], k => k
  | j :: l, k => .op (.enqueueDma (slotM 0 : Memref sig .tc .vmem S2x2x64 .f32)
      (.remote (dv j : Thread nD τ) (slotM j : Memref sig .tc .vmem S2x2x64 .f32) (.dma (sendS j)) (hsc j))
      (.dma (recvS j)) hsrc (hdst j) (hsem j)) fun _ => sends dv hsc hsrc hdst hsem l k

/-- The operation `w j` (a wait) for each `j` of the list in order, then `k`. -/
def waits (w : Fin 16 → TpuEff nD τ sig (Elt F) Λ₀ .tc PUnit) :
    List (Fin 16) → Prog (TpuEff nD τ sig (Elt F) Λ₀ .tc) α → Prog (TpuEff nD τ sig (Elt F) Λ₀ .tc) α
  | [], k => k
  | j :: l, k => .op (w j) fun _ => waits w l k

/-- The entry units owed to the devices at the offsets of `l`. -/
def barOwed (c : Dev nD) (l : List (Fin 16)) : CellTallies nD τ sig Unit := (l.map fun j => tallyAt (barCell (fwd c j)) () 1).sum
/-- The arrivals owed to the devices at the offsets of `l`. -/
def recvOwed (c : Dev nD) (l : List (Fin 16)) : CellTallies nD τ sig Unit := (l.map fun j => tallyAt (recvCell (fwd c j) j) () N).sum

/-- The offsets 1 … 15 in order. -/
def L15 : List (Fin 16) := [1, 2, 3, 4, 5, 6, 7, 8, 9, 10, 11, 12, 13, 14, 15]

theorem L15_nodup : L15.Nodup := by decide
theorem L15_toFinset : L15.toFinset = others := by decide
theorem L15_ne_zero : ∀ j ∈ L15, j ≠ 0 := by decide

/-- Every slot credits the same number of units. -/
theorem slot_credit (k : Fin 16) : (slotM k : Memref sig .tc .vmem S2x2x64 .f32).view.dmaCredit = N := by revert k; decide

end Cert.KernelIdealRun

end
-- ==== Proof.KernelIdealRun.Slots.lean ====
/-
  The table of partial sums, cut into its 16 slots.

  The table is 16 × 2 × 2 × 64; slot k is the rectangle of the indices whose first coordinate is k.  The 16
  slots are pairwise disjoint and cover the table, so holding the table is holding the 16 slots, and any one
  slot can be carved out of a part of the table that contains it.  Slot 0 is in turn the two rows (second
  coordinate 0 and 1) a device stores its own sums and sums of squares into.
-/
import proofs.«900424_g7700000000000425_dist_diff_noisepred_hshard_i_b2_h64_w64_c64_v7x_i16_f32_1_alg».proof.Proof.KernelIdealRun.Proto

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots' index sets -/

/-- The table's indices under slot `k`. -/
abbrev slotSet (k : Fin 16) : Finset (cc0_scratch0 : Ref sig .tc).ty.Idx :=
  (slotM k : Memref sig .tc .vmem S2x2x64 .f32).view.set

/-- Slot `k` is the rectangle of all indices whose first coordinate is `k`. -/
theorem slotSet_eq (k : Fin 16) :
    slotSet k = (Rect.unit (s := S16x2x2x64) ![k.val, 0, 0, 0] S1x2x2x64.size (slot_inb k)).set := by
  show ((((Memref.whole cc0_scratch0 : Memref sig .tc .vmem S16x2x2x64 .f32).view.slice _).reshape _ _ : View sig .tc .vmem S2x2x64 .f32)).set = _
  rw [View.set_reshape]
  exact View.set_slice_whole cc0_scratch0 _

theorem mem_slotSet {k : Fin 16} {i : (cc0_scratch0 : Ref sig .tc).ty.Idx} : i ∈ slotSet k ↔ (i 0).val = k.val := by
  rw [slotSet_eq, Rect.mem_set_unit]
  constructor
  · intro h
    have h0 := h 0
    have e0 : (![k.val, 0, 0, 0] : Fin 4 → Nat) 0 = k.val := rfl
    have s0 : S1x2x2x64.size 0 = 1 := rfl
    rw [e0, s0] at h0
    omega
  · intro h a
    have h1 : (i 1).val < 2 := (i 1).isLt
    have h2 : (i 2).val < 2 := (i 2).isLt
    have h3 : (i 3).val < 64 := (i 3).isLt
    match a with
    | ⟨0, _⟩ => exact ⟨le_of_eq h.symm, by show (i 0).val < k.val + 1; omega⟩
    | ⟨1, _⟩ => exact ⟨Nat.zero_le _, by show (i 1).val < 0 + 2; omega⟩
    | ⟨2, _⟩ => exact ⟨Nat.zero_le _, by show (i 2).val < 0 + 2; omega⟩
    | ⟨3, _⟩ => exact ⟨Nat.zero_le _, by show (i 3).val < 0 + 64; omega⟩

/-- Different slots share no index. -/
theorem slotSet_disjoint {k k' : Fin 16} (h : k ≠ k') : Disjoint (slotSet k) (slotSet k') :=
  Finset.disjoint_left.mpr fun i hi hi' =>
    h (Fin.ext ((mem_slotSet.mp hi).symm.trans (mem_slotSet.mp hi')))

/-- Every index of the table lies in the slot its first coordinate names. -/
theorem mem_slotSet_self (i : (cc0_scratch0 : Ref sig .tc).ty.Idx) : i ∈ slotSet ⟨(i 0).val, (i 0).isLt⟩ :=
  mem_slotSet.mpr rfl

/-- The 16 slots cover the table. -/
theorem slotSet_cover : (Finset.univ : Finset (Fin 16)).biUnion slotSet = Finset.univ :=
  Finset.eq_univ_iff_forall.mpr fun i =>
    Finset.mem_biUnion.mpr ⟨⟨(i 0).val, (i 0).isLt⟩, Finset.mem_univ _, mem_slotSet_self i⟩

/-! ## The two rows a device stores into its own slot -/

/-- Row 0 of slot 0 (the sums) and row 1 of slot 0 (the sums of squares), as the two stores address them. -/
abbrev R0 : Rect S16x2x2x64 := Rect.unit (s := S16x2x2x64) ![0, 0, 0, 0] S1x1x2x64.size inb_S16x2x2x64_S1x1x2x64_0_0_0_0
abbrev R1 : Rect S16x2x2x64 := Rect.unit (s := S16x2x2x64) ![0, 1, 0, 0] S1x1x2x64.size inb_S16x2x2x64_S1x1x2x64_0_1_0_0

theorem mem_R0 {i : S16x2x2x64.Idx} : i ∈ R0.set ↔ (i 0).val = 0 ∧ (i 1).val = 0 := by
  rw [Rect.mem_set_unit]
  have h2 : (i 2).val < 2 := (i 2).isLt
  have h3 : (i 3).val < 64 := (i 3).isLt
  constructor
  · intro h
    have a0 : (i 0).val < 0 + 1 := (h 0).2
    have a1 : (i 1).val < 0 + 1 := (h 1).2
    exact ⟨by omega, by omega⟩
  · intro h a
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 2; omega⟩
    | ⟨3, _⟩ => exact ⟨Nat.zero_le _, by show (i 3).val < 0 + 64; omega⟩

theorem mem_R1 {i : S16x2x2x64.Idx} : i ∈ R1.set ↔ (i 0).val = 0 ∧ (i 1).val = 1 := by
  rw [Rect.mem_set_unit]
  have h2 : (i 2).val < 2 := (i 2).isLt
  have h3 : (i 3).val < 64 := (i 3).isLt
  constructor
  · intro h
    have a0 : (i 0).val < 0 + 1 := (h 0).2
    have a1l : 1 ≤ (i 1).val := (h 1).1
    have a1 : (i 1).val < 1 + 1 := (h 1).2
    exact ⟨by omega, by omega⟩
  · intro h a
    match a with
    | ⟨0, _⟩ => exact ⟨Nat.zero_le _, by show (i 0).val < 0 + 1; omega⟩
    | ⟨1, _⟩ => exact ⟨by show 1 ≤ (i 1).val; omega, by show (i 1).val < 1 + 1; omega⟩
    | ⟨2, _⟩ => exact ⟨Nat.zero_le _, by show (i 2).val < 0 + 2; omega⟩
    | ⟨3, _⟩ => exact ⟨Nat.zero_le _, by show (i 3).val < 0 + 64; omega⟩

theorem R0_subset : R0.set ⊆ slotSet 0 := fun i hi => mem_slotSet.mpr (mem_R0.mp hi).1
theorem R1_subset : R1.set ⊆ slotSet 0 := fun i hi => mem_slotSet.mpr (mem_R1.mp hi).1
theorem R0_disjoint_R1 : Disjoint R0.set R1.set :=
  Finset.disjoint_left.mpr fun i h0 h1 => by
    have := (mem_R0.mp h0).2; have := (mem_R1.mp h1).2; omega
theorem R0_union_R1 : R0.set ∪ R1.set = slotSet 0 := by
  ext i
  rw [Finset.mem_union, mem_R0, mem_R1, mem_slotSet]
  have h1 : (i 1).val < 2 := (i 1).isLt
  show _ ↔ (i 0).val = 0
  constructor
  · rintro (h | h) <;> exact h.1
  · intro h
    by_cases h' : (i 1).val = 0
    · exact .inl ⟨h, h'⟩
    · exact .inr ⟨h, by omega⟩
/-- An index of slot 0 is in the first row or in the second. -/
theorem mem_slotSet_zero {i : (cc0_scratch0 : Ref sig .tc).ty.Idx} (h : i ∈ slotSet 0) : i ∈ R0.set ∨ i ∈ R1.set :=
  Finset.mem_union.mp (R0_union_R1 ▸ h)

/-! ## The table held whole is its 16 slots held one by one -/

/-- The table held at share `q` and contents `f` is its 16 slots, each held at `q` and `f`. -/
theorem scr_slots_eq (c : Dev nD) (q : PosShare TreeShare) (f : Buf (Elt F) ((c : Thread nD τ).loc cc0_scratch0)) :
    (((c : Thread nD τ).loc cc0_scratch0) ↦[Finset.univ]{q} f : sProp 𝕄) = bigSep Finset.univ fun k : Fin 16 => slotPts c k q f := by
  have h := pointsTo_biUnion (nD := nD) (τ := τ) (sig := sig) (Ix := Unit) (Val := Elt F) (Name := ℕ) (U := UU) (Lvl := ℕ)
    (ℓ := (c : Thread nD τ).loc cc0_scratch0) (q := q) (f := f) (Finset.univ : Finset (Fin 16)) slotSet
    (fun k _ k' _ hk => slotSet_disjoint hk)
  rw [slotSet_cover] at h
  exact h

theorem scr_slots (c : Dev nD) (q : PosShare TreeShare) (f : Buf (Elt F) ((c : Thread nD τ).loc cc0_scratch0)) :
    (((c : Thread nD τ).loc cc0_scratch0) ↦[Finset.univ]{q} f : sProp 𝕄) ⊣⊢ bigSep Finset.univ fun k : Fin 16 => slotPts c k q f :=
  BiEntails.of_eq (scr_slots_eq c q f)

/-- One slot carved out of any part of the table that contains it, and put back. -/
theorem scr_peel (c : Dev nD) (k : Fin 16) (q : PosShare TreeShare) (f : Buf (Elt F) ((c : Thread nD τ).loc cc0_scratch0))
    {S : Finset (cc0_scratch0 : Ref sig .tc).ty.Idx} (h : slotSet k ⊆ S) :
    (((c : Thread nD τ).loc cc0_scratch0) ↦[S]{q} f : sProp 𝕄)
      ⊣⊢ iprop(slotPts c k q f ∗ (((c : Thread nD τ).loc cc0_scratch0) ↦[S \ slotSet k]{q} f)) :=
  pointsTo_split_subset h

/-- info: 'Cert.KernelIdealRun.scr_slots' depends on axioms: [propext, Classical.choice, Quot.sound] -/
#guard_msgs in #print axioms scr_slots

/-- info: 'Cert.KernelIdealRun.scr_peel' depends on axioms: [propext, Classical.choice, Quot.sound] -/
#guard_msgs in #print axioms scr_peel

/-- info: 'Cert.KernelIdealRun.R0_union_R1' depends on axioms: [propext, Classical.choice, Quot.sound] -/
#guard_msgs in #print axioms R0_union_R1

end Cert.KernelIdealRun

end
-- ==== Proof.KernelIdealRun.SlotsDev.lean ====
/-
  The devices a device addresses.  The program computes the target of its j-th entry signal and of its j-th
  copy as (own position + j) mod 16 through a chain of word operations; each chain is the device j places
  ahead on the ring.
-/
import proofs.«900424_g7700000000000425_dist_diff_noisepred_hshard_i_b2_h64_w64_c64_v7x_i16_f32_1_alg».proof.Proof.KernelIdealRun.Proto

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The targets of the 15 entry signals (chains 1 … 15) and of the 15 copies (chains 16 … 30) -/

theorem dev1_eq (c : Dev nD) : (⟨k0_dev1 c, k0_dev1_lt c⟩ : Dev nD) = fwd c 1 := Fin.ext ((k0_dev1_eq c).trans (by rfl))
theorem dev2_eq (c : Dev nD) : (⟨k0_dev2 c, k0_dev2_lt c⟩ : Dev nD) = fwd c 2 := Fin.ext ((k0_dev2_eq c).trans (by rfl))
theorem dev3_eq (c : Dev nD) : (⟨k0_dev3 c, k0_dev3_lt c⟩ : Dev nD) = fwd c 3 := Fin.ext ((k0_dev3_eq c).trans (by rfl))
theorem dev4_eq (c : Dev nD) : (⟨k0_dev4 c, k0_dev4_lt c⟩ : Dev nD) = fwd c 4 := Fin.ext ((k0_dev4_eq c).trans (by rfl))
theorem dev5_eq (c : Dev nD) : (⟨k0_dev5 c, k0_dev5_lt c⟩ : Dev nD) = fwd c 5 := Fin.ext ((k0_dev5_eq c).trans (by rfl))
theorem dev6_eq (c : Dev nD) : (⟨k0_dev6 c, k0_dev6_lt c⟩ : Dev nD) = fwd c 6 := Fin.ext ((k0_dev6_eq c).trans (by rfl))
theorem dev7_eq (c : Dev nD) : (⟨k0_dev7 c, k0_dev7_lt c⟩ : Dev nD) = fwd c 7 := Fin.ext ((k0_dev7_eq c).trans (by rfl))
theorem dev8_eq (c : Dev nD) : (⟨k0_dev8 c, k0_dev8_lt c⟩ : Dev nD) = fwd c 8 := Fin.ext ((k0_dev8_eq c).trans (by rfl))
theorem dev9_eq (c : Dev nD) : (⟨k0_dev9 c, k0_dev9_lt c⟩ : Dev nD) = fwd c 9 := Fin.ext ((k0_dev9_eq c).trans (by rfl))
theorem dev10_eq (c : Dev nD) : (⟨k0_dev10 c, k0_dev10_lt c⟩ : Dev nD) = fwd c 10 := Fin.ext ((k0_dev10_eq c).trans (by rfl))
theorem dev11_eq (c : Dev nD) : (⟨k0_dev11 c, k0_dev11_lt c⟩ : Dev nD) = fwd c 11 := Fin.ext ((k0_dev11_eq c).trans (by rfl))
theorem dev12_eq (c : Dev nD) : (⟨k0_dev12 c, k0_dev12_lt c⟩ : Dev nD) = fwd c 12 := Fin.ext ((k0_dev12_eq c).trans (by rfl))
theorem dev13_eq (c : Dev nD) : (⟨k0_dev13 c, k0_dev13_lt c⟩ : Dev nD) = fwd c 13 := Fin.ext ((k0_dev13_eq c).trans (by rfl))
theorem dev14_eq (c : Dev nD) : (⟨k0_dev14 c, k0_dev14_lt c⟩ : Dev nD) = fwd c 14 := Fin.ext ((k0_dev14_eq c).trans (by rfl))
theorem dev15_eq (c : Dev nD) : (⟨k0_dev15 c, k0_dev15_lt c⟩ : Dev nD) = fwd c 15 := Fin.ext ((k0_dev15_eq c).trans (by rfl))
theorem dev16_eq (c : Dev nD) : (⟨k0_dev16 c, k0_dev16_lt c⟩ : Dev nD) = fwd c 1 := Fin.ext ((k0_dev16_eq c).trans (by rfl))
theorem dev17_eq (c : Dev nD) : (⟨k0_dev17 c, k0_dev17_lt c⟩ : Dev nD) = fwd c 2 := Fin.ext ((k0_dev17_eq c).trans (by rfl))
theorem dev18_eq (c : Dev nD) : (⟨k0_dev18 c, k0_dev18_lt c⟩ : Dev nD) = fwd c 3 := Fin.ext ((k0_dev18_eq c).trans (by rfl))
theorem dev19_eq (c : Dev nD) : (⟨k0_dev19 c, k0_dev19_lt c⟩ : Dev nD) = fwd c 4 := Fin.ext ((k0_dev19_eq c).trans (by rfl))
theorem dev20_eq (c : Dev nD) : (⟨k0_dev20 c, k0_dev20_lt c⟩ : Dev nD) = fwd c 5 := Fin.ext ((k0_dev20_eq c).trans (by rfl))
theorem dev21_eq (c : Dev nD) : (⟨k0_dev21 c, k0_dev21_lt c⟩ : Dev nD) = fwd c 6 := Fin.ext ((k0_dev21_eq c).trans (by rfl))
theorem dev22_eq (c : Dev nD) : (⟨k0_dev22 c, k0_dev22_lt c⟩ : Dev nD) = fwd c 7 := Fin.ext ((k0_dev22_eq c).trans (by rfl))
theorem dev23_eq (c : Dev nD) : (⟨k0_dev23 c, k0_dev23_lt c⟩ : Dev nD) = fwd c 8 := Fin.ext ((k0_dev23_eq c).trans (by rfl))
theorem dev24_eq (c : Dev nD) : (⟨k0_dev24 c, k0_dev24_lt c⟩ : Dev nD) = fwd c 9 := Fin.ext ((k0_dev24_eq c).trans (by rfl))
theorem dev25_eq (c : Dev nD) : (⟨k0_dev25 c, k0_dev25_lt c⟩ : Dev nD) = fwd c 10 := Fin.ext ((k0_dev25_eq c).trans (by rfl))
theorem dev26_eq (c : Dev nD) : (⟨k0_dev26 c, k0_dev26_lt c⟩ : Dev nD) = fwd c 11 := Fin.ext ((k0_dev26_eq c).trans (by rfl))
theorem dev27_eq (c : Dev nD) : (⟨k0_dev27 c, k0_dev27_lt c⟩ : Dev nD) = fwd c 12 := Fin.ext ((k0_dev27_eq c).trans (by rfl))
theorem dev28_eq (c : Dev nD) : (⟨k0_dev28 c, k0_dev28_lt c⟩ : Dev nD) = fwd c 13 := Fin.ext ((k0_dev28_eq c).trans (by rfl))
theorem dev29_eq (c : Dev nD) : (⟨k0_dev29 c, k0_dev29_lt c⟩ : Dev nD) = fwd c 14 := Fin.ext ((k0_dev29_eq c).trans (by rfl))
theorem dev30_eq (c : Dev nD) : (⟨k0_dev30 c, k0_dev30_lt c⟩ : Dev nD) = fwd c 15 := Fin.ext ((k0_dev30_eq c).trans (by rfl))

/-- info: 'Cert.KernelIdealRun.dev30_eq' depends on axioms: [propext, Quot.sound] -/
#guard_msgs in #print axioms dev30_eq

end Cert.KernelIdealRun

end
-- ==== Proof.KernelIdealRun.Model.lean ====
/-
  One device's body, after it has read its place on the ring, as the four repeated phases around the few
  local steps: the 15 entry units; the block loaded and its sums and sums of squares stored into slot 0;
  the wait for the 15 others' units; the 15 copies of slot 0; the waits for the 15 arrivals; the table, the
  matrix loaded, the result stored; the waits for the 15 departures.
-/
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Slots
import proofs.«900424_g7700000000000425_dist_diff_noisepred_hshard_i_b2_h64_w64_c64_v7x_i16_f32_1_alg».proof.Proof.KernelIdealRun.SlotsDev

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole table, the whole block, the whole matrix, the whole result. -/
abbrev RT : Rect S16x2x2x64 := Rect.unit (s := S16x2x2x64) ![0, 0, 0, 0] S16x2x2x64.size inb_S16x2x2x64_S16x2x2x64_0_0_0_0
abbrev RX : Rect S2x64x64x64 := Rect.unit (s := S2x64x64x64) ![0, 0, 0, 0] S2x64x64x64.size inb_S2x64x64x64_S2x64x64x64_0_0_0_0
abbrev RW : Rect S64x128 := Rect.unit (s := S64x128) ![0, 0] S64x128.size inb_S64x128_S64x128_0_0
abbrev RO : Rect S2x64x64x128 := Rect.unit (s := S2x64x64x128) ![0, 0, 0, 0] S2x64x64x128.size inb_S2x64x64x128_S2x64x64x128_0_0_0_0

abbrev xM : Memref sig .tc .vmem S2x64x64x64 .f32 := Memref.whole cc0_stg0_0
abbrev wM : Memref sig .tc .vmem S64x128 .f32 := Memref.whole cc0_stg1_0
abbrev oM : Memref sig .tc .vmem S2x64x64x128 .f32 := Memref.whole cc0_stg2_0

/-- The device copy `j` is addressed to, as the program computes it (the device `j` places ahead: `devCopy_eq`). -/
def devCopy (c : Dev nD) (j : Fin 16) : Dev nD :=
  match j with
  | ⟨1, _⟩ => ⟨k0_dev16 c, k0_dev16_lt c⟩ | ⟨2, _⟩ => ⟨k0_dev17 c, k0_dev17_lt c⟩ | ⟨3, _⟩ => ⟨k0_dev18 c, k0_dev18_lt c⟩
  | ⟨4, _⟩ => ⟨k0_dev19 c, k0_dev19_lt c⟩ | ⟨5, _⟩ => ⟨k0_dev20 c, k0_dev20_lt c⟩ | ⟨6, _⟩ => ⟨k0_dev21 c, k0_dev21_lt c⟩
  | ⟨7, _⟩ => ⟨k0_dev22 c, k0_dev22_lt c⟩ | ⟨8, _⟩ => ⟨k0_dev23 c, k0_dev23_lt c⟩ | ⟨9, _⟩ => ⟨k0_dev24 c, k0_dev24_lt c⟩
  | ⟨10, _⟩ => ⟨k0_dev25 c, k0_dev25_lt c⟩ | ⟨11, _⟩ => ⟨k0_dev26 c, k0_dev26_lt c⟩ | ⟨12, _⟩ => ⟨k0_dev27 c, k0_dev27_lt c⟩
  | ⟨13, _⟩ => ⟨k0_dev28 c, k0_dev28_lt c⟩ | ⟨14, _⟩ => ⟨k0_dev29 c, k0_dev29_lt c⟩ | ⟨15, _⟩ => ⟨k0_dev30 c, k0_dev30_lt c⟩
  | _ => c

omit [FloatOps F] in
theorem devCopy_eq (c : Dev nD) (j : Fin 16) : devCopy c j = fwd c j := by
  fin_cases j
  · exact (fwd_zero c).symm
  · exact dev16_eq c
  · exact dev17_eq c
  · exact dev18_eq c
  · exact dev19_eq c
  · exact dev20_eq c
  · exact dev21_eq c
  · exact dev22_eq c
  · exact dev23_eq c
  · exact dev24_eq c
  · exact dev25_eq c
  · exact dev26_eq c
  · exact dev27_eq c
  · exact dev28_eq c
  · exact dev29_eq c
  · exact dev30_eq c

omit [FloatOps F] in
theorem slot_hsc (c : Dev nD) (j : Fin 16) :
    (slotM j : Memref sig (devCopy c j : Thread nD τ).2.kind .vmem S2x2x64 .f32).view.ref.isScScratch = false := rfl
omit [FloatOps F] in
theorem slot_wordExact (j : Fin 16) : (slotM j : Memref sig .tc .vmem S2x2x64 .f32).view.WordExact :=
  (View.wordExact_bits rfl).reshape _ _
omit [FloatOps F] in
theorem slot_hsem (c : Dev nD) (j : Fin 16) : DmaTarget.Typed (p := .tc) .vmem (.dma (recvS j))
    (.remote (devCopy c j : Thread nD τ) (slotM j : Memref sig .tc .vmem S2x2x64 .f32) (.dma (sendS j)) (slot_hsc c j)) :=
  ⟨⟨rfl, Or.inl rfl⟩, trivial⟩

/-- The wait for the arrival in slot `j`. -/
abbrev wR (j : Fin 16) : TpuEff nD τ sig (Elt F) Λ₀ .tc PUnit :=
  .waitDma2 (recvS j) (slotM 0 : Memref sig .tc .vmem S2x2x64 .f32) (slotM j : Memref sig .tc .vmem S2x2x64 .f32) (slot_wordExact 0) (slot_wordExact j)
/-- The wait for the departure of copy `j`. -/
abbrev wS (j : Fin 16) : TpuEff nD τ sig (Elt F) Λ₀ .tc PUnit :=
  .waitDma2 (sendS j) (slotM j : Memref sig .tc .vmem S2x2x64 .f32) (slotM 0 : Memref sig .tc .vmem S2x2x64 .f32) (slot_wordExact j) (slot_wordExact 0)

/-- The body's end: the table, the matrix loaded, the result stored, the waits for the 15 departures. -/
def modelEnd (c : Dev nD) (v64 : Vec F S2x64x64x64 .f32) : Prog (TpuEff nD τ sig (Elt F) Λ₀ .tc) PUnit :=
  .op (.load scr RT.toLoadRect (View.loadsAt_vmem h_S16x2x2x64)) fun v376 =>
  .op (.load wM RW.toLoadRect (View.loadsAt_vmem h_S64x128)) fun v407 =>
  .op (.load oM RO.toLoadRect (View.loadsAt_vmem h_S2x64x64x128)) fun _ =>
  .op (.store oM RO (k0_pay6 (k0_pay1 v64) v376 v407) Finset.univ (View.stores_vmem_bits_univ h_S2x64x64x128 rfl) (.inl rfl)) fun _ =>
  waits wS L15 (.ret ⟨⟩)

/-- The body's middle: the 15 copies of slot 0 and the waits for the 15 arrivals, then the end. -/
def modelMid (c : Dev nD) (v64 : Vec F S2x64x64x64 .f32) : Prog (TpuEff nD τ sig (Elt F) Λ₀ .tc) PUnit :=
  sends (devCopy c) (slot_hsc c) (slot_wordExact 0) slot_wordExact (slot_hsem c) L15 <|
  waits wR L15 <| modelEnd c v64

/-- The body of device `c`: the 15 entry units, the block loaded and its sums stored into slot 0, the wait for the 15
    others' units, then the middle. -/
def model (c : Dev nD) : Prog (TpuEff nD τ sig (Elt F) Λ₀ .tc) PUnit :=
  sigs c L15 <|
  .op (.load xM RX.toLoadRect (View.loadsAt_vmem h_S2x64x64x64)) fun v64 =>
  .op (.load scr R0.toLoadRect (View.loadsAt_vmem h_S1x1x2x64)) fun _ =>
  .op (.store scr R0 (k0_pay3 v64) Finset.univ (View.stores_vmem_bits_univ h_S1x1x2x64 rfl) (.inl rfl)) fun _ =>
  .op (.load scr R1.toLoadRect (View.loadsAt_vmem h_S1x1x2x64)) fun _ =>
  .op (.store scr R1 (k0_pay5 (k0_pay4 v64)) Finset.univ (View.stores_vmem_bits_univ h_S1x1x2x64 rfl) (.inl rfl)) fun _ =>
  .op (.semWait barS 15) fun _ => modelMid c v64

end Cert.KernelIdealRun

end
-- ==== Proof.KernelIdealRun.Stages.lean ====
/-
  What a device holds at the body's start and at two points inside it: after the wait for the others'
  entry units (it then may write slot k of the device k places ahead, for every k), and after the waits
  for the 15 arrivals (its own slots 1 … 15 then hold the others' sums; the copies may still be reading
  slot 0, of which it keeps a share).
-/
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.Sched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's precondition with the counters' names `K` fixed. -/
def bodyPre (K : Dev nD × Fin 33 → ℕ) (c : Dev nD) : sProp 𝕄 :=
  iprop((ghost m ρ K c ∗ launchCreds c ∗ levAts L lv ∗ ∃ f, scrPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The three staged arrays as the body keeps them: the block, the matrix, and the result's buffer at any contents. -/
def stagedIn (c : Dev nD) : sProp 𝕄 :=
  iprop(stg c cc0_stg0_0 (xstg m ρ c) ∗ stg c cc0_stg1_0 (wstg m ρ c) ∗ ∃ g, stg c cc0_stg2_0 g)

/-- The positions on the device's own departure and arrival counters: the two never-used ones at round 0, the
    departures at round 0, the arrivals at round `r`. -/
def xferPos (c : Dev nD) (r : ℕ) : sProp 𝕄 :=
  iprop(atPos ER (sendCell c 0) 0 ∅ 0 ∗ atPos ER (recvCell c 0) 0 ∅ 0
    ∗ (bigSep others fun k => atPos ER (sendCell c k) 0 ∅ 0) ∗ bigSep others fun k => atPos ER (recvCell c k) r ∅ 0)

/-- After the wait for the others' entry units: the arrivals still owed, the tokens of the 15 departures and
    arrivals to pay, the credit of the own arrival counters, slot 0 at the device's sums, and for every `k`
    slot `k` of the device `k` places ahead. -/
def cut1 (K : Dev nD × Fin 33 → ℕ) (c : Dev nD) : sProp 𝕄 :=
  iprop(records m ρ K ∗ levAts L lv ∗ (∃ W, owes (c : Thread nD τ) (recvOwed c L15) W) ∗ xferPos c 0
    ∗ (bigSep others fun k => dutyTok ER (sendCell c k) 0 0) ∗ (bigSep others fun k => dutyTok ER (recvCell (fwd c k) k) 0 0)
    ∗ (bigSep others fun k => cred (tallyAt (recvCell c k) () N))
    ∗ slotPts c 0 fullShare (gathered m ρ c)
    ∗ (bigSep others fun k => iprop(∃ f, slotPts (fwd c k) k fullShare f))
    ∗ stagedIn m ρ c)

/-- After the waits for the 15 arrivals: nothing owed, the credit of the own departure counters, slot 0 through the
    kept share and the share no copy uses, the slots 1 … 15 at the others' sums. -/
def cut2 (K : Dev nD × Fin 33 → ℕ) (c : Dev nD) : sProp 𝕄 :=
  iprop(records m ρ K ∗ (∃ W, owes (c : Thread nD τ) 0 W) ∗ xferPos c 1
    ∗ (bigSep others fun k => cred (tallyAt (sendCell c k) () N))
    ∗ slotPts c 0 (Transfers.shareDrop fullShare 16) (gathered m ρ c) ∗ slotPts c 0 (Transfers.shareTok fullShare 16 0) (gathered m ρ c)
    ∗ (bigSep others fun k => slotPts c k fullShare (gathered m ρ c))
    ∗ stagedIn m ρ c)

end Cert.KernelIdealRun

end
-- ==== Proof.KernelIdealRun.BodyModel.lean ====
/-
  The body as the printer wrote it against the body as the proof reads it.

  The printed body is cut into twenty parts and spells each entry unit and the entry wait through a word
  of scalar memory, each target device through its own arithmetic.  Opening the parts, reading the words
  as the numbers they hold and naming each target as the device so many places ahead on the ring gives,
  step for step, the model: the 15 entry units, the local stores, the entry wait, the 15 copies, the waits
  for the arrivals, the result, the waits for the departures.
-/
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.SlotsDev

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed body is the model -/

set_option maxRecDepth 65536 in
set_option maxHeartbeats 1600000 in
/-- The body as printed, with its parts opened, its device arithmetic named and its word-sized signals and waits
    read as signals and waits, is the model: the two programs have the same steps. -/
theorem wp_body_of_model (c : Dev nD) (Kt : PUnit → sProp 𝕄) :
    wp frame (wpE (defs₀ (F := F)) 𝒱₀ (c : Thread nD τ) none) Set.univ (model (F := F) c) Kt
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c]
  exact BI.Entails.refl _

/-- info: 'Cert.KernelIdealRun.wp_body_of_model' depends on axioms: [propext, Classical.choice, Quot.sound] -/
#guard_msgs in #print axioms wp_body_of_model

end Cert.KernelIdealRun

end
-- ==== Proof.KernelIdealRun.Reindex.lean ====
/-
  Re-indexing: the offsets 1 … 15 are permuted by k ↦ 16 - k; a device's 33 counters are its entry counter,
  16 departure and 16 arrival counters; its 32 own counters are the 16 departure and the 16 arrival counters;
  a separating conjunction over the offsets 1 … 15 is the one over their list.
-/
import proofs.«900424_g7700000000000425_dist_diff_noisepred_hshard_i_b2_h64_w64_c64_v7x_i16_f32_1_alg».proof.Proof.KernelIdealRun.PhaseDefs

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem others_image_opp : others.image opp = others := by decide
omit [FloatOps F] in
theorem opp_injOn : Set.InjOn opp (others : Finset (Fin 16)) := fun a _ b _ h => by
  have := congrArg opp h; rwa [opp_opp, opp_opp] at this

omit [FloatOps F] in
/-- Over the offsets 1 … 15, a conjunction may be taken at 16 - j instead of j. -/
theorem bigSep_opp (Φ : Fin 16 → sProp 𝕄) : bigSep others Φ = bigSep others (fun j => Φ (opp j)) := by
  have h := bigSep_image_of_injOn (s := others) opp_injOn Φ
  rwa [others_image_opp] at h

omit [FloatOps F] in
theorem bigSep_others_list (Φ : Fin 16 → sProp 𝕄) : bigSep others Φ = bigSepL L15 Φ :=
  bigSep_eq_bigSepL_of_eq L15 L15_toFinset.symm L15_nodup Φ

omit [FloatOps F] in
theorem jS_injective : Function.Injective jS := fun a b h => Fin.ext (by have := congrArg Fin.val h; simp only [jS] at this; omega)
omit [FloatOps F] in
theorem jR_injective : Function.Injective jR := fun a b h => Fin.ext (by have := congrArg Fin.val h; simp only [jR] at this; omega)

omit [FloatOps F] in
/-- A device's 33 counters: the entry counter, the 16 departure counters, the 16 arrival counters. -/
theorem bigSep_fin33 (Φ : Fin 33 → sProp 𝕄) :
    bigSep Finset.univ Φ = iprop(Φ 0 ∗ (bigSep Finset.univ fun k : Fin 16 => Φ (jS k)) ∗ bigSep Finset.univ fun k : Fin 16 => Φ (jR k)) := by
  have hu : (Finset.univ : Finset (Fin 33)) = insert 0 ((Finset.univ.map ⟨jS, jS_injective⟩) ∪ (Finset.univ.map ⟨jR, jR_injective⟩)) := by decide
  have hd : Disjoint (Finset.univ.map ⟨jS, jS_injective⟩) (Finset.univ.map ⟨jR, jR_injective⟩) := by decide
  have h0 : (0 : Fin 33) ∉ (Finset.univ.map ⟨jS, jS_injective⟩) ∪ (Finset.univ.map ⟨jR, jR_injective⟩) := by decide
  rw [hu, bigSep_insert h0, bigSep_union hd, bigSep_map, bigSep_map]
  rfl

/-- The departure counter's place among a device's 32 own counters. -/
abbrev iS (k : Fin 16) : Fin 32 := ⟨k.val, by have := k.isLt; omega⟩
/-- The arrival counter's place among a device's 32 own counters. -/
abbrev iR (k : Fin 16) : Fin 32 := ⟨16 + k.val, by have := k.isLt; omega⟩

omit [FloatOps F] in
theorem iS_injective : Function.Injective iS := fun a b h => Fin.ext (by have := congrArg Fin.val h; simp only [iS] at this; omega)
omit [FloatOps F] in
theorem iR_injective : Function.Injective iR := fun a b h => Fin.ext (by have := congrArg Fin.val h; simp only [iR] at this; omega)
omit [FloatOps F] in
theorem osem_iS (k : Fin 16) : osem (iS k) = .dma (sendS k) := by revert k; decide
omit [FloatOps F] in
theorem osem_iR (k : Fin 16) : osem (iR k) = .dma (recvS k) := by revert k; decide

omit [FloatOps F] in
/-- A device's 32 own counters: the 16 departure counters and the 16 arrival counters. -/
theorem bigSep_fin32 (Φ : Fin 32 → sProp 𝕄) :
    bigSep Finset.univ Φ = iprop((bigSep Finset.univ fun k : Fin 16 => Φ (iS k)) ∗ bigSep Finset.univ fun k : Fin 16 => Φ (iR k)) := by
  have hu : (Finset.univ : Finset (Fin 32)) = (Finset.univ.map ⟨iS, iS_injective⟩) ∪ (Finset.univ.map ⟨iR, iR_injective⟩) := by decide
  have hd : Disjoint (Finset.univ.map ⟨iS, iS_injective⟩) (Finset.univ.map ⟨iR, iR_injective⟩) := by decide
  rw [hu, bigSep_union hd, bigSep_map, bigSep_map]
  rfl

end Cert.KernelIdealRun

end
-- ==== Proof.KernelIdealRun.PhaseSig.lean ====
/-
  The entry phase: one unit to the entry counter of each device ahead on the ring, in the order of a list of
  offsets.  The unit to the device `j` places ahead pays duty `j` there; with it goes the right to write slot
  `16 - j` of the sender's own table, the slot in which that device's copy will land, and the sender's record
  that its arrival counter for that slot has reached round 0.  Each unit sent is one unit less owed.
-/
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Sched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A chain over a list with a head is the head's term and the chain over the tail. -/
theorem bigSepL_cons' {I : Type} (i : I) (l : List I) (Φ : I → sProp 𝕄) : bigSepL (i :: l) Φ = iprop(Φ i ∗ bigSepL l Φ) :=
  bigSepL_cons i l Φ

omit [FloatOps F] in
theorem sigs_nil {α : Type} (c : Dev nD) (k : Prog (TpuEff nD τ sig (Elt F) Λ₀ .tc) α) : sigs c [] k = k := rfl
omit [FloatOps F] in
theorem sigs_cons {α : Type} (c : Dev nD) (j : Fin 16) (l : List (Fin 16)) (k : Prog (TpuEff nD τ sig (Elt F) Λ₀ .tc) α) :
    sigs c (j :: l) k = .op (.semSignal (fwd c j : Thread nD τ) barS 1) fun _ => sigs c l k := rfl

/-- One counter's record, out of the records of all. -/
theorem records_cell (K : Dev nD × Fin 33 → ℕ) (cj : Dev nD × Fin 33) :
    records m ρ K ⊢ cellInv ER (ringRd m ρ) (K cj) (kcell cj) := by
  have h : (bigSep Finset.univ fun cj : Dev nD × Fin 33 => cellInv ER (ringRd m ρ) (K cj) (kcell cj))
      ⊢ cellInv ER (ringRd m ρ) (K cj) (kcell cj) :=
    bigSep_elim (Φ := fun cj : Dev nD × Fin 33 => cellInv ER (ringRd m ρ) (K cj) (kcell cj)) (Finset.mem_univ cj)
  unfold records
  iintro ⟨H, -⟩
  iapply h
  iexact H

/-- That one counter has reached round 0, out of the records of all. -/
theorem records_reached (K : Dev nD × Fin 33 → ℕ) (cj : Dev nD × Fin 33) :
    records m ρ K ⊢ reached ER (kcell cj) 0 := by
  have h : (bigSep Finset.univ fun cj : Dev nD × Fin 33 => (reached (ER (F := F)) (kcell cj) 0 : sProp 𝕄))
      ⊢ reached (ER (F := F)) (kcell cj) 0 :=
    bigSep_elim (Φ := fun cj : Dev nD × Fin 33 => (reached (ER (F := F)) (kcell cj) 0 : sProp 𝕄)) (Finset.mem_univ cj)
  unfold records
  iintro ⟨-, H⟩
  iapply h
  iexact H

omit [FloatOps F] in
theorem barOwed_nil (c : Dev nD) : barOwed c [] = 0 := rfl
omit [FloatOps F] in
theorem barOwed_cons (c : Dev nD) (j : Fin 16) (l : List (Fin 16)) :
    barOwed c (j :: l) = tallyAt (barCell (fwd c j)) () 1 + barOwed c l := by
  unfold barOwed; rw [List.map_cons, List.sum_cons]

/-- The entry units to the devices at the offsets of `l`, none of them 0: each is paid off what the device owes,
    with the duty's token and the slot it hands over; when all are sent the device owes `O` alone. -/
theorem wp_sigs {α : Type} (K : Dev nD × Fin 33 → ℕ) (c : Dev nD) (l : List (Fin 16)) (hl : ∀ j ∈ l, j ≠ 0)
    (O : CellTallies nD τ sig Unit) (W : Waits sig Unit) (k : Prog (TpuEff nD τ sig (Elt F) Λ₀ .tc) α) (Q : α → sProp 𝕄) :
    iprop(records m ρ K ∗ owes (c : Thread nD τ) (O + barOwed c l) W
        ∗ bigSepL l (fun j => iprop(dutyTok ER (barCell (fwd c j)) 0 j ∗ ∃ f, slotPts c (opp j) fullShare f)))
      ⊢ iprop((owes (c : Thread nD τ) O W -∗ wp frame (wpE (defs₀ (F := F)) 𝒱₀ (c : Thread nD τ) none) Set.univ k Q)
          -∗ wp frame (wpE (defs₀ (F := F)) 𝒱₀ (c : Thread nD τ) none) Set.univ (sigs c l k) Q) := by
  induction l generalizing O with
  | nil =>
    rw [barOwed_nil, add_zero, sigs_nil]
    iintro ⟨-, HL, -⟩ Hk
    iapply Hk $$ HL
  | cons j l ih =>
    have hj : j ≠ 0 := hl j (List.mem_cons_self ..)
    have hl' : ∀ i ∈ l, i ≠ 0 := fun i hi => hl i (List.mem_cons_of_mem _ hi)
    have hO : O + barOwed c (j :: l) = (O + barOwed c l) + tallyAt ((fwd c j : Thread nD τ), SemLoc.reg barS) () 1 := by
      rw [barOwed_cons, add_assoc, add_comm (tallyAt _ _ _)]
    rw [bigSepL_cons', sigs_cons]
    iintro ⟨#HR, HL, ⟨Htok, Hslot⟩, Hrest⟩ Hk
    iapply (Rounds.wp_signal 𝒱₀ ER (ringRd m ρ) (c : Thread nD τ) none (dst := (fwd c j : Thread nD τ)) (sem := barS) (r := 0)
      (d := j) (k' := 1) (κ := K (fwd c j, 0))
      (by rw [duties_bar]; exact Finset.mem_erase.mpr ⟨hj, Finset.mem_univ _⟩) (amount_bar m ρ (fwd c j) j) ()
      (O + barOwed c l) hO) $$ [HL Htok Hslot]
    · isplitr; · iapply (records_cell m ρ K (fwd c j, 0)); iexact HR
      isplitl [HL]; · iexact HL
      isplitl [Htok]; · iexact Htok
      isplitl [Hslot]
      · rw [payload_bar]; unfold barPay; rw [bwd_fwd]
        isplitl [Hslot]; · iexact Hslot
        rw [← kcell_recv]
        iapply (records_reached m ρ K (c, jR (opp j))); iexact HR
      · iapply (records_reached m ρ K (fwd c j, 0)); iexact HR
    iintro HL
    iapply (ih hl' O) $$ [HL Hrest]
    · isplitr; · iexact HR
      isplitl [HL]; · iexact HL
      iexact Hrest
    iexact Hk

/-- info: 'Cert.KernelIdealRun.wp_sigs' depends on axioms: [propext, Classical.choice, Quot.sound] -/
#guard_msgs in #print axioms wp_sigs

end Cert.KernelIdealRun

end
-- ==== Proof.KernelIdealRun.BodyGlue.lean ====
/-
  Rearrangements between the body's phases: the table as its 16 slots; the tokens and positions sorted by
  kind; slot 0 read through 16 shares (one per copy) and a remainder, so that the whole table can be loaded
  while the copies are still reading slot 0; and the conjunctions over the offsets 1 … 15 as lists.
-/
import proofs.«900424_g7700000000000425_dist_diff_noisepred_hshard_i_b2_h64_w64_c64_v7x_i16_f32_1_alg».proof.Proof.KernelIdealRun.Reindex
import proofs.«900424_g7700000000000425_dist_diff_noisepred_hshard_i_b2_h64_w64_c64_v7x_i16_f32_1_alg».proof.Proof.KernelIdealRun.Slots
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.PhaseSig

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The share of slot 0 (and, for the load, of the whole table) the device keeps while its copies read. -/
abbrev q₀ : PosShare TreeShare := Transfers.shareDrop fullShare 16
/-- The share of slot 0 copy `k` reads through. -/
abbrev tokQ (k : Fin 16) : PosShare TreeShare := Transfers.shareTok fullShare 16 k

/-- The table held whole is its slot 0 and its slots 1 … 15. -/
theorem table_slots (c : Dev nD) (q : PosShare TreeShare) (f : Buf (Elt F) ((c : Thread nD τ).loc cc0_scratch0)) :
    ((((c : Thread nD τ).loc cc0_scratch0) ↦[Finset.univ]{q} f : sProp 𝕄))
      = iprop(slotPts c 0 q f ∗ bigSep others fun k => slotPts c k q f) := by
  rw [scr_slots_eq c q f, bigSep_univ_at _ (0 : Fin 16)]

/-- A slot held in full is held through the remainder and the 16 reading shares. -/
theorem slot_shares (c : Dev nD) (k : Fin 16) (f : Buf (Elt F) ((slotM k : Memref sig .tc .vmem S2x2x64 .f32).view.loc (c : Thread nD τ))) :
    (slotPts c k fullShare f : sProp 𝕄) ⊣⊢ iprop(slotPts c k q₀ f ∗ bigSep Finset.univ fun i : Fin 16 => slotPts c k (tokQ i) f) := by
  unfold slotPts
  exact Transfers.pointsTo_toks fullShare 16

omit [FloatOps F] in
/-- The offsets' conjunction of two families is the list's conjunction of their pairs. -/
theorem pair_list (Φ Ψ : Fin 16 → sProp 𝕄) :
    iprop(bigSep others Φ ∗ bigSep others Ψ) = bigSepL L15 (fun j => iprop(Φ j ∗ Ψ j)) := by
  rw [← bigSep_sep', bigSep_others_list]

/-- What the entry phase takes: per offset the token of the unit and the slot 16 - j handed over with it. -/
theorem sig_input (c : Dev nD) (f₀ : Buf (Elt F) ((c : Thread nD τ).loc cc0_scratch0)) :
    iprop((bigSep others fun j => dutyTok ER (barCell (fwd c j)) 0 j) ∗ bigSep others fun k => slotPts (F := F) c k fullShare f₀)
      ⊢ bigSepL L15 (fun j => iprop(dutyTok ER (barCell (fwd c j)) 0 j ∗ ∃ f, slotPts (F := F) c (opp j) fullShare f)) := by
  rw [bigSep_opp (fun k => slotPts (F := F) c k fullShare f₀), pair_list]
  induction L15 with
  | nil => exact BI.Entails.refl _
  | cons j l ih =>
    rw [bigSepL_cons', bigSepL_cons']
    iintro ⟨⟨H1, H2⟩, Hl⟩
    isplitl [H1 H2]
    · isplitl [H1]; · iexact H1
      iexists f₀; iexact H2
    · iapply ih; iexact Hl

theorem barPay_opp (c : Dev nD) (k : Fin 16) :
    (barPay (F := F) c (opp k) : sProp 𝕄) ⊢ iprop(∃ f, slotPts (F := F) (fwd c k) k fullShare f) := by
  unfold barPay
  rw [bwd_opp, opp_opp]
  iintro ⟨H, -⟩
  iexact H

/-- What the others' entry units hand over, by the copy it is for: slot `k` of the device `k` places ahead. -/
theorem bar_payload (c : Dev nD) :
    (bigSep others fun j => barPay (F := F) c j) ⊢ bigSep others fun k => iprop(∃ f, slotPts (F := F) (fwd c k) k fullShare f) := by
  rw [bigSep_opp (fun j => barPay (F := F) c j)]
  exact bigSep_mono fun k _ => barPay_opp c k

end Cert.KernelIdealRun

end
-- ==== Proof.KernelIdealRun.SlotsContents.lean ====
/-
  What the table of partial sums holds, slot by slot.

  The table ends holding, in slot k of device c, the sums (row 0) and the sums of squares (row 1) of the block
  of the device k places behind c.  Two facts make it so.  The two stores a device makes into rows 0 and 1
  of its own slot 0 leave there its own sums, whatever the table held.  A copy of slot 0 of device c into slot
  k of the device k places ahead leaves there what that device's table ends holding in slot k: the device k
  places behind the receiver is c.  Then the loads and the store that go through a whole array: they read its
  contents and leave the value stored.
-/
import proofs.«900424_g7700000000000425_dist_diff_noisepred_hshard_i_b2_h64_w64_c64_v7x_i16_f32_1_alg».proof.Proof.KernelIdealRun.Slots
import Idealize.ShloMosaic.Lib.ValueLayout
import Idealize.ShloMosaic.Lib.Pipeline.Value

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

variable (m : (ℓ : Loc nD τ sig) → Buf (Elt F) ℓ) (ρ : Dev nD → PrngReg)

/-! ## The table's final contents, row by row -/

/-- At an index of slot `k`, first row: the sums of the device `k` places behind. -/
theorem gathered_row0 (c : Dev nD) (k : Fin 16) {i : (cc0_scratch0 : Ref sig .tc).ty.Idx}
    (h0 : (i 0).val = k.val) (h1 : (i 1).val = 0) :
    gathered m ρ c i = k0_pay3 (xstg m ρ (bwd c k))
      (ix4 (0 : Fin 1) (0 : Fin 1) (⟨(i 2).val, (i 2).isLt⟩ : Fin 2) (⟨(i 3).val, (i 3).isLt⟩ : Fin 64)) := by
  have hk : (⟨(i 0).val, (i 0).isLt⟩ : Fin 16) = k := Fin.ext h0
  show (if (i 1).val = 0 then _ else _) = _
  rw [if_pos h1, hk]

/-- At an index of slot `k`, second row: the sums of squares of the device `k` places behind. -/
theorem gathered_row1 (c : Dev nD) (k : Fin 16) {i : (cc0_scratch0 : Ref sig .tc).ty.Idx}
    (h0 : (i 0).val = k.val) (h1 : (i 1).val = 1) :
    gathered m ρ c i = k0_pay5 (k0_pay4 (xstg m ρ (bwd c k)))
      (ix4 (0 : Fin 1) (0 : Fin 1) (⟨(i 2).val, (i 2).isLt⟩ : Fin 2) (⟨(i 3).val, (i 3).isLt⟩ : Fin 64)) := by
  have hk : (⟨(i 0).val, (i 0).isLt⟩ : Fin 16) = k := Fin.ext h0
  have h1' : ¬ (i 1).val = 0 := by omega
  show (if (i 1).val = 0 then _ else _) = _
  rw [if_neg h1', hk]

/-- The table's contents at an index depend on the device and the slot only through the device the slot names:
    slot `k` of the device `k` places ahead of `c` ends as slot 0 of `c`. -/
theorem gathered_fwd (c : Dev nD) (k : Fin 16) {i i₀ : (cc0_scratch0 : Ref sig .tc).ty.Idx}
    (h0 : (i 0).val = k.val) (h00 : (i₀ 0).val = 0) (h1 : (i₀ 1).val = (i 1).val) (h2 : (i₀ 2).val = (i 2).val)
    (h3 : (i₀ 3).val = (i 3).val) : gathered m ρ (fwd c k) i = gathered m ρ c i₀ := by
  have hk : (⟨(i 0).val, (i 0).isLt⟩ : Fin 16) = k := Fin.ext h0
  have hk0 : (⟨(i₀ 0).val, (i₀ 0).isLt⟩ : Fin 16) = 0 := Fin.ext h00
  have e2 : (⟨(i₀ 2).val, (i₀ 2).isLt⟩ : Fin 2) = ⟨(i 2).val, (i 2).isLt⟩ := Fin.ext h2
  have e3 : (⟨(i₀ 3).val, (i₀ 3).isLt⟩ : Fin 64) = ⟨(i 3).val, (i 3).isLt⟩ := Fin.ext h3
  show (if (i 1).val = 0 then _ else _) = (if (i₀ 1).val = 0 then _ else _)
  rw [hk, hk0, bwd_fwd, bwd_zero, h1, e2, e3]

/-! ## After the two stores: slot 0 holds the device's own sums -/

/-- The index of row 0 of slot 0 under which an index of that row sits. -/
theorem R0_emb (i : S16x2x2x64.Idx) (h0 : (i 0).val = 0) (h1 : (i 1).val = 0) :
    ((scr.access R0 : View sig .tc .vmem R0.shape .f32)).emb
      (ix4 (0 : Fin 1) (0 : Fin 1) (⟨(i 2).val, (i 2).isLt⟩ : Fin 2) (⟨(i 3).val, (i 3).isLt⟩ : Fin 64)) = i := by
  funext a; apply Fin.ext
  match a with
  | ⟨0, _⟩ => show 0 + 1 * 0 = (i 0).val; omega
  | ⟨1, _⟩ => show 0 + 1 * 0 = (i 1).val; omega
  | ⟨2, _⟩ => show 0 + 1 * (i 2).val = (i 2).val; omega
  | ⟨3, _⟩ => show 0 + 1 * (i 3).val = (i 3).val; omega

theorem R1_emb (i : S16x2x2x64.Idx) (h0 : (i 0).val = 0) (h1 : (i 1).val = 1) :
    ((scr.access R1 : View sig .tc .vmem R1.shape .f32)).emb
      (ix4 (0 : Fin 1) (0 : Fin 1) (⟨(i 2).val, (i 2).isLt⟩ : Fin 2) (⟨(i 3).val, (i 3).isLt⟩ : Fin 64)) = i := by
  funext a; apply Fin.ext
  match a with
  | ⟨0, _⟩ => show 0 + 1 * 0 = (i 0).val; omega
  | ⟨1, _⟩ => show 1 + 1 * 0 = (i 1).val; omega
  | ⟨2, _⟩ => show 0 + 1 * (i 2).val = (i 2).val; omega
  | ⟨3, _⟩ => show 0 + 1 * (i 3).val = (i 3).val; omega

/-- Whatever the table held, after the store of the sums into row 0 and of the sums of squares into row 1 of
    slot 0, slot 0 holds what the table ends holding there. -/
theorem stores_slot0 (c : Dev nD) (f₀ : (cc0_scratch0 : Ref sig .tc).ty.Contents (Elt F)) :
    ∀ i ∈ slotSet 0,
      ((scr.access R1 : View sig .tc .vmem R1.shape .f32).write (Elt F)
        ((scr.access R0 : View sig .tc .vmem R0.shape .f32).write (Elt F) f₀ (k0_pay3 (xstg m ρ c)) Finset.univ)
        (k0_pay5 (k0_pay4 (xstg m ρ c))) Finset.univ) i = gathered m ρ c i := by
  intro i hi
  have h0 : (i 0).val = (0 : Fin 16).val := mem_slotSet.mp hi
  rcases mem_slotSet_zero hi with hr | hr
  · have h1 : (i 1).val = 0 := (mem_R0.mp hr).2
    have hn : i ∉ (scr.access R1 : View sig .tc .vmem R1.shape .f32).setOn Finset.univ := by
      rw [View.setOn_univ, View.set_slice_whole]
      intro h; have := (mem_R1.mp h).2; omega
    rw [View.write_of_not_mem _ _ _ hn, gathered_row0 m ρ c 0 h0 h1, bwd_zero]
    conv_lhs => rw [← R0_emb i h0 h1, View.write_emb_of_mem _ _ (Finset.mem_univ _)]
    rfl
  · have h1 : (i 1).val = 1 := (mem_R1.mp hr).2
    rw [gathered_row1 m ρ c 0 h0 h1, bwd_zero]
    conv_lhs => rw [← R1_emb i h0 h1, View.write_emb_of_mem _ _ (Finset.mem_univ _)]
    rfl

/-! ## A landing: slot `k` of the device `k` places ahead receives slot 0 -/

/-- The index of slot `k`, seen as 2 × 2 × 64, under which an index of that slot sits. -/
theorem slot_emb (k : Fin 16) (i : S16x2x2x64.Idx) (h0 : (i 0).val = k.val) :
    (slotM k : Memref sig .tc .vmem S2x2x64 .f32).view.emb
      (ix3 (⟨(i 1).val, (i 1).isLt⟩ : Fin 2) (⟨(i 2).val, (i 2).isLt⟩ : Fin 2) (⟨(i 3).val, (i 3).isLt⟩ : Fin 64)) = i := by
  show (Rect.unit (s := S16x2x2x64) ![k.val, 0, 0, 0] S1x2x2x64.size (slot_inb k)).emb
      (Shape.reshapeEquiv (s := S1x2x2x64) (s' := S2x2x64) squeezes_S1x2x2x64_S2x2x64.numel_eq
        (ix3 (⟨(i 1).val, (i 1).isLt⟩ : Fin 2) (⟨(i 2).val, (i 2).isLt⟩ : Fin 2) (⟨(i 3).val, (i 3).isLt⟩ : Fin 64))) = i
  rw [reshapeEquiv_ix3_1abc]
  funext a; apply Fin.ext
  match a with
  | ⟨0, _⟩ => show k.val + 1 * 0 = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-- A copy of slot 0 of device `c`, holding `c`'s own sums, into slot `k` of the device `k` places ahead leaves
    there what that device's table ends holding in slot `k`, whatever the slot held before. -/
theorem landing_slot (c : Dev nD) (k : Fin 16)
    (fd : Buf (Elt F) ((slotM k : Memref sig .tc .vmem S2x2x64 .f32).view.loc ((fwd c k : Dev nD) : Thread nD τ)))
    (fs : Buf (Elt F) ((slotM 0 : Memref sig .tc .vmem S2x2x64 .f32).view.loc (c : Thread nD τ)))
    (hfs : ∀ i ∈ slotSet 0, fs i = gathered m ρ c i) :
    ∀ i ∈ slotSet k,
      ((slotM k : Memref sig .tc .vmem S2x2x64 .f32).view.write (Elt F) fd
        ((slotM 0 : Memref sig .tc .vmem S2x2x64 .f32).view.read (Elt F) fs) Finset.univ) i
        = gathered m ρ (fwd c k) i := by
  intro i hi
  have h0 : (i 0).val = k.val := mem_slotSet.mp hi
  let i₀ : S16x2x2x64.Idx :=
    ix4 (0 : Fin 16) (⟨(i 1).val, (i 1).isLt⟩ : Fin 2) (⟨(i 2).val, (i 2).isLt⟩ : Fin 2) (⟨(i 3).val, (i 3).isLt⟩ : Fin 64)
  have hy0 : (slotM 0 : Memref sig .tc .vmem S2x2x64 .f32).view.emb
      (ix3 (⟨(i 1).val, (i 1).isLt⟩ : Fin 2) (⟨(i 2).val, (i 2).isLt⟩ : Fin 2) (⟨(i 3).val, (i 3).isLt⟩ : Fin 64)) = i₀ :=
    slot_emb 0 i₀ rfl
  have hi₀ : i₀ ∈ slotSet 0 := mem_slotSet.mpr rfl
  conv_lhs => rw [← slot_emb k i h0, View.write_emb_of_mem _ _ (Finset.mem_univ _)]
  show fs ((slotM 0 : Memref sig .tc .vmem S2x2x64 .f32).view.emb
      (ix3 (⟨(i 1).val, (i 1).isLt⟩ : Fin 2) (⟨(i 2).val, (i 2).isLt⟩ : Fin 2) (⟨(i 3).val, (i 3).isLt⟩ : Fin 64))) = _
  rw [hy0, hfs i₀ hi₀]
  exact (gathered_fwd m ρ c k (i := i) (i₀ := i₀) h0 rfl rfl rfl rfl).symm

/-! ## Whole-array loads and the whole-array store -/

theorem slots_zeros4 : (![0, 0, 0, 0] : Fin 4 → Nat) = fun _ => 0 := by
  funext a
  match a with
  | ⟨0, _⟩ => rfl
  | ⟨1, _⟩ => rfl
  | ⟨2, _⟩ => rfl
  | ⟨3, _⟩ => rfl
theorem slots_zeros2 : (![0, 0] : Fin 2 → Nat) = fun _ => 0 := by
  funext a
  match a with
  | ⟨0, _⟩ => rfl
  | ⟨1, _⟩ => rfl

/-- The load of the whole table reads its contents. -/
theorem scr_load (f : (cc0_scratch0 : Ref sig .tc).ty.Contents (Elt F)) :
    (scr : Memref sig .tc .vmem S16x2x2x64 .f32).view.readAt (Elt F)
      (Rect.unit (s := S16x2x2x64) ![0, 0, 0, 0] S16x2x2x64.size inb_S16x2x2x64_S16x2x2x64_0_0_0_0).toLoadRect f = f :=
  Memref.readAt_unit_zero (Elt F) cc0_scratch0 slots_zeros4 _ f

/-- The load of the whole staged block of the input reads its contents. -/
theorem stg0_load (f : (cc0_stg0_0 : Ref sig .tc).ty.Contents (Elt F)) :
    (Memref.whole cc0_stg0_0 : Memref sig .tc .vmem S2x64x64x64 .f32).view.readAt (Elt F)
      (Rect.unit (s := S2x64x64x64) ![0, 0, 0, 0] S2x64x64x64.size inb_S2x64x64x64_S2x64x64x64_0_0_0_0).toLoadRect f = f :=
  Memref.readAt_unit_zero (Elt F) cc0_stg0_0 slots_zeros4 _ f

/-- The load of the whole staged matrix reads its contents. -/
theorem stg1_load (f : (cc0_stg1_0 : Ref sig .tc).ty.Contents (Elt F)) :
    (Memref.whole cc0_stg1_0 : Memref sig .tc .vmem S64x128 .f32).view.readAt (Elt F)
      (Rect.unit (s := S64x128) ![0, 0] S64x128.size inb_S64x128_S64x128_0_0).toLoadRect f = f :=
  Memref.readAt_unit_zero (Elt F) cc0_stg1_0 slots_zeros2 _ f

/-- The load of the whole staged result reads its contents. -/
theorem stg2_load (f : (cc0_stg2_0 : Ref sig .tc).ty.Contents (Elt F)) :
    (Memref.whole cc0_stg2_0 : Memref sig .tc .vmem S2x64x64x128 .f32).view.readAt (Elt F)
      (Rect.unit (s := S2x64x64x128) ![0, 0, 0, 0] S2x64x64x128.size inb_S2x64x64x128_S2x64x64x128_0_0_0_0).toLoadRect f = f :=
  Memref.readAt_unit_zero (Elt F) cc0_stg2_0 slots_zeros4 _ f

/-- The store of the whole staged result leaves the value stored. -/
theorem stg2_store (f w : (cc0_stg2_0 : Ref sig .tc).ty.Contents (Elt F)) :
    ((Memref.whole cc0_stg2_0 : Memref sig .tc .vmem S2x64x64x128 .f32).access
      (Rect.unit (s := S2x64x64x128) ![0, 0, 0, 0] S2x64x64x128.size inb_S2x64x64x128_S2x64x64x128_0_0_0_0)
        : View sig .tc .vmem _ .f32).write (Elt F) f w Finset.univ = w :=
  Memref.write_access_unit_zero_univ (Elt F) cc0_stg2_0 slots_zeros4 _ f w

/-! ## Which part of the table each access touches -/

/-- Through the whole table's view a set of indices is itself. -/
theorem setOn_scr (M : Finset S16x2x2x64.Idx) :
    (scr : Memref sig .tc .vmem S16x2x2x64 .f32).view.setOn M = M := by
  show M.map (Function.Embedding.refl _) = M
  exact Finset.map_refl

/-- The loads of the two rows read inside slot 0, -/
theorem load_R0_subset : (scr : Memref sig .tc .vmem S16x2x2x64 .f32).view.setOn R0.toLoadRect.set ⊆ slotSet 0 := by
  rw [setOn_scr]; exact R0_subset
theorem load_R1_subset : (scr : Memref sig .tc .vmem S16x2x2x64 .f32).view.setOn R1.toLoadRect.set ⊆ slotSet 0 := by
  rw [setOn_scr]; exact R1_subset

/-- and the stores into them write inside slot 0. -/
theorem store_R0_set : (scr.access R0 : View sig .tc .vmem R0.shape .f32).setOn Finset.univ = R0.set := by
  rw [View.setOn_univ]; exact View.set_slice_whole cc0_scratch0 R0
theorem store_R1_set : (scr.access R1 : View sig .tc .vmem R1.shape .f32).setOn Finset.univ = R1.set := by
  rw [View.setOn_univ]; exact View.set_slice_whole cc0_scratch0 R1
theorem store_R0_subset : (scr.access R0 : View sig .tc .vmem R0.shape .f32).setOn Finset.univ ⊆ slotSet 0 := by
  rw [store_R0_set]; exact R0_subset
theorem store_R1_subset : (scr.access R1 : View sig .tc .vmem R1.shape .f32).setOn Finset.univ ⊆ slotSet 0 := by
  rw [store_R1_set]; exact R1_subset

/-! ## Slot 0's share, cut into one part per copy that reads it -/

/-- Slot 0 held in full is a remainder and 16 parts, part `k` for the copy to the device `k` places ahead. -/
theorem slot0_toks (c : Dev nD) (f : Buf (Elt F) ((slotM 0 : Memref sig .tc .vmem S2x2x64 .f32).view.loc (c : Thread nD τ))) :
    (slotPts c 0 fullShare f : sProp 𝕄)
      ⊣⊢ iprop(slotPts c 0 (Transfers.shareDrop fullShare 16) f
          ∗ bigSep Finset.univ fun k : Fin 16 => slotPts c 0 (Transfers.shareTok fullShare 16 k) f) :=
  Transfers.pointsTo_toks fullShare 16

/-- info: 'Cert.KernelIdealRun.stores_slot0' depends on axioms: [propext, Classical.choice, Quot.sound] -/
#guard_msgs in #print axioms stores_slot0

/-- info: 'Cert.KernelIdealRun.landing_slot' depends on axioms: [propext, Classical.choice, Quot.sound] -/
#guard_msgs in #print axioms landing_slot

/-- info: 'Cert.KernelIdealRun.stg2_store' depends on axioms: [propext, Classical.choice, Quot.sound] -/
#guard_msgs in #print axioms stg2_store

/-- info: 'Cert.KernelIdealRun.slot0_toks' depends on axioms: [propext, Classical.choice, Quot.sound] -/
#guard_msgs in #print axioms slot0_toks

end Cert.KernelIdealRun

end
-- ==== Proof.KernelIdealRun.BodyLocal.lean ====
/-
  The body's local steps, around the exchange, as two rules for the program's own text.

  Before the exchange a device loads its staged block and stores the block's sums into row 0 and its sums
  of squares into row 1 of slot 0 of its table (each store preceded by a load of the row, whose value is
  not used).  Both rows lie inside slot 0, so holding slot 0 in full is enough; afterwards slot 0 holds what
  the table ends holding there.  After the exchange it loads the whole table, the staged matrix and the
  staged result, and stores the result computed from the block, the table and the matrix: with the table at
  its final contents that is the kernel's result on this device.
-/
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.Ghost
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.SlotsContents

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The local steps before the exchange: the block loaded, its sums and sums of squares stored into slot 0 -/

/-- The block is loaded and its sums and sums of squares are stored into the two rows of slot 0: from slot 0 held in
    full (whatever it holds) and the staged block, the program continues at the staged block with slot 0 holding what
    the table ends holding there. -/
theorem wp_prologue (c : Dev nD) (f₀ : Buf (Elt F) ((slotM 0 : Memref sig .tc .vmem S2x2x64 .f32).view.loc (c : Thread nD τ))) {α : Type}
    (kk : Vec F S2x64x64x64 .f32 → Prog (TpuEff nD τ sig (Elt F) Λ₀ .tc) α) (Q : α → sProp 𝕄) :
    iprop(slotPts c 0 fullShare f₀ ∗ stg c cc0_stg0_0 (xstg m ρ c))
      ⊢ iprop(((slotPts c 0 fullShare (gathered m ρ c) ∗ stg c cc0_stg0_0 (xstg m ρ c)) -∗
            wp frame (wpE (defs₀ (F := F)) 𝒱₀ (c : Thread nD τ) none) Set.univ (kk (xstg m ρ c)) Q)
          -∗ wp frame (wpE (defs₀ (F := F)) 𝒱₀ (c : Thread nD τ) none) Set.univ
              (.op (.load xM RX.toLoadRect (View.loadsAt_vmem h_S2x64x64x64)) fun v64 =>
               .op (.load scr R0.toLoadRect (View.loadsAt_vmem h_S1x1x2x64)) fun _ =>
               .op (.store scr R0 (k0_pay3 v64) Finset.univ (View.stores_vmem_bits_univ h_S1x1x2x64 rfl) (.inl rfl)) fun _ =>
               .op (.load scr R1.toLoadRect (View.loadsAt_vmem h_S1x1x2x64)) fun _ =>
               .op (.store scr R1 (k0_pay5 (k0_pay4 v64)) Finset.univ (View.stores_vmem_bits_univ h_S1x1x2x64 rfl) (.inl rfl)) fun _ => kk v64) Q) := by
  iintro ⟨Hs, ⟨%f, %hf, Hx⟩⟩ Hk
  subst hf
  iapply (wp_load 𝒱₀ (c : Thread nD τ) none Set.univ (m := xM) (r := RX.toLoadRect) (S := Finset.univ) (Finset.subset_univ _)) $$ Hx
  iintro Hx
  rw [stg0_load]
  unfold slotPts
  iapply (wp_load 𝒱₀ (c : Thread nD τ) none Set.univ (m := scr) (r := R0.toLoadRect) (S := slotSet 0) load_R0_subset) $$ Hs
  iintro Hs
  iapply (wp_store 𝒱₀ (c : Thread nD τ) none Set.univ (m := scr) (r := R0) (S := slotSet 0) store_R0_subset) $$ Hs
  iintro Hs
  iapply (wp_load 𝒱₀ (c : Thread nD τ) none Set.univ (m := scr) (r := R1.toLoadRect) (S := slotSet 0) load_R1_subset) $$ Hs
  iintro Hs
  iapply (wp_store 𝒱₀ (c : Thread nD τ) none Set.univ (m := scr) (r := R1) (S := slotSet 0) store_R1_subset) $$ Hs
  iintro Hs
  iapply Hk
  isplitl [Hs]
  · iapply (Entails.of_eq (pointsTo_congr (q := fullShare) (stores_slot0 m ρ c f₀)))
    iexact Hs
  · iexists (xstg m ρ c)
    isplitr
    · ipureintro; rfl
    · iexact Hx

/-! ## The local steps after the exchange: the table and the matrix loaded, the result stored -/

/-- The table, the matrix and the staged result are loaded and the result is stored: holding any share of the whole
    table at its final contents, the staged matrix and the staged result (whatever it holds), the program continues
    with the staged result holding the kernel's result on this device. -/
theorem wp_compute (c : Dev nD) (q : PosShare TreeShare) {α : Type} (kk : Prog (TpuEff nD τ sig (Elt F) Λ₀ .tc) α) (Q : α → sProp 𝕄) :
    iprop((((c : Thread nD τ).loc cc0_scratch0) ↦[Finset.univ]{q} gathered m ρ c) ∗ stg c cc0_stg1_0 (wstg m ρ c) ∗ (∃ g, stg c cc0_stg2_0 g))
      ⊢ iprop((((((c : Thread nD τ).loc cc0_scratch0) ↦[Finset.univ]{q} gathered m ρ c) ∗ stg c cc0_stg1_0 (wstg m ρ c) ∗ stg c cc0_stg2_0 (outAt m ρ c)) -∗
            wp frame (wpE (defs₀ (F := F)) 𝒱₀ (c : Thread nD τ) none) Set.univ kk Q)
          -∗ wp frame (wpE (defs₀ (F := F)) 𝒱₀ (c : Thread nD τ) none) Set.univ
              (.op (.load scr RT.toLoadRect (View.loadsAt_vmem h_S16x2x2x64)) fun v376 =>
               .op (.load wM RW.toLoadRect (View.loadsAt_vmem h_S64x128)) fun v407 =>
               .op (.load oM RO.toLoadRect (View.loadsAt_vmem h_S2x64x64x128)) fun _ =>
               .op (.store oM RO (k0_pay6 (k0_pay1 (xstg m ρ c)) v376 v407) Finset.univ (View.stores_vmem_bits_univ h_S2x64x64x128 rfl) (.inl rfl)) fun _ => kk) Q) := by
  iintro ⟨Ht, ⟨%fw, %hw, Hw⟩, ⟨%g, %fo, %ho, Ho⟩⟩ Hk
  subst hw
  subst ho
  iapply (wp_load 𝒱₀ (c : Thread nD τ) none Set.univ (m := scr) (r := RT.toLoadRect) (S := Finset.univ) (Finset.subset_univ _)) $$ Ht
  iintro Ht
  rw [scr_load]
  iapply (wp_load 𝒱₀ (c : Thread nD τ) none Set.univ (m := wM) (r := RW.toLoadRect) (S := Finset.univ) (Finset.subset_univ _)) $$ Hw
  iintro Hw
  rw [stg1_load]
  iapply (wp_load 𝒱₀ (c : Thread nD τ) none Set.univ (m := oM) (r := RO.toLoadRect) (S := Finset.univ) (Finset.subset_univ _)) $$ Ho
  iintro Ho
  iapply (wp_store 𝒱₀ (c : Thread nD τ) none Set.univ (m := oM) (r := RO) (S := Finset.univ) (Finset.subset_univ _)) $$ Ho
  iintro Ho
  rw [stg2_store]
  iapply Hk
  isplitl [Ht]
  · iexact Ht
  isplitl [Hw]
  · iexists (wstg m ρ c)
    isplitr
    · ipureintro; rfl
    · iexact Hw
  · iexists (outAt m ρ c)
    isplitr
    · ipureintro; rfl
    · unfold outAt; iexact Ho

end Cert.KernelIdealRun

end
-- ==== Proof.KernelIdealRun.BodyLocalOwed.lean ====
/-
  The units a device owes at launch, and where its entry wait stands in the waiting order.

  At launch a device owes each of the 15 others one entry unit and one arrival; written over the list of
  the offsets 1 … 15 these are the two sums the body's phases count down.  When the device waits on its
  entry counter it has paid its entry units and owes arrivals only; every arrival counter stands at level
  2, above the entry counter's level 1, so the wait is allowed.
-/
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Ghost
import proofs.«900424_g7700000000000425_dist_diff_noisepred_hshard_i_b2_h64_w64_c64_v7x_i16_f32_1_alg».proof.Proof.KernelIdealRun.Sched

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The units owed at launch, as sums over the list of offsets; the entry wait's place in the waiting order -/

omit [FloatOps F] in
/-- What a device owes at launch: an arrival and an entry unit to each of the 15 others, as the sums over the list of
    the offsets 1 … 15. -/
theorem O₀_eq (c : Dev nD) : O₀ c = recvOwed c L15 + barOwed c L15 := by
  unfold O₀ owedFrom recvOwed barOwed
  rw [← L15_toFinset, List.sum_toFinset _ L15_nodup, List.sum_toFinset _ L15_nodup]

omit [FloatOps F] in
/-- A positive entry of the arrivals owed over a list of offsets sits at the arrival counter of one of them. -/
theorem recvOwed_pos (c : Dev nD) : ∀ (l : List (Fin 16)) {g : GSem nD τ sig} {u : Unit},
    0 < recvOwed c l g u → ∃ j ∈ l, g = recvCell (fwd c j) j
  | [], g, u, h => by
    unfold recvOwed at h
    rw [List.map_nil, List.sum_nil] at h
    exact absurd h (Nat.lt_irrefl 0)
  | j :: l, g, u, h => by
    have h' : 0 < (tallyAt (recvCell (fwd c j) j) () N + recvOwed c l) g u := by
      unfold recvOwed at h ⊢
      rwa [List.map_cons, List.sum_cons] at h
    rcases Pipeline.add_pos_cases h' with h1 | h1
    · rw [tallyAt_apply] at h1
      by_cases hg : g = recvCell (fwd c j) j ∧ u = ()
      · exact ⟨j, List.mem_cons_self, hg.1⟩
      · rw [if_neg hg] at h1; exact absurd h1 (Nat.lt_irrefl 0)
    · obtain ⟨j', hj', e⟩ := recvOwed_pos c l h1
      exact ⟨j', List.mem_cons_of_mem _ hj', e⟩

omit [FloatOps F] in
/-- At its entry wait a device owes arrivals only: arrival counters, which stand above its entry counter. -/
theorem mayWait_bar (c : Dev nD) :
    (levAts L lv : sProp 𝕄) ⊢ MayWait (c : Thread nD τ) (.reg barS) () (recvOwed c L15) :=
  MayOwe.of_cut (L := L) (lev := lv) 1
    (fun p hp => by
      rw [Finset.mem_singleton.mp hp]
      show () ∈ (if ((c : Thread nD τ), SemLoc.reg barS).1.2 = Proc.tc then ({()} : Finset Unit) else ∅)
      rw [if_pos rfl]; exact Finset.mem_singleton_self _)
    (fun g u hg => by
      obtain ⟨j, _, rfl⟩ := recvOwed_pos c L15 hg
      show u ∈ (if (recvCell (fwd c j) j).1.2 = Proc.tc then ({()} : Finset Unit) else ∅)
      rw [if_pos rfl]; exact Finset.mem_singleton_self _)
    (fun p hp => by
      rw [Finset.mem_singleton.mp hp]
      dsimp only [lv]; rw [if_pos rfl])
    (fun g u hg => by
      obtain ⟨j, hj, rfl⟩ := recvOwed_pos c L15 hg
      dsimp only [lv]
      rw [if_neg (recv_ne_bar j), recvIdx_recv (L15_ne_zero j hj), Option.isSome_some, if_pos rfl]
      exact Nat.lt_succ_self 1)

end Cert.KernelIdealRun

end
-- ==== Proof.KernelIdealRun.BodyStart.lean ====
/-
  The body's first segment: a device hands each other device, with its entry unit, the slot that device will
  write; loads its block and stores the block's sums and sums of squares into slot 0; and waits for the 15
  others' units, which bring the slots it will write. While it waits it owes arrivals only, and arrival
  counters come after entry counters in the waiting order.
-/
import proofs.«900424_g7700000000000425_dist_diff_noisepred_hshard_i_b2_h64_w64_c64_v7x_i16_f32_1_alg».proof.Proof.KernelIdealRun.Stages
import proofs.«900424_g7700000000000425_dist_diff_noisepred_hshard_i_b2_h64_w64_c64_v7x_i16_f32_1_alg».proof.Proof.KernelIdealRun.BodyGlue
import proofs.«900424_g7700000000000425_dist_diff_noisepred_hshard_i_b2_h64_w64_c64_v7x_i16_f32_1_alg».proof.Proof.KernelIdealRun.PhaseSig
import proofs.«900424_g7700000000000425_dist_diff_noisepred_hshard_i_b2_h64_w64_c64_v7x_i16_f32_1_alg».proof.Proof.KernelIdealRun.BodyLocal
import proofs.«900424_g7700000000000425_dist_diff_noisepred_hshard_i_b2_h64_w64_c64_v7x_i16_f32_1_alg».proof.Proof.KernelIdealRun.BodyLocalOwed

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's positions on its 33 counters, sorted: the entry counter, the departure counters (the never-used one
    first), the arrival counters (the never-used one first). -/
theorem pos_sorted (c : Dev nD) :
    (bigSep Finset.univ fun j : Fin 33 => atPos ER (kcell (c, j)) 0 ∅ 0 : sProp 𝕄)
      = iprop(atPos ER (barCell c) 0 ∅ 0
          ∗ (atPos ER (sendCell c 0) 0 ∅ 0 ∗ bigSep others fun k => atPos ER (sendCell c k) 0 ∅ 0)
          ∗ (atPos ER (recvCell c 0) 0 ∅ 0 ∗ bigSep others fun k => atPos ER (recvCell c k) 0 ∅ 0)) := by
  rw [bigSep_fin33]
  simp only [kcell_send, kcell_recv]
  rw [bigSep_univ_at (fun k : Fin 16 => (atPos ER (sendCell c k) 0 ∅ 0 : sProp 𝕄)) (0 : Fin 16),
    bigSep_univ_at (fun k : Fin 16 => (atPos ER (recvCell c k) 0 ∅ 0 : sProp 𝕄)) (0 : Fin 16)]
  rfl

set_option maxHeartbeats 1600000 in
theorem seg_start (K : Dev nD × Fin 33 → ℕ) (c : Dev nD) (Q : PUnit → sProp 𝕄) :
    iprop(bodyPre m ρ K c ∗ (cut1 m ρ K c -∗ wp frame (wpE (defs₀ (F := F)) 𝒱₀ (c : Thread nD τ) none) Set.univ (modelMid c (xstg m ρ c)) Q))
      ⊢ wp frame (wpE (defs₀ (F := F)) 𝒱₀ (c : Thread nD τ) none) Set.univ (model (F := F) c) Q := by
  unfold bodyPre ghost linear launchCreds payToks model
  rw [bigSep_sep', bigSep_sep', pos_sorted c]
  iintro ⟨⟨⟨⟨#HRec, ⟨HatB, ⟨HatS0, HatS⟩, ⟨HatR0, HatR⟩⟩, ⟨HtB, HtR, HtS⟩⟩, ⟨HcB, HcR⟩, #Hlev, ⟨%f0, Hscr⟩⟩, Ho, ⟨%d0, Hx⟩, ⟨%d1, Hw⟩, ⟨%d2, Hout⟩⟩, Hk⟩
  have hb0 : (dats m ρ 0 c).before (0 : Fin 3) t₀ d0 = xstg m ρ c := by
    unfold Dat.before; rw [if_pos (fetch0_0 t₀)]; rfl
  have hb1 : (dats m ρ 0 c).before (1 : Fin 3) t₀ d1 = wstg m ρ c := by
    unfold Dat.before; rw [if_pos (fetch0_1 t₀)]; rfl
  rw [hb0, hb1]
  unfold Dat.owesAt Pipeline.owesWithin
  icases Ho with ⟨%W, %hW, HO⟩
  rw [show (dats m ρ 0 c).owed t₀.castSucc = O₀ c from rfl, O₀_eq]
  -- the table as its slots
  ihave Hsl := (Entails.of_eq ((scrPts_eq c f0).trans (table_slots c fullShare f0))) $$ Hscr
  icases Hsl with ⟨Hs0, Hsl⟩
  -- the 15 entry units, each with the slot its receiver will write
  ihave HA := (sig_input c f0) $$ [HtB Hsl]
  · isplitl [HtB] <;> iassumption
  iapply (wp_sigs m ρ K c L15 L15_ne_zero (recvOwed c L15) W _ Q) $$ [HO HA]
  · isplitr; · iexact HRec
    isplitl [HO]; · iexact HO
    iexact HA
  iintro HO
  -- the block loaded, its sums and sums of squares stored into slot 0
  iapply (wp_prologue m ρ c f0 (fun v64 => .op (.semWait barS 15) fun _ => modelMid c v64) Q) $$ [Hs0 Hx]
  · isplitl [Hs0] <;> iassumption
  iintro ⟨Hs0, Hx⟩
  -- the wait for the 15 others' units
  iapply (Rounds.wp_wait_rest_token 𝒱₀ ER (ringRd m ρ) (c : Thread nD τ) none (κ := K (c, 0))
      (wpE_semWait_eq 𝒱₀ (c : Thread nD τ) none Set.univ) (Set.mem_univ _) () (O := recvOwed c L15) (W := W) (R := 0) (m := 0) (T := ∅)
      (by rw [expect_bar])) $$ [HcB HO HatB]
  · isplitr; · iapply (records_cell m ρ K (c, 0)); iexact HRec
    isplitl [HcB]; · iexact HcB
    isplitl [HO]; · iexact HO
    isplitr; · iapply (mayWait_bar c); iexact Hlev
    iexact HatB
  iintro ⟨HO, -, -, Hpay⟩
  ihave Hp := (Entails.of_eq (rest_bar m ρ c)) $$ Hpay
  ihave Hp := (bar_payload c) $$ Hp
  iapply Hk
  unfold cut1 xferPos stagedIn
  isplitr; · iexact HRec
  isplitr; · iexact Hlev
  isplitl [HO]; · iexists _; iexact HO
  isplitl [HatS0 HatR0 HatS HatR]
  · isplitl [HatS0]; · iexact HatS0
    isplitl [HatR0]; · iexact HatR0
    isplitl [HatS] <;> iassumption
  isplitl [HtS]; · iexact HtS
  isplitl [HtR]; · iexact HtR
  isplitl [HcR]; · iexact HcR
  isplitl [Hs0]; · iexact Hs0
  isplitl [Hp]; · iexact Hp
  isplitl [Hx]; · iexact Hx
  isplitl [Hw]; · iexact Hw
  iexists _; iexact Hout

/-- info: 'Cert.KernelIdealRun.seg_start' depends on axioms: [propext, Classical.choice, Quot.sound] -/
#guard_msgs in #print axioms seg_start

end Cert.KernelIdealRun

end
-- ==== Proof.KernelIdealRun.PhaseSend.lean ====
/-
  The copy phase: slot 0 of the device's table, holding its own sums, is copied into slot `j` of the device `j`
  places ahead on the ring, for each offset `j` of a list in order.  Each copy reads slot 0 through one of 16
  equal shares of it, pays the one duty of the departure counter `j` here (handing that share back) and the one
  duty of the arrival counter `j` there (handing the receiver its slot `j`, now holding the sender's sums), and
  takes the arrival off what the device owes; the device gets the departure's credit.
-/
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.PhaseSig

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem recvOwed_nil (c : Dev nD) : recvOwed c [] = 0 := rfl
omit [FloatOps F] in
theorem recvOwed_cons (c : Dev nD) (j : Fin 16) (l : List (Fin 16)) :
    recvOwed c (j :: l) = tallyAt (recvCell (fwd c j) j) () N + recvOwed c l := by
  unfold recvOwed; rw [List.map_cons, List.sum_cons]

section Sends
variable {α : Type} (dv : Fin 16 → Dev nD)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j)))

omit [FloatOps F] in
theorem sends_nil (k : Prog (TpuEff nD τ sig (Elt F) Λ₀ .tc) α) : sends dv hsc hsrc hdst hsem [] k = k := rfl
omit [FloatOps F] in
theorem sends_cons (j : Fin 16) (l : List (Fin 16)) (k : Prog (TpuEff nD τ sig (Elt F) Λ₀ .tc) α) :
    sends dv hsc hsrc hdst hsem (j :: l) k
      = .op (.enqueueDma (slotM 0 : Memref sig .tc .vmem S2x2x64 .f32)
          (.remote (dv j : Thread nD τ) (slotM j : Memref sig .tc .vmem S2x2x64 .f32) (.dma (sendS j)) (hsc j))
          (.dma (recvS j)) hsrc (hdst j) (hsem j)) fun _ => sends dv hsc hsrc hdst hsem l k := rfl
end Sends

/-- One copy, addressed to a device `n` that is the device `j` places ahead (substituted, not rewritten): the rule for a
    remote copy whose destination elements the issuer holds, at the ring's cells. -/
theorem wp_send_one (K : Dev nD × Fin 33 → ℕ) (c n : Dev nD) (j : Fin 16) (hj : j ≠ 0) (hn : n = fwd c j)
    {hsc : (slotM j : Memref sig (n : Thread nD τ).2.kind .vmem S2x2x64 .f32).view.ref.isScScratch = false}
    {hsrc : (slotM 0 : Memref sig .tc .vmem S2x2x64 .f32).view.WordExact} {hdst : (slotM j : Memref sig .tc .vmem S2x2x64 .f32).view.WordExact}
    {hsem : DmaTarget.Typed (p := .tc) .vmem (.dma (recvS j)) (.remote (n : Thread nD τ) (slotM j : Memref sig .tc .vmem S2x2x64 .f32) (.dma (sendS j)) hsc)}
    {α : Type} {Q : α → sProp 𝕄} {k : PUnit → Prog (TpuEff nD τ sig (Elt F) Λ₀ .tc) α}
    (fd : Buf (Elt F) ((slotM j : Memref sig .tc .vmem S2x2x64 .f32).view.loc (fwd c j : Thread nD τ)))
    (hland : ∀ i ∈ (slotM j : Memref sig .tc .vmem S2x2x64 .f32).view.set,
      ((slotM j : Memref sig .tc .vmem S2x2x64 .f32).view.write (Elt F) fd ((slotM 0 : Memref sig .tc .vmem S2x2x64 .f32).view.read (Elt F) (gathered m ρ c)) Finset.univ) i = gathered m ρ (fwd c j) i)
    (O : CellTallies nD τ sig Unit) (W : Waits sig Unit) :
    iprop(cellInv ER (ringRd m ρ) (K (c, jS j)) (sendCell c j) ∗ cellInv ER (ringRd m ρ) (K (fwd c j, jR j)) (recvCell (fwd c j) j)
        ∗ slotPts c 0 (Transfers.shareTok fullShare 16 j) (gathered m ρ c) ∗ slotPts (fwd c j) j fullShare fd
        ∗ owes (c : Thread nD τ) (O + tallyAt (recvCell (fwd c j) j) () N) W
        ∗ dutyTok ER (sendCell c j) 0 0 ∗ reached ER (sendCell c j) 0
        ∗ dutyTok ER (recvCell (fwd c j) j) 0 0 ∗ reached ER (recvCell (fwd c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 : Memref sig .tc .vmem S2x2x64 .f32) (.remote (n : Thread nD τ) (slotM j : Memref sig .tc .vmem S2x2x64 .f32) (.dma (sendS j)) hsc)
                (.dma (recvS j)) hsrc hdst hsem) k) Q) := by
  subst hn
  unfold slotPts
  exact Rounds.wp_send_pointsTo 𝒱₀ ER (ringRd m ρ) (c : Thread nD τ) none (c' := (fwd c j : Thread nD τ))
    (src := (slotM 0 : Memref sig .tc .vmem S2x2x64 .f32)) (dst := (slotM j : Memref sig .tc .vmem S2x2x64 .f32)) (sS := .dma (sendS j)) (sem := .dma (recvS j))
    (q := Transfers.shareTok fullShare 16 j) (fs := gathered m ρ c) (fd := fd)
    (κ₁ := K (c, jS j)) (κ₂ := K (fwd c j, jR j)) (r₁ := 0) (r₂ := 0) (d₁ := 0) (d₂ := 0)
    (by rw [duties_send m ρ c hj]; exact Finset.mem_singleton_self _)
    (by rw [duties_recv m ρ (fwd c j) hj]; exact Finset.mem_singleton_self _)
    () () N (slot_credit j) (amount_send m ρ c j 0) (amount_recv m ρ (fwd c j) j 0) O rfl (W := W)
    (by rw [payload_send m ρ c hj]; exact BI.Entails.refl _)
    (by rw [payload_recv m ρ (fwd c j) hj]; unfold recvPay slotPts; rw [pointsTo_congr hland])

/-- The copies to the devices at the offsets of `l`, none of them 0, addressed through a family `dv` of devices that is
    the ring's (`dv j` the device `j` places ahead): each takes its arrival off what the device owes and returns the
    departure's credit; when all are started the device owes `O` alone and holds one credit per departure counter.
    `hland` is what a landing leaves in slot `j` of the receiver: the sender's sums, as the receiver's table is to hold them. -/
theorem wp_sends {α : Type} (K : Dev nD × Fin 33 → ℕ) (c : Dev nD) (dv : Fin 16 → Dev nD) (hdv : ∀ j, dv j = fwd c j)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j)))
    (hland : ∀ j : Fin 16, j ≠ 0 → ∀ fd : Buf (Elt F) ((slotM j : Memref sig .tc .vmem S2x2x64 .f32).view.loc (fwd c j : Thread nD τ)),
      ∀ i ∈ (slotM j : Memref sig .tc .vmem S2x2x64 .f32).view.set,
        ((slotM j : Memref sig .tc .vmem S2x2x64 .f32).view.write (Elt F) fd ((slotM 0 : Memref sig .tc .vmem S2x2x64 .f32).view.read (Elt F) (gathered m ρ c)) Finset.univ) i
          = gathered m ρ (fwd c j) i)
    (l : List (Fin 16)) (hl : ∀ j ∈ l, j ≠ 0)
    (O : CellTallies nD τ sig Unit) (W : Waits sig Unit) (k : Prog (TpuEff nD τ sig (Elt F) Λ₀ .tc) α) (Q : α → sProp 𝕄) :
    iprop(records m ρ K ∗ owes (c : Thread nD τ) (O + recvOwed c l) W
        ∗ bigSepL l (fun j => iprop(dutyTok ER (sendCell c j) 0 0 ∗ dutyTok ER (recvCell (fwd c j) j) 0 0
            ∗ slotPts c 0 (Transfers.shareTok fullShare 16 j) (gathered m ρ c) ∗ ∃ fd, slotPts (fwd c j) j fullShare fd)))
      ⊢ iprop(((bigSepL l (fun j => cred (tallyAt (sendCell c j) () N)) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (sends dv hsc hsrc hdst hsem l k) Q) := by
  induction l generalizing O with
  | nil =>
    rw [recvOwed_nil, add_zero, sends_nil]
    iintro ⟨-, HL, -⟩ Hk
    iapply Hk
    isplitr; · rw [bigSepL_nil]; iempintro
    iexact HL
  | cons j l ih =>
    have hj : j ≠ 0 := hl j (List.mem_cons_self ..)
    have hl' : ∀ i ∈ l, i ≠ 0 := fun i hi => hl i (List.mem_cons_of_mem _ hi)
    have hO : O + recvOwed c (j :: l) = (O + recvOwed c l) + tallyAt (recvCell (fwd c j) j) () N := by
      rw [recvOwed_cons, add_assoc, add_comm (tallyAt _ _ _)]
    rw [hO, bigSepL_cons', bigSepL_cons', sends_cons]
    iintro ⟨#HR, HL, ⟨Hts, Htr, Hsrc, ⟨%fd, Hdst⟩⟩, Hrest⟩ Hk
    iapply (wp_send_one m ρ K c (dv j) j hj (hdv j) fd (hland j hj fd) (O + recvOwed c l) W) $$ [HL Hts Htr Hsrc Hdst]
    · isplitr; · rw [← kcell_send]; iapply (records_cell m ρ K (c, jS j)); iexact HR
      isplitr; · rw [← kcell_recv]; iapply (records_cell m ρ K (fwd c j, jR j)); iexact HR
      isplitl [Hsrc]; · iexact Hsrc
      isplitl [Hdst]; · iexact Hdst
      isplitl [HL]; · iexact HL
      isplitl [Hts]; · iexact Hts
      isplitr; · rw [← kcell_send]; iapply (records_reached m ρ K (c, jS j)); iexact HR
      isplitl [Htr]; · iexact Htr
      rw [← kcell_recv]; iapply (records_reached m ρ K (fwd c j, jR j)); iexact HR
    iintro ⟨Hcj, HL⟩
    iapply (ih hl' O) $$ [HL Hrest]
    · isplitr; · iexact HR
      isplitl [HL]; · iexact HL
      iexact Hrest
    iintro ⟨Hcs, HL⟩
    iapply Hk
    isplitl [Hcj Hcs]
    · isplitl [Hcj]; · iexact Hcj
      iexact Hcs
    iexact HL

/-- info: 'Cert.KernelIdealRun.wp_sends' depends on axioms: [propext, Classical.choice, Quot.sound] -/
#guard_msgs in #print axioms wp_sends

end Cert.KernelIdealRun

end
-- ==== Proof.KernelIdealRun.PhaseWait.lean ====
/-
  The waits on the arrival and departure counters, and the closing of those counters.

  A wait for a slot's whole credit on an arrival counter, by a device that owes nothing and holds the credit dealt for
  it, returns the counter's position moved on to round 1 and what the one duty of round 0 hands over: the slot holding
  the sender's sums.  On a departure counter it returns the share of slot 0 the copy read through.  Both are proved
  once, by induction over the list of ring offsets.  A counter whose owner stands at a round from which no round has a
  duty, nothing taken, is closed at zero.
-/
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.PhaseSig

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The waits on the arrival counters at the offsets of `l`, in order. -/
theorem wp_waits_recv (K : Dev nD × Fin 33 → ℕ) (c : Dev nD)
    (w : Fin 16 → TpuEff nD τ sig (Elt F) Λ₀ .tc PUnit)
    (hw : ∀ (j : Fin 16) (Kk : PUnit → sProp 𝕄),
      wpE (defs₀ (F := F)) 𝒱₀ (c : Thread nD τ) none Set.univ (w j) Kk = waitSpec (c : Thread nD τ) Set.univ (.dma (recvS j)) N Kk)
    {α : Type} (k : Prog (TpuEff nD τ sig (Elt F) Λ₀ .tc) α) (Q : α → sProp 𝕄)
    (l : List (Fin 16)) (hl : ∀ j ∈ l, j ≠ 0) (W : Waits sig Unit) :
    iprop(records m ρ K ∗ owes (c : Thread nD τ) 0 W
        ∗ bigSepL l (fun j => iprop(cred (tallyAt (recvCell c j) () N) ∗ atPos ER (recvCell c j) 0 ∅ 0)))
      ⊢ iprop((∀ W', (owes (c : Thread nD τ) 0 W' ∗ bigSepL l (fun j => iprop(atPos ER (recvCell c j) 1 ∅ 0 ∗ recvPay m ρ c j)))
            -∗ wp frame (wpE (defs₀ (F := F)) 𝒱₀ (c : Thread nD τ) none) Set.univ k Q)
          -∗ wp frame (wpE (defs₀ (F := F)) 𝒱₀ (c : Thread nD τ) none) Set.univ (waits w l k) Q) := by
  induction l generalizing W with
  | nil =>
    show iprop(records m ρ K ∗ owes (c : Thread nD τ) 0 W ∗ emp)
      ⊢ iprop((∀ W', (owes (c : Thread nD τ) 0 W' ∗ emp) -∗ wp frame (wpE (defs₀ (F := F)) 𝒱₀ (c : Thread nD τ) none) Set.univ k Q)
          -∗ wp frame (wpE (defs₀ (F := F)) 𝒱₀ (c : Thread nD τ) none) Set.univ k Q)
    iintro ⟨-, HL, -⟩ Hk
    iapply Hk $$ %W
    isplitl [HL]; · iexact HL
    iempintro
  | cons j l ih =>
    have hj : j ≠ 0 := hl j (List.mem_cons_self ..)
    have hl' : ∀ i ∈ l, i ≠ 0 := fun i hi => hl i (List.mem_cons_of_mem _ hi)
    rw [bigSepL_cons', bigSepL_cons']
    show _ ⊢ iprop(_ -∗ wp frame (wpE (defs₀ (F := F)) 𝒱₀ (c : Thread nD τ) none) Set.univ (.op (w j) fun _ => waits w l k) Q)
    iintro ⟨#Hrec, HL, ⟨Hc, Hat⟩, Hrest⟩ Hk
    ihave Hcell := (records_cell m ρ K (c, jR j)) $$ Hrec
    rw [kcell_recv]
    iapply (wp_wait_rest_token 𝒱₀ ER (ringRd m ρ) (c : Thread nD τ) none (hw j) (Set.mem_univ (K (c, jR j)))
      () (O := 0) (W := W) (R := 0) (T := ∅) (m := 0)
      (by rw [expect_recv m ρ c hj, Nat.zero_add])) $$ [Hcell Hc HL Hat]
    · isplitl [Hcell]; · iexact Hcell
      isplitl [Hc]; · iexact Hc
      isplitl [HL]; · iexact HL
      isplitr; · rw [MayWait_zero]; iempintro
      iexact Hat
    iintro ⟨HL, Hat, -, Hpay⟩
    ihave Hp := (Entails.of_eq (rest_recv m ρ c hj)) $$ Hpay
    iapply (ih hl' (insert (SemLoc.dma (recvS j), ()) W)) $$ [HL Hrest]
    · isplitr; · iexact Hrec
      isplitl [HL]; · iexact HL
      iexact Hrest
    iintro %W' ⟨HL, Hrest⟩
    iapply Hk $$ %W'
    isplitl [HL]; · iexact HL
    isplitl [Hat Hp]
    · isplitl [Hat]; · iexact Hat
      iexact Hp
    iexact Hrest

/-- The waits on the departure counters at the offsets of `l`, in order. -/
theorem wp_waits_send (K : Dev nD × Fin 33 → ℕ) (c : Dev nD)
    (w : Fin 16 → TpuEff nD τ sig (Elt F) Λ₀ .tc PUnit)
    (hw : ∀ (j : Fin 16) (Kk : PUnit → sProp 𝕄),
      wpE (defs₀ (F := F)) 𝒱₀ (c : Thread nD τ) none Set.univ (w j) Kk = waitSpec (c : Thread nD τ) Set.univ (.dma (sendS j)) N Kk)
    {α : Type} (k : Prog (TpuEff nD τ sig (Elt F) Λ₀ .tc) α) (Q : α → sProp 𝕄)
    (l : List (Fin 16)) (hl : ∀ j ∈ l, j ≠ 0) (W : Waits sig Unit) :
    iprop(records m ρ K ∗ owes (c : Thread nD τ) 0 W
        ∗ bigSepL l (fun j => iprop(cred (tallyAt (sendCell c j) () N) ∗ atPos ER (sendCell c j) 0 ∅ 0)))
      ⊢ iprop((∀ W', (owes (c : Thread nD τ) 0 W' ∗ bigSepL l (fun j => iprop(atPos ER (sendCell c j) 1 ∅ 0 ∗ sendPay m ρ c j)))
            -∗ wp frame (wpE (defs₀ (F := F)) 𝒱₀ (c : Thread nD τ) none) Set.univ k Q)
          -∗ wp frame (wpE (defs₀ (F := F)) 𝒱₀ (c : Thread nD τ) none) Set.univ (waits w l k) Q) := by
  induction l generalizing W with
  | nil =>
    show iprop(records m ρ K ∗ owes (c : Thread nD τ) 0 W ∗ emp)
      ⊢ iprop((∀ W', (owes (c : Thread nD τ) 0 W' ∗ emp) -∗ wp frame (wpE (defs₀ (F := F)) 𝒱₀ (c : Thread nD τ) none) Set.univ k Q)
          -∗ wp frame (wpE (defs₀ (F := F)) 𝒱₀ (c : Thread nD τ) none) Set.univ k Q)
    iintro ⟨-, HL, -⟩ Hk
    iapply Hk $$ %W
    isplitl [HL]; · iexact HL
    iempintro
  | cons j l ih =>
    have hj : j ≠ 0 := hl j (List.mem_cons_self ..)
    have hl' : ∀ i ∈ l, i ≠ 0 := fun i hi => hl i (List.mem_cons_of_mem _ hi)
    rw [bigSepL_cons', bigSepL_cons']
    show _ ⊢ iprop(_ -∗ wp frame (wpE (defs₀ (F := F)) 𝒱₀ (c : Thread nD τ) none) Set.univ (.op (w j) fun _ => waits w l k) Q)
    iintro ⟨#Hrec, HL, ⟨Hc, Hat⟩, Hrest⟩ Hk
    ihave Hcell := (records_cell m ρ K (c, jS j)) $$ Hrec
    rw [kcell_send]
    iapply (wp_wait_rest_token 𝒱₀ ER (ringRd m ρ) (c : Thread nD τ) none (hw j) (Set.mem_univ (K (c, jS j)))
      () (O := 0) (W := W) (R := 0) (T := ∅) (m := 0)
      (by rw [expect_send m ρ c hj, Nat.zero_add])) $$ [Hcell Hc HL Hat]
    · isplitl [Hcell]; · iexact Hcell
      isplitl [Hc]; · iexact Hc
      isplitl [HL]; · iexact HL
      isplitr; · rw [MayWait_zero]; iempintro
      iexact Hat
    iintro ⟨HL, Hat, -, Hpay⟩
    ihave Hp := (Entails.of_eq (rest_send m ρ c hj)) $$ Hpay
    iapply (ih hl' (insert (SemLoc.dma (sendS j), ()) W)) $$ [HL Hrest]
    · isplitr; · iexact Hrec
      isplitl [HL]; · iexact HL
      iexact Hrest
    iintro %W' ⟨HL, Hrest⟩
    iapply Hk $$ %W'
    isplitl [HL]; · iexact HL
    isplitl [Hat Hp]
    · isplitl [Hat]; · iexact Hat
      iexact Hp
    iexact Hrest

/-- The departure counter 0 is never used: it has no duty at any round. -/
theorem duties_idle_send (c : Dev nD) (r : ℕ) : (ringRd (F := F) m ρ).duties (sendCell c 0) r = ∅ := by
  dsimp only [ringRd]
  rw [if_neg (fun h => send_ne_bar 0 h.2.2), if_neg]
  rintro ⟨-, -, h | h⟩
  · have h0 : sendIdx (SemLoc.dma (sendS 0) : SemLoc sig) = none := by decide
    rw [h0] at h; exact Bool.noConfusion h
  · rw [recvIdx_send] at h; exact Bool.noConfusion h

/-- The arrival counter 0 is never used: it has no duty at any round. -/
theorem duties_idle_recv (c : Dev nD) (r : ℕ) : (ringRd (F := F) m ρ).duties (recvCell c 0) r = ∅ := by
  dsimp only [ringRd]
  rw [if_neg (fun h => recv_ne_bar 0 h.2.2), if_neg]
  rintro ⟨-, -, h | h⟩
  · rw [sendIdx_recv] at h; exact Bool.noConfusion h
  · have h0 : recvIdx (SemLoc.dma (recvS 0) : SemLoc sig) = none := by decide
    rw [h0] at h; exact Bool.noConfusion h

/-- The departure and arrival counters at the offsets of `l`, their owner at round 1 with nothing taken, are closed at zero. -/
theorem close_xfer (K : Dev nD × Fin 33 → ℕ) (c : Dev nD) (l : List (Fin 16)) :
    iprop(records m ρ K ∗ bigSepL l (fun j => iprop(atPos ER (sendCell c j) 1 ∅ 0 ∗ atPos ER (recvCell c j) 1 ∅ 0)))
      ⊢ iprop(|={Set.univ}=> bigSepL l (fun j => iprop(semVal (sendCell c j) 0 ∗ semVal (recvCell c j) 0))) := by
  induction l with
  | nil =>
    show iprop(records m ρ K ∗ emp) ⊢ iprop(|={Set.univ}=> emp)
    iintro -
    imodintro
    iempintro
  | cons j l ih =>
    rw [bigSepL_cons', bigSepL_cons']
    iintro ⟨#Hrec, ⟨Hs, Hr⟩, Hrest⟩
    ihave Hcs := (records_cell m ρ K (c, jS j)) $$ Hrec
    ihave Hcr := (records_cell m ρ K (c, jR j)) $$ Hrec
    rw [kcell_send, kcell_recv]
    imod (cell_close ER (ringRd m ρ) (Set.mem_univ (K (c, jS j))) (fun h => h) (R := 1) (duties_later m ρ (sendCell c j))) $$ [Hcs Hs] with Hsv
    · isplitl [Hcs]; · iexact Hcs
      iexact Hs
    imod (cell_close ER (ringRd m ρ) (Set.mem_univ (K (c, jR j))) (fun h => h) (R := 1) (duties_later m ρ (recvCell c j))) $$ [Hcr Hr] with Hrv
    · isplitl [Hcr]; · iexact Hcr
      iexact Hr
    imod ih $$ [Hrest] with Hrest
    · isplitr; · iexact Hrec
      iexact Hrest
    imodintro
    isplitl [Hsv Hrv]
    · isplitl [Hsv]; · iexact Hsv
      iexact Hrv
    iexact Hrest

/-- The never-used counters 0, their owner at round 0 with nothing taken, are closed at zero. -/
theorem close_idle (K : Dev nD × Fin 33 → ℕ) (c : Dev nD) :
    iprop(records m ρ K ∗ atPos ER (sendCell c 0) 0 ∅ 0 ∗ atPos ER (recvCell c 0) 0 ∅ 0)
      ⊢ iprop(|={Set.univ}=> (semVal (sendCell c 0) 0 ∗ semVal (recvCell c 0) 0)) := by
  iintro ⟨#Hrec, Hs, Hr⟩
  ihave Hcs := (records_cell m ρ K (c, jS 0)) $$ Hrec
  ihave Hcr := (records_cell m ρ K (c, jR 0)) $$ Hrec
  rw [kcell_send, kcell_recv]
  imod (cell_close ER (ringRd m ρ) (Set.mem_univ (K (c, jS 0))) (fun h => h) (R := 0) (fun r _ => duties_idle_send m ρ c r)) $$ [Hcs Hs] with Hsv
  · isplitl [Hcs]; · iexact Hcs
    iexact Hs
  imod (cell_close ER (ringRd m ρ) (Set.mem_univ (K (c, jR 0))) (fun h => h) (R := 0) (fun r _ => duties_idle_recv m ρ c r)) $$ [Hcr Hr] with Hrv
  · isplitl [Hcr]; · iexact Hcr
    iexact Hr
  imodintro
  isplitl [Hsv]; · iexact Hsv
  iexact Hrv

/-- info: 'Cert.KernelIdealRun.wp_waits_recv' depends on axioms: [propext, Classical.choice, Quot.sound] -/
#guard_msgs in #print axioms wp_waits_recv

/-- info: 'Cert.KernelIdealRun.wp_waits_send' depends on axioms: [propext, Classical.choice, Quot.sound] -/
#guard_msgs in #print axioms wp_waits_send

/-- info: 'Cert.KernelIdealRun.close_xfer' depends on axioms: [propext, Classical.choice, Quot.sound] -/
#guard_msgs in #print axioms close_xfer

/-- info: 'Cert.KernelIdealRun.close_idle' depends on axioms: [propext, Classical.choice, Quot.sound] -/
#guard_msgs in #print axioms close_idle

end Cert.KernelIdealRun

end
-- ==== Proof.KernelIdealRun.BodyMid.lean ====
/-
  The middle of a device's body: the 15 copies of slot 0 to the devices ahead, then the waits for the 15 arrivals.
  Slot 0, held in full, is cut into a kept share, a share no copy uses, and one share per copy; each copy reads
  through its share, pays the departure here and the arrival there, and takes the arrival off what is owed.  The
  15 waits then each hand over a slot of the table holding the sums of the device that many places behind.
-/
import proofs.«900424_g7700000000000425_dist_diff_noisepred_hshard_i_b2_h64_w64_c64_v7x_i16_f32_1_alg».proof.Proof.KernelIdealRun.Stages
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.BodyGlue
import proofs.«900424_g7700000000000425_dist_diff_noisepred_hshard_i_b2_h64_w64_c64_v7x_i16_f32_1_alg».proof.Proof.KernelIdealRun.Reindex
import proofs.«900424_g7700000000000425_dist_diff_noisepred_hshard_i_b2_h64_w64_c64_v7x_i16_f32_1_alg».proof.Proof.KernelIdealRun.PhaseSig
import proofs.«900424_g7700000000000425_dist_diff_noisepred_hshard_i_b2_h64_w64_c64_v7x_i16_f32_1_alg».proof.Proof.KernelIdealRun.PhaseSend
import proofs.«900424_g7700000000000425_dist_diff_noisepred_hshard_i_b2_h64_w64_c64_v7x_i16_f32_1_alg».proof.Proof.KernelIdealRun.PhaseWait
import proofs.«900424_g7700000000000425_dist_diff_noisepred_hshard_i_b2_h64_w64_c64_v7x_i16_f32_1_alg».proof.Proof.KernelIdealRun.SlotsContents

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Slot 0 held in full is the kept share, the share no copy uses, and the shares of the copies 1 … 15. -/
theorem slot0_split (c : Dev nD) (f : Buf (Elt F) ((slotM 0 : Memref sig .tc .vmem S2x2x64 .f32).view.loc (c : Thread nD τ))) :
    (slotPts c 0 fullShare f : sProp 𝕄)
      ⊢ iprop(slotPts c 0 (Transfers.shareDrop fullShare 16) f ∗ slotPts c 0 (Transfers.shareTok fullShare 16 0) f
          ∗ bigSep others fun k => slotPts c 0 (Transfers.shareTok fullShare 16 k) f) := by
  have h := (slot0_toks c f).1
  rw [bigSep_univ_at _ (0 : Fin 16)] at h
  exact h

omit [FloatOps F] in
/-- Four families over the offsets 1 … 15, as the list's conjunction of their quadruples. -/
theorem four_list (A B C D : Fin 16 → sProp 𝕄) :
    iprop(bigSep others A ∗ bigSep others B ∗ bigSep others C ∗ bigSep others D)
      = bigSepL L15 (fun j => iprop(A j ∗ B j ∗ C j ∗ D j)) := by
  rw [← bigSep_sep' others C D, ← bigSep_sep' others B, ← bigSep_sep' others A, bigSep_others_list]

/-- From the first cut to the second: the copies are started and the arrivals awaited. -/
theorem seg_mid (K : Dev nD × Fin 33 → ℕ) (c : Dev nD) (Q : PUnit → sProp 𝕄) :
    iprop(cut1 m ρ K c ∗ (cut2 m ρ K c -∗ wp frame (wpE (defs₀ (F := F)) 𝒱₀ (c : Thread nD τ) none) Set.univ (modelEnd c (xstg m ρ c)) Q))
      ⊢ wp frame (wpE (defs₀ (F := F)) 𝒱₀ (c : Thread nD τ) none) Set.univ (modelMid c (xstg m ρ c)) Q := by
  unfold cut1 modelMid xferPos
  iintro ⟨⟨#HR, #Hlev, ⟨%W, HL⟩, ⟨Hs0, Hr0, HatS, HatR⟩, HtS, HtR, HcR, Hslot0, Hahead, Hstg⟩, Hk⟩
  ihave Hsp := (slot0_split c (gathered m ρ c)) $$ Hslot0
  icases Hsp with ⟨Hkeep, Htok0, Htoks⟩
  ihave Hin := (Entails.of_eq (four_list (fun k => dutyTok ER (sendCell c k) 0 0) (fun k => dutyTok ER (recvCell (fwd c k) k) 0 0)
      (fun k => slotPts c 0 (Transfers.shareTok fullShare 16 k) (gathered m ρ c))
      (fun k => iprop(∃ f, slotPts (F := F) (fwd c k) k fullShare f)))) $$ [HtS HtR Htoks Hahead]
  · isplitl [HtS]; · iexact HtS
    isplitl [HtR]; · iexact HtR
    isplitl [Htoks]; · iexact Htoks
    iexact Hahead
  iapply (wp_sends m ρ K c (devCopy c) (devCopy_eq c) (slot_hsc c) (slot_wordExact 0) slot_wordExact (slot_hsem c)
      (fun j _ fd => landing_slot m ρ c j fd (gathered m ρ c) (fun _ _ => rfl)) L15 L15_ne_zero 0 W
      (waits wR L15 (modelEnd c (xstg m ρ c))) Q) $$ [HL Hin]
  · isplitr; · iexact HR
    isplitl [HL]; · rw [zero_add]; iexact HL
    iexact Hin
  iintro ⟨HcS, HL⟩
  ihave Hw := (Entails.of_eq (pair_list (fun j => cred (tallyAt (recvCell c j) () N)) (fun j => atPos ER (recvCell c j) 0 ∅ 0)))
      $$ [HcR HatR]
  · isplitl [HcR]; · iexact HcR
    iexact HatR
  iapply (wp_waits_recv m ρ K c wR (fun j Kk => by rw [wpE_waitDma2_eq, slot_credit]) (modelEnd c (xstg m ρ c)) Q
      L15 L15_ne_zero W) $$ [HL Hw]
  · isplitr; · iexact HR
    isplitl [HL]; · iexact HL
    iexact Hw
  iintro %W' ⟨HL, Hout⟩
  ihave Hout' := (Entails.of_eq (pair_list (fun j => atPos ER (recvCell c j) 1 ∅ 0) (fun j => recvPay m ρ c j)).symm) $$ Hout
  icases Hout' with ⟨HatR1, Hslots⟩
  ihave HcS' := (Entails.of_eq (bigSep_others_list (fun k => cred (tallyAt (sendCell c k) () N))).symm) $$ HcS
  iapply Hk
  unfold cut2 xferPos recvPay
  isplitr; · iexact HR
  isplitl [HL]; · iexists W'; iexact HL
  isplitl [Hs0 Hr0 HatS HatR1]
  · isplitl [Hs0]; · iexact Hs0
    isplitl [Hr0]; · iexact Hr0
    isplitl [HatS]; · iexact HatS
    iexact HatR1
  isplitl [HcS']; · iexact HcS'
  isplitl [Hkeep]; · iexact Hkeep
  isplitl [Htok0]; · iexact Htok0
  isplitl [Hslots]; · iexact Hslots
  iexact Hstg

/-- info: 'Cert.KernelIdealRun.seg_mid' depends on axioms: [propext, Classical.choice, Quot.sound] -/
#guard_msgs in #print axioms seg_mid

end Cert.KernelIdealRun

end
-- ==== Proof.KernelIdealRun.SlotsGlue.lean ====
/-
  Rearrangements of the table's slots and shares, and of a device's counters, between the forms the phases of the
  body leave them in and the forms the next phase or the end of the body takes them in.
-/
import proofs.«900424_g7700000000000425_dist_diff_noisepred_hshard_i_b2_h64_w64_c64_v7x_i16_f32_1_alg».proof.Proof.KernelIdealRun.Reindex
import proofs.«900424_g7700000000000425_dist_diff_noisepred_hshard_i_b2_h64_w64_c64_v7x_i16_f32_1_alg».proof.Proof.KernelIdealRun.Ghost
import proofs.«900424_g7700000000000425_dist_diff_noisepred_hshard_i_b2_h64_w64_c64_v7x_i16_f32_1_alg».proof.Proof.KernelIdealRun.PhaseDefs
import proofs.«900424_g7700000000000425_dist_diff_noisepred_hshard_i_b2_h64_w64_c64_v7x_i16_f32_1_alg».proof.Proof.KernelIdealRun.Slots
import proofs.«900424_g7700000000000425_dist_diff_noisepred_hshard_i_b2_h64_w64_c64_v7x_i16_f32_1_alg».proof.Proof.KernelIdealRun.SlotsContents

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Two assertions each of which entails the other are equal. -/
theorem eq_of_biEntails {P Q : sProp 𝕄} (h : P ⊣⊢ Q) : P = Q := BI.equiv_iff.mp ⟨h.1, h.2⟩

/-! ## A slot's share cut into a remainder and 16 parts -/

/-- Slot `k` held in full is a remainder and 16 parts of its share. -/
theorem slot_toks_eq (c : Dev nD) (k : Fin 16)
    (f : Buf (Elt F) ((slotM k : Memref sig .tc .vmem S2x2x64 .f32).view.loc (c : Thread nD τ))) :
    (slotPts c k fullShare f : sProp 𝕄)
      = iprop(slotPts c k (Transfers.shareDrop fullShare 16) f
          ∗ bigSep Finset.univ fun i : Fin 16 => slotPts c k (Transfers.shareTok fullShare 16 i) f) :=
  eq_of_biEntails (Transfers.pointsTo_toks fullShare 16)

/-- The table with slot 0 at the remainder of its share and every other slot in full is the whole table at that
    remainder beside the 16 parts of the share of each other slot. -/
theorem table_split_eq (c : Dev nD) (f : Buf (Elt F) ((c : Thread nD τ).loc cc0_scratch0)) :
    (iprop(slotPts c 0 (Transfers.shareDrop fullShare 16) f ∗ bigSep others fun k => slotPts c k fullShare f) : sProp 𝕄)
      = iprop((((c : Thread nD τ).loc cc0_scratch0) ↦[Finset.univ]{Transfers.shareDrop fullShare 16} f)
          ∗ bigSep others fun k => bigSep Finset.univ fun i : Fin 16 => slotPts c k (Transfers.shareTok fullShare 16 i) f) := by
  rw [scr_slots_eq c (Transfers.shareDrop fullShare 16) f,
    bigSep_univ_at (fun k : Fin 16 => slotPts c k (Transfers.shareDrop fullShare 16) f) 0,
    bigSep_congr (s := others) (Φ := fun k => slotPts c k fullShare f)
      (Ψ := fun k => iprop(slotPts c k (Transfers.shareDrop fullShare 16) f
          ∗ bigSep Finset.univ fun i : Fin 16 => slotPts c k (Transfers.shareTok fullShare 16 i) f))
      (fun k _ => slot_toks_eq c k f),
    bigSep_sep']
  exact (eq_of_biEntails sep_assoc).symm

theorem table_for_load (c : Dev nD) :
    iprop(slotPts c 0 (Transfers.shareDrop fullShare 16) (gathered m ρ c) ∗ bigSep others fun k => slotPts c k fullShare (gathered m ρ c))
      ⊢ (iprop((((c : Thread nD τ).loc cc0_scratch0) ↦[Finset.univ]{Transfers.shareDrop fullShare 16} (gathered m ρ c))
          ∗ bigSep others fun k => bigSep Finset.univ fun i : Fin 16 => slotPts c k (Transfers.shareTok fullShare 16 i) (gathered m ρ c)) : sProp 𝕄) :=
  Entails.of_eq (table_split_eq c (gathered m ρ c))

theorem table_back (c : Dev nD) :
    (iprop((((c : Thread nD τ).loc cc0_scratch0) ↦[Finset.univ]{Transfers.shareDrop fullShare 16} (gathered m ρ c))
        ∗ (bigSep others fun k => bigSep Finset.univ fun i : Fin 16 => slotPts c k (Transfers.shareTok fullShare 16 i) (gathered m ρ c))
        ∗ slotPts c 0 (Transfers.shareTok fullShare 16 0) (gathered m ρ c)
        ∗ bigSep others fun k => slotPts c 0 (Transfers.shareTok fullShare 16 k) (gathered m ρ c)) : sProp 𝕄)
      ⊢ scrPts c (gathered m ρ c) := by
  rw [scrPts_eq, scr_slots_eq c fullShare (gathered m ρ c),
    bigSep_univ_at (fun k : Fin 16 => slotPts c k fullShare (gathered m ρ c)) 0,
    slot_toks_eq c 0 (gathered m ρ c),
    bigSep_univ_at (fun i : Fin 16 => slotPts c 0 (Transfers.shareTok fullShare 16 i) (gathered m ρ c)) 0]
  iintro ⟨HP, HD, HT0, HTT⟩
  ihave H := (Entails.of_eq (table_split_eq c (gathered m ρ c)).symm) $$ [HP HD]
  · isplitl [HP]
    · iexact HP
    · iexact HD
  icases H with ⟨H0, HO⟩
  isplitr [HO]
  · isplitl [H0]
    · iexact H0
    · isplitl [HT0]
      · iexact HT0
      · iexact HTT
  · iexact HO

/-! ## A device's counters, listed two ways -/

/-- The 32 counters of a device's own closed at zero, from the 15 used pairs and the unused pair. -/
theorem own_sems (c : Dev nD) :
    (iprop((bigSepL L15 fun j => iprop(semVal (sendCell c j) 0 ∗ semVal (recvCell c j) 0))
        ∗ semVal (sendCell c 0) 0 ∗ semVal (recvCell c 0) 0) : sProp 𝕄)
      ⊢ (bigSep Finset.univ fun i : Fin 32 => semVal ((c : Thread nD τ), osem i) 0 : sProp 𝕄) := by
  rw [bigSep_fin32, ← bigSep_others_list, bigSep_sep']
  simp only [osem_iS, osem_iR]
  rw [bigSep_univ_at (fun k : Fin 16 => (semVal ((c : Thread nD τ), SemLoc.dma (sendS k)) 0 : sProp 𝕄)) 0,
    bigSep_univ_at (fun k : Fin 16 => (semVal ((c : Thread nD τ), SemLoc.dma (recvS k)) 0 : sProp 𝕄)) 0]
  iintro ⟨⟨HS, HR⟩, HS0, HR0⟩
  isplitl [HS0 HS]
  · isplitl [HS0]
    · iexact HS0
    · iexact HS
  · isplitl [HR0]
    · iexact HR0
    · iexact HR

/-- A device's positions on its 33 counters: the entry counter, the departure counters (the unused one first), the
    arrival counters (the unused one first). -/
theorem atPos_sorted (c : Dev nD) :
    (bigSep Finset.univ fun j : Fin 33 => atPos ER (kcell (c, j)) 0 ∅ 0 : sProp 𝕄)
      = iprop(atPos ER (barCell c) 0 ∅ 0
          ∗ (atPos ER (sendCell c 0) 0 ∅ 0 ∗ bigSep others fun k => atPos ER (sendCell c k) 0 ∅ 0)
          ∗ (atPos ER (recvCell c 0) 0 ∅ 0 ∗ bigSep others fun k => atPos ER (recvCell c k) 0 ∅ 0)) := by
  rw [bigSep_fin33]
  simp only [kcell_send, kcell_recv]
  rw [bigSep_univ_at (fun k : Fin 16 => (atPos ER (sendCell c k) 0 ∅ 0 : sProp 𝕄)) 0,
    bigSep_univ_at (fun k : Fin 16 => (atPos ER (recvCell c k) 0 ∅ 0 : sProp 𝕄)) 0]
  rfl

/-- info: 'Cert.KernelIdealRun.table_for_load' depends on axioms: [propext, Classical.choice, Quot.sound] -/
#guard_msgs in #print axioms table_for_load

/-- info: 'Cert.KernelIdealRun.table_back' depends on axioms: [propext, Classical.choice, Quot.sound] -/
#guard_msgs in #print axioms table_back

/-- info: 'Cert.KernelIdealRun.own_sems' depends on axioms: [propext, Classical.choice, Quot.sound] -/
#guard_msgs in #print axioms own_sems

/-- info: 'Cert.KernelIdealRun.atPos_sorted' depends on axioms: [propext, Classical.choice, Quot.sound] -/
#guard_msgs in #print axioms atPos_sorted

end Cert.KernelIdealRun

end
-- ==== Proof.KernelIdealRun.BodyEnd.lean ====
/-
  The end of one device's body: from the point where the 15 arrivals have been waited for to the body's post.

  The device loads its whole table through the share of it that no copy reads, with the matrix and the result's
  buffer, and stores the result; it then waits for the 15 departures, which hand back the shares of slot 0 the
  copies read through, so that the table is held whole again at the gathered sums; and it closes its departure
  and arrival counters at zero.
-/
import proofs.«900424_g7700000000000425_dist_diff_noisepred_hshard_i_b2_h64_w64_c64_v7x_i16_f32_1_alg».proof.Proof.KernelIdealRun.Stages
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.BodyGlue
import proofs.«900424_g7700000000000425_dist_diff_noisepred_hshard_i_b2_h64_w64_c64_v7x_i16_f32_1_alg».proof.Proof.KernelIdealRun.Reindex
import proofs.«900424_g7700000000000425_dist_diff_noisepred_hshard_i_b2_h64_w64_c64_v7x_i16_f32_1_alg».proof.Proof.KernelIdealRun.PhaseWait
import proofs.«900424_g7700000000000425_dist_diff_noisepred_hshard_i_b2_h64_w64_c64_v7x_i16_f32_1_alg».proof.Proof.KernelIdealRun.BodyLocal
import proofs.«900424_g7700000000000425_dist_diff_noisepred_hshard_i_b2_h64_w64_c64_v7x_i16_f32_1_alg».proof.Proof.KernelIdealRun.SlotsGlue

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's end, from the second cut to the body's post. -/
theorem seg_end (K : Dev nD × Fin 33 → ℕ) (c : Dev nD) (Q : PUnit → sProp 𝕄) :
    iprop(cut2 m ρ K c ∗ (bodyPost m ρ c -∗ Q ⟨⟩))
      ⊢ wp frame (wpE (defs₀ (F := F)) 𝒱₀ (c : Thread nD τ) none) Set.univ (modelEnd c (xstg m ρ c)) Q := by
  unfold cut2 xferPos stagedIn modelEnd
  iintro ⟨⟨#Hrec, ⟨%W, HL⟩, ⟨Hs0, Hr0, Hsp, Hrp⟩, Hcred, Hq0, Ht0, Hslots, ⟨Hx, Hw, Ho⟩⟩, HQ⟩
  ihave Ht := (table_for_load m ρ c) $$ [Hq0 Hslots]
  · isplitl [Hq0]; · iexact Hq0
    iexact Hslots
  icases Ht with ⟨Htab, Htoks⟩
  iapply (wp_compute m ρ c (Transfers.shareDrop fullShare 16) (waits wS L15 (.ret ⟨⟩)) Q) $$ [Htab Hw Ho]
  · isplitl [Htab]; · iexact Htab
    isplitl [Hw]; · iexact Hw
    iexact Ho
  iintro ⟨Htab, Hw, Ho⟩
  ihave Hin := (Entails.of_eq (pair_list (fun k => cred (tallyAt (sendCell c k) () N)) (fun k => atPos ER (sendCell c k) 0 ∅ 0))) $$ [Hcred Hsp]
  · isplitl [Hcred]; · iexact Hcred
    iexact Hsp
  iapply (wp_waits_send m ρ K c wS (fun j Kk => by rw [wpE_waitDma2_eq, slot_credit]) (.ret ⟨⟩) Q L15 L15_ne_zero W) $$ [HL Hin]
  · isplitr; · iexact Hrec
    isplitl [HL]; · iexact HL
    iexact Hin
  iintro %W' ⟨HL, Hout⟩
  ihave Hout' := (Entails.of_eq (pair_list (fun k => atPos ER (sendCell c k) 1 ∅ 0) (fun k => sendPay m ρ c k)).symm) $$ Hout
  icases Hout' with ⟨Hsp1, Hpays⟩
  unfold sendPay
  ihave Hscr := (table_back m ρ c) $$ [Htab Htoks Ht0 Hpays]
  · isplitl [Htab]; · iexact Htab
    isplitl [Htoks]; · iexact Htoks
    isplitl [Ht0]; · iexact Ht0
    iexact Hpays
  ihave Hpos := (Entails.of_eq (pair_list (fun k => atPos ER (sendCell c k) 1 ∅ 0) (fun k => atPos ER (recvCell c k) 1 ∅ 0))) $$ [Hsp1 Hrp]
  · isplitl [Hsp1]; · iexact Hsp1
    iexact Hrp
  rw [wp_ret]
  imod (close_xfer m ρ K c L15) $$ [Hpos] with Hx15
  · isplitr; · iexact Hrec
    iexact Hpos
  imod (close_idle m ρ K c) $$ [Hs0 Hr0] with Hx0
  · isplitr; · iexact Hrec
    isplitl [Hs0]; · iexact Hs0
    iexact Hr0
  ihave Hsems := (own_sems (F := F) c) $$ [Hx15 Hx0]
  · isplitl [Hx15]; · iexact Hx15
    iexact Hx0
  imodintro
  iapply HQ
  unfold bodyPost Φ₁ Dat.owesAt Pipeline.owesWithin
  rw [show (dats m ρ 0 c).owed t₀.succ = 0 from rfl]
  isplitl [Hscr Hsems]
  · isplitl [Hscr]; · iexact Hscr
    iexact Hsems
  isplitl [HL]
  · iexists W'
    isplitr; · ipureintro; exact fun _ _ => Or.inl trivial
    iexact HL
  isplitl [Hx]; · iexact Hx
  isplitl [Hw]; · iexact Hw
  iexact Ho

/-- info: 'Cert.KernelIdealRun.seg_end' depends on axioms: [propext, Classical.choice, Quot.sound] -/
#guard_msgs in #print axioms seg_end

end Cert.KernelIdealRun

end
-- ==== Proof.KernelIdealRun.Body.lean ====
/-
  One device's body, whole: the printed body is the model, the model runs in three segments (up to the
  wait for the others' entry units; the copies and the waits for the arrivals; the result and the waits for
  the departures), and the library's obligation for the body is that run, started from what the launch
  hands over: the ghost state, the launch credit, the levels, the table, the units owed and the three
  staged arrays.
-/
import proofs.«900424_g7700000000000425_dist_diff_noisepred_hshard_i_b2_h64_w64_c64_v7x_i16_f32_1_alg».proof.Proof.KernelIdealRun.Stages
import proofs.«900424_g7700000000000425_dist_diff_noisepred_hshard_i_b2_h64_w64_c64_v7x_i16_f32_1_alg».proof.Proof.KernelIdealRun.Model
import proofs.«900424_g7700000000000425_dist_diff_noisepred_hshard_i_b2_h64_w64_c64_v7x_i16_f32_1_alg».proof.Proof.KernelIdealRun.Sched
import proofs.«900424_g7700000000000425_dist_diff_noisepred_hshard_i_b2_h64_w64_c64_v7x_i16_f32_1_alg».proof.Proof.KernelIdealRun.Ghost
import proofs.«900424_g7700000000000425_dist_diff_noisepred_hshard_i_b2_h64_w64_c64_v7x_i16_f32_1_alg».proof.Proof.KernelIdealRun.BodyModel
import proofs.«900424_g7700000000000425_dist_diff_noisepred_hshard_i_b2_h64_w64_c64_v7x_i16_f32_1_alg».proof.Proof.KernelIdealRun.BodyStart
import proofs.«900424_g7700000000000425_dist_diff_noisepred_hshard_i_b2_h64_w64_c64_v7x_i16_f32_1_alg».proof.Proof.KernelIdealRun.BodyMid
import proofs.«900424_g7700000000000425_dist_diff_noisepred_hshard_i_b2_h64_w64_c64_v7x_i16_f32_1_alg».proof.Proof.KernelIdealRun.BodyEnd

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body from its three segments -/

/-- The body's proof: the printed body is the model, and the model runs in three segments, each handing the next what
    it holds at the cut between them. -/
theorem sound_body (K : Dev nD × Fin 33 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) Kt := by
  refine BIBase.Entails.trans ?_ (wp_body_of_model c Kt)
  iintro ⟨Hpre, Hk⟩
  iapply (seg_start m ρ K c Kt)
  isplitl [Hpre]
  · iexact Hpre
  iintro H1
  iapply (seg_mid m ρ K c Kt)
  isplitl [H1]
  · iexact H1
  iintro H2
  iapply (seg_end m ρ K c Kt)
  isplitl [H2]
  · iexact H2
  iexact Hk

/-! ## The library's body obligation -/

omit [FloatOps F] in
/-- A whole buffer owned in full at contents X: some contents equal to X, held in full. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hcr, Hlv⟩, Hscr⟩, Ho, Hx, Hw, Hout⟩
  iapply (sound_body m ρ K c fun _ => bodyPost m ρ c)
  unfold bodyPre
  isplitr []
  · isplitl [Hg Hcr Hlv Hscr]
    · isplitl [Hg]
      · iexact Hg
      isplitl [Hcr]
      · iexact Hcr
      isplitl [Hlv]
      · iexact Hlv
      iexact Hscr
    isplitl [Ho]
    · iexact Ho
    isplitl [Hx]
    · iexact Hx
    isplitl [Hw]
    · iexact Hw
    iexact Hout
  · iintro H; iexact H

/-- info: 'Cert.KernelIdealRun.sound_body' depends on axioms: [propext, Classical.choice, Quot.sound] -/
#guard_msgs in #print axioms sound_body

/-- info: 'Cert.KernelIdealRun.body_obligation' depends on axioms: [propext, Classical.choice, Quot.sound] -/
#guard_msgs in #print axioms body_obligation

end Cert.KernelIdealRun

end
-- ==== Proof.KernelRun.PhaseDefs.lean ====
/-
  The body's four repeated phases as programs over a list of ring offsets: an entry unit to each device
  ahead, a copy of slot 0 to each device ahead, and a wait on each arrival or departure counter; and the
  units still owed while a phase runs, as sums over the offsets not yet served.
-/
import proofs.«900424_g7700000000000425_dist_diff_noisepred_hshard_i_b2_h64_w64_c64_v7x_i16_f32_1_alg».proof.Proof.KernelRun.Proto
import proofs.«900424_g7700000000000425_dist_diff_noisepred_hshard_i_b2_h64_w64_c64_v7x_i16_f32_1_alg».proof.Proof.KernelRun.Ghost

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {α : Type}

/-- One entry unit to the device `j` places ahead, for each `j` of the list in order, then `k`. -/
def sigs (c : Dev nD) : List (Fin 16) → Prog (TpuEff nD τ sig (Elt F) Λ₀ .tc) α → Prog (TpuEff nD τ sig (Elt F) Λ₀ .tc) α
  | [], k => k
  | j :: l, k => .op (.semSignal (fwd c j : Thread nD τ) barS 1) fun _ => sigs c l k

/-- One copy of slot 0 into slot `j` of the device `dv j` (which will be the device `j` places ahead), crediting the
    departure counter `j` here and the arrival counter `j` there, for each `j` of the list in order, then `k`. The target
    device is a family of its own because the program computes it by its own arithmetic. -/
def sends (dv : Fin 16 → Dev nD)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j))) :
    List (Fin 16) → Prog (TpuEff nD τ sig (Elt F) Λ₀ .tc) α → Prog (TpuEff nD τ sig (Elt F) Λ₀ .tc) α
  | [], k => k
  | j :: l, k => .op (.enqueueDma (slotM 0 : Memref sig .tc .vmem S2x2x64 .f32)
      (.remote (dv j : Thread nD τ) (slotM j : Memref sig .tc .vmem S2x2x64 .f32) (.dma (sendS j)) (hsc j))
      (.dma (recvS j)) hsrc (hdst j) (hsem j)) fun _ => sends dv hsc hsrc hdst hsem l k

/-- The operation `w j` (a wait) for each `j` of the list in order, then `k`. -/
def waits (w : Fin 16 → TpuEff nD τ sig (Elt F) Λ₀ .tc PUnit) :
    List (Fin 16) → Prog (TpuEff nD τ sig (Elt F) Λ₀ .tc) α → Prog (TpuEff nD τ sig (Elt F) Λ₀ .tc) α
  | [], k => k
  | j :: l, k => .op (w j) fun _ => waits w l k

/-- The entry units owed to the devices at the offsets of `l`. -/
def barOwed (c : Dev nD) (l : List (Fin 16)) : CellTallies nD τ sig Unit := (l.map fun j => tallyAt (barCell (fwd c j)) () 1).sum
/-- The arrivals owed to the devices at the offsets of `l`. -/
def recvOwed (c : Dev nD) (l : List (Fin 16)) : CellTallies nD τ sig Unit := (l.map fun j => tallyAt (recvCell (fwd c j) j) () N).sum

/-- The offsets 1 … 15 in order. -/
def L15 : List (Fin 16) := [1, 2, 3, 4, 5, 6, 7, 8, 9, 10, 11, 12, 13, 14, 15]

theorem L15_nodup : L15.Nodup := by decide
theorem L15_toFinset : L15.toFinset = others := by decide
theorem L15_ne_zero : ∀ j ∈ L15, j ≠ 0 := by decide

/-- Every slot credits the same number of units. -/
theorem slot_credit (k : Fin 16) : (slotM k : Memref sig .tc .vmem S2x2x64 .f32).view.dmaCredit = N := by revert k; decide

end Cert.KernelRun

end
-- ==== Proof.KernelRun.Slots.lean ====
/-
  The table of partial sums, cut into its 16 slots.

  The table is 16 × 2 × 2 × 64; slot k is the rectangle of the indices whose first coordinate is k.  The 16
  slots are pairwise disjoint and cover the table, so holding the table is holding the 16 slots, and any one
  slot can be carved out of a part of the table that contains it.  Slot 0 is in turn the two rows (second
  coordinate 0 and 1) a device stores its own sums and sums of squares into.
-/
import proofs.«900424_g7700000000000425_dist_diff_noisepred_hshard_i_b2_h64_w64_c64_v7x_i16_f32_1_alg».proof.Proof.KernelRun.Proto

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slots' index sets -/

/-- The table's indices under slot `k`. -/
abbrev slotSet (k : Fin 16) : Finset (cc0_scratch0 : Ref sig .tc).ty.Idx :=
  (slotM k : Memref sig .tc .vmem S2x2x64 .f32).view.set

/-- Slot `k` is the rectangle of all indices whose first coordinate is `k`. -/
theorem slotSet_eq (k : Fin 16) :
    slotSet k = (Rect.unit (s := S16x2x2x64) ![k.val, 0, 0, 0] S1x2x2x64.size (slot_inb k)).set := by
  show ((((Memref.whole cc0_scratch0 : Memref sig .tc .vmem S16x2x2x64 .f32).view.slice _).reshape _ _ : View sig .tc .vmem S2x2x64 .f32)).set = _
  rw [View.set_reshape]
  exact View.set_slice_whole cc0_scratch0 _

theorem mem_slotSet {k : Fin 16} {i : (cc0_scratch0 : Ref sig .tc).ty.Idx} : i ∈ slotSet k ↔ (i 0).val = k.val := by
  rw [slotSet_eq, Rect.mem_set_unit]
  constructor
  · intro h
    have h0 := h 0
    have e0 : (![k.val, 0, 0, 0] : Fin 4 → Nat) 0 = k.val := rfl
    have s0 : S1x2x2x64.size 0 = 1 := rfl
    rw [e0, s0] at h0
    omega
  · intro h a
    have h1 : (i 1).val < 2 := (i 1).isLt
    have h2 : (i 2).val < 2 := (i 2).isLt
    have h3 : (i 3).val < 64 := (i 3).isLt
    match a with
    | ⟨0, _⟩ => exact ⟨le_of_eq h.symm, by show (i 0).val < k.val + 1; omega⟩
    | ⟨1, _⟩ => exact ⟨Nat.zero_le _, by show (i 1).val < 0 + 2; omega⟩
    | ⟨2, _⟩ => exact ⟨Nat.zero_le _, by show (i 2).val < 0 + 2; omega⟩
    | ⟨3, _⟩ => exact ⟨Nat.zero_le _, by show (i 3).val < 0 + 64; omega⟩

/-- Different slots share no index. -/
theorem slotSet_disjoint {k k' : Fin 16} (h : k ≠ k') : Disjoint (slotSet k) (slotSet k') :=
  Finset.disjoint_left.mpr fun i hi hi' =>
    h (Fin.ext ((mem_slotSet.mp hi).symm.trans (mem_slotSet.mp hi')))

/-- Every index of the table lies in the slot its first coordinate names. -/
theorem mem_slotSet_self (i : (cc0_scratch0 : Ref sig .tc).ty.Idx) : i ∈ slotSet ⟨(i 0).val, (i 0).isLt⟩ :=
  mem_slotSet.mpr rfl

/-- The 16 slots cover the table. -/
theorem slotSet_cover : (Finset.univ : Finset (Fin 16)).biUnion slotSet = Finset.univ :=
  Finset.eq_univ_iff_forall.mpr fun i =>
    Finset.mem_biUnion.mpr ⟨⟨(i 0).val, (i 0).isLt⟩, Finset.mem_univ _, mem_slotSet_self i⟩

/-! ## The two rows a device stores into its own slot -/

/-- Row 0 of slot 0 (the sums) and row 1 of slot 0 (the sums of squares), as the two stores address them. -/
abbrev R0 : Rect S16x2x2x64 := Rect.unit (s := S16x2x2x64) ![0, 0, 0, 0] S1x1x2x64.size inb_S16x2x2x64_S1x1x2x64_0_0_0_0
abbrev R1 : Rect S16x2x2x64 := Rect.unit (s := S16x2x2x64) ![0, 1, 0, 0] S1x1x2x64.size inb_S16x2x2x64_S1x1x2x64_0_1_0_0

theorem mem_R0 {i : S16x2x2x64.Idx} : i ∈ R0.set ↔ (i 0).val = 0 ∧ (i 1).val = 0 := by
  rw [Rect.mem_set_unit]
  have h2 : (i 2).val < 2 := (i 2).isLt
  have h3 : (i 3).val < 64 := (i 3).isLt
  constructor
  · intro h
    have a0 : (i 0).val < 0 + 1 := (h 0).2
    have a1 : (i 1).val < 0 + 1 := (h 1).2
    exact ⟨by omega, by omega⟩
  · intro h a
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 2; omega⟩
    | ⟨3, _⟩ => exact ⟨Nat.zero_le _, by show (i 3).val < 0 + 64; omega⟩

theorem mem_R1 {i : S16x2x2x64.Idx} : i ∈ R1.set ↔ (i 0).val = 0 ∧ (i 1).val = 1 := by
  rw [Rect.mem_set_unit]
  have h2 : (i 2).val < 2 := (i 2).isLt
  have h3 : (i 3).val < 64 := (i 3).isLt
  constructor
  · intro h
    have a0 : (i 0).val < 0 + 1 := (h 0).2
    have a1l : 1 ≤ (i 1).val := (h 1).1
    have a1 : (i 1).val < 1 + 1 := (h 1).2
    exact ⟨by omega, by omega⟩
  · intro h a
    match a with
    | ⟨0, _⟩ => exact ⟨Nat.zero_le _, by show (i 0).val < 0 + 1; omega⟩
    | ⟨1, _⟩ => exact ⟨by show 1 ≤ (i 1).val; omega, by show (i 1).val < 1 + 1; omega⟩
    | ⟨2, _⟩ => exact ⟨Nat.zero_le _, by show (i 2).val < 0 + 2; omega⟩
    | ⟨3, _⟩ => exact ⟨Nat.zero_le _, by show (i 3).val < 0 + 64; omega⟩

theorem R0_subset : R0.set ⊆ slotSet 0 := fun i hi => mem_slotSet.mpr (mem_R0.mp hi).1
theorem R1_subset : R1.set ⊆ slotSet 0 := fun i hi => mem_slotSet.mpr (mem_R1.mp hi).1
theorem R0_disjoint_R1 : Disjoint R0.set R1.set :=
  Finset.disjoint_left.mpr fun i h0 h1 => by
    have := (mem_R0.mp h0).2; have := (mem_R1.mp h1).2; omega
theorem R0_union_R1 : R0.set ∪ R1.set = slotSet 0 := by
  ext i
  rw [Finset.mem_union, mem_R0, mem_R1, mem_slotSet]
  have h1 : (i 1).val < 2 := (i 1).isLt
  show _ ↔ (i 0).val = 0
  constructor
  · rintro (h | h) <;> exact h.1
  · intro h
    by_cases h' : (i 1).val = 0
    · exact .inl ⟨h, h'⟩
    · exact .inr ⟨h, by omega⟩
/-- An index of slot 0 is in the first row or in the second. -/
theorem mem_slotSet_zero {i : (cc0_scratch0 : Ref sig .tc).ty.Idx} (h : i ∈ slotSet 0) : i ∈ R0.set ∨ i ∈ R1.set :=
  Finset.mem_union.mp (R0_union_R1 ▸ h)

/-! ## The table held whole is its 16 slots held one by one -/

/-- The table held at share `q` and contents `f` is its 16 slots, each held at `q` and `f`. -/
theorem scr_slots_eq (c : Dev nD) (q : PosShare TreeShare) (f : Buf (Elt F) ((c : Thread nD τ).loc cc0_scratch0)) :
    (((c : Thread nD τ).loc cc0_scratch0) ↦[Finset.univ]{q} f : sProp 𝕄) = bigSep Finset.univ fun k : Fin 16 => slotPts c k q f := by
  have h := pointsTo_biUnion (nD := nD) (τ := τ) (sig := sig) (Ix := Unit) (Val := Elt F) (Name := ℕ) (U := UU) (Lvl := ℕ)
    (ℓ := (c : Thread nD τ).loc cc0_scratch0) (q := q) (f := f) (Finset.univ : Finset (Fin 16)) slotSet
    (fun k _ k' _ hk => slotSet_disjoint hk)
  rw [slotSet_cover] at h
  exact h

theorem scr_slots (c : Dev nD) (q : PosShare TreeShare) (f : Buf (Elt F) ((c : Thread nD τ).loc cc0_scratch0)) :
    (((c : Thread nD τ).loc cc0_scratch0) ↦[Finset.univ]{q} f : sProp 𝕄) ⊣⊢ bigSep Finset.univ fun k : Fin 16 => slotPts c k q f :=
  BiEntails.of_eq (scr_slots_eq c q f)

/-- One slot carved out of any part of the table that contains it, and put back. -/
theorem scr_peel (c : Dev nD) (k : Fin 16) (q : PosShare TreeShare) (f : Buf (Elt F) ((c : Thread nD τ).loc cc0_scratch0))
    {S : Finset (cc0_scratch0 : Ref sig .tc).ty.Idx} (h : slotSet k ⊆ S) :
    (((c : Thread nD τ).loc cc0_scratch0) ↦[S]{q} f : sProp 𝕄)
      ⊣⊢ iprop(slotPts c k q f ∗ (((c : Thread nD τ).loc cc0_scratch0) ↦[S \ slotSet k]{q} f)) :=
  pointsTo_split_subset h

/-- info: 'Cert.KernelRun.scr_slots' depends on axioms: [propext, Classical.choice, Quot.sound] -/
#guard_msgs in #print axioms scr_slots

/-- info: 'Cert.KernelRun.scr_peel' depends on axioms: [propext, Classical.choice, Quot.sound] -/
#guard_msgs in #print axioms scr_peel

/-- info: 'Cert.KernelRun.R0_union_R1' depends on axioms: [propext, Classical.choice, Quot.sound] -/
#guard_msgs in #print axioms R0_union_R1

end Cert.KernelRun

end
-- ==== Proof.KernelRun.SlotsDev.lean ====
/-
  The devices a device addresses.  The program computes the target of its j-th entry signal and of its j-th
  copy as (own position + j) mod 16 through a chain of word operations; each chain is the device j places
  ahead on the ring.
-/
import proofs.«900424_g7700000000000425_dist_diff_noisepred_hshard_i_b2_h64_w64_c64_v7x_i16_f32_1_alg».proof.Proof.KernelRun.Proto

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The targets of the 15 entry signals (chains 1 … 15) and of the 15 copies (chains 16 … 30) -/

theorem dev1_eq (c : Dev nD) : (⟨k0_dev1 c, k0_dev1_lt c⟩ : Dev nD) = fwd c 1 := Fin.ext ((k0_dev1_eq c).trans (by rfl))
theorem dev2_eq (c : Dev nD) : (⟨k0_dev2 c, k0_dev2_lt c⟩ : Dev nD) = fwd c 2 := Fin.ext ((k0_dev2_eq c).trans (by rfl))
theorem dev3_eq (c : Dev nD) : (⟨k0_dev3 c, k0_dev3_lt c⟩ : Dev nD) = fwd c 3 := Fin.ext ((k0_dev3_eq c).trans (by rfl))
theorem dev4_eq (c : Dev nD) : (⟨k0_dev4 c, k0_dev4_lt c⟩ : Dev nD) = fwd c 4 := Fin.ext ((k0_dev4_eq c).trans (by rfl))
theorem dev5_eq (c : Dev nD) : (⟨k0_dev5 c, k0_dev5_lt c⟩ : Dev nD) = fwd c 5 := Fin.ext ((k0_dev5_eq c).trans (by rfl))
theorem dev6_eq (c : Dev nD) : (⟨k0_dev6 c, k0_dev6_lt c⟩ : Dev nD) = fwd c 6 := Fin.ext ((k0_dev6_eq c).trans (by rfl))
theorem dev7_eq (c : Dev nD) : (⟨k0_dev7 c, k0_dev7_lt c⟩ : Dev nD) = fwd c 7 := Fin.ext ((k0_dev7_eq c).trans (by rfl))
theorem dev8_eq (c : Dev nD) : (⟨k0_dev8 c, k0_dev8_lt c⟩ : Dev nD) = fwd c 8 := Fin.ext ((k0_dev8_eq c).trans (by rfl))
theorem dev9_eq (c : Dev nD) : (⟨k0_dev9 c, k0_dev9_lt c⟩ : Dev nD) = fwd c 9 := Fin.ext ((k0_dev9_eq c).trans (by rfl))
theorem dev10_eq (c : Dev nD) : (⟨k0_dev10 c, k0_dev10_lt c⟩ : Dev nD) = fwd c 10 := Fin.ext ((k0_dev10_eq c).trans (by rfl))
theorem dev11_eq (c : Dev nD) : (⟨k0_dev11 c, k0_dev11_lt c⟩ : Dev nD) = fwd c 11 := Fin.ext ((k0_dev11_eq c).trans (by rfl))
theorem dev12_eq (c : Dev nD) : (⟨k0_dev12 c, k0_dev12_lt c⟩ : Dev nD) = fwd c 12 := Fin.ext ((k0_dev12_eq c).trans (by rfl))
theorem dev13_eq (c : Dev nD) : (⟨k0_dev13 c, k0_dev13_lt c⟩ : Dev nD) = fwd c 13 := Fin.ext ((k0_dev13_eq c).trans (by rfl))
theorem dev14_eq (c : Dev nD) : (⟨k0_dev14 c, k0_dev14_lt c⟩ : Dev nD) = fwd c 14 := Fin.ext ((k0_dev14_eq c).trans (by rfl))
theorem dev15_eq (c : Dev nD) : (⟨k0_dev15 c, k0_dev15_lt c⟩ : Dev nD) = fwd c 15 := Fin.ext ((k0_dev15_eq c).trans (by rfl))
theorem dev16_eq (c : Dev nD) : (⟨k0_dev16 c, k0_dev16_lt c⟩ : Dev nD) = fwd c 1 := Fin.ext ((k0_dev16_eq c).trans (by rfl))
theorem dev17_eq (c : Dev nD) : (⟨k0_dev17 c, k0_dev17_lt c⟩ : Dev nD) = fwd c 2 := Fin.ext ((k0_dev17_eq c).trans (by rfl))
theorem dev18_eq (c : Dev nD) : (⟨k0_dev18 c, k0_dev18_lt c⟩ : Dev nD) = fwd c 3 := Fin.ext ((k0_dev18_eq c).trans (by rfl))
theorem dev19_eq (c : Dev nD) : (⟨k0_dev19 c, k0_dev19_lt c⟩ : Dev nD) = fwd c 4 := Fin.ext ((k0_dev19_eq c).trans (by rfl))
theorem dev20_eq (c : Dev nD) : (⟨k0_dev20 c, k0_dev20_lt c⟩ : Dev nD) = fwd c 5 := Fin.ext ((k0_dev20_eq c).trans (by rfl))
theorem dev21_eq (c : Dev nD) : (⟨k0_dev21 c, k0_dev21_lt c⟩ : Dev nD) = fwd c 6 := Fin.ext ((k0_dev21_eq c).trans (by rfl))
theorem dev22_eq (c : Dev nD) : (⟨k0_dev22 c, k0_dev22_lt c⟩ : Dev nD) = fwd c 7 := Fin.ext ((k0_dev22_eq c).trans (by rfl))
theorem dev23_eq (c : Dev nD) : (⟨k0_dev23 c, k0_dev23_lt c⟩ : Dev nD) = fwd c 8 := Fin.ext ((k0_dev23_eq c).trans (by rfl))
theorem dev24_eq (c : Dev nD) : (⟨k0_dev24 c, k0_dev24_lt c⟩ : Dev nD) = fwd c 9 := Fin.ext ((k0_dev24_eq c).trans (by rfl))
theorem dev25_eq (c : Dev nD) : (⟨k0_dev25 c, k0_dev25_lt c⟩ : Dev nD) = fwd c 10 := Fin.ext ((k0_dev25_eq c).trans (by rfl))
theorem dev26_eq (c : Dev nD) : (⟨k0_dev26 c, k0_dev26_lt c⟩ : Dev nD) = fwd c 11 := Fin.ext ((k0_dev26_eq c).trans (by rfl))
theorem dev27_eq (c : Dev nD) : (⟨k0_dev27 c, k0_dev27_lt c⟩ : Dev nD) = fwd c 12 := Fin.ext ((k0_dev27_eq c).trans (by rfl))
theorem dev28_eq (c : Dev nD) : (⟨k0_dev28 c, k0_dev28_lt c⟩ : Dev nD) = fwd c 13 := Fin.ext ((k0_dev28_eq c).trans (by rfl))
theorem dev29_eq (c : Dev nD) : (⟨k0_dev29 c, k0_dev29_lt c⟩ : Dev nD) = fwd c 14 := Fin.ext ((k0_dev29_eq c).trans (by rfl))
theorem dev30_eq (c : Dev nD) : (⟨k0_dev30 c, k0_dev30_lt c⟩ : Dev nD) = fwd c 15 := Fin.ext ((k0_dev30_eq c).trans (by rfl))

/-- info: 'Cert.KernelRun.dev30_eq' depends on axioms: [propext, Quot.sound] -/
#guard_msgs in #print axioms dev30_eq

end Cert.KernelRun

end
-- ==== Proof.KernelRun.Model.lean ====
/-
  One device's body, after it has read its place on the ring, as the four repeated phases around the few
  local steps: the 15 entry units; the block loaded and its sums and sums of squares stored into slot 0;
  the wait for the 15 others' units; the 15 copies of slot 0; the waits for the 15 arrivals; the table, the
  matrix loaded, the result stored; the waits for the 15 departures.
-/
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Slots
import proofs.«900424_g7700000000000425_dist_diff_noisepred_hshard_i_b2_h64_w64_c64_v7x_i16_f32_1_alg».proof.Proof.KernelRun.SlotsDev

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The whole table, the whole block, the whole matrix, the whole result. -/
abbrev RT : Rect S16x2x2x64 := Rect.unit (s := S16x2x2x64) ![0, 0, 0, 0] S16x2x2x64.size inb_S16x2x2x64_S16x2x2x64_0_0_0_0
abbrev RX : Rect S2x64x64x64 := Rect.unit (s := S2x64x64x64) ![0, 0, 0, 0] S2x64x64x64.size inb_S2x64x64x64_S2x64x64x64_0_0_0_0
abbrev RW : Rect S64x128 := Rect.unit (s := S64x128) ![0, 0] S64x128.size inb_S64x128_S64x128_0_0
abbrev RO : Rect S2x64x64x128 := Rect.unit (s := S2x64x64x128) ![0, 0, 0, 0] S2x64x64x128.size inb_S2x64x64x128_S2x64x64x128_0_0_0_0

abbrev xM : Memref sig .tc .vmem S2x64x64x64 .f32 := Memref.whole cc0_stg0_0
abbrev wM : Memref sig .tc .vmem S64x128 .f32 := Memref.whole cc0_stg1_0
abbrev oM : Memref sig .tc .vmem S2x64x64x128 .f32 := Memref.whole cc0_stg2_0

/-- The device copy `j` is addressed to, as the program computes it (the device `j` places ahead: `devCopy_eq`). -/
def devCopy (c : Dev nD) (j : Fin 16) : Dev nD :=
  match j with
  | ⟨1, _⟩ => ⟨k0_dev16 c, k0_dev16_lt c⟩ | ⟨2, _⟩ => ⟨k0_dev17 c, k0_dev17_lt c⟩ | ⟨3, _⟩ => ⟨k0_dev18 c, k0_dev18_lt c⟩
  | ⟨4, _⟩ => ⟨k0_dev19 c, k0_dev19_lt c⟩ | ⟨5, _⟩ => ⟨k0_dev20 c, k0_dev20_lt c⟩ | ⟨6, _⟩ => ⟨k0_dev21 c, k0_dev21_lt c⟩
  | ⟨7, _⟩ => ⟨k0_dev22 c, k0_dev22_lt c⟩ | ⟨8, _⟩ => ⟨k0_dev23 c, k0_dev23_lt c⟩ | ⟨9, _⟩ => ⟨k0_dev24 c, k0_dev24_lt c⟩
  | ⟨10, _⟩ => ⟨k0_dev25 c, k0_dev25_lt c⟩ | ⟨11, _⟩ => ⟨k0_dev26 c, k0_dev26_lt c⟩ | ⟨12, _⟩ => ⟨k0_dev27 c, k0_dev27_lt c⟩
  | ⟨13, _⟩ => ⟨k0_dev28 c, k0_dev28_lt c⟩ | ⟨14, _⟩ => ⟨k0_dev29 c, k0_dev29_lt c⟩ | ⟨15, _⟩ => ⟨k0_dev30 c, k0_dev30_lt c⟩
  | _ => c

omit [FloatOps F] in
theorem devCopy_eq (c : Dev nD) (j : Fin 16) : devCopy c j = fwd c j := by
  fin_cases j
  · exact (fwd_zero c).symm
  · exact dev16_eq c
  · exact dev17_eq c
  · exact dev18_eq c
  · exact dev19_eq c
  · exact dev20_eq c
  · exact dev21_eq c
  · exact dev22_eq c
  · exact dev23_eq c
  · exact dev24_eq c
  · exact dev25_eq c
  · exact dev26_eq c
  · exact dev27_eq c
  · exact dev28_eq c
  · exact dev29_eq c
  · exact dev30_eq c

omit [FloatOps F] in
theorem slot_hsc (c : Dev nD) (j : Fin 16) :
    (slotM j : Memref sig (devCopy c j : Thread nD τ).2.kind .vmem S2x2x64 .f32).view.ref.isScScratch = false := rfl
omit [FloatOps F] in
theorem slot_wordExact (j : Fin 16) : (slotM j : Memref sig .tc .vmem S2x2x64 .f32).view.WordExact :=
  (View.wordExact_bits rfl).reshape _ _
omit [FloatOps F] in
theorem slot_hsem (c : Dev nD) (j : Fin 16) : DmaTarget.Typed (p := .tc) .vmem (.dma (recvS j))
    (.remote (devCopy c j : Thread nD τ) (slotM j : Memref sig .tc .vmem S2x2x64 .f32) (.dma (sendS j)) (slot_hsc c j)) :=
  ⟨⟨rfl, Or.inl rfl⟩, trivial⟩

/-- The wait for the arrival in slot `j`. -/
abbrev wR (j : Fin 16) : TpuEff nD τ sig (Elt F) Λ₀ .tc PUnit :=
  .waitDma2 (recvS j) (slotM 0 : Memref sig .tc .vmem S2x2x64 .f32) (slotM j : Memref sig .tc .vmem S2x2x64 .f32) (slot_wordExact 0) (slot_wordExact j)
/-- The wait for the departure of copy `j`. -/
abbrev wS (j : Fin 16) : TpuEff nD τ sig (Elt F) Λ₀ .tc PUnit :=
  .waitDma2 (sendS j) (slotM j : Memref sig .tc .vmem S2x2x64 .f32) (slotM 0 : Memref sig .tc .vmem S2x2x64 .f32) (slot_wordExact j) (slot_wordExact 0)

/-- The body's end: the table, the matrix loaded, the result stored, the waits for the 15 departures. -/
def modelEnd (c : Dev nD) (v64 : Vec F S2x64x64x64 .f32) : Prog (TpuEff nD τ sig (Elt F) Λ₀ .tc) PUnit :=
  .op (.load scr RT.toLoadRect (View.loadsAt_vmem h_S16x2x2x64)) fun v376 =>
  .op (.load wM RW.toLoadRect (View.loadsAt_vmem h_S64x128)) fun v407 =>
  .op (.load oM RO.toLoadRect (View.loadsAt_vmem h_S2x64x64x128)) fun _ =>
  .op (.store oM RO (k0_pay6 (k0_pay1 v64) v376 v407) Finset.univ (View.stores_vmem_bits_univ h_S2x64x64x128 rfl) (.inl rfl)) fun _ =>
  waits wS L15 (.ret ⟨⟩)

/-- The body's middle: the 15 copies of slot 0 and the waits for the 15 arrivals, then the end. -/
def modelMid (c : Dev nD) (v64 : Vec F S2x64x64x64 .f32) : Prog (TpuEff nD τ sig (Elt F) Λ₀ .tc) PUnit :=
  sends (devCopy c) (slot_hsc c) (slot_wordExact 0) slot_wordExact (slot_hsem c) L15 <|
  waits wR L15 <| modelEnd c v64

/-- The body of device `c`: the 15 entry units, the block loaded and its sums stored into slot 0, the wait for the 15
    others' units, then the middle. -/
def model (c : Dev nD) : Prog (TpuEff nD τ sig (Elt F) Λ₀ .tc) PUnit :=
  sigs c L15 <|
  .op (.load xM RX.toLoadRect (View.loadsAt_vmem h_S2x64x64x64)) fun v64 =>
  .op (.load scr R0.toLoadRect (View.loadsAt_vmem h_S1x1x2x64)) fun _ =>
  .op (.store scr R0 (k0_pay3 v64) Finset.univ (View.stores_vmem_bits_univ h_S1x1x2x64 rfl) (.inl rfl)) fun _ =>
  .op (.load scr R1.toLoadRect (View.loadsAt_vmem h_S1x1x2x64)) fun _ =>
  .op (.store scr R1 (k0_pay5 (k0_pay4 v64)) Finset.univ (View.stores_vmem_bits_univ h_S1x1x2x64 rfl) (.inl rfl)) fun _ =>
  .op (.semWait barS 15) fun _ => modelMid c v64

end Cert.KernelRun

end
-- ==== Proof.KernelRun.Stages.lean ====
/-
  What a device holds at the body's start and at two points inside it: after the wait for the others'
  entry units (it then may write slot k of the device k places ahead, for every k), and after the waits
  for the 15 arrivals (its own slots 1 … 15 then hold the others' sums; the copies may still be reading
  slot 0, of which it keeps a share).
-/
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.Sched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's precondition with the counters' names `K` fixed. -/
def bodyPre (K : Dev nD × Fin 33 → ℕ) (c : Dev nD) : sProp 𝕄 :=
  iprop((ghost m ρ K c ∗ launchCreds c ∗ levAts L lv ∗ ∃ f, scrPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- The three staged arrays as the body keeps them: the block, the matrix, and the result's buffer at any contents. -/
def stagedIn (c : Dev nD) : sProp 𝕄 :=
  iprop(stg c cc0_stg0_0 (xstg m ρ c) ∗ stg c cc0_stg1_0 (wstg m ρ c) ∗ ∃ g, stg c cc0_stg2_0 g)

/-- The positions on the device's own departure and arrival counters: the two never-used ones at round 0, the
    departures at round 0, the arrivals at round `r`. -/
def xferPos (c : Dev nD) (r : ℕ) : sProp 𝕄 :=
  iprop(atPos ER (sendCell c 0) 0 ∅ 0 ∗ atPos ER (recvCell c 0) 0 ∅ 0
    ∗ (bigSep others fun k => atPos ER (sendCell c k) 0 ∅ 0) ∗ bigSep others fun k => atPos ER (recvCell c k) r ∅ 0)

/-- After the wait for the others' entry units: the arrivals still owed, the tokens of the 15 departures and
    arrivals to pay, the credit of the own arrival counters, slot 0 at the device's sums, and for every `k`
    slot `k` of the device `k` places ahead. -/
def cut1 (K : Dev nD × Fin 33 → ℕ) (c : Dev nD) : sProp 𝕄 :=
  iprop(records m ρ K ∗ levAts L lv ∗ (∃ W, owes (c : Thread nD τ) (recvOwed c L15) W) ∗ xferPos c 0
    ∗ (bigSep others fun k => dutyTok ER (sendCell c k) 0 0) ∗ (bigSep others fun k => dutyTok ER (recvCell (fwd c k) k) 0 0)
    ∗ (bigSep others fun k => cred (tallyAt (recvCell c k) () N))
    ∗ slotPts c 0 fullShare (gathered m ρ c)
    ∗ (bigSep others fun k => iprop(∃ f, slotPts (fwd c k) k fullShare f))
    ∗ stagedIn m ρ c)

/-- After the waits for the 15 arrivals: nothing owed, the credit of the own departure counters, slot 0 through the
    kept share and the share no copy uses, the slots 1 … 15 at the others' sums. -/
def cut2 (K : Dev nD × Fin 33 → ℕ) (c : Dev nD) : sProp 𝕄 :=
  iprop(records m ρ K ∗ (∃ W, owes (c : Thread nD τ) 0 W) ∗ xferPos c 1
    ∗ (bigSep others fun k => cred (tallyAt (sendCell c k) () N))
    ∗ slotPts c 0 (Transfers.shareDrop fullShare 16) (gathered m ρ c) ∗ slotPts c 0 (Transfers.shareTok fullShare 16 0) (gathered m ρ c)
    ∗ (bigSep others fun k => slotPts c k fullShare (gathered m ρ c))
    ∗ stagedIn m ρ c)

end Cert.KernelRun

end
-- ==== Proof.KernelRun.BodyModel.lean ====
/-
  The body as the printer wrote it against the body as the proof reads it.

  The printed body is cut into twenty parts and spells each entry unit and the entry wait through a word
  of scalar memory, each target device through its own arithmetic.  Opening the parts, reading the words
  as the numbers they hold and naming each target as the device so many places ahead on the ring gives,
  step for step, the model: the 15 entry units, the local stores, the entry wait, the 15 copies, the waits
  for the arrivals, the result, the waits for the departures.
-/
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.SlotsDev

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed body is the model -/

set_option maxRecDepth 65536 in
set_option maxHeartbeats 1600000 in
/-- The body as printed, with its parts opened, its device arithmetic named and its word-sized signals and waits
    read as signals and waits, is the model: the two programs have the same steps. -/
theorem wp_body_of_model (c : Dev nD) (Kt : PUnit → sProp 𝕄) :
    wp frame (wpE (defs₀ (F := F)) 𝒱₀ (c : Thread nD τ) none) Set.univ (model (F := F) c) Kt
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c]
  exact BI.Entails.refl _

/-- info: 'Cert.KernelRun.wp_body_of_model' depends on axioms: [propext, Classical.choice, Quot.sound] -/
#guard_msgs in #print axioms wp_body_of_model

end Cert.KernelRun

end
-- ==== Proof.KernelRun.Reindex.lean ====
/-
  Re-indexing: the offsets 1 … 15 are permuted by k ↦ 16 - k; a device's 33 counters are its entry counter,
  16 departure and 16 arrival counters; its 32 own counters are the 16 departure and the 16 arrival counters;
  a separating conjunction over the offsets 1 … 15 is the one over their list.
-/
import proofs.«900424_g7700000000000425_dist_diff_noisepred_hshard_i_b2_h64_w64_c64_v7x_i16_f32_1_alg».proof.Proof.KernelRun.PhaseDefs

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem others_image_opp : others.image opp = others := by decide
omit [FloatOps F] in
theorem opp_injOn : Set.InjOn opp (others : Finset (Fin 16)) := fun a _ b _ h => by
  have := congrArg opp h; rwa [opp_opp, opp_opp] at this

omit [FloatOps F] in
/-- Over the offsets 1 … 15, a conjunction may be taken at 16 - j instead of j. -/
theorem bigSep_opp (Φ : Fin 16 → sProp 𝕄) : bigSep others Φ = bigSep others (fun j => Φ (opp j)) := by
  have h := bigSep_image_of_injOn (s := others) opp_injOn Φ
  rwa [others_image_opp] at h

omit [FloatOps F] in
theorem bigSep_others_list (Φ : Fin 16 → sProp 𝕄) : bigSep others Φ = bigSepL L15 Φ :=
  bigSep_eq_bigSepL_of_eq L15 L15_toFinset.symm L15_nodup Φ

omit [FloatOps F] in
theorem jS_injective : Function.Injective jS := fun a b h => Fin.ext (by have := congrArg Fin.val h; simp only [jS] at this; omega)
omit [FloatOps F] in
theorem jR_injective : Function.Injective jR := fun a b h => Fin.ext (by have := congrArg Fin.val h; simp only [jR] at this; omega)

omit [FloatOps F] in
/-- A device's 33 counters: the entry counter, the 16 departure counters, the 16 arrival counters. -/
theorem bigSep_fin33 (Φ : Fin 33 → sProp 𝕄) :
    bigSep Finset.univ Φ = iprop(Φ 0 ∗ (bigSep Finset.univ fun k : Fin 16 => Φ (jS k)) ∗ bigSep Finset.univ fun k : Fin 16 => Φ (jR k)) := by
  have hu : (Finset.univ : Finset (Fin 33)) = insert 0 ((Finset.univ.map ⟨jS, jS_injective⟩) ∪ (Finset.univ.map ⟨jR, jR_injective⟩)) := by decide
  have hd : Disjoint (Finset.univ.map ⟨jS, jS_injective⟩) (Finset.univ.map ⟨jR, jR_injective⟩) := by decide
  have h0 : (0 : Fin 33) ∉ (Finset.univ.map ⟨jS, jS_injective⟩) ∪ (Finset.univ.map ⟨jR, jR_injective⟩) := by decide
  rw [hu, bigSep_insert h0, bigSep_union hd, bigSep_map, bigSep_map]
  rfl

/-- The departure counter's place among a device's 32 own counters. -/
abbrev iS (k : Fin 16) : Fin 32 := ⟨k.val, by have := k.isLt; omega⟩
/-- The arrival counter's place among a device's 32 own counters. -/
abbrev iR (k : Fin 16) : Fin 32 := ⟨16 + k.val, by have := k.isLt; omega⟩

omit [FloatOps F] in
theorem iS_injective : Function.Injective iS := fun a b h => Fin.ext (by have := congrArg Fin.val h; simp only [iS] at this; omega)
omit [FloatOps F] in
theorem iR_injective : Function.Injective iR := fun a b h => Fin.ext (by have := congrArg Fin.val h; simp only [iR] at this; omega)
omit [FloatOps F] in
theorem osem_iS (k : Fin 16) : osem (iS k) = .dma (sendS k) := by revert k; decide
omit [FloatOps F] in
theorem osem_iR (k : Fin 16) : osem (iR k) = .dma (recvS k) := by revert k; decide

omit [FloatOps F] in
/-- A device's 32 own counters: the 16 departure counters and the 16 arrival counters. -/
theorem bigSep_fin32 (Φ : Fin 32 → sProp 𝕄) :
    bigSep Finset.univ Φ = iprop((bigSep Finset.univ fun k : Fin 16 => Φ (iS k)) ∗ bigSep Finset.univ fun k : Fin 16 => Φ (iR k)) := by
  have hu : (Finset.univ : Finset (Fin 32)) = (Finset.univ.map ⟨iS, iS_injective⟩) ∪ (Finset.univ.map ⟨iR, iR_injective⟩) := by decide
  have hd : Disjoint (Finset.univ.map ⟨iS, iS_injective⟩) (Finset.univ.map ⟨iR, iR_injective⟩) := by decide
  rw [hu, bigSep_union hd, bigSep_map, bigSep_map]
  rfl

end Cert.KernelRun

end
-- ==== Proof.KernelRun.PhaseSig.lean ====
/-
  The entry phase: one unit to the entry counter of each device ahead on the ring, in the order of a list of
  offsets.  The unit to the device `j` places ahead pays duty `j` there; with it goes the right to write slot
  `16 - j` of the sender's own table, the slot in which that device's copy will land, and the sender's record
  that its arrival counter for that slot has reached round 0.  Each unit sent is one unit less owed.
-/
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Sched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A chain over a list with a head is the head's term and the chain over the tail. -/
theorem bigSepL_cons' {I : Type} (i : I) (l : List I) (Φ : I → sProp 𝕄) : bigSepL (i :: l) Φ = iprop(Φ i ∗ bigSepL l Φ) :=
  bigSepL_cons i l Φ

omit [FloatOps F] in
theorem sigs_nil {α : Type} (c : Dev nD) (k : Prog (TpuEff nD τ sig (Elt F) Λ₀ .tc) α) : sigs c [] k = k := rfl
omit [FloatOps F] in
theorem sigs_cons {α : Type} (c : Dev nD) (j : Fin 16) (l : List (Fin 16)) (k : Prog (TpuEff nD τ sig (Elt F) Λ₀ .tc) α) :
    sigs c (j :: l) k = .op (.semSignal (fwd c j : Thread nD τ) barS 1) fun _ => sigs c l k := rfl

/-- One counter's record, out of the records of all. -/
theorem records_cell (K : Dev nD × Fin 33 → ℕ) (cj : Dev nD × Fin 33) :
    records m ρ K ⊢ cellInv ER (ringRd m ρ) (K cj) (kcell cj) := by
  have h : (bigSep Finset.univ fun cj : Dev nD × Fin 33 => cellInv ER (ringRd m ρ) (K cj) (kcell cj))
      ⊢ cellInv ER (ringRd m ρ) (K cj) (kcell cj) :=
    bigSep_elim (Φ := fun cj : Dev nD × Fin 33 => cellInv ER (ringRd m ρ) (K cj) (kcell cj)) (Finset.mem_univ cj)
  unfold records
  iintro ⟨H, -⟩
  iapply h
  iexact H

/-- That one counter has reached round 0, out of the records of all. -/
theorem records_reached (K : Dev nD × Fin 33 → ℕ) (cj : Dev nD × Fin 33) :
    records m ρ K ⊢ reached ER (kcell cj) 0 := by
  have h : (bigSep Finset.univ fun cj : Dev nD × Fin 33 => (reached (ER (F := F)) (kcell cj) 0 : sProp 𝕄))
      ⊢ reached (ER (F := F)) (kcell cj) 0 :=
    bigSep_elim (Φ := fun cj : Dev nD × Fin 33 => (reached (ER (F := F)) (kcell cj) 0 : sProp 𝕄)) (Finset.mem_univ cj)
  unfold records
  iintro ⟨-, H⟩
  iapply h
  iexact H

omit [FloatOps F] in
theorem barOwed_nil (c : Dev nD) : barOwed c [] = 0 := rfl
omit [FloatOps F] in
theorem barOwed_cons (c : Dev nD) (j : Fin 16) (l : List (Fin 16)) :
    barOwed c (j :: l) = tallyAt (barCell (fwd c j)) () 1 + barOwed c l := by
  unfold barOwed; rw [List.map_cons, List.sum_cons]

/-- The entry units to the devices at the offsets of `l`, none of them 0: each is paid off what the device owes,
    with the duty's token and the slot it hands over; when all are sent the device owes `O` alone. -/
theorem wp_sigs {α : Type} (K : Dev nD × Fin 33 → ℕ) (c : Dev nD) (l : List (Fin 16)) (hl : ∀ j ∈ l, j ≠ 0)
    (O : CellTallies nD τ sig Unit) (W : Waits sig Unit) (k : Prog (TpuEff nD τ sig (Elt F) Λ₀ .tc) α) (Q : α → sProp 𝕄) :
    iprop(records m ρ K ∗ owes (c : Thread nD τ) (O + barOwed c l) W
        ∗ bigSepL l (fun j => iprop(dutyTok ER (barCell (fwd c j)) 0 j ∗ ∃ f, slotPts c (opp j) fullShare f)))
      ⊢ iprop((owes (c : Thread nD τ) O W -∗ wp frame (wpE (defs₀ (F := F)) 𝒱₀ (c : Thread nD τ) none) Set.univ k Q)
          -∗ wp frame (wpE (defs₀ (F := F)) 𝒱₀ (c : Thread nD τ) none) Set.univ (sigs c l k) Q) := by
  induction l generalizing O with
  | nil =>
    rw [barOwed_nil, add_zero, sigs_nil]
    iintro ⟨-, HL, -⟩ Hk
    iapply Hk $$ HL
  | cons j l ih =>
    have hj : j ≠ 0 := hl j (List.mem_cons_self ..)
    have hl' : ∀ i ∈ l, i ≠ 0 := fun i hi => hl i (List.mem_cons_of_mem _ hi)
    have hO : O + barOwed c (j :: l) = (O + barOwed c l) + tallyAt ((fwd c j : Thread nD τ), SemLoc.reg barS) () 1 := by
      rw [barOwed_cons, add_assoc, add_comm (tallyAt _ _ _)]
    rw [bigSepL_cons', sigs_cons]
    iintro ⟨#HR, HL, ⟨Htok, Hslot⟩, Hrest⟩ Hk
    iapply (Rounds.wp_signal 𝒱₀ ER (ringRd m ρ) (c : Thread nD τ) none (dst := (fwd c j : Thread nD τ)) (sem := barS) (r := 0)
      (d := j) (k' := 1) (κ := K (fwd c j, 0))
      (by rw [duties_bar]; exact Finset.mem_erase.mpr ⟨hj, Finset.mem_univ _⟩) (amount_bar m ρ (fwd c j) j) ()
      (O + barOwed c l) hO) $$ [HL Htok Hslot]
    · isplitr; · iapply (records_cell m ρ K (fwd c j, 0)); iexact HR
      isplitl [HL]; · iexact HL
      isplitl [Htok]; · iexact Htok
      isplitl [Hslot]
      · rw [payload_bar]; unfold barPay; rw [bwd_fwd]
        isplitl [Hslot]; · iexact Hslot
        rw [← kcell_recv]
        iapply (records_reached m ρ K (c, jR (opp j))); iexact HR
      · iapply (records_reached m ρ K (fwd c j, 0)); iexact HR
    iintro HL
    iapply (ih hl' O) $$ [HL Hrest]
    · isplitr; · iexact HR
      isplitl [HL]; · iexact HL
      iexact Hrest
    iexact Hk

/-- info: 'Cert.KernelRun.wp_sigs' depends on axioms: [propext, Classical.choice, Quot.sound] -/
#guard_msgs in #print axioms wp_sigs

end Cert.KernelRun

end
-- ==== Proof.KernelRun.BodyGlue.lean ====
/-
  Rearrangements between the body's phases: the table as its 16 slots; the tokens and positions sorted by
  kind; slot 0 read through 16 shares (one per copy) and a remainder, so that the whole table can be loaded
  while the copies are still reading slot 0; and the conjunctions over the offsets 1 … 15 as lists.
-/
import proofs.«900424_g7700000000000425_dist_diff_noisepred_hshard_i_b2_h64_w64_c64_v7x_i16_f32_1_alg».proof.Proof.KernelRun.Reindex
import proofs.«900424_g7700000000000425_dist_diff_noisepred_hshard_i_b2_h64_w64_c64_v7x_i16_f32_1_alg».proof.Proof.KernelRun.Slots
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.PhaseSig

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The share of slot 0 (and, for the load, of the whole table) the device keeps while its copies read. -/
abbrev q₀ : PosShare TreeShare := Transfers.shareDrop fullShare 16
/-- The share of slot 0 copy `k` reads through. -/
abbrev tokQ (k : Fin 16) : PosShare TreeShare := Transfers.shareTok fullShare 16 k

/-- The table held whole is its slot 0 and its slots 1 … 15. -/
theorem table_slots (c : Dev nD) (q : PosShare TreeShare) (f : Buf (Elt F) ((c : Thread nD τ).loc cc0_scratch0)) :
    ((((c : Thread nD τ).loc cc0_scratch0) ↦[Finset.univ]{q} f : sProp 𝕄))
      = iprop(slotPts c 0 q f ∗ bigSep others fun k => slotPts c k q f) := by
  rw [scr_slots_eq c q f, bigSep_univ_at _ (0 : Fin 16)]

/-- A slot held in full is held through the remainder and the 16 reading shares. -/
theorem slot_shares (c : Dev nD) (k : Fin 16) (f : Buf (Elt F) ((slotM k : Memref sig .tc .vmem S2x2x64 .f32).view.loc (c : Thread nD τ))) :
    (slotPts c k fullShare f : sProp 𝕄) ⊣⊢ iprop(slotPts c k q₀ f ∗ bigSep Finset.univ fun i : Fin 16 => slotPts c k (tokQ i) f) := by
  unfold slotPts
  exact Transfers.pointsTo_toks fullShare 16

omit [FloatOps F] in
/-- The offsets' conjunction of two families is the list's conjunction of their pairs. -/
theorem pair_list (Φ Ψ : Fin 16 → sProp 𝕄) :
    iprop(bigSep others Φ ∗ bigSep others Ψ) = bigSepL L15 (fun j => iprop(Φ j ∗ Ψ j)) := by
  rw [← bigSep_sep', bigSep_others_list]

/-- What the entry phase takes: per offset the token of the unit and the slot 16 - j handed over with it. -/
theorem sig_input (c : Dev nD) (f₀ : Buf (Elt F) ((c : Thread nD τ).loc cc0_scratch0)) :
    iprop((bigSep others fun j => dutyTok ER (barCell (fwd c j)) 0 j) ∗ bigSep others fun k => slotPts (F := F) c k fullShare f₀)
      ⊢ bigSepL L15 (fun j => iprop(dutyTok ER (barCell (fwd c j)) 0 j ∗ ∃ f, slotPts (F := F) c (opp j) fullShare f)) := by
  rw [bigSep_opp (fun k => slotPts (F := F) c k fullShare f₀), pair_list]
  induction L15 with
  | nil => exact BI.Entails.refl _
  | cons j l ih =>
    rw [bigSepL_cons', bigSepL_cons']
    iintro ⟨⟨H1, H2⟩, Hl⟩
    isplitl [H1 H2]
    · isplitl [H1]; · iexact H1
      iexists f₀; iexact H2
    · iapply ih; iexact Hl

theorem barPay_opp (c : Dev nD) (k : Fin 16) :
    (barPay (F := F) c (opp k) : sProp 𝕄) ⊢ iprop(∃ f, slotPts (F := F) (fwd c k) k fullShare f) := by
  unfold barPay
  rw [bwd_opp, opp_opp]
  iintro ⟨H, -⟩
  iexact H

/-- What the others' entry units hand over, by the copy it is for: slot `k` of the device `k` places ahead. -/
theorem bar_payload (c : Dev nD) :
    (bigSep others fun j => barPay (F := F) c j) ⊢ bigSep others fun k => iprop(∃ f, slotPts (F := F) (fwd c k) k fullShare f) := by
  rw [bigSep_opp (fun j => barPay (F := F) c j)]
  exact bigSep_mono fun k _ => barPay_opp c k

end Cert.KernelRun

end
-- ==== Proof.KernelRun.SlotsContents.lean ====
/-
  What the table of partial sums holds, slot by slot.

  The table ends holding, in slot k of device c, the sums (row 0) and the sums of squares (row 1) of the block
  of the device k places behind c.  Two facts make it so.  The two stores a device makes into rows 0 and 1
  of its own slot 0 leave there its own sums, whatever the table held.  A copy of slot 0 of device c into slot
  k of the device k places ahead leaves there what that device's table ends holding in slot k: the device k
  places behind the receiver is c.  Then the loads and the store that go through a whole array: they read its
  contents and leave the value stored.
-/
import proofs.«900424_g7700000000000425_dist_diff_noisepred_hshard_i_b2_h64_w64_c64_v7x_i16_f32_1_alg».proof.Proof.KernelRun.Slots
import Idealize.ShloMosaic.Lib.ValueLayout
import Idealize.ShloMosaic.Lib.Pipeline.Value

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.ValueIdx

variable (m : (ℓ : Loc nD τ sig) → Buf (Elt F) ℓ) (ρ : Dev nD → PrngReg)

/-! ## The table's final contents, row by row -/

/-- At an index of slot `k`, first row: the sums of the device `k` places behind. -/
theorem gathered_row0 (c : Dev nD) (k : Fin 16) {i : (cc0_scratch0 : Ref sig .tc).ty.Idx}
    (h0 : (i 0).val = k.val) (h1 : (i 1).val = 0) :
    gathered m ρ c i = k0_pay3 (xstg m ρ (bwd c k))
      (ix4 (0 : Fin 1) (0 : Fin 1) (⟨(i 2).val, (i 2).isLt⟩ : Fin 2) (⟨(i 3).val, (i 3).isLt⟩ : Fin 64)) := by
  have hk : (⟨(i 0).val, (i 0).isLt⟩ : Fin 16) = k := Fin.ext h0
  show (if (i 1).val = 0 then _ else _) = _
  rw [if_pos h1, hk]

/-- At an index of slot `k`, second row: the sums of squares of the device `k` places behind. -/
theorem gathered_row1 (c : Dev nD) (k : Fin 16) {i : (cc0_scratch0 : Ref sig .tc).ty.Idx}
    (h0 : (i 0).val = k.val) (h1 : (i 1).val = 1) :
    gathered m ρ c i = k0_pay5 (k0_pay4 (xstg m ρ (bwd c k)))
      (ix4 (0 : Fin 1) (0 : Fin 1) (⟨(i 2).val, (i 2).isLt⟩ : Fin 2) (⟨(i 3).val, (i 3).isLt⟩ : Fin 64)) := by
  have hk : (⟨(i 0).val, (i 0).isLt⟩ : Fin 16) = k := Fin.ext h0
  have h1' : ¬ (i 1).val = 0 := by omega
  show (if (i 1).val = 0 then _ else _) = _
  rw [if_neg h1', hk]

/-- The table's contents at an index depend on the device and the slot only through the device the slot names:
    slot `k` of the device `k` places ahead of `c` ends as slot 0 of `c`. -/
theorem gathered_fwd (c : Dev nD) (k : Fin 16) {i i₀ : (cc0_scratch0 : Ref sig .tc).ty.Idx}
    (h0 : (i 0).val = k.val) (h00 : (i₀ 0).val = 0) (h1 : (i₀ 1).val = (i 1).val) (h2 : (i₀ 2).val = (i 2).val)
    (h3 : (i₀ 3).val = (i 3).val) : gathered m ρ (fwd c k) i = gathered m ρ c i₀ := by
  have hk : (⟨(i 0).val, (i 0).isLt⟩ : Fin 16) = k := Fin.ext h0
  have hk0 : (⟨(i₀ 0).val, (i₀ 0).isLt⟩ : Fin 16) = 0 := Fin.ext h00
  have e2 : (⟨(i₀ 2).val, (i₀ 2).isLt⟩ : Fin 2) = ⟨(i 2).val, (i 2).isLt⟩ := Fin.ext h2
  have e3 : (⟨(i₀ 3).val, (i₀ 3).isLt⟩ : Fin 64) = ⟨(i 3).val, (i 3).isLt⟩ := Fin.ext h3
  show (if (i 1).val = 0 then _ else _) = (if (i₀ 1).val = 0 then _ else _)
  rw [hk, hk0, bwd_fwd, bwd_zero, h1, e2, e3]

/-! ## After the two stores: slot 0 holds the device's own sums -/

/-- The index of row 0 of slot 0 under which an index of that row sits. -/
theorem R0_emb (i : S16x2x2x64.Idx) (h0 : (i 0).val = 0) (h1 : (i 1).val = 0) :
    ((scr.access R0 : View sig .tc .vmem R0.shape .f32)).emb
      (ix4 (0 : Fin 1) (0 : Fin 1) (⟨(i 2).val, (i 2).isLt⟩ : Fin 2) (⟨(i 3).val, (i 3).isLt⟩ : Fin 64)) = i := by
  funext a; apply Fin.ext
  match a with
  | ⟨0, _⟩ => show 0 + 1 * 0 = (i 0).val; omega
  | ⟨1, _⟩ => show 0 + 1 * 0 = (i 1).val; omega
  | ⟨2, _⟩ => show 0 + 1 * (i 2).val = (i 2).val; omega
  | ⟨3, _⟩ => show 0 + 1 * (i 3).val = (i 3).val; omega

theorem R1_emb (i : S16x2x2x64.Idx) (h0 : (i 0).val = 0) (h1 : (i 1).val = 1) :
    ((scr.access R1 : View sig .tc .vmem R1.shape .f32)).emb
      (ix4 (0 : Fin 1) (0 : Fin 1) (⟨(i 2).val, (i 2).isLt⟩ : Fin 2) (⟨(i 3).val, (i 3).isLt⟩ : Fin 64)) = i := by
  funext a; apply Fin.ext
  match a with
  | ⟨0, _⟩ => show 0 + 1 * 0 = (i 0).val; omega
  | ⟨1, _⟩ => show 1 + 1 * 0 = (i 1).val; omega
  | ⟨2, _⟩ => show 0 + 1 * (i 2).val = (i 2).val; omega
  | ⟨3, _⟩ => show 0 + 1 * (i 3).val = (i 3).val; omega

/-- Whatever the table held, after the store of the sums into row 0 and of the sums of squares into row 1 of
    slot 0, slot 0 holds what the table ends holding there. -/
theorem stores_slot0 (c : Dev nD) (f₀ : (cc0_scratch0 : Ref sig .tc).ty.Contents (Elt F)) :
    ∀ i ∈ slotSet 0,
      ((scr.access R1 : View sig .tc .vmem R1.shape .f32).write (Elt F)
        ((scr.access R0 : View sig .tc .vmem R0.shape .f32).write (Elt F) f₀ (k0_pay3 (xstg m ρ c)) Finset.univ)
        (k0_pay5 (k0_pay4 (xstg m ρ c))) Finset.univ) i = gathered m ρ c i := by
  intro i hi
  have h0 : (i 0).val = (0 : Fin 16).val := mem_slotSet.mp hi
  rcases mem_slotSet_zero hi with hr | hr
  · have h1 : (i 1).val = 0 := (mem_R0.mp hr).2
    have hn : i ∉ (scr.access R1 : View sig .tc .vmem R1.shape .f32).setOn Finset.univ := by
      rw [View.setOn_univ, View.set_slice_whole]
      intro h; have := (mem_R1.mp h).2; omega
    rw [View.write_of_not_mem _ _ _ hn, gathered_row0 m ρ c 0 h0 h1, bwd_zero]
    conv_lhs => rw [← R0_emb i h0 h1, View.write_emb_of_mem _ _ (Finset.mem_univ _)]
    rfl
  · have h1 : (i 1).val = 1 := (mem_R1.mp hr).2
    rw [gathered_row1 m ρ c 0 h0 h1, bwd_zero]
    conv_lhs => rw [← R1_emb i h0 h1, View.write_emb_of_mem _ _ (Finset.mem_univ _)]
    rfl

/-! ## A landing: slot `k` of the device `k` places ahead receives slot 0 -/

/-- The index of slot `k`, seen as 2 × 2 × 64, under which an index of that slot sits. -/
theorem slot_emb (k : Fin 16) (i : S16x2x2x64.Idx) (h0 : (i 0).val = k.val) :
    (slotM k : Memref sig .tc .vmem S2x2x64 .f32).view.emb
      (ix3 (⟨(i 1).val, (i 1).isLt⟩ : Fin 2) (⟨(i 2).val, (i 2).isLt⟩ : Fin 2) (⟨(i 3).val, (i 3).isLt⟩ : Fin 64)) = i := by
  show (Rect.unit (s := S16x2x2x64) ![k.val, 0, 0, 0] S1x2x2x64.size (slot_inb k)).emb
      (Shape.reshapeEquiv (s := S1x2x2x64) (s' := S2x2x64) squeezes_S1x2x2x64_S2x2x64.numel_eq
        (ix3 (⟨(i 1).val, (i 1).isLt⟩ : Fin 2) (⟨(i 2).val, (i 2).isLt⟩ : Fin 2) (⟨(i 3).val, (i 3).isLt⟩ : Fin 64))) = i
  rw [reshapeEquiv_ix3_1abc]
  funext a; apply Fin.ext
  match a with
  | ⟨0, _⟩ => show k.val + 1 * 0 = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-- A copy of slot 0 of device `c`, holding `c`'s own sums, into slot `k` of the device `k` places ahead leaves
    there what that device's table ends holding in slot `k`, whatever the slot held before. -/
theorem landing_slot (c : Dev nD) (k : Fin 16)
    (fd : Buf (Elt F) ((slotM k : Memref sig .tc .vmem S2x2x64 .f32).view.loc ((fwd c k : Dev nD) : Thread nD τ)))
    (fs : Buf (Elt F) ((slotM 0 : Memref sig .tc .vmem S2x2x64 .f32).view.loc (c : Thread nD τ)))
    (hfs : ∀ i ∈ slotSet 0, fs i = gathered m ρ c i) :
    ∀ i ∈ slotSet k,
      ((slotM k : Memref sig .tc .vmem S2x2x64 .f32).view.write (Elt F) fd
        ((slotM 0 : Memref sig .tc .vmem S2x2x64 .f32).view.read (Elt F) fs) Finset.univ) i
        = gathered m ρ (fwd c k) i := by
  intro i hi
  have h0 : (i 0).val = k.val := mem_slotSet.mp hi
  let i₀ : S16x2x2x64.Idx :=
    ix4 (0 : Fin 16) (⟨(i 1).val, (i 1).isLt⟩ : Fin 2) (⟨(i 2).val, (i 2).isLt⟩ : Fin 2) (⟨(i 3).val, (i 3).isLt⟩ : Fin 64)
  have hy0 : (slotM 0 : Memref sig .tc .vmem S2x2x64 .f32).view.emb
      (ix3 (⟨(i 1).val, (i 1).isLt⟩ : Fin 2) (⟨(i 2).val, (i 2).isLt⟩ : Fin 2) (⟨(i 3).val, (i 3).isLt⟩ : Fin 64)) = i₀ :=
    slot_emb 0 i₀ rfl
  have hi₀ : i₀ ∈ slotSet 0 := mem_slotSet.mpr rfl
  conv_lhs => rw [← slot_emb k i h0, View.write_emb_of_mem _ _ (Finset.mem_univ _)]
  show fs ((slotM 0 : Memref sig .tc .vmem S2x2x64 .f32).view.emb
      (ix3 (⟨(i 1).val, (i 1).isLt⟩ : Fin 2) (⟨(i 2).val, (i 2).isLt⟩ : Fin 2) (⟨(i 3).val, (i 3).isLt⟩ : Fin 64))) = _
  rw [hy0, hfs i₀ hi₀]
  exact (gathered_fwd m ρ c k (i := i) (i₀ := i₀) h0 rfl rfl rfl rfl).symm

/-! ## Whole-array loads and the whole-array store -/

theorem slots_zeros4 : (![0, 0, 0, 0] : Fin 4 → Nat) = fun _ => 0 := by
  funext a
  match a with
  | ⟨0, _⟩ => rfl
  | ⟨1, _⟩ => rfl
  | ⟨2, _⟩ => rfl
  | ⟨3, _⟩ => rfl
theorem slots_zeros2 : (![0, 0] : Fin 2 → Nat) = fun _ => 0 := by
  funext a
  match a with
  | ⟨0, _⟩ => rfl
  | ⟨1, _⟩ => rfl

/-- The load of the whole table reads its contents. -/
theorem scr_load (f : (cc0_scratch0 : Ref sig .tc).ty.Contents (Elt F)) :
    (scr : Memref sig .tc .vmem S16x2x2x64 .f32).view.readAt (Elt F)
      (Rect.unit (s := S16x2x2x64) ![0, 0, 0, 0] S16x2x2x64.size inb_S16x2x2x64_S16x2x2x64_0_0_0_0).toLoadRect f = f :=
  Memref.readAt_unit_zero (Elt F) cc0_scratch0 slots_zeros4 _ f

/-- The load of the whole staged block of the input reads its contents. -/
theorem stg0_load (f : (cc0_stg0_0 : Ref sig .tc).ty.Contents (Elt F)) :
    (Memref.whole cc0_stg0_0 : Memref sig .tc .vmem S2x64x64x64 .f32).view.readAt (Elt F)
      (Rect.unit (s := S2x64x64x64) ![0, 0, 0, 0] S2x64x64x64.size inb_S2x64x64x64_S2x64x64x64_0_0_0_0).toLoadRect f = f :=
  Memref.readAt_unit_zero (Elt F) cc0_stg0_0 slots_zeros4 _ f

/-- The load of the whole staged matrix reads its contents. -/
theorem stg1_load (f : (cc0_stg1_0 : Ref sig .tc).ty.Contents (Elt F)) :
    (Memref.whole cc0_stg1_0 : Memref sig .tc .vmem S64x128 .f32).view.readAt (Elt F)
      (Rect.unit (s := S64x128) ![0, 0] S64x128.size inb_S64x128_S64x128_0_0).toLoadRect f = f :=
  Memref.readAt_unit_zero (Elt F) cc0_stg1_0 slots_zeros2 _ f

/-- The load of the whole staged result reads its contents. -/
theorem stg2_load (f : (cc0_stg2_0 : Ref sig .tc).ty.Contents (Elt F)) :
    (Memref.whole cc0_stg2_0 : Memref sig .tc .vmem S2x64x64x128 .f32).view.readAt (Elt F)
      (Rect.unit (s := S2x64x64x128) ![0, 0, 0, 0] S2x64x64x128.size inb_S2x64x64x128_S2x64x64x128_0_0_0_0).toLoadRect f = f :=
  Memref.readAt_unit_zero (Elt F) cc0_stg2_0 slots_zeros4 _ f

/-- The store of the whole staged result leaves the value stored. -/
theorem stg2_store (f w : (cc0_stg2_0 : Ref sig .tc).ty.Contents (Elt F)) :
    ((Memref.whole cc0_stg2_0 : Memref sig .tc .vmem S2x64x64x128 .f32).access
      (Rect.unit (s := S2x64x64x128) ![0, 0, 0, 0] S2x64x64x128.size inb_S2x64x64x128_S2x64x64x128_0_0_0_0)
        : View sig .tc .vmem _ .f32).write (Elt F) f w Finset.univ = w :=
  Memref.write_access_unit_zero_univ (Elt F) cc0_stg2_0 slots_zeros4 _ f w

/-! ## Which part of the table each access touches -/

/-- Through the whole table's view a set of indices is itself. -/
theorem setOn_scr (M : Finset S16x2x2x64.Idx) :
    (scr : Memref sig .tc .vmem S16x2x2x64 .f32).view.setOn M = M := by
  show M.map (Function.Embedding.refl _) = M
  exact Finset.map_refl

/-- The loads of the two rows read inside slot 0, -/
theorem load_R0_subset : (scr : Memref sig .tc .vmem S16x2x2x64 .f32).view.setOn R0.toLoadRect.set ⊆ slotSet 0 := by
  rw [setOn_scr]; exact R0_subset
theorem load_R1_subset : (scr : Memref sig .tc .vmem S16x2x2x64 .f32).view.setOn R1.toLoadRect.set ⊆ slotSet 0 := by
  rw [setOn_scr]; exact R1_subset

/-- and the stores into them write inside slot 0. -/
theorem store_R0_set : (scr.access R0 : View sig .tc .vmem R0.shape .f32).setOn Finset.univ = R0.set := by
  rw [View.setOn_univ]; exact View.set_slice_whole cc0_scratch0 R0
theorem store_R1_set : (scr.access R1 : View sig .tc .vmem R1.shape .f32).setOn Finset.univ = R1.set := by
  rw [View.setOn_univ]; exact View.set_slice_whole cc0_scratch0 R1
theorem store_R0_subset : (scr.access R0 : View sig .tc .vmem R0.shape .f32).setOn Finset.univ ⊆ slotSet 0 := by
  rw [store_R0_set]; exact R0_subset
theorem store_R1_subset : (scr.access R1 : View sig .tc .vmem R1.shape .f32).setOn Finset.univ ⊆ slotSet 0 := by
  rw [store_R1_set]; exact R1_subset

/-! ## Slot 0's share, cut into one part per copy that reads it -/

/-- Slot 0 held in full is a remainder and 16 parts, part `k` for the copy to the device `k` places ahead. -/
theorem slot0_toks (c : Dev nD) (f : Buf (Elt F) ((slotM 0 : Memref sig .tc .vmem S2x2x64 .f32).view.loc (c : Thread nD τ))) :
    (slotPts c 0 fullShare f : sProp 𝕄)
      ⊣⊢ iprop(slotPts c 0 (Transfers.shareDrop fullShare 16) f
          ∗ bigSep Finset.univ fun k : Fin 16 => slotPts c 0 (Transfers.shareTok fullShare 16 k) f) :=
  Transfers.pointsTo_toks fullShare 16

/-- info: 'Cert.KernelRun.stores_slot0' depends on axioms: [propext, Classical.choice, Quot.sound] -/
#guard_msgs in #print axioms stores_slot0

/-- info: 'Cert.KernelRun.landing_slot' depends on axioms: [propext, Classical.choice, Quot.sound] -/
#guard_msgs in #print axioms landing_slot

/-- info: 'Cert.KernelRun.stg2_store' depends on axioms: [propext, Classical.choice, Quot.sound] -/
#guard_msgs in #print axioms stg2_store

/-- info: 'Cert.KernelRun.slot0_toks' depends on axioms: [propext, Classical.choice, Quot.sound] -/
#guard_msgs in #print axioms slot0_toks

end Cert.KernelRun

end
-- ==== Proof.KernelRun.BodyLocal.lean ====
/-
  The body's local steps, around the exchange, as two rules for the program's own text.

  Before the exchange a device loads its staged block and stores the block's sums into row 0 and its sums
  of squares into row 1 of slot 0 of its table (each store preceded by a load of the row, whose value is
  not used).  Both rows lie inside slot 0, so holding slot 0 in full is enough; afterwards slot 0 holds what
  the table ends holding there.  After the exchange it loads the whole table, the staged matrix and the
  staged result, and stores the result computed from the block, the table and the matrix: with the table at
  its final contents that is the kernel's result on this device.
-/
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.Ghost
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.SlotsContents

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The local steps before the exchange: the block loaded, its sums and sums of squares stored into slot 0 -/

/-- The block is loaded and its sums and sums of squares are stored into the two rows of slot 0: from slot 0 held in
    full (whatever it holds) and the staged block, the program continues at the staged block with slot 0 holding what
    the table ends holding there. -/
theorem wp_prologue (c : Dev nD) (f₀ : Buf (Elt F) ((slotM 0 : Memref sig .tc .vmem S2x2x64 .f32).view.loc (c : Thread nD τ))) {α : Type}
    (kk : Vec F S2x64x64x64 .f32 → Prog (TpuEff nD τ sig (Elt F) Λ₀ .tc) α) (Q : α → sProp 𝕄) :
    iprop(slotPts c 0 fullShare f₀ ∗ stg c cc0_stg0_0 (xstg m ρ c))
      ⊢ iprop(((slotPts c 0 fullShare (gathered m ρ c) ∗ stg c cc0_stg0_0 (xstg m ρ c)) -∗
            wp frame (wpE (defs₀ (F := F)) 𝒱₀ (c : Thread nD τ) none) Set.univ (kk (xstg m ρ c)) Q)
          -∗ wp frame (wpE (defs₀ (F := F)) 𝒱₀ (c : Thread nD τ) none) Set.univ
              (.op (.load xM RX.toLoadRect (View.loadsAt_vmem h_S2x64x64x64)) fun v64 =>
               .op (.load scr R0.toLoadRect (View.loadsAt_vmem h_S1x1x2x64)) fun _ =>
               .op (.store scr R0 (k0_pay3 v64) Finset.univ (View.stores_vmem_bits_univ h_S1x1x2x64 rfl) (.inl rfl)) fun _ =>
               .op (.load scr R1.toLoadRect (View.loadsAt_vmem h_S1x1x2x64)) fun _ =>
               .op (.store scr R1 (k0_pay5 (k0_pay4 v64)) Finset.univ (View.stores_vmem_bits_univ h_S1x1x2x64 rfl) (.inl rfl)) fun _ => kk v64) Q) := by
  iintro ⟨Hs, ⟨%f, %hf, Hx⟩⟩ Hk
  subst hf
  iapply (wp_load 𝒱₀ (c : Thread nD τ) none Set.univ (m := xM) (r := RX.toLoadRect) (S := Finset.univ) (Finset.subset_univ _)) $$ Hx
  iintro Hx
  rw [stg0_load]
  unfold slotPts
  iapply (wp_load 𝒱₀ (c : Thread nD τ) none Set.univ (m := scr) (r := R0.toLoadRect) (S := slotSet 0) load_R0_subset) $$ Hs
  iintro Hs
  iapply (wp_store 𝒱₀ (c : Thread nD τ) none Set.univ (m := scr) (r := R0) (S := slotSet 0) store_R0_subset) $$ Hs
  iintro Hs
  iapply (wp_load 𝒱₀ (c : Thread nD τ) none Set.univ (m := scr) (r := R1.toLoadRect) (S := slotSet 0) load_R1_subset) $$ Hs
  iintro Hs
  iapply (wp_store 𝒱₀ (c : Thread nD τ) none Set.univ (m := scr) (r := R1) (S := slotSet 0) store_R1_subset) $$ Hs
  iintro Hs
  iapply Hk
  isplitl [Hs]
  · iapply (Entails.of_eq (pointsTo_congr (q := fullShare) (stores_slot0 m ρ c f₀)))
    iexact Hs
  · iexists (xstg m ρ c)
    isplitr
    · ipureintro; rfl
    · iexact Hx

/-! ## The local steps after the exchange: the table and the matrix loaded, the result stored -/

/-- The table, the matrix and the staged result are loaded and the result is stored: holding any share of the whole
    table at its final contents, the staged matrix and the staged result (whatever it holds), the program continues
    with the staged result holding the kernel's result on this device. -/
theorem wp_compute (c : Dev nD) (q : PosShare TreeShare) {α : Type} (kk : Prog (TpuEff nD τ sig (Elt F) Λ₀ .tc) α) (Q : α → sProp 𝕄) :
    iprop((((c : Thread nD τ).loc cc0_scratch0) ↦[Finset.univ]{q} gathered m ρ c) ∗ stg c cc0_stg1_0 (wstg m ρ c) ∗ (∃ g, stg c cc0_stg2_0 g))
      ⊢ iprop((((((c : Thread nD τ).loc cc0_scratch0) ↦[Finset.univ]{q} gathered m ρ c) ∗ stg c cc0_stg1_0 (wstg m ρ c) ∗ stg c cc0_stg2_0 (outAt m ρ c)) -∗
            wp frame (wpE (defs₀ (F := F)) 𝒱₀ (c : Thread nD τ) none) Set.univ kk Q)
          -∗ wp frame (wpE (defs₀ (F := F)) 𝒱₀ (c : Thread nD τ) none) Set.univ
              (.op (.load scr RT.toLoadRect (View.loadsAt_vmem h_S16x2x2x64)) fun v376 =>
               .op (.load wM RW.toLoadRect (View.loadsAt_vmem h_S64x128)) fun v407 =>
               .op (.load oM RO.toLoadRect (View.loadsAt_vmem h_S2x64x64x128)) fun _ =>
               .op (.store oM RO (k0_pay6 (k0_pay1 (xstg m ρ c)) v376 v407) Finset.univ (View.stores_vmem_bits_univ h_S2x64x64x128 rfl) (.inl rfl)) fun _ => kk) Q) := by
  iintro ⟨Ht, ⟨%fw, %hw, Hw⟩, ⟨%g, %fo, %ho, Ho⟩⟩ Hk
  subst hw
  subst ho
  iapply (wp_load 𝒱₀ (c : Thread nD τ) none Set.univ (m := scr) (r := RT.toLoadRect) (S := Finset.univ) (Finset.subset_univ _)) $$ Ht
  iintro Ht
  rw [scr_load]
  iapply (wp_load 𝒱₀ (c : Thread nD τ) none Set.univ (m := wM) (r := RW.toLoadRect) (S := Finset.univ) (Finset.subset_univ _)) $$ Hw
  iintro Hw
  rw [stg1_load]
  iapply (wp_load 𝒱₀ (c : Thread nD τ) none Set.univ (m := oM) (r := RO.toLoadRect) (S := Finset.univ) (Finset.subset_univ _)) $$ Ho
  iintro Ho
  iapply (wp_store 𝒱₀ (c : Thread nD τ) none Set.univ (m := oM) (r := RO) (S := Finset.univ) (Finset.subset_univ _)) $$ Ho
  iintro Ho
  rw [stg2_store]
  iapply Hk
  isplitl [Ht]
  · iexact Ht
  isplitl [Hw]
  · iexists (wstg m ρ c)
    isplitr
    · ipureintro; rfl
    · iexact Hw
  · iexists (outAt m ρ c)
    isplitr
    · ipureintro; rfl
    · unfold outAt; iexact Ho

end Cert.KernelRun

end
-- ==== Proof.KernelRun.BodyLocalOwed.lean ====
/-
  The units a device owes at launch, and where its entry wait stands in the waiting order.

  At launch a device owes each of the 15 others one entry unit and one arrival; written over the list of
  the offsets 1 … 15 these are the two sums the body's phases count down.  When the device waits on its
  entry counter it has paid its entry units and owes arrivals only; every arrival counter stands at level
  2, above the entry counter's level 1, so the wait is allowed.
-/
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Ghost
import proofs.«900424_g7700000000000425_dist_diff_noisepred_hshard_i_b2_h64_w64_c64_v7x_i16_f32_1_alg».proof.Proof.KernelRun.Sched

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The units owed at launch, as sums over the list of offsets; the entry wait's place in the waiting order -/

omit [FloatOps F] in
/-- What a device owes at launch: an arrival and an entry unit to each of the 15 others, as the sums over the list of
    the offsets 1 … 15. -/
theorem O₀_eq (c : Dev nD) : O₀ c = recvOwed c L15 + barOwed c L15 := by
  unfold O₀ owedFrom recvOwed barOwed
  rw [← L15_toFinset, List.sum_toFinset _ L15_nodup, List.sum_toFinset _ L15_nodup]

omit [FloatOps F] in
/-- A positive entry of the arrivals owed over a list of offsets sits at the arrival counter of one of them. -/
theorem recvOwed_pos (c : Dev nD) : ∀ (l : List (Fin 16)) {g : GSem nD τ sig} {u : Unit},
    0 < recvOwed c l g u → ∃ j ∈ l, g = recvCell (fwd c j) j
  | [], g, u, h => by
    unfold recvOwed at h
    rw [List.map_nil, List.sum_nil] at h
    exact absurd h (Nat.lt_irrefl 0)
  | j :: l, g, u, h => by
    have h' : 0 < (tallyAt (recvCell (fwd c j) j) () N + recvOwed c l) g u := by
      unfold recvOwed at h ⊢
      rwa [List.map_cons, List.sum_cons] at h
    rcases Pipeline.add_pos_cases h' with h1 | h1
    · rw [tallyAt_apply] at h1
      by_cases hg : g = recvCell (fwd c j) j ∧ u = ()
      · exact ⟨j, List.mem_cons_self, hg.1⟩
      · rw [if_neg hg] at h1; exact absurd h1 (Nat.lt_irrefl 0)
    · obtain ⟨j', hj', e⟩ := recvOwed_pos c l h1
      exact ⟨j', List.mem_cons_of_mem _ hj', e⟩

omit [FloatOps F] in
/-- At its entry wait a device owes arrivals only: arrival counters, which stand above its entry counter. -/
theorem mayWait_bar (c : Dev nD) :
    (levAts L lv : sProp 𝕄) ⊢ MayWait (c : Thread nD τ) (.reg barS) () (recvOwed c L15) :=
  MayOwe.of_cut (L := L) (lev := lv) 1
    (fun p hp => by
      rw [Finset.mem_singleton.mp hp]
      show () ∈ (if ((c : Thread nD τ), SemLoc.reg barS).1.2 = Proc.tc then ({()} : Finset Unit) else ∅)
      rw [if_pos rfl]; exact Finset.mem_singleton_self _)
    (fun g u hg => by
      obtain ⟨j, _, rfl⟩ := recvOwed_pos c L15 hg
      show u ∈ (if (recvCell (fwd c j) j).1.2 = Proc.tc then ({()} : Finset Unit) else ∅)
      rw [if_pos rfl]; exact Finset.mem_singleton_self _)
    (fun p hp => by
      rw [Finset.mem_singleton.mp hp]
      dsimp only [lv]; rw [if_pos rfl])
    (fun g u hg => by
      obtain ⟨j, hj, rfl⟩ := recvOwed_pos c L15 hg
      dsimp only [lv]
      rw [if_neg (recv_ne_bar j), recvIdx_recv (L15_ne_zero j hj), Option.isSome_some, if_pos rfl]
      exact Nat.lt_succ_self 1)

end Cert.KernelRun

end
-- ==== Proof.KernelRun.BodyStart.lean ====
/-
  The body's first segment: a device hands each other device, with its entry unit, the slot that device will
  write; loads its block and stores the block's sums and sums of squares into slot 0; and waits for the 15
  others' units, which bring the slots it will write. While it waits it owes arrivals only, and arrival
  counters come after entry counters in the waiting order.
-/
import proofs.«900424_g7700000000000425_dist_diff_noisepred_hshard_i_b2_h64_w64_c64_v7x_i16_f32_1_alg».proof.Proof.KernelRun.Stages
import proofs.«900424_g7700000000000425_dist_diff_noisepred_hshard_i_b2_h64_w64_c64_v7x_i16_f32_1_alg».proof.Proof.KernelRun.BodyGlue
import proofs.«900424_g7700000000000425_dist_diff_noisepred_hshard_i_b2_h64_w64_c64_v7x_i16_f32_1_alg».proof.Proof.KernelRun.PhaseSig
import proofs.«900424_g7700000000000425_dist_diff_noisepred_hshard_i_b2_h64_w64_c64_v7x_i16_f32_1_alg».proof.Proof.KernelRun.BodyLocal
import proofs.«900424_g7700000000000425_dist_diff_noisepred_hshard_i_b2_h64_w64_c64_v7x_i16_f32_1_alg».proof.Proof.KernelRun.BodyLocalOwed

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's positions on its 33 counters, sorted: the entry counter, the departure counters (the never-used one
    first), the arrival counters (the never-used one first). -/
theorem pos_sorted (c : Dev nD) :
    (bigSep Finset.univ fun j : Fin 33 => atPos ER (kcell (c, j)) 0 ∅ 0 : sProp 𝕄)
      = iprop(atPos ER (barCell c) 0 ∅ 0
          ∗ (atPos ER (sendCell c 0) 0 ∅ 0 ∗ bigSep others fun k => atPos ER (sendCell c k) 0 ∅ 0)
          ∗ (atPos ER (recvCell c 0) 0 ∅ 0 ∗ bigSep others fun k => atPos ER (recvCell c k) 0 ∅ 0)) := by
  rw [bigSep_fin33]
  simp only [kcell_send, kcell_recv]
  rw [bigSep_univ_at (fun k : Fin 16 => (atPos ER (sendCell c k) 0 ∅ 0 : sProp 𝕄)) (0 : Fin 16),
    bigSep_univ_at (fun k : Fin 16 => (atPos ER (recvCell c k) 0 ∅ 0 : sProp 𝕄)) (0 : Fin 16)]
  rfl

set_option maxHeartbeats 1600000 in
theorem seg_start (K : Dev nD × Fin 33 → ℕ) (c : Dev nD) (Q : PUnit → sProp 𝕄) :
    iprop(bodyPre m ρ K c ∗ (cut1 m ρ K c -∗ wp frame (wpE (defs₀ (F := F)) 𝒱₀ (c : Thread nD τ) none) Set.univ (modelMid c (xstg m ρ c)) Q))
      ⊢ wp frame (wpE (defs₀ (F := F)) 𝒱₀ (c : Thread nD τ) none) Set.univ (model (F := F) c) Q := by
  unfold bodyPre ghost linear launchCreds payToks model
  rw [bigSep_sep', bigSep_sep', pos_sorted c]
  iintro ⟨⟨⟨⟨#HRec, ⟨HatB, ⟨HatS0, HatS⟩, ⟨HatR0, HatR⟩⟩, ⟨HtB, HtR, HtS⟩⟩, ⟨HcB, HcR⟩, #Hlev, ⟨%f0, Hscr⟩⟩, Ho, ⟨%d0, Hx⟩, ⟨%d1, Hw⟩, ⟨%d2, Hout⟩⟩, Hk⟩
  have hb0 : (dats m ρ 0 c).before (0 : Fin 3) t₀ d0 = xstg m ρ c := by
    unfold Dat.before; rw [if_pos (fetch0_0 t₀)]; rfl
  have hb1 : (dats m ρ 0 c).before (1 : Fin 3) t₀ d1 = wstg m ρ c := by
    unfold Dat.before; rw [if_pos (fetch0_1 t₀)]; rfl
  rw [hb0, hb1]
  unfold Dat.owesAt Pipeline.owesWithin
  icases Ho with ⟨%W, %hW, HO⟩
  rw [show (dats m ρ 0 c).owed t₀.castSucc = O₀ c from rfl, O₀_eq]
  -- the table as its slots
  ihave Hsl := (Entails.of_eq ((scrPts_eq c f0).trans (table_slots c fullShare f0))) $$ Hscr
  icases Hsl with ⟨Hs0, Hsl⟩
  -- the 15 entry units, each with the slot its receiver will write
  ihave HA := (sig_input c f0) $$ [HtB Hsl]
  · isplitl [HtB] <;> iassumption
  iapply (wp_sigs m ρ K c L15 L15_ne_zero (recvOwed c L15) W _ Q) $$ [HO HA]
  · isplitr; · iexact HRec
    isplitl [HO]; · iexact HO
    iexact HA
  iintro HO
  -- the block loaded, its sums and sums of squares stored into slot 0
  iapply (wp_prologue m ρ c f0 (fun v64 => .op (.semWait barS 15) fun _ => modelMid c v64) Q) $$ [Hs0 Hx]
  · isplitl [Hs0] <;> iassumption
  iintro ⟨Hs0, Hx⟩
  -- the wait for the 15 others' units
  iapply (Rounds.wp_wait_rest_token 𝒱₀ ER (ringRd m ρ) (c : Thread nD τ) none (κ := K (c, 0))
      (wpE_semWait_eq 𝒱₀ (c : Thread nD τ) none Set.univ) (Set.mem_univ _) () (O := recvOwed c L15) (W := W) (R := 0) (m := 0) (T := ∅)
      (by rw [expect_bar])) $$ [HcB HO HatB]
  · isplitr; · iapply (records_cell m ρ K (c, 0)); iexact HRec
    isplitl [HcB]; · iexact HcB
    isplitl [HO]; · iexact HO
    isplitr; · iapply (mayWait_bar c); iexact Hlev
    iexact HatB
  iintro ⟨HO, -, -, Hpay⟩
  ihave Hp := (Entails.of_eq (rest_bar m ρ c)) $$ Hpay
  ihave Hp := (bar_payload c) $$ Hp
  iapply Hk
  unfold cut1 xferPos stagedIn
  isplitr; · iexact HRec
  isplitr; · iexact Hlev
  isplitl [HO]; · iexists _; iexact HO
  isplitl [HatS0 HatR0 HatS HatR]
  · isplitl [HatS0]; · iexact HatS0
    isplitl [HatR0]; · iexact HatR0
    isplitl [HatS] <;> iassumption
  isplitl [HtS]; · iexact HtS
  isplitl [HtR]; · iexact HtR
  isplitl [HcR]; · iexact HcR
  isplitl [Hs0]; · iexact Hs0
  isplitl [Hp]; · iexact Hp
  isplitl [Hx]; · iexact Hx
  isplitl [Hw]; · iexact Hw
  iexists _; iexact Hout

/-- info: 'Cert.KernelRun.seg_start' depends on axioms: [propext, Classical.choice, Quot.sound] -/
#guard_msgs in #print axioms seg_start

end Cert.KernelRun

end
-- ==== Proof.KernelRun.PhaseSend.lean ====
/-
  The copy phase: slot 0 of the device's table, holding its own sums, is copied into slot `j` of the device `j`
  places ahead on the ring, for each offset `j` of a list in order.  Each copy reads slot 0 through one of 16
  equal shares of it, pays the one duty of the departure counter `j` here (handing that share back) and the one
  duty of the arrival counter `j` there (handing the receiver its slot `j`, now holding the sender's sums), and
  takes the arrival off what the device owes; the device gets the departure's credit.
-/
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.PhaseSig

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem recvOwed_nil (c : Dev nD) : recvOwed c [] = 0 := rfl
omit [FloatOps F] in
theorem recvOwed_cons (c : Dev nD) (j : Fin 16) (l : List (Fin 16)) :
    recvOwed c (j :: l) = tallyAt (recvCell (fwd c j) j) () N + recvOwed c l := by
  unfold recvOwed; rw [List.map_cons, List.sum_cons]

section Sends
variable {α : Type} (dv : Fin 16 → Dev nD)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j)))

omit [FloatOps F] in
theorem sends_nil (k : Prog (TpuEff nD τ sig (Elt F) Λ₀ .tc) α) : sends dv hsc hsrc hdst hsem [] k = k := rfl
omit [FloatOps F] in
theorem sends_cons (j : Fin 16) (l : List (Fin 16)) (k : Prog (TpuEff nD τ sig (Elt F) Λ₀ .tc) α) :
    sends dv hsc hsrc hdst hsem (j :: l) k
      = .op (.enqueueDma (slotM 0 : Memref sig .tc .vmem S2x2x64 .f32)
          (.remote (dv j : Thread nD τ) (slotM j : Memref sig .tc .vmem S2x2x64 .f32) (.dma (sendS j)) (hsc j))
          (.dma (recvS j)) hsrc (hdst j) (hsem j)) fun _ => sends dv hsc hsrc hdst hsem l k := rfl
end Sends

/-- One copy, addressed to a device `n` that is the device `j` places ahead (substituted, not rewritten): the rule for a
    remote copy whose destination elements the issuer holds, at the ring's cells. -/
theorem wp_send_one (K : Dev nD × Fin 33 → ℕ) (c n : Dev nD) (j : Fin 16) (hj : j ≠ 0) (hn : n = fwd c j)
    {hsc : (slotM j : Memref sig (n : Thread nD τ).2.kind .vmem S2x2x64 .f32).view.ref.isScScratch = false}
    {hsrc : (slotM 0 : Memref sig .tc .vmem S2x2x64 .f32).view.WordExact} {hdst : (slotM j : Memref sig .tc .vmem S2x2x64 .f32).view.WordExact}
    {hsem : DmaTarget.Typed (p := .tc) .vmem (.dma (recvS j)) (.remote (n : Thread nD τ) (slotM j : Memref sig .tc .vmem S2x2x64 .f32) (.dma (sendS j)) hsc)}
    {α : Type} {Q : α → sProp 𝕄} {k : PUnit → Prog (TpuEff nD τ sig (Elt F) Λ₀ .tc) α}
    (fd : Buf (Elt F) ((slotM j : Memref sig .tc .vmem S2x2x64 .f32).view.loc (fwd c j : Thread nD τ)))
    (hland : ∀ i ∈ (slotM j : Memref sig .tc .vmem S2x2x64 .f32).view.set,
      ((slotM j : Memref sig .tc .vmem S2x2x64 .f32).view.write (Elt F) fd ((slotM 0 : Memref sig .tc .vmem S2x2x64 .f32).view.read (Elt F) (gathered m ρ c)) Finset.univ) i = gathered m ρ (fwd c j) i)
    (O : CellTallies nD τ sig Unit) (W : Waits sig Unit) :
    iprop(cellInv ER (ringRd m ρ) (K (c, jS j)) (sendCell c j) ∗ cellInv ER (ringRd m ρ) (K (fwd c j, jR j)) (recvCell (fwd c j) j)
        ∗ slotPts c 0 (Transfers.shareTok fullShare 16 j) (gathered m ρ c) ∗ slotPts (fwd c j) j fullShare fd
        ∗ owes (c : Thread nD τ) (O + tallyAt (recvCell (fwd c j) j) () N) W
        ∗ dutyTok ER (sendCell c j) 0 0 ∗ reached ER (sendCell c j) 0
        ∗ dutyTok ER (recvCell (fwd c j) j) 0 0 ∗ reached ER (recvCell (fwd c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 : Memref sig .tc .vmem S2x2x64 .f32) (.remote (n : Thread nD τ) (slotM j : Memref sig .tc .vmem S2x2x64 .f32) (.dma (sendS j)) hsc)
                (.dma (recvS j)) hsrc hdst hsem) k) Q) := by
  subst hn
  unfold slotPts
  exact Rounds.wp_send_pointsTo 𝒱₀ ER (ringRd m ρ) (c : Thread nD τ) none (c' := (fwd c j : Thread nD τ))
    (src := (slotM 0 : Memref sig .tc .vmem S2x2x64 .f32)) (dst := (slotM j : Memref sig .tc .vmem S2x2x64 .f32)) (sS := .dma (sendS j)) (sem := .dma (recvS j))
    (q := Transfers.shareTok fullShare 16 j) (fs := gathered m ρ c) (fd := fd)
    (κ₁ := K (c, jS j)) (κ₂ := K (fwd c j, jR j)) (r₁ := 0) (r₂ := 0) (d₁ := 0) (d₂ := 0)
    (by rw [duties_send m ρ c hj]; exact Finset.mem_singleton_self _)
    (by rw [duties_recv m ρ (fwd c j) hj]; exact Finset.mem_singleton_self _)
    () () N (slot_credit j) (amount_send m ρ c j 0) (amount_recv m ρ (fwd c j) j 0) O rfl (W := W)
    (by rw [payload_send m ρ c hj]; exact BI.Entails.refl _)
    (by rw [payload_recv m ρ (fwd c j) hj]; unfold recvPay slotPts; rw [pointsTo_congr hland])

/-- The copies to the devices at the offsets of `l`, none of them 0, addressed through a family `dv` of devices that is
    the ring's (`dv j` the device `j` places ahead): each takes its arrival off what the device owes and returns the
    departure's credit; when all are started the device owes `O` alone and holds one credit per departure counter.
    `hland` is what a landing leaves in slot `j` of the receiver: the sender's sums, as the receiver's table is to hold them. -/
theorem wp_sends {α : Type} (K : Dev nD × Fin 33 → ℕ) (c : Dev nD) (dv : Fin 16 → Dev nD) (hdv : ∀ j, dv j = fwd c j)
    (hsc : ∀ j : Fin 16, (slotM j : Memref sig (dv j : Thread nD τ).2.kind .vmem S2x2x64 .f32).view.ref.isScScratch = false)
    (hsrc : (slotM 0 : Memref sig .tc .vmem S2x2x64 .f32).view.WordExact)
    (hdst : ∀ j : Fin 16, (slotM j : Memref sig .tc .vmem S2x2x64 .f32).view.WordExact)
    (hsem : ∀ j : Fin 16, DmaTarget.Typed (p := .tc) .vmem (.dma (recvS j))
      (.remote (dv j : Thread nD τ) (slotM j : Memref sig .tc .vmem S2x2x64 .f32) (.dma (sendS j)) (hsc j)))
    (hland : ∀ j : Fin 16, j ≠ 0 → ∀ fd : Buf (Elt F) ((slotM j : Memref sig .tc .vmem S2x2x64 .f32).view.loc (fwd c j : Thread nD τ)),
      ∀ i ∈ (slotM j : Memref sig .tc .vmem S2x2x64 .f32).view.set,
        ((slotM j : Memref sig .tc .vmem S2x2x64 .f32).view.write (Elt F) fd ((slotM 0 : Memref sig .tc .vmem S2x2x64 .f32).view.read (Elt F) (gathered m ρ c)) Finset.univ) i
          = gathered m ρ (fwd c j) i)
    (l : List (Fin 16)) (hl : ∀ j ∈ l, j ≠ 0)
    (O : CellTallies nD τ sig Unit) (W : Waits sig Unit) (k : Prog (TpuEff nD τ sig (Elt F) Λ₀ .tc) α) (Q : α → sProp 𝕄) :
    iprop(records m ρ K ∗ owes (c : Thread nD τ) (O + recvOwed c l) W
        ∗ bigSepL l (fun j => iprop(dutyTok ER (sendCell c j) 0 0 ∗ dutyTok ER (recvCell (fwd c j) j) 0 0
            ∗ slotPts c 0 (Transfers.shareTok fullShare 16 j) (gathered m ρ c) ∗ ∃ fd, slotPts (fwd c j) j fullShare fd)))
      ⊢ iprop(((bigSepL l (fun j => cred (tallyAt (sendCell c j) () N)) ∗ owes (c : Thread nD τ) O W) -∗ wp frame (wpE (defs₀ (F := F)) 𝒱₀ (c : Thread nD τ) none) Set.univ k Q)
          -∗ wp frame (wpE (defs₀ (F := F)) 𝒱₀ (c : Thread nD τ) none) Set.univ (sends dv hsc hsrc hdst hsem l k) Q) := by
  induction l generalizing O with
  | nil =>
    rw [recvOwed_nil, add_zero, sends_nil]
    iintro ⟨-, HL, -⟩ Hk
    iapply Hk
    isplitr; · rw [bigSepL_nil]; iempintro
    iexact HL
  | cons j l ih =>
    have hj : j ≠ 0 := hl j (List.mem_cons_self ..)
    have hl' : ∀ i ∈ l, i ≠ 0 := fun i hi => hl i (List.mem_cons_of_mem _ hi)
    have hO : O + recvOwed c (j :: l) = (O + recvOwed c l) + tallyAt (recvCell (fwd c j) j) () N := by
      rw [recvOwed_cons, add_assoc, add_comm (tallyAt _ _ _)]
    rw [hO, bigSepL_cons', bigSepL_cons', sends_cons]
    iintro ⟨#HR, HL, ⟨Hts, Htr, Hsrc, ⟨%fd, Hdst⟩⟩, Hrest⟩ Hk
    iapply (wp_send_one m ρ K c (dv j) j hj (hdv j) fd (hland j hj fd) (O + recvOwed c l) W) $$ [HL Hts Htr Hsrc Hdst]
    · isplitr; · rw [← kcell_send]; iapply (records_cell m ρ K (c, jS j)); iexact HR
      isplitr; · rw [← kcell_recv]; iapply (records_cell m ρ K (fwd c j, jR j)); iexact HR
      isplitl [Hsrc]; · iexact Hsrc
      isplitl [Hdst]; · iexact Hdst
      isplitl [HL]; · iexact HL
      isplitl [Hts]; · iexact Hts
      isplitr; · rw [← kcell_send]; iapply (records_reached m ρ K (c, jS j)); iexact HR
      isplitl [Htr]; · iexact Htr
      rw [← kcell_recv]; iapply (records_reached m ρ K (fwd c j, jR j)); iexact HR
    iintro ⟨Hcj, HL⟩
    iapply (ih hl' O) $$ [HL Hrest]
    · isplitr; · iexact HR
      isplitl [HL]; · iexact HL
      iexact Hrest
    iintro ⟨Hcs, HL⟩
    iapply Hk
    isplitl [Hcj Hcs]
    · isplitl [Hcj]; · iexact Hcj
      iexact Hcs
    iexact HL

/-- info: 'Cert.KernelRun.wp_sends' depends on axioms: [propext, Classical.choice, Quot.sound] -/
#guard_msgs in #print axioms wp_sends

end Cert.KernelRun

end
-- ==== Proof.KernelRun.PhaseWait.lean ====
/-
  The waits on the arrival and departure counters, and the closing of those counters.

  A wait for a slot's whole credit on an arrival counter, by a device that owes nothing and holds the credit dealt for
  it, returns the counter's position moved on to round 1 and what the one duty of round 0 hands over: the slot holding
  the sender's sums.  On a departure counter it returns the share of slot 0 the copy read through.  Both are proved
  once, by induction over the list of ring offsets.  A counter whose owner stands at a round from which no round has a
  duty, nothing taken, is closed at zero.
-/
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.PhaseSig

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The waits on the arrival counters at the offsets of `l`, in order. -/
theorem wp_waits_recv (K : Dev nD × Fin 33 → ℕ) (c : Dev nD)
    (w : Fin 16 → TpuEff nD τ sig (Elt F) Λ₀ .tc PUnit)
    (hw : ∀ (j : Fin 16) (Kk : PUnit → sProp 𝕄),
      wpE (defs₀ (F := F)) 𝒱₀ (c : Thread nD τ) none Set.univ (w j) Kk = waitSpec (c : Thread nD τ) Set.univ (.dma (recvS j)) N Kk)
    {α : Type} (k : Prog (TpuEff nD τ sig (Elt F) Λ₀ .tc) α) (Q : α → sProp 𝕄)
    (l : List (Fin 16)) (hl : ∀ j ∈ l, j ≠ 0) (W : Waits sig Unit) :
    iprop(records m ρ K ∗ owes (c : Thread nD τ) 0 W
        ∗ bigSepL l (fun j => iprop(cred (tallyAt (recvCell c j) () N) ∗ atPos ER (recvCell c j) 0 ∅ 0)))
      ⊢ iprop((∀ W', (owes (c : Thread nD τ) 0 W' ∗ bigSepL l (fun j => iprop(atPos ER (recvCell c j) 1 ∅ 0 ∗ recvPay m ρ c j)))
            -∗ wp frame (wpE (defs₀ (F := F)) 𝒱₀ (c : Thread nD τ) none) Set.univ k Q)
          -∗ wp frame (wpE (defs₀ (F := F)) 𝒱₀ (c : Thread nD τ) none) Set.univ (waits w l k) Q) := by
  induction l generalizing W with
  | nil =>
    show iprop(records m ρ K ∗ owes (c : Thread nD τ) 0 W ∗ emp)
      ⊢ iprop((∀ W', (owes (c : Thread nD τ) 0 W' ∗ emp) -∗ wp frame (wpE (defs₀ (F := F)) 𝒱₀ (c : Thread nD τ) none) Set.univ k Q)
          -∗ wp frame (wpE (defs₀ (F := F)) 𝒱₀ (c : Thread nD τ) none) Set.univ k Q)
    iintro ⟨-, HL, -⟩ Hk
    iapply Hk $$ %W
    isplitl [HL]; · iexact HL
    iempintro
  | cons j l ih =>
    have hj : j ≠ 0 := hl j (List.mem_cons_self ..)
    have hl' : ∀ i ∈ l, i ≠ 0 := fun i hi => hl i (List.mem_cons_of_mem _ hi)
    rw [bigSepL_cons', bigSepL_cons']
    show _ ⊢ iprop(_ -∗ wp frame (wpE (defs₀ (F := F)) 𝒱₀ (c : Thread nD τ) none) Set.univ (.op (w j) fun _ => waits w l k) Q)
    iintro ⟨#Hrec, HL, ⟨Hc, Hat⟩, Hrest⟩ Hk
    ihave Hcell := (records_cell m ρ K (c, jR j)) $$ Hrec
    rw [kcell_recv]
    iapply (wp_wait_rest_token 𝒱₀ ER (ringRd m ρ) (c : Thread nD τ) none (hw j) (Set.mem_univ (K (c, jR j)))
      () (O := 0) (W := W) (R := 0) (T := ∅) (m := 0)
      (by rw [expect_recv m ρ c hj, Nat.zero_add])) $$ [Hcell Hc HL Hat]
    · isplitl [Hcell]; · iexact Hcell
      isplitl [Hc]; · iexact Hc
      isplitl [HL]; · iexact HL
      isplitr; · rw [MayWait_zero]; iempintro
      iexact Hat
    iintro ⟨HL, Hat, -, Hpay⟩
    ihave Hp := (Entails.of_eq (rest_recv m ρ c hj)) $$ Hpay
    iapply (ih hl' (insert (SemLoc.dma (recvS j), ()) W)) $$ [HL Hrest]
    · isplitr; · iexact Hrec
      isplitl [HL]; · iexact HL
      iexact Hrest
    iintro %W' ⟨HL, Hrest⟩
    iapply Hk $$ %W'
    isplitl [HL]; · iexact HL
    isplitl [Hat Hp]
    · isplitl [Hat]; · iexact Hat
      iexact Hp
    iexact Hrest

/-- The waits on the departure counters at the offsets of `l`, in order. -/
theorem wp_waits_send (K : Dev nD × Fin 33 → ℕ) (c : Dev nD)
    (w : Fin 16 → TpuEff nD τ sig (Elt F) Λ₀ .tc PUnit)
    (hw : ∀ (j : Fin 16) (Kk : PUnit → sProp 𝕄),
      wpE (defs₀ (F := F)) 𝒱₀ (c : Thread nD τ) none Set.univ (w j) Kk = waitSpec (c : Thread nD τ) Set.univ (.dma (sendS j)) N Kk)
    {α : Type} (k : Prog (TpuEff nD τ sig (Elt F) Λ₀ .tc) α) (Q : α → sProp 𝕄)
    (l : List (Fin 16)) (hl : ∀ j ∈ l, j ≠ 0) (W : Waits sig Unit) :
    iprop(records m ρ K ∗ owes (c : Thread nD τ) 0 W
        ∗ bigSepL l (fun j => iprop(cred (tallyAt (sendCell c j) () N) ∗ atPos ER (sendCell c j) 0 ∅ 0)))
      ⊢ iprop((∀ W', (owes (c : Thread nD τ) 0 W' ∗ bigSepL l (fun j => iprop(atPos ER (sendCell c j) 1 ∅ 0 ∗ sendPay m ρ c j)))
            -∗ wp frame (wpE (defs₀ (F := F)) 𝒱₀ (c : Thread nD τ) none) Set.univ k Q)
          -∗ wp frame (wpE (defs₀ (F := F)) 𝒱₀ (c : Thread nD τ) none) Set.univ (waits w l k) Q) := by
  induction l generalizing W with
  | nil =>
    show iprop(records m ρ K ∗ owes (c : Thread nD τ) 0 W ∗ emp)
      ⊢ iprop((∀ W', (owes (c : Thread nD τ) 0 W' ∗ emp) -∗ wp frame (wpE (defs₀ (F := F)) 𝒱₀ (c : Thread nD τ) none) Set.univ k Q)
          -∗ wp frame (wpE (defs₀ (F := F)) 𝒱₀ (c : Thread nD τ) none) Set.univ k Q)
    iintro ⟨-, HL, -⟩ Hk
    iapply Hk $$ %W
    isplitl [HL]; · iexact HL
    iempintro
  | cons j l ih =>
    have hj : j ≠ 0 := hl j (List.mem_cons_self ..)
    have hl' : ∀ i ∈ l, i ≠ 0 := fun i hi => hl i (List.mem_cons_of_mem _ hi)
    rw [bigSepL_cons', bigSepL_cons']
    show _ ⊢ iprop(_ -∗ wp frame (wpE (defs₀ (F := F)) 𝒱₀ (c : Thread nD τ) none) Set.univ (.op (w j) fun _ => waits w l k) Q)
    iintro ⟨#Hrec, HL, ⟨Hc, Hat⟩, Hrest⟩ Hk
    ihave Hcell := (records_cell m ρ K (c, jS j)) $$ Hrec
    rw [kcell_send]
    iapply (wp_wait_rest_token 𝒱₀ ER (ringRd m ρ) (c : Thread nD τ) none (hw j) (Set.mem_univ (K (c, jS j)))
      () (O := 0) (W := W) (R := 0) (T := ∅) (m := 0)
      (by rw [expect_send m ρ c hj, Nat.zero_add])) $$ [Hcell Hc HL Hat]
    · isplitl [Hcell]; · iexact Hcell
      isplitl [Hc]; · iexact Hc
      isplitl [HL]; · iexact HL
      isplitr; · rw [MayWait_zero]; iempintro
      iexact Hat
    iintro ⟨HL, Hat, -, Hpay⟩
    ihave Hp := (Entails.of_eq (rest_send m ρ c hj)) $$ Hpay
    iapply (ih hl' (insert (SemLoc.dma (sendS j), ()) W)) $$ [HL Hrest]
    · isplitr; · iexact Hrec
      isplitl [HL]; · iexact HL
      iexact Hrest
    iintro %W' ⟨HL, Hrest⟩
    iapply Hk $$ %W'
    isplitl [HL]; · iexact HL
    isplitl [Hat Hp]
    · isplitl [Hat]; · iexact Hat
      iexact Hp
    iexact Hrest

/-- The departure counter 0 is never used: it has no duty at any round. -/
theorem duties_idle_send (c : Dev nD) (r : ℕ) : (ringRd (F := F) m ρ).duties (sendCell c 0) r = ∅ := by
  dsimp only [ringRd]
  rw [if_neg (fun h => send_ne_bar 0 h.2.2), if_neg]
  rintro ⟨-, -, h | h⟩
  · have h0 : sendIdx (SemLoc.dma (sendS 0) : SemLoc sig) = none := by decide
    rw [h0] at h; exact Bool.noConfusion h
  · rw [recvIdx_send] at h; exact Bool.noConfusion h

/-- The arrival counter 0 is never used: it has no duty at any round. -/
theorem duties_idle_recv (c : Dev nD) (r : ℕ) : (ringRd (F := F) m ρ).duties (recvCell c 0) r = ∅ := by
  dsimp only [ringRd]
  rw [if_neg (fun h => recv_ne_bar 0 h.2.2), if_neg]
  rintro ⟨-, -, h | h⟩
  · rw [sendIdx_recv] at h; exact Bool.noConfusion h
  · have h0 : recvIdx (SemLoc.dma (recvS 0) : SemLoc sig) = none := by decide
    rw [h0] at h; exact Bool.noConfusion h

/-- The departure and arrival counters at the offsets of `l`, their owner at round 1 with nothing taken, are closed at zero. -/
theorem close_xfer (K : Dev nD × Fin 33 → ℕ) (c : Dev nD) (l : List (Fin 16)) :
    iprop(records m ρ K ∗ bigSepL l (fun j => iprop(atPos ER (sendCell c j) 1 ∅ 0 ∗ atPos ER (recvCell c j) 1 ∅ 0)))
      ⊢ iprop(|={Set.univ}=> bigSepL l (fun j => iprop(semVal (sendCell c j) 0 ∗ semVal (recvCell c j) 0))) := by
  induction l with
  | nil =>
    show iprop(records m ρ K ∗ emp) ⊢ iprop(|={Set.univ}=> emp)
    iintro -
    imodintro
    iempintro
  | cons j l ih =>
    rw [bigSepL_cons', bigSepL_cons']
    iintro ⟨#Hrec, ⟨Hs, Hr⟩, Hrest⟩
    ihave Hcs := (records_cell m ρ K (c, jS j)) $$ Hrec
    ihave Hcr := (records_cell m ρ K (c, jR j)) $$ Hrec
    rw [kcell_send, kcell_recv]
    imod (cell_close ER (ringRd m ρ) (Set.mem_univ (K (c, jS j))) (fun h => h) (R := 1) (duties_later m ρ (sendCell c j))) $$ [Hcs Hs] with Hsv
    · isplitl [Hcs]; · iexact Hcs
      iexact Hs
    imod (cell_close ER (ringRd m ρ) (Set.mem_univ (K (c, jR j))) (fun h => h) (R := 1) (duties_later m ρ (recvCell c j))) $$ [Hcr Hr] with Hrv
    · isplitl [Hcr]; · iexact Hcr
      iexact Hr
    imod ih $$ [Hrest] with Hrest
    · isplitr; · iexact Hrec
      iexact Hrest
    imodintro
    isplitl [Hsv Hrv]
    · isplitl [Hsv]; · iexact Hsv
      iexact Hrv
    iexact Hrest

/-- The never-used counters 0, their owner at round 0 with nothing taken, are closed at zero. -/
theorem close_idle (K : Dev nD × Fin 33 → ℕ) (c : Dev nD) :
    iprop(records m ρ K ∗ atPos ER (sendCell c 0) 0 ∅ 0 ∗ atPos ER (recvCell c 0) 0 ∅ 0)
      ⊢ iprop(|={Set.univ}=> (semVal (sendCell c 0) 0 ∗ semVal (recvCell c 0) 0)) := by
  iintro ⟨#Hrec, Hs, Hr⟩
  ihave Hcs := (records_cell m ρ K (c, jS 0)) $$ Hrec
  ihave Hcr := (records_cell m ρ K (c, jR 0)) $$ Hrec
  rw [kcell_send, kcell_recv]
  imod (cell_close ER (ringRd m ρ) (Set.mem_univ (K (c, jS 0))) (fun h => h) (R := 0) (fun r _ => duties_idle_send m ρ c r)) $$ [Hcs Hs] with Hsv
  · isplitl [Hcs]; · iexact Hcs
    iexact Hs
  imod (cell_close ER (ringRd m ρ) (Set.mem_univ (K (c, jR 0))) (fun h => h) (R := 0) (fun r _ => duties_idle_recv m ρ c r)) $$ [Hcr Hr] with Hrv
  · isplitl [Hcr]; · iexact Hcr
    iexact Hr
  imodintro
  isplitl [Hsv]; · iexact Hsv
  iexact Hrv

/-- info: 'Cert.KernelRun.wp_waits_recv' depends on axioms: [propext, Classical.choice, Quot.sound] -/
#guard_msgs in #print axioms wp_waits_recv

/-- info: 'Cert.KernelRun.wp_waits_send' depends on axioms: [propext, Classical.choice, Quot.sound] -/
#guard_msgs in #print axioms wp_waits_send

/-- info: 'Cert.KernelRun.close_xfer' depends on axioms: [propext, Classical.choice, Quot.sound] -/
#guard_msgs in #print axioms close_xfer

/-- info: 'Cert.KernelRun.close_idle' depends on axioms: [propext, Classical.choice, Quot.sound] -/
#guard_msgs in #print axioms close_idle

end Cert.KernelRun

end
-- ==== Proof.KernelRun.BodyMid.lean ====
/-
  The middle of a device's body: the 15 copies of slot 0 to the devices ahead, then the waits for the 15 arrivals.
  Slot 0, held in full, is cut into a kept share, a share no copy uses, and one share per copy; each copy reads
  through its share, pays the departure here and the arrival there, and takes the arrival off what is owed.  The
  15 waits then each hand over a slot of the table holding the sums of the device that many places behind.
-/
import proofs.«900424_g7700000000000425_dist_diff_noisepred_hshard_i_b2_h64_w64_c64_v7x_i16_f32_1_alg».proof.Proof.KernelRun.Stages
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.BodyGlue
import proofs.«900424_g7700000000000425_dist_diff_noisepred_hshard_i_b2_h64_w64_c64_v7x_i16_f32_1_alg».proof.Proof.KernelRun.Reindex
import proofs.«900424_g7700000000000425_dist_diff_noisepred_hshard_i_b2_h64_w64_c64_v7x_i16_f32_1_alg».proof.Proof.KernelRun.PhaseSig
import proofs.«900424_g7700000000000425_dist_diff_noisepred_hshard_i_b2_h64_w64_c64_v7x_i16_f32_1_alg».proof.Proof.KernelRun.PhaseSend
import proofs.«900424_g7700000000000425_dist_diff_noisepred_hshard_i_b2_h64_w64_c64_v7x_i16_f32_1_alg».proof.Proof.KernelRun.PhaseWait
import proofs.«900424_g7700000000000425_dist_diff_noisepred_hshard_i_b2_h64_w64_c64_v7x_i16_f32_1_alg».proof.Proof.KernelRun.SlotsContents

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Slot 0 held in full is the kept share, the share no copy uses, and the shares of the copies 1 … 15. -/
theorem slot0_split (c : Dev nD) (f : Buf (Elt F) ((slotM 0 : Memref sig .tc .vmem S2x2x64 .f32).view.loc (c : Thread nD τ))) :
    (slotPts c 0 fullShare f : sProp 𝕄)
      ⊢ iprop(slotPts c 0 (Transfers.shareDrop fullShare 16) f ∗ slotPts c 0 (Transfers.shareTok fullShare 16 0) f
          ∗ bigSep others fun k => slotPts c 0 (Transfers.shareTok fullShare 16 k) f) := by
  have h := (slot0_toks c f).1
  rw [bigSep_univ_at _ (0 : Fin 16)] at h
  exact h

omit [FloatOps F] in
/-- Four families over the offsets 1 … 15, as the list's conjunction of their quadruples. -/
theorem four_list (A B C D : Fin 16 → sProp 𝕄) :
    iprop(bigSep others A ∗ bigSep others B ∗ bigSep others C ∗ bigSep others D)
      = bigSepL L15 (fun j => iprop(A j ∗ B j ∗ C j ∗ D j)) := by
  rw [← bigSep_sep' others C D, ← bigSep_sep' others B, ← bigSep_sep' others A, bigSep_others_list]

/-- From the first cut to the second: the copies are started and the arrivals awaited. -/
theorem seg_mid (K : Dev nD × Fin 33 → ℕ) (c : Dev nD) (Q : PUnit → sProp 𝕄) :
    iprop(cut1 m ρ K c ∗ (cut2 m ρ K c -∗ wp frame (wpE (defs₀ (F := F)) 𝒱₀ (c : Thread nD τ) none) Set.univ (modelEnd c (xstg m ρ c)) Q))
      ⊢ wp frame (wpE (defs₀ (F := F)) 𝒱₀ (c : Thread nD τ) none) Set.univ (modelMid c (xstg m ρ c)) Q := by
  unfold cut1 modelMid xferPos
  iintro ⟨⟨#HR, #Hlev, ⟨%W, HL⟩, ⟨Hs0, Hr0, HatS, HatR⟩, HtS, HtR, HcR, Hslot0, Hahead, Hstg⟩, Hk⟩
  ihave Hsp := (slot0_split c (gathered m ρ c)) $$ Hslot0
  icases Hsp with ⟨Hkeep, Htok0, Htoks⟩
  ihave Hin := (Entails.of_eq (four_list (fun k => dutyTok ER (sendCell c k) 0 0) (fun k => dutyTok ER (recvCell (fwd c k) k) 0 0)
      (fun k => slotPts c 0 (Transfers.shareTok fullShare 16 k) (gathered m ρ c))
      (fun k => iprop(∃ f, slotPts (F := F) (fwd c k) k fullShare f)))) $$ [HtS HtR Htoks Hahead]
  · isplitl [HtS]; · iexact HtS
    isplitl [HtR]; · iexact HtR
    isplitl [Htoks]; · iexact Htoks
    iexact Hahead
  iapply (wp_sends m ρ K c (devCopy c) (devCopy_eq c) (slot_hsc c) (slot_wordExact 0) slot_wordExact (slot_hsem c)
      (fun j _ fd => landing_slot m ρ c j fd (gathered m ρ c) (fun _ _ => rfl)) L15 L15_ne_zero 0 W
      (waits wR L15 (modelEnd c (xstg m ρ c))) Q) $$ [HL Hin]
  · isplitr; · iexact HR
    isplitl [HL]; · rw [zero_add]; iexact HL
    iexact Hin
  iintro ⟨HcS, HL⟩
  ihave Hw := (Entails.of_eq (pair_list (fun j => cred (tallyAt (recvCell c j) () N)) (fun j => atPos ER (recvCell c j) 0 ∅ 0)))
      $$ [HcR HatR]
  · isplitl [HcR]; · iexact HcR
    iexact HatR
  iapply (wp_waits_recv m ρ K c wR (fun j Kk => by rw [wpE_waitDma2_eq, slot_credit]) (modelEnd c (xstg m ρ c)) Q
      L15 L15_ne_zero W) $$ [HL Hw]
  · isplitr; · iexact HR
    isplitl [HL]; · iexact HL
    iexact Hw
  iintro %W' ⟨HL, Hout⟩
  ihave Hout' := (Entails.of_eq (pair_list (fun j => atPos ER (recvCell c j) 1 ∅ 0) (fun j => recvPay m ρ c j)).symm) $$ Hout
  icases Hout' with ⟨HatR1, Hslots⟩
  ihave HcS' := (Entails.of_eq (bigSep_others_list (fun k => cred (tallyAt (sendCell c k) () N))).symm) $$ HcS
  iapply Hk
  unfold cut2 xferPos recvPay
  isplitr; · iexact HR
  isplitl [HL]; · iexists W'; iexact HL
  isplitl [Hs0 Hr0 HatS HatR1]
  · isplitl [Hs0]; · iexact Hs0
    isplitl [Hr0]; · iexact Hr0
    isplitl [HatS]; · iexact HatS
    iexact HatR1
  isplitl [HcS']; · iexact HcS'
  isplitl [Hkeep]; · iexact Hkeep
  isplitl [Htok0]; · iexact Htok0
  isplitl [Hslots]; · iexact Hslots
  iexact Hstg

/-- info: 'Cert.KernelRun.seg_mid' depends on axioms: [propext, Classical.choice, Quot.sound] -/
#guard_msgs in #print axioms seg_mid

end Cert.KernelRun

end
-- ==== Proof.KernelRun.SlotsGlue.lean ====
/-
  Rearrangements of the table's slots and shares, and of a device's counters, between the forms the phases of the
  body leave them in and the forms the next phase or the end of the body takes them in.
-/
import proofs.«900424_g7700000000000425_dist_diff_noisepred_hshard_i_b2_h64_w64_c64_v7x_i16_f32_1_alg».proof.Proof.KernelRun.Reindex
import proofs.«900424_g7700000000000425_dist_diff_noisepred_hshard_i_b2_h64_w64_c64_v7x_i16_f32_1_alg».proof.Proof.KernelRun.Ghost
import proofs.«900424_g7700000000000425_dist_diff_noisepred_hshard_i_b2_h64_w64_c64_v7x_i16_f32_1_alg».proof.Proof.KernelRun.PhaseDefs
import proofs.«900424_g7700000000000425_dist_diff_noisepred_hshard_i_b2_h64_w64_c64_v7x_i16_f32_1_alg».proof.Proof.KernelRun.Slots
import proofs.«900424_g7700000000000425_dist_diff_noisepred_hshard_i_b2_h64_w64_c64_v7x_i16_f32_1_alg».proof.Proof.KernelRun.SlotsContents

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Two assertions each of which entails the other are equal. -/
theorem eq_of_biEntails {P Q : sProp 𝕄} (h : P ⊣⊢ Q) : P = Q := BI.equiv_iff.mp ⟨h.1, h.2⟩

/-! ## A slot's share cut into a remainder and 16 parts -/

/-- Slot `k` held in full is a remainder and 16 parts of its share. -/
theorem slot_toks_eq (c : Dev nD) (k : Fin 16)
    (f : Buf (Elt F) ((slotM k : Memref sig .tc .vmem S2x2x64 .f32).view.loc (c : Thread nD τ))) :
    (slotPts c k fullShare f : sProp 𝕄)
      = iprop(slotPts c k (Transfers.shareDrop fullShare 16) f
          ∗ bigSep Finset.univ fun i : Fin 16 => slotPts c k (Transfers.shareTok fullShare 16 i) f) :=
  eq_of_biEntails (Transfers.pointsTo_toks fullShare 16)

/-- The table with slot 0 at the remainder of its share and every other slot in full is the whole table at that
    remainder beside the 16 parts of the share of each other slot. -/
theorem table_split_eq (c : Dev nD) (f : Buf (Elt F) ((c : Thread nD τ).loc cc0_scratch0)) :
    (iprop(slotPts c 0 (Transfers.shareDrop fullShare 16) f ∗ bigSep others fun k => slotPts c k fullShare f) : sProp 𝕄)
      = iprop((((c : Thread nD τ).loc cc0_scratch0) ↦[Finset.univ]{Transfers.shareDrop fullShare 16} f)
          ∗ bigSep others fun k => bigSep Finset.univ fun i : Fin 16 => slotPts c k (Transfers.shareTok fullShare 16 i) f) := by
  rw [scr_slots_eq c (Transfers.shareDrop fullShare 16) f,
    bigSep_univ_at (fun k : Fin 16 => slotPts c k (Transfers.shareDrop fullShare 16) f) 0,
    bigSep_congr (s := others) (Φ := fun k => slotPts c k fullShare f)
      (Ψ := fun k => iprop(slotPts c k (Transfers.shareDrop fullShare 16) f
          ∗ bigSep Finset.univ fun i : Fin 16 => slotPts c k (Transfers.shareTok fullShare 16 i) f))
      (fun k _ => slot_toks_eq c k f),
    bigSep_sep']
  exact (eq_of_biEntails sep_assoc).symm

theorem table_for_load (c : Dev nD) :
    iprop(slotPts c 0 (Transfers.shareDrop fullShare 16) (gathered m ρ c) ∗ bigSep others fun k => slotPts c k fullShare (gathered m ρ c))
      ⊢ (iprop((((c : Thread nD τ).loc cc0_scratch0) ↦[Finset.univ]{Transfers.shareDrop fullShare 16} (gathered m ρ c))
          ∗ bigSep others fun k => bigSep Finset.univ fun i : Fin 16 => slotPts c k (Transfers.shareTok fullShare 16 i) (gathered m ρ c)) : sProp 𝕄) :=
  Entails.of_eq (table_split_eq c (gathered m ρ c))

theorem table_back (c : Dev nD) :
    (iprop((((c : Thread nD τ).loc cc0_scratch0) ↦[Finset.univ]{Transfers.shareDrop fullShare 16} (gathered m ρ c))
        ∗ (bigSep others fun k => bigSep Finset.univ fun i : Fin 16 => slotPts c k (Transfers.shareTok fullShare 16 i) (gathered m ρ c))
        ∗ slotPts c 0 (Transfers.shareTok fullShare 16 0) (gathered m ρ c)
        ∗ bigSep others fun k => slotPts c 0 (Transfers.shareTok fullShare 16 k) (gathered m ρ c)) : sProp 𝕄)
      ⊢ scrPts c (gathered m ρ c) := by
  rw [scrPts_eq, scr_slots_eq c fullShare (gathered m ρ c),
    bigSep_univ_at (fun k : Fin 16 => slotPts c k fullShare (gathered m ρ c)) 0,
    slot_toks_eq c 0 (gathered m ρ c),
    bigSep_univ_at (fun i : Fin 16 => slotPts c 0 (Transfers.shareTok fullShare 16 i) (gathered m ρ c)) 0]
  iintro ⟨HP, HD, HT0, HTT⟩
  ihave H := (Entails.of_eq (table_split_eq c (gathered m ρ c)).symm) $$ [HP HD]
  · isplitl [HP]
    · iexact HP
    · iexact HD
  icases H with ⟨H0, HO⟩
  isplitr [HO]
  · isplitl [H0]
    · iexact H0
    · isplitl [HT0]
      · iexact HT0
      · iexact HTT
  · iexact HO

/-! ## A device's counters, listed two ways -/

/-- The 32 counters of a device's own closed at zero, from the 15 used pairs and the unused pair. -/
theorem own_sems (c : Dev nD) :
    (iprop((bigSepL L15 fun j => iprop(semVal (sendCell c j) 0 ∗ semVal (recvCell c j) 0))
        ∗ semVal (sendCell c 0) 0 ∗ semVal (recvCell c 0) 0) : sProp 𝕄)
      ⊢ (bigSep Finset.univ fun i : Fin 32 => semVal ((c : Thread nD τ), osem i) 0 : sProp 𝕄) := by
  rw [bigSep_fin32, ← bigSep_others_list, bigSep_sep']
  simp only [osem_iS, osem_iR]
  rw [bigSep_univ_at (fun k : Fin 16 => (semVal ((c : Thread nD τ), SemLoc.dma (sendS k)) 0 : sProp 𝕄)) 0,
    bigSep_univ_at (fun k : Fin 16 => (semVal ((c : Thread nD τ), SemLoc.dma (recvS k)) 0 : sProp 𝕄)) 0]
  iintro ⟨⟨HS, HR⟩, HS0, HR0⟩
  isplitl [HS0 HS]
  · isplitl [HS0]
    · iexact HS0
    · iexact HS
  · isplitl [HR0]
    · iexact HR0
    · iexact HR

/-- A device's positions on its 33 counters: the entry counter, the departure counters (the unused one first), the
    arrival counters (the unused one first). -/
theorem atPos_sorted (c : Dev nD) :
    (bigSep Finset.univ fun j : Fin 33 => atPos ER (kcell (c, j)) 0 ∅ 0 : sProp 𝕄)
      = iprop(atPos ER (barCell c) 0 ∅ 0
          ∗ (atPos ER (sendCell c 0) 0 ∅ 0 ∗ bigSep others fun k => atPos ER (sendCell c k) 0 ∅ 0)
          ∗ (atPos ER (recvCell c 0) 0 ∅ 0 ∗ bigSep others fun k => atPos ER (recvCell c k) 0 ∅ 0)) := by
  rw [bigSep_fin33]
  simp only [kcell_send, kcell_recv]
  rw [bigSep_univ_at (fun k : Fin 16 => (atPos ER (sendCell c k) 0 ∅ 0 : sProp 𝕄)) 0,
    bigSep_univ_at (fun k : Fin 16 => (atPos ER (recvCell c k) 0 ∅ 0 : sProp 𝕄)) 0]
  rfl

/-- info: 'Cert.KernelRun.table_for_load' depends on axioms: [propext, Classical.choice, Quot.sound] -/
#guard_msgs in #print axioms table_for_load

/-- info: 'Cert.KernelRun.table_back' depends on axioms: [propext, Classical.choice, Quot.sound] -/
#guard_msgs in #print axioms table_back

/-- info: 'Cert.KernelRun.own_sems' depends on axioms: [propext, Classical.choice, Quot.sound] -/
#guard_msgs in #print axioms own_sems

/-- info: 'Cert.KernelRun.atPos_sorted' depends on axioms: [propext, Classical.choice, Quot.sound] -/
#guard_msgs in #print axioms atPos_sorted

end Cert.KernelRun

end
-- ==== Proof.KernelRun.BodyEnd.lean ====
/-
  The end of one device's body: from the point where the 15 arrivals have been waited for to the body's post.

  The device loads its whole table through the share of it that no copy reads, with the matrix and the result's
  buffer, and stores the result; it then waits for the 15 departures, which hand back the shares of slot 0 the
  copies read through, so that the table is held whole again at the gathered sums; and it closes its departure
  and arrival counters at zero.
-/
import proofs.«900424_g7700000000000425_dist_diff_noisepred_hshard_i_b2_h64_w64_c64_v7x_i16_f32_1_alg».proof.Proof.KernelRun.Stages
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.BodyGlue
import proofs.«900424_g7700000000000425_dist_diff_noisepred_hshard_i_b2_h64_w64_c64_v7x_i16_f32_1_alg».proof.Proof.KernelRun.Reindex
import proofs.«900424_g7700000000000425_dist_diff_noisepred_hshard_i_b2_h64_w64_c64_v7x_i16_f32_1_alg».proof.Proof.KernelRun.PhaseWait
import proofs.«900424_g7700000000000425_dist_diff_noisepred_hshard_i_b2_h64_w64_c64_v7x_i16_f32_1_alg».proof.Proof.KernelRun.BodyLocal
import proofs.«900424_g7700000000000425_dist_diff_noisepred_hshard_i_b2_h64_w64_c64_v7x_i16_f32_1_alg».proof.Proof.KernelRun.SlotsGlue

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's end, from the second cut to the body's post. -/
theorem seg_end (K : Dev nD × Fin 33 → ℕ) (c : Dev nD) (Q : PUnit → sProp 𝕄) :
    iprop(cut2 m ρ K c ∗ (bodyPost m ρ c -∗ Q ⟨⟩))
      ⊢ wp frame (wpE (defs₀ (F := F)) 𝒱₀ (c : Thread nD τ) none) Set.univ (modelEnd c (xstg m ρ c)) Q := by
  unfold cut2 xferPos stagedIn modelEnd
  iintro ⟨⟨#Hrec, ⟨%W, HL⟩, ⟨Hs0, Hr0, Hsp, Hrp⟩, Hcred, Hq0, Ht0, Hslots, ⟨Hx, Hw, Ho⟩⟩, HQ⟩
  ihave Ht := (table_for_load m ρ c) $$ [Hq0 Hslots]
  · isplitl [Hq0]; · iexact Hq0
    iexact Hslots
  icases Ht with ⟨Htab, Htoks⟩
  iapply (wp_compute m ρ c (Transfers.shareDrop fullShare 16) (waits wS L15 (.ret ⟨⟩)) Q) $$ [Htab Hw Ho]
  · isplitl [Htab]; · iexact Htab
    isplitl [Hw]; · iexact Hw
    iexact Ho
  iintro ⟨Htab, Hw, Ho⟩
  ihave Hin := (Entails.of_eq (pair_list (fun k => cred (tallyAt (sendCell c k) () N)) (fun k => atPos ER (sendCell c k) 0 ∅ 0))) $$ [Hcred Hsp]
  · isplitl [Hcred]; · iexact Hcred
    iexact Hsp
  iapply (wp_waits_send m ρ K c wS (fun j Kk => by rw [wpE_waitDma2_eq, slot_credit]) (.ret ⟨⟩) Q L15 L15_ne_zero W) $$ [HL Hin]
  · isplitr; · iexact Hrec
    isplitl [HL]; · iexact HL
    iexact Hin
  iintro %W' ⟨HL, Hout⟩
  ihave Hout' := (Entails.of_eq (pair_list (fun k => atPos ER (sendCell c k) 1 ∅ 0) (fun k => sendPay m ρ c k)).symm) $$ Hout
  icases Hout' with ⟨Hsp1, Hpays⟩
  unfold sendPay
  ihave Hscr := (table_back m ρ c) $$ [Htab Htoks Ht0 Hpays]
  · isplitl [Htab]; · iexact Htab
    isplitl [Htoks]; · iexact Htoks
    isplitl [Ht0]; · iexact Ht0
    iexact Hpays
  ihave Hpos := (Entails.of_eq (pair_list (fun k => atPos ER (sendCell c k) 1 ∅ 0) (fun k => atPos ER (recvCell c k) 1 ∅ 0))) $$ [Hsp1 Hrp]
  · isplitl [Hsp1]; · iexact Hsp1
    iexact Hrp
  rw [wp_ret]
  imod (close_xfer m ρ K c L15) $$ [Hpos] with Hx15
  · isplitr; · iexact Hrec
    iexact Hpos
  imod (close_idle m ρ K c) $$ [Hs0 Hr0] with Hx0
  · isplitr; · iexact Hrec
    isplitl [Hs0]; · iexact Hs0
    iexact Hr0
  ihave Hsems := (own_sems (F := F) c) $$ [Hx15 Hx0]
  · isplitl [Hx15]; · iexact Hx15
    iexact Hx0
  imodintro
  iapply HQ
  unfold bodyPost Φ₁ Dat.owesAt Pipeline.owesWithin
  rw [show (dats m ρ 0 c).owed t₀.succ = 0 from rfl]
  isplitl [Hscr Hsems]
  · isplitl [Hscr]; · iexact Hscr
    iexact Hsems
  isplitl [HL]
  · iexists W'
    isplitr; · ipureintro; exact fun _ _ => Or.inl trivial
    iexact HL
  isplitl [Hx]; · iexact Hx
  isplitl [Hw]; · iexact Hw
  iexact Ho

/-- info: 'Cert.KernelRun.seg_end' depends on axioms: [propext, Classical.choice, Quot.sound] -/
#guard_msgs in #print axioms seg_end

end Cert.KernelRun

end
-- ==== Proof.KernelRun.Body.lean ====
/-
  One device's body, whole: the printed body is the model, the model runs in three segments (up to the
  wait for the others' entry units; the copies and the waits for the arrivals; the result and the waits for
  the departures), and the library's obligation for the body is that run, started from what the launch
  hands over: the ghost state, the launch credit, the levels, the table, the units owed and the three
  staged arrays.
-/
import proofs.«900424_g7700000000000425_dist_diff_noisepred_hshard_i_b2_h64_w64_c64_v7x_i16_f32_1_alg».proof.Proof.KernelRun.Stages
import proofs.«900424_g7700000000000425_dist_diff_noisepred_hshard_i_b2_h64_w64_c64_v7x_i16_f32_1_alg».proof.Proof.KernelRun.Model
import proofs.«900424_g7700000000000425_dist_diff_noisepred_hshard_i_b2_h64_w64_c64_v7x_i16_f32_1_alg».proof.Proof.KernelRun.Sched
import proofs.«900424_g7700000000000425_dist_diff_noisepred_hshard_i_b2_h64_w64_c64_v7x_i16_f32_1_alg».proof.Proof.KernelRun.Ghost
import proofs.«900424_g7700000000000425_dist_diff_noisepred_hshard_i_b2_h64_w64_c64_v7x_i16_f32_1_alg».proof.Proof.KernelRun.BodyModel
import proofs.«900424_g7700000000000425_dist_diff_noisepred_hshard_i_b2_h64_w64_c64_v7x_i16_f32_1_alg».proof.Proof.KernelRun.BodyStart
import proofs.«900424_g7700000000000425_dist_diff_noisepred_hshard_i_b2_h64_w64_c64_v7x_i16_f32_1_alg».proof.Proof.KernelRun.BodyMid
import proofs.«900424_g7700000000000425_dist_diff_noisepred_hshard_i_b2_h64_w64_c64_v7x_i16_f32_1_alg».proof.Proof.KernelRun.BodyEnd

noncomputable section

namespace Cert.KernelRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body from its three segments -/

/-- The body's proof: the printed body is the model, and the model runs in three segments, each handing the next what
    it holds at the cut between them. -/
theorem sound_body (K : Dev nD × Fin 33 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) Kt := by
  refine BIBase.Entails.trans ?_ (wp_body_of_model c Kt)
  iintro ⟨Hpre, Hk⟩
  iapply (seg_start m ρ K c Kt)
  isplitl [Hpre]
  · iexact Hpre
  iintro H1
  iapply (seg_mid m ρ K c Kt)
  isplitl [H1]
  · iexact H1
  iintro H2
  iapply (seg_end m ρ K c Kt)
  isplitl [H2]
  · iexact H2
  iexact Hk

/-! ## The library's body obligation -/

omit [FloatOps F] in
/-- A whole buffer owned in full at contents X: some contents equal to X, held in full. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on device `c`. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hcr, Hlv⟩, Hscr⟩, Ho, Hx, Hw, Hout⟩
  iapply (sound_body m ρ K c fun _ => bodyPost m ρ c)
  unfold bodyPre
  isplitr []
  · isplitl [Hg Hcr Hlv Hscr]
    · isplitl [Hg]
      · iexact Hg
      isplitl [Hcr]
      · iexact Hcr
      isplitl [Hlv]
      · iexact Hlv
      iexact Hscr
    isplitl [Ho]
    · iexact Ho
    isplitl [Hx]
    · iexact Hx
    isplitl [Hw]
    · iexact Hw
    iexact Hout
  · iintro H; iexact H

/-- info: 'Cert.KernelRun.sound_body' depends on axioms: [propext, Classical.choice, Quot.sound] -/
#guard_msgs in #print axioms sound_body

/-- info: 'Cert.KernelRun.body_obligation' depends on axioms: [propext, Classical.choice, Quot.sound] -/
#guard_msgs in #print axioms body_obligation

end Cert.KernelRun

end
-- ==== Proof.RefTerm.lean ====
/-
  The reference's result as one term of its two argument arrays: its host operations composed, stage by
  stage and in the program's order.  The mean of each channel is the sum over the two middle axes divided
  by 65536; the variance is computed by a called function (the sum of squared deviations divided by
  65536 - 0, kept when that divisor is positive); then the normalisation by the square root, the
  activation t / (1 + e^(-t)), and the contraction with the matrix between two changes of shape.
-/
import proofs.«900424_g7700000000000425_dist_diff_noisepred_hshard_i_b2_h64_w64_c64_v7x_i16_f32_1_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Cert.ReferenceIdeal.Facts]

/-- The count 65536 as a scalar, kept as its binary word. -/
def cnt : FVec F S_ .f32 := constant S_ .f32 0x47800000#32

/-- The zero scalar the sums start from. -/
def zero : FVec F S_ .f32 := constant S_ .f32 0x00000000#32

/-- The sum over the two middle axes, one value per batch entry and channel, kept with unit middle axes. -/
def sum4 (y : FVec F S2x1024x64x64 .f32) : FVec F S2x1x1x64 .f32 :=
  broadcastInDim S2x1x1x64 ![0, 3] bcast_S2x64_S2x1x1x64_0_3 (Host.reduceAdd y (zero (F := F)) reducesTo_S2x1024x64x64_S2x64_d1_2 h_S_)

/-- The mean of each channel: the sum divided by the count. -/
def mean4 (x : FVec F S2x1024x64x64 .f32) : FVec F S2x1x1x64 .f32 :=
  Host.divf (sum4 x) (broadcastInDim S2x1x1x64 ![] bcast_S_S2x1x1x64 (cnt (F := F)))

/-- The deviation from the mean. -/
def centred (x : FVec F S2x1024x64x64 .f32) : FVec F S2x1024x64x64 .f32 :=
  subf x (broadcastInDim S2x1024x64x64 ![0, 1, 2, 3] bcast_S2x1x1x64_S2x1024x64x64_0_1_2_3 (mean4 x))

/-- The divisor of the variance: the count minus the integer zero converted to a float. -/
def divisor : FVec F S_ .f32 := subf (cnt (F := F)) (sitofp .f32 (constantI S_ 32 0#32))

/-- The variance: the sum of squared deviations over the divisor where the divisor is positive, the
    not-a-number word elsewhere. -/
def var4 (x : FVec F S2x1024x64x64 .f32) : FVec F S2x1x1x64 .f32 :=
  select (broadcastInDim S2x1x1x64 ![] bcast_S_S2x1x1x64 (cmpf (F := F) .ogt (divisor (F := F)) (zero (F := F))))
    (Host.divf (sum4 (mulf (centred x) (centred x))) (broadcastInDim S2x1x1x64 ![] bcast_S_S2x1x1x64 (divisor (F := F))))
    (broadcastInDim S2x1x1x64 ![] bcast_S_S2x1x1x64 (id (constant S_ .f32 0x7FC00000#32)))

/-- The normalised value: the deviation over the root of the variance plus the small constant. -/
def normed (x : FVec F S2x1024x64x64 .f32) : FVec F S2x1024x64x64 .f32 :=
  Host.divf (centred x)
    (broadcastInDim S2x1024x64x64 ![0, 1, 2, 3] bcast_S2x1x1x64_S2x1024x64x64_0_1_2_3
      (Host.sqrt (addf (var4 x) (broadcastInDim S2x1x1x64 ![] bcast_S_S2x1x1x64 (constant S_ .f32 0x3727C5AC#32)))))

/-- The activation t / (1 + e^(-t)). -/
def act (x : FVec F S2x1024x64x64 .f32) : FVec F S2x1024x64x64 .f32 :=
  Host.divf (normed x) (addf (broadcastInDim S2x1024x64x64 ![] bcast_S_S2x1024x64x64 (constant S_ .f32 0x3F800000#32)) (Host.exp (Host.negf (normed x))))

/-- The result: the activations as 131072 rows of 64 channels, contracted with the matrix, laid back out. -/
def out (x : FVec F S2x1024x64x64 .f32) (w : FVec F S64x128 .f32) : FVec F S2x1024x64x128 .f32 :=
  shapeCast S2x1024x64x128
    (Host.dotGeneral dot_S131072x64_S64x128_S131072x128_1_0_0_1_n_n none
      (shapeCast S131072x64 (act x) shapeCasts_S2x1024x64x64_S131072x64) w)
    shapeCasts_S131072x128_S2x1024x64x128

end Cert.ReferenceIdeal.RefTerm

end
-- ==== Proof.RefRun.lean ====
/-
  The reference program's run.  Its @main calls a function computing the variance, which itself calls a
  function choosing between two arrays; written out at the call sites the program is one straight line of
  47 host operations, each writing one buffer.  Run from any memory, the line ends with the result buffer
  holding the composed term `RefTerm.out` of the two argument arrays, and the arguments as they were.
-/
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.RefTerm
import Idealize.ShloMosaic.Lib.StableHlo.Run
import proofs.«900424_g7700000000000425_dist_diff_noisepred_hshard_i_b2_h64_w64_c64_v7x_i16_f32_1_alg».proof.Defs
import proofs.«900424_g7700000000000425_dist_diff_noisepred_hshard_i_b2_h64_w64_c64_v7x_i16_f32_1_alg».proof.Proof.Gen.Pre_finite_inputs_ReferenceIdeal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's operations in order, the two calls written out: seven of @main's own (the channel sums, the count,
    the mean, the integer zero), then the variance function's twenty over its own buffers (the mean once more,
    the squared deviations and their sums, the divisor `65536 - 0` and its sign test, the not-a-number word),
    the chooser's three (the word converted to its own type, broadcast, the selection), and @main's last
    seventeen (the deviation, the root, the quotient, the activation, the contraction between two reshapes). -/
abbrev ops : List (HloOp τ sig (Elt F)) :=
  [ nullary main_cst (constant S_ .f32 0x00000000#32),
    binary main_arg0 main_cst main_v0 ((fun x v => Host.reduceAdd x v reducesTo_S2x1024x64x64_S2x64_d1_2 h_S_) : (⟨S2x1024x64x64, .f32⟩ : BufTy).Contents (Elt F) → (⟨S_, .f32⟩ : BufTy).Contents (Elt F) → (⟨S2x64, .f32⟩ : BufTy).Contents (Elt F)),
    unary main_v0 main_v1 (broadcastInDim S2x1x1x64 ![0, 3] bcast_S2x64_S2x1x1x64_0_3 : (⟨S2x64, .f32⟩ : BufTy).Contents (Elt F) → (⟨S2x1x1x64, .f32⟩ : BufTy).Contents (Elt F)),
    nullary main_cst_0 (constant S_ .f32 0x47800000#32),
    unary main_cst_0 main_v2 (broadcastInDim S2x1x1x64 ![] bcast_S_S2x1x1x64 : (⟨S_, .f32⟩ : BufTy).Contents (Elt F) → (⟨S2x1x1x64, .f32⟩ : BufTy).Contents (Elt F)),
    binary main_v1 main_v2 main_v3 (Host.divf : (⟨S2x1x1x64, .f32⟩ : BufTy).Contents (Elt F) → (⟨S2x1x1x64, .f32⟩ : BufTy).Contents (Elt F) → (⟨S2x1x1x64, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x1024x64x64_S2x64_d1_2 h_S_),
    TRef.unary main_call0.v0 main_call0.v1 (broadcastInDim S2x1x1x64 ![0, 3] bcast_S2x64_S2x1x1x64_0_3),
    TRef.nullary main_call0.cst_0 (constant S_ .f32 0x47800000#32),
    TRef.unary main_call0.cst_0 main_call0.v2 (broadcastInDim S2x1x1x64 ![] bcast_S_S2x1x1x64),
    TRef.binary main_call0.v1 main_call0.v2 main_call0.v3 Host.divf,
    TRef.unary main_call0.v3 main_call0.v4 (broadcastInDim S2x1024x64x64 ![0, 1, 2, 3] bcast_S2x1x1x64_S2x1024x64x64_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x1024x64x64_S2x64_d1_2 h_S_),
    TRef.unary main_call0.v9 main_call0.v10 (broadcastInDim S2x1x1x64 ![0, 3] bcast_S2x64_S2x1x1x64_0_3),
    TRef.unary main_call0.v8 main_call0.v11 (broadcastInDim S2x1x1x64 ![] bcast_S_S2x1x1x64),
    TRef.binary main_call0.v10 main_call0.v11 main_call0.v12 Host.divf,
    TRef.nullary main_call0.cst_3 (constant S_ .f32 0x00000000#32),
    TRef.binary main_call0.v8 main_call0.cst_3 main_call0.v13 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S2x1x1x64 ![] bcast_S_S2x1x1x64),
    TRef.ternary main_call0.v13 main_call0.v12 main_call0.call0.v1 main_call0.call0.v2 (fun p a b => select (broadcastInDim S2x1x1x64 ![] bcast_S_S2x1x1x64 p) a b),
    unary main_v3 main_v5 (broadcastInDim S2x1024x64x64 ![0, 1, 2, 3] bcast_S2x1x1x64_S2x1024x64x64_0_1_2_3 : (⟨S2x1x1x64, .f32⟩ : BufTy).Contents (Elt F) → (⟨S2x1024x64x64, .f32⟩ : BufTy).Contents (Elt F)),
    binary main_arg0 main_v5 main_v6 (subf : (⟨S2x1024x64x64, .f32⟩ : BufTy).Contents (Elt F) → (⟨S2x1024x64x64, .f32⟩ : BufTy).Contents (Elt F) → (⟨S2x1024x64x64, .f32⟩ : BufTy).Contents (Elt F)),
    nullary main_cst_1 (constant S_ .f32 0x3727C5AC#32),
    unary main_cst_1 main_v7 (broadcastInDim S2x1x1x64 ![] bcast_S_S2x1x1x64 : (⟨S_, .f32⟩ : BufTy).Contents (Elt F) → (⟨S2x1x1x64, .f32⟩ : BufTy).Contents (Elt F)),
    binary main_v4 main_v7 main_v8 (addf : (⟨S2x1x1x64, .f32⟩ : BufTy).Contents (Elt F) → (⟨S2x1x1x64, .f32⟩ : BufTy).Contents (Elt F) → (⟨S2x1x1x64, .f32⟩ : BufTy).Contents (Elt F)),
    unary main_v8 main_v9 (Host.sqrt : (⟨S2x1x1x64, .f32⟩ : BufTy).Contents (Elt F) → (⟨S2x1x1x64, .f32⟩ : BufTy).Contents (Elt F)),
    unary main_v9 main_v10 (broadcastInDim S2x1024x64x64 ![0, 1, 2, 3] bcast_S2x1x1x64_S2x1024x64x64_0_1_2_3 : (⟨S2x1x1x64, .f32⟩ : BufTy).Contents (Elt F) → (⟨S2x1024x64x64, .f32⟩ : BufTy).Contents (Elt F)),
    binary main_v6 main_v10 main_v11 (Host.divf : (⟨S2x1024x64x64, .f32⟩ : BufTy).Contents (Elt F) → (⟨S2x1024x64x64, .f32⟩ : BufTy).Contents (Elt F) → (⟨S2x1024x64x64, .f32⟩ : BufTy).Contents (Elt F)),
    unary main_v11 main_v12 (Host.negf : (⟨S2x1024x64x64, .f32⟩ : BufTy).Contents (Elt F) → (⟨S2x1024x64x64, .f32⟩ : BufTy).Contents (Elt F)),
    unary main_v12 main_v13 (Host.exp : (⟨S2x1024x64x64, .f32⟩ : BufTy).Contents (Elt F) → (⟨S2x1024x64x64, .f32⟩ : BufTy).Contents (Elt F)),
    nullary main_cst_2 (constant S_ .f32 0x3F800000#32),
    unary main_cst_2 main_v14 (broadcastInDim S2x1024x64x64 ![] bcast_S_S2x1024x64x64 : (⟨S_, .f32⟩ : BufTy).Contents (Elt F) → (⟨S2x1024x64x64, .f32⟩ : BufTy).Contents (Elt F)),
    binary main_v14 main_v13 main_v15 (addf : (⟨S2x1024x64x64, .f32⟩ : BufTy).Contents (Elt F) → (⟨S2x1024x64x64, .f32⟩ : BufTy).Contents (Elt F) → (⟨S2x1024x64x64, .f32⟩ : BufTy).Contents (Elt F)),
    binary main_v11 main_v15 main_v16 (Host.divf : (⟨S2x1024x64x64, .f32⟩ : BufTy).Contents (Elt F) → (⟨S2x1024x64x64, .f32⟩ : BufTy).Contents (Elt F) → (⟨S2x1024x64x64, .f32⟩ : BufTy).Contents (Elt F)),
    reshape main_v16 main_v17 rfl shapeCasts_S2x1024x64x64_S131072x64,
    binary main_v17 main_arg1 main_v18 ((fun l r => Host.dotGeneral dot_S131072x64_S64x128_S131072x128_1_0_0_1_n_n none l r) : (⟨S131072x64, .f32⟩ : BufTy).Contents (Elt F) → (⟨S64x128, .f32⟩ : BufTy).Contents (Elt F) → (⟨S131072x128, .f32⟩ : BufTy).Contents (Elt F)),
    reshape main_v18 main_v19 rfl shapeCasts_S131072x128_S2x1024x64x128 ]

-- forty-seven binds re-associated: the rewrite under the chain recurses once per statement
set_option maxRecDepth 2048 in
/-- @main is that straight line: the functions' bodies unfolded at their calls, both sides are one chain of
    steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., binary_bufs_sub .., reshape_bufs_sub .., binary_bufs_sub .., reshape_bufs_sub ..⟩

attribute [local irreducible] Host.reduceAdd Host.divf Host.sqrt Host.exp Host.negf broadcastInDim shapeCast in
set_option maxRecDepth 8192 in
set_option maxHeartbeats 400000 in
/-- The fold at the result buffer is `RefTerm.out` of the fold's start at the two argument buffers: the fold
    unrolled, each operation either writes the buffer read or leaves it, and the typed references' casts are
    the identity at these literal references.  The sums, the quotient, the root, the
    exponential, the broadcasts and the reshapes stay folded meanwhile: the equation never looks inside them. -/
theorem out_eq (V : Valuation τ sig (Elt F)) :
    after ops V (main_v19 : DevRef τ sig)
      = RefTerm.out (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On the one device, for any float values, from any memory with zero counters: every weakly fair execution of
    @main terminates with the result buffer at `RefTerm.out` of the two argument arrays as they were at launch,
    and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = Cert.ReferenceIdeal.RefTerm.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (out_eq _),
      (h c main_arg0).trans (arg0_eq _),
      (h c main_arg1).trans (arg1_eq _)⟩)
    (run_seq scopedRefs_eq scopedSems_eq defs main (fun _ => ops) main_eq (fun _ => ops_sub) m ρ)

/-- The reference's frame: it runs, and its argument arrays end as they began (the run above, forgetting the result). -/
theorem frame : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2) (run (F := Ideal) m ρ)

end Cert.ReferenceIdeal.RefRun

end
-- ==== Proof.AssemblyStaged.lean ====
/-
  What the kernel's body is handed for its two inputs.  Each input's window is the whole array at block
  index zero, so the block read through the window is the array itself: a device's staged block of the
  input is that device's input array, and its staged copy of the matrix is that device's matrix.
-/
import proofs.«900424_g7700000000000425_dist_diff_noisepred_hshard_i_b2_h64_w64_c64_v7x_i16_f32_1_alg».proof.Proof.KernelIdealRun.Proto

noncomputable section

namespace Cert.Assembly

open Cert.KernelIdeal Cert.KernelIdeal.Gen Idealize.ShloMosaic Idealize.ShloMosaic.TcCoe Idealize.SL.Sem
open Idealize.ShloMosaic.ValueIdx
open Cert.KernelIdealRun
open scoped BigOperators

section Staged
variable {F : FTy → Type} [FloatOps F]

/-- A device's staged block of the input is the device's input array: the window is the whole array. -/
theorem xstg_eq (m : (ℓ : Loc nD τ sig) → Buf (Elt F) ℓ) (ρ : Dev nD → PrngReg) (c : Dev nD) :
    xstg (F := F) m ρ c = m ((c : Thread nD τ).loc main_arg0) :=
  Memref.read_access_unit_zero (Elt F) main_arg0 (funext fun a => Nat.zero_mul _) _ _

/-- A device's staged copy of the matrix is the device's matrix. -/
theorem wstg_eq (m : (ℓ : Loc nD τ sig) → Buf (Elt F) ℓ) (ρ : Dev nD → PrngReg) (c : Dev nD) :
    wstg (F := F) m ρ c = m ((c : Thread nD τ).loc main_arg1) :=
  Memref.read_access_unit_zero (Elt F) main_arg1 (funext fun a => Nat.zero_mul _) _ _

end Staged

end Cert.Assembly
end
-- ==== Proof.KernelParts.lean ====
/-
  The kernel's last pure term, cut into named stages: the totals over the 16 slots of the table of partial sums, the
  mean, the reciprocal root of the variance plus ε, the normalised value, the activation, and the contraction with
  the matrix.  The term is the composition of the stages.
-/
import proofs.«900424_g7700000000000425_dist_diff_noisepred_hshard_i_b2_h64_w64_c64_v7x_i16_f32_1_alg».proof.Proof.Gen.KernelIdeal.Skeleton

import Idealize.ShloMosaic.Lib.Pipeline.Value
import Idealize.ShloMosaic.PureOps.Ideal.Laws
import Idealize.ShloMosaic.Lib.ValueIdx

noncomputable section

namespace Cert.KernelValue

open Cert.KernelIdeal Cert.KernelIdeal.Gen Idealize.ShloMosaic Idealize.ShloMosaic.ValueIdx
open scoped BigOperators

variable {F : FTy → Type} [FloatOps F]

/-- The total over the 16 slots of the table's first plane (the slots' sums). -/
def tot0 (st : Vec F S16x2x2x64 .f32) : FVec F S2x64 .f32 :=
  multiReduction .add [0] S2x64
    (shapeCast S16x2x64 (extractStridedSlice S16x1x2x64 ![0, 0, 0, 0] st slices_S16x2x2x64_o0_0_0_0_S16x1x2x64) shapeCasts_S16x1x2x64_S16x2x64)
    0x00000000#32 reduces_S16x2x64_S2x64 (.inl rfl) rfl

/-- The total over the 16 slots of the table's second plane (the slots' sums of squares). -/
def tot1 (st : Vec F S16x2x2x64 .f32) : FVec F S2x64 .f32 :=
  multiReduction .add [0] S2x64
    (shapeCast S16x2x64 (extractStridedSlice S16x1x2x64 ![0, 1, 0, 0] st slices_S16x2x2x64_o0_1_0_0_S16x1x2x64) shapeCasts_S16x1x2x64_S16x2x64)
    0x00000000#32 reduces_S16x2x64_S2x64 (.inl rfl) rfl

/-- The mean: the total divided by the count. -/
def meanV (st : Vec F S16x2x2x64 .f32) : FVec F S2x64 .f32 :=
  divf (tot0 st) (broadcast S2x64 (Scalar.ofBits .f32 0x47800000#32))

/-- The reciprocal root of the variance plus the small constant; the variance is the mean of the squares less the squared mean. -/
def rstdV (st : Vec F S16x2x2x64 .f32) : FVec F S2x64 .f32 :=
  rsqrt (addf (subf (divf (tot1 st) (broadcast S2x64 (Scalar.ofBits .f32 0x47800000#32))) (mulf (meanV st) (meanV st)))
    (broadcast S2x64 (Scalar.ofBits .f32 0x3727C5AC#32)))

/-- The normalised value: the deviation from the mean times the reciprocal root. -/
def normV (v65 : FVec F S2x64x64x64 .f32) (st : Vec F S16x2x2x64 .f32) : FVec F S2x64x64x64 .f32 :=
  mulf (subf v65 (broadcastTo S2x64x64x64 (shapeCast S2x1x1x64 (meanV st) shapeCasts_S2x64_S2x1x1x64) broadcasts_S2x1x1x64_S2x64x64x64))
    (broadcastTo S2x64x64x64 (shapeCast S2x1x1x64 (rstdV st) shapeCasts_S2x64_S2x1x1x64) broadcasts_S2x1x1x64_S2x64x64x64)

/-- The activation t · (1 / (1 + e^(0 − t))) of a value t. -/
def actOf (t : FVec F S2x64x64x64 .f32) : FVec F S2x64x64x64 .f32 :=
  mulf t (divf (broadcast S2x64x64x64 (Scalar.ofBits .f32 0x3F800000#32))
    (addf (broadcast S2x64x64x64 (Scalar.ofBits .f32 0x3F800000#32))
      (exp (subf (broadcast S2x64x64x64 (Scalar.ofBits .f32 0x00000000#32)) t))))

/-- The contraction of 8192 rows of 64 channels with the 64 × 128 matrix, laid out as 2 × 64 × 64 × 128. -/
def contract (a : FVec F S2x64x64x64 .f32) (w : Vec F S64x128 .f32) : FVec F S2x64x64x128 .f32 :=
  shapeCast S2x64x64x128
    (matmul dot_S8192x64_S64x128_S8192x128_1_0_0_1_n_n none (shapeCast S8192x64 a shapeCasts_S2x64x64x64_S8192x64)
      (shapeCast S64x128 w shapeCasts_S64x128_S64x128) (constant S8192x128 .f32 0x00000000#32))
    shapeCasts_S8192x128_S2x64x64x128

/-- The kernel's last pure term is the contraction of the activation of the normalised value. -/
theorem pay6_eq (v65 : FVec F S2x64x64x64 .f32) (st : Vec F S16x2x2x64 .f32) (w : Vec F S64x128 .f32) :
    k0_pay6 v65 st w = contract (actOf (normV v65 st)) w := rfl

end Cert.KernelValue
end
-- ==== Proof.Spec.lean ====
/-
  The function both programs compute, over the reals.

  The input is an array x[b, h, v, ch] (2 × 1024 × 64 × 64) and a matrix w[ch, o] (64 × 128).  For each
  batch entry b and channel ch the 1024·64 = 65536 values x[b, ·, ·, ch] are normalised to mean zero and
  variance one (the variance taken as the mean squared deviation, a positive ε added under the root), the
  normalised value t is replaced by t / (1 + e^(-t)), and the channels are contracted with w.

  The devices cut the axis h into 16 blocks of 64 consecutive rows: row r of block c is row 64·c + r.
  Each device adds up its own rows; slot k of a device's table of partial sums holds the sums of the
  device k places before it on the ring of 16.
-/
import Idealize.ShloMosaic.PureOps.Ideal
import Idealize.ShloMosaic.Lib.ValueIdx

noncomputable section

namespace Cert.Spec

open scoped BigOperators

/-- Row `r` of block `c` of the axis of 1024 rows cut into 16 blocks of 64. -/
def rowOf (c : Fin 16) (r : Fin 64) : Fin 1024 := ⟨c.val * 64 + r.val, by have := c.isLt; have := r.isLt; omega⟩

/-- The device whose partial sums land in slot `k` of device `c`: `k` places before `c` on the ring. -/
def srcDev (c k : Fin 16) : Fin 16 := ⟨(c.val + 16 - k.val) % 16, Nat.mod_lt _ (by decide)⟩

theorem srcDev_zero (c : Fin 16) : srcDev c 0 = c := by revert c; decide

/-- Going `k` places on from the device `k` places before `c` comes back to `c`. -/
theorem srcDev_add (c k : Fin 16) : ((srcDev c k).val + k.val) % 16 = c.val := by revert c k; decide

/-- For a fixed device, the slots name every device exactly once. -/
theorem srcDev_bijective (c : Fin 16) : Function.Bijective (srcDev c) := by revert c; decide

/-- The small constant under the root: the binary32 number nearest to 10⁻⁵, which is 10995116 · 2⁻⁴⁰. -/
def eps : ℝ := 10995116 / 2 ^ 40

theorem eps_pos : 0 < eps := by unfold eps; positivity

variable (x : Fin 2 → Fin 1024 → Fin 64 → Fin 64 → ℝ) (w : Fin 64 → Fin 128 → ℝ) (ε : ℝ)

/-- One block's sum of a channel. -/
def blockSum (d : Fin 16) (b : Fin 2) (ch : Fin 64) : ℝ := ∑ r : Fin 64, ∑ v : Fin 64, x b (rowOf d r) v ch

/-- One block's sum of squares of a channel. -/
def blockSumSq (d : Fin 16) (b : Fin 2) (ch : Fin 64) : ℝ := ∑ r : Fin 64, ∑ v : Fin 64, x b (rowOf d r) v ch * x b (rowOf d r) v ch

/-- The mean of a channel over all 65536 positions. -/
def mean (b : Fin 2) (ch : Fin 64) : ℝ := (∑ h : Fin 1024, ∑ v : Fin 64, x b h v ch) / 65536

/-- The variance of a channel: the mean squared deviation from the mean. -/
def var (b : Fin 2) (ch : Fin 64) : ℝ := (∑ h : Fin 1024, ∑ v : Fin 64, (x b h v ch - mean x b ch) * (x b h v ch - mean x b ch)) / 65536

/-- The normalised value. -/
def normed (b : Fin 2) (h : Fin 1024) (v : Fin 64) (ch : Fin 64) : ℝ := (x b h v ch - mean x b ch) / Real.sqrt (var x b ch + ε)

/-- The activation t / (1 + e^(-t)) of the normalised value. -/
def act (b : Fin 2) (h : Fin 1024) (v : Fin 64) (ch : Fin 64) : ℝ := normed x ε b h v ch / (1 + Real.exp (-(normed x ε b h v ch)))

/-- The result: the activations contracted with the matrix over the channels. -/
def out (b : Fin 2) (h : Fin 1024) (v : Fin 64) (o : Fin 128) : ℝ := ∑ ch : Fin 64, act x ε b h v ch * w ch o

end Cert.Spec

end
-- ==== Proof.LibBatchNorm.lean ====
/-
  General facts for a per-column normalisation stated over the extended reals.

  * The coercion of the reals into the extended reals commutes with finite sums.
  * For finitely many reals y i with n = the number of them and m = (∑ y) / n, the mean of the squared
    deviations (∑ (y i − m)²) / n equals the mean of the squares minus the squared mean, (∑ y i²) / n − m².
    Division is spelled as multiplication by 1 / n, the form a division by a nonzero real takes on the
    extended reals.
  * The mean of the squared deviations is nonnegative.
  * The reciprocal square root of a positive real is a real.
-/
import Idealize.ShloMosaic.PureOps.Ideal

namespace Cert.LibBatchNorm

open Idealize.ShloMosaic
open scoped BigOperators

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The mean of the squared deviations from the mean is the mean of the squares minus the squared mean:
    with m = (∑ y) · (1/n) and n the number of terms, (∑ (y i − m)²) · (1/n) = (∑ y i²) · (1/n) − m². -/
theorem mean_sq_dev {ι : Type*} [Fintype ι] (y : ι → ℝ) (n : ℝ) (hn : n ≠ 0)
    (hcard : (Fintype.card ι : ℝ) = n) :
    (∑ i, (y i - (∑ j, y j) * (1 / n)) * (y i - (∑ j, y j) * (1 / n))) * (1 / n)
      = (∑ i, y i * y i) * (1 / n) - ((∑ j, y j) * (1 / n)) * ((∑ j, y j) * (1 / n)) := by
  generalize hm : (∑ j, y j) * (1 / n) = m
  have h1 : ∑ i, (y i - m) * (y i - m) = (∑ i, y i * y i) - 2 * m * (∑ i, y i) + n * (m * m) := by
    have h : ∀ i, (y i - m) * (y i - m) = y i * y i - 2 * m * y i + m * m := fun i => by ring
    simp only [h, Finset.sum_add_distrib, Finset.sum_sub_distrib, ← Finset.mul_sum, Finset.sum_const,
      Finset.card_univ, nsmul_eq_mul, hcard]
    ring
  rw [h1, ← hm]
  field_simp
  ring

/-- The mean of the squared deviations is nonnegative when the divisor is positive. -/
theorem mean_sq_dev_nonneg {ι : Type*} [Fintype ι] (y : ι → ℝ) (m n : ℝ) (hn : 0 < n) :
    0 ≤ (∑ i, (y i - m) * (y i - m)) * (1 / n) :=
  mul_nonneg (Finset.sum_nonneg fun i _ => mul_self_nonneg _) (by positivity)

/-- The reciprocal square root of a positive real is the real 1 / √r. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

end Cert.LibBatchNorm
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.KernelStats.lean ====
/-
  The two partial sums a device forms from its own block, read at an index over the extended reals.

  The block y[b, r, v, ch] (2 × 64 × 64 × 64) is viewed as 2 × 4096 × 64, row p = 64·r + v, and summed over the
  4096 rows: once as it stands and once squared.  With every entry a real, the sum at (b, ch) is the real
  Σ_r Σ_v y[b, r, v, ch], and the sum of squares is Σ_r Σ_v y[b, r, v, ch]².
-/
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.LibBlockSum
import Idealize.ShloMosaic.Lib.Pipeline.Value
import Idealize.ShloMosaic.PureOps.Ideal.Laws
import Idealize.ShloMosaic.Lib.ValueIdx

noncomputable section

namespace Cert.KernelValue

open Cert.KernelIdeal Cert.KernelIdeal.Gen Idealize.ShloMosaic Idealize.ShloMosaic.ValueIdx
open scoped BigOperators
/-- The block seen as 2 × 4096 × 64: row p = 64·r + v of the 4096 is position (r, v) of the 64 × 64. -/
theorem pay2_apply (xc : Vec Ideal S2x64x64x64 .f32) (b : Fin 2) (r v ch : Fin 64) (p : Fin 4096)
    (hp : p.val = 64 * r.val + v.val) :
    k0_pay2 (F := Ideal) xc (ix3 b p ch) = xc (ix4 b r v ch) := by
  unfold k0_pay2 k0_pay1
  rw [shapeCast_self]
  refine shapeCast_apply _ _ (ix3 b p ch) (ix4 b r v ch) ?_
  rw [Shape.rowMajor_val_three, Shape.rowMajor_val_four]
  show ((b.val * 64 + r.val) * 64 + v.val) * 64 + ch.val = (b.val * 4096 + p.val) * 64 + ch.val
  omega

/-- The sum over the 4096 rows as the double sum over the 64 × 64 positions. -/
theorem sum_rows (g : Fin 4096 → EReal) :
    ∑ p : Fin 4096, g p = ∑ r : Fin 64, ∑ v : Fin 64, g ⟨64 * r.val + v.val, Cert.LibBlockSum.lt_blocks r.isLt v.isLt⟩ :=
  (Cert.LibBlockSum.sum_blocks 64 64 g).symm

theorem red1_apply (src : FVec Ideal S2x4096x64 .f32) (hacc : (0x00000000#32 : BitVec 32) = 0x00000000#32) (b : Fin 2) (ch : Fin 64) :
    multiReduction .add [1] S2x64 src 0x00000000#32 reduces_S2x4096x64_S2x64 (.inl rfl) hacc (ix2 b ch)
      = ∑ p : Fin 4096, src (ix3 b p ch) := by
  refine (Ideal.multiReduction_add_single src 0x00000000#32 reduces_S2x4096x64_S2x64 (.inl rfl) hacc (ix2 b ch)).trans ?_
  refine Finset.sum_congr rfl fun p _ => congrArg src ?_
  funext a
  match a with
  | ⟨0, _⟩ => rfl
  | ⟨1, _⟩ => rfl
  | ⟨2, _⟩ => rfl

theorem stats_sum (xc : Vec Ideal S2x64x64x64 .f32) (y : Fin 2 → Fin 64 → Fin 64 → Fin 64 → ℝ)
    (hxc : ∀ b r v ch, xc (ix4 b r v ch) = ((y b r v ch : ℝ) : EReal)) (b : Fin 2) (ch : Fin 64) :
    k0_pay3 (F := Ideal) xc (ix4 (0 : Fin 1) (0 : Fin 1) b ch) = ((∑ r : Fin 64, ∑ v : Fin 64, y b r v ch : ℝ) : EReal) := by
  unfold k0_pay3
  refine (shapeCast_apply _ _ (ix4 (0 : Fin 1) (0 : Fin 1) b ch) (ix2 b ch) ?_).trans ?_
  · rw [Shape.rowMajor_val_two, Shape.rowMajor_val_four]
    show b.val * 64 + ch.val = (((0 : Fin 1).val * 1 + (0 : Fin 1).val) * 2 + b.val) * 64 + ch.val
    simp
  rw [red1_apply, sum_rows, Cert.LibBatchNorm.coe_sum]
  refine Finset.sum_congr rfl fun r _ => ?_
  rw [Cert.LibBatchNorm.coe_sum]
  refine Finset.sum_congr rfl fun v _ => ?_
  rw [pay2_apply xc b r v ch _ rfl, hxc]

theorem stats_sumsq (xc : Vec Ideal S2x64x64x64 .f32) (y : Fin 2 → Fin 64 → Fin 64 → Fin 64 → ℝ)
    (hxc : ∀ b r v ch, xc (ix4 b r v ch) = ((y b r v ch : ℝ) : EReal)) (b : Fin 2) (ch : Fin 64) :
    k0_pay5 (F := Ideal) (k0_pay4 (F := Ideal) xc) (ix4 (0 : Fin 1) (0 : Fin 1) b ch)
      = ((∑ r : Fin 64, ∑ v : Fin 64, y b r v ch * y b r v ch : ℝ) : EReal) := by
  unfold k0_pay5 k0_pay4
  refine (shapeCast_apply _ _ (ix4 (0 : Fin 1) (0 : Fin 1) b ch) (ix2 b ch) ?_).trans ?_
  · rw [Shape.rowMajor_val_two, Shape.rowMajor_val_four]
    show b.val * 64 + ch.val = (((0 : Fin 1).val * 1 + (0 : Fin 1).val) * 2 + b.val) * 64 + ch.val
    simp
  rw [red1_apply, sum_rows, Cert.LibBatchNorm.coe_sum]
  refine Finset.sum_congr rfl fun r _ => ?_
  rw [Cert.LibBatchNorm.coe_sum]
  refine Finset.sum_congr rfl fun v _ => ?_
  rw [mulf_apply, pay2_apply xc b r v ch _ rfl, hxc, EReal.coe_mul]

end Cert.KernelValue
end
-- ==== Proof.KernelTotals.lean ====
/-
  The statistics of a channel over the reals, as the devices assemble them.

  The 16 slots of a device's table name every device once, so the total over the slots of the blocks' sums is the sum
  over all 16 blocks, which is the sum over all 1024 rows: row r of block d is row 64·d + r.  With S the sum and Q
  the sum of squares of the 65536 values of a channel, S / 65536 is the mean and Q / 65536 − (S / 65536)² is the mean
  squared deviation, which is nonnegative; so the variance plus ε is positive.
-/
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.LibBlockSum

noncomputable section

namespace Cert.KernelValue

open Cert.Spec
open scoped BigOperators

variable (x : Fin 2 → Fin 1024 → Fin 64 → Fin 64 → ℝ)

/-- A sum over the 1024 rows taken block by block: 16 blocks of 64 consecutive rows. -/
theorem sum_rows_blocks (g : Fin 1024 → ℝ) : ∑ d : Fin 16, ∑ r : Fin 64, g (rowOf d r) = ∑ h : Fin 1024, g h := by
  refine Eq.trans ?_ (Cert.LibBlockSum.sum_blocks 16 64 g)
  refine Finset.sum_congr rfl fun d _ => Finset.sum_congr rfl fun r _ => congrArg g (Fin.ext ?_)
  show d.val * 64 + r.val = 64 * d.val + r.val
  omega

/-- A sum over the slots of a device is the sum over the devices. -/
theorem sum_slots (c : Fin 16) (f : Fin 16 → ℝ) : ∑ k : Fin 16, f (srcDev c k) = ∑ d : Fin 16, f d :=
  (srcDev_bijective c).sum_comp f

/-- The slots' sums add up to the sum over all rows and positions. -/
theorem total_sum (c : Fin 16) (b : Fin 2) (ch : Fin 64) :
    ∑ k : Fin 16, blockSum x (srcDev c k) b ch = ∑ h : Fin 1024, ∑ v : Fin 64, x b h v ch := by
  rw [sum_slots c (fun d => blockSum x d b ch)]
  exact sum_rows_blocks (fun h => ∑ v : Fin 64, x b h v ch)

/-- The slots' sums of squares add up to the sum of squares over all rows and positions. -/
theorem total_sumsq (c : Fin 16) (b : Fin 2) (ch : Fin 64) :
    ∑ k : Fin 16, blockSumSq x (srcDev c k) b ch = ∑ h : Fin 1024, ∑ v : Fin 64, x b h v ch * x b h v ch := by
  rw [sum_slots c (fun d => blockSumSq x d b ch)]
  exact sum_rows_blocks (fun h => ∑ v : Fin 64, x b h v ch * x b h v ch)

/-- The total times 1/65536 is the mean. -/
theorem total_mean (c : Fin 16) (b : Fin 2) (ch : Fin 64) :
    (∑ k : Fin 16, blockSum x (srcDev c k) b ch) * (1 / 65536) = mean x b ch := by
  rw [total_sum, mul_one_div]
  rfl

/-- The mean of the squares less the squared mean is the variance. -/
theorem total_var (c : Fin 16) (b : Fin 2) (ch : Fin 64) :
    (∑ k : Fin 16, blockSumSq x (srcDev c k) b ch) * (1 / 65536) - mean x b ch * mean x b ch = var x b ch := by
  have h := Cert.LibBatchNorm.mean_sq_dev (ι := Fin 1024 × Fin 64) (fun p => x b p.1 p.2 ch) 65536 (by norm_num)
    (by simp)
  simp only [Fintype.sum_prod_type, mul_one_div] at h
  rw [total_sumsq, mul_one_div]
  exact h.symm

/-- The variance is nonnegative. -/
theorem var_nonneg (b : Fin 2) (ch : Fin 64) : 0 ≤ var x b ch :=
  div_nonneg (Finset.sum_nonneg fun h _ => Finset.sum_nonneg fun v _ => mul_self_nonneg _) (by norm_num)

/-- The variance plus ε is positive. -/
theorem var_eps_pos (b : Fin 2) (ch : Fin 64) : 0 < var x b ch + eps :=
  add_pos_of_nonneg_of_pos (var_nonneg x b ch) eps_pos

end Cert.KernelValue
end
-- ==== Proof.KernelNorm.lean ====
/-
  The stages of the kernel's last pure term read at an index, over the extended reals with every entry a real.

  With the device's block holding rows 64·c + r of x and slot k of its table holding the sums and sums of squares
  of block srcDev c k: the totals over the slots are the sums S and Q over all 65536 values of a channel; S / 65536
  is the mean; Q / 65536 − mean² is the variance, nonnegative, so that the reciprocal root of variance + ε is the
  real 1 / √(variance + ε); the deviation from the mean times that is the normalised value t; and
  t · (1 / (1 + e^(0 − t))) is t / (1 + e^(−t)).
-/
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.KernelParts
import proofs.«900424_g7700000000000425_dist_diff_noisepred_hshard_i_b2_h64_w64_c64_v7x_i16_f32_1_alg».proof.Proof.KernelTotals
import proofs.«900424_g7700000000000425_dist_diff_noisepred_hshard_i_b2_h64_w64_c64_v7x_i16_f32_1_alg».proof.Proof.LibBatchNorm
import Idealize.ShloMosaic.Lib.Pipeline.Value
import Idealize.ShloMosaic.PureOps.Ideal.Laws
import Idealize.ShloMosaic.Lib.ValueIdx

noncomputable section

namespace Cert.KernelValue

open Cert.KernelIdeal Cert.KernelIdeal.Gen Idealize.ShloMosaic Idealize.ShloMosaic.ValueIdx
open scoped BigOperators

/-- The sum over the 16 slots of a 16 × 2 × 64 array, at (b, ch). -/
theorem red0_apply (src : FVec Ideal S16x2x64 .f32) (hacc : (0x00000000#32 : BitVec 32) = 0x00000000#32) (b : Fin 2) (ch : Fin 64) :
    multiReduction .add [0] S2x64 src 0x00000000#32 reduces_S16x2x64_S2x64 (.inl rfl) hacc (ix2 b ch)
      = ∑ k : Fin 16, src (ix3 k b ch) := by
  refine (Ideal.multiReduction_add_single src 0x00000000#32 reduces_S16x2x64_S2x64 (.inl rfl) hacc (ix2 b ch)).trans ?_
  refine Finset.sum_congr rfl fun k _ => congrArg src ?_
  funext a
  match a with
  | ⟨0, _⟩ => rfl
  | ⟨1, _⟩ => rfl
  | ⟨2, _⟩ => rfl

/-- The table's first plane at (k, b, ch). -/
theorem plane0_apply (st : Vec Ideal S16x2x2x64 .f32) (k : Fin 16) (b : Fin 2) (ch : Fin 64) :
    shapeCast S16x2x64 (extractStridedSlice S16x1x2x64 ![0, 0, 0, 0] st slices_S16x2x2x64_o0_0_0_0_S16x1x2x64) shapeCasts_S16x1x2x64_S16x2x64 (ix3 k b ch)
      = st (ix4 k (0 : Fin 2) b ch) := by
  refine (shapeCast_apply _ _ (ix3 k b ch) (ix4 k (0 : Fin 1) b ch) ?_).trans ?_
  · rw [Shape.rowMajor_val_three, Shape.rowMajor_val_four]
    show ((k.val * 1 + (0 : Fin 1).val) * 2 + b.val) * 64 + ch.val = (k.val * 2 + b.val) * 64 + ch.val
    simp
  refine extractStridedSlice_apply _ _ _ (ix4 k (0 : Fin 1) b ch) (ix4 k (0 : Fin 2) b ch) fun a => ?_
  match a with
  | ⟨0, _⟩ => show k.val = 0 + k.val; omega
  | ⟨1, _⟩ => show (0 : Fin 2).val = 0 + (0 : Fin 1).val; rfl
  | ⟨2, _⟩ => show b.val = 0 + b.val; omega
  | ⟨3, _⟩ => show ch.val = 0 + ch.val; omega

/-- The table's second plane at (k, b, ch). -/
theorem plane1_apply (st : Vec Ideal S16x2x2x64 .f32) (k : Fin 16) (b : Fin 2) (ch : Fin 64) :
    shapeCast S16x2x64 (extractStridedSlice S16x1x2x64 ![0, 1, 0, 0] st slices_S16x2x2x64_o0_1_0_0_S16x1x2x64) shapeCasts_S16x1x2x64_S16x2x64 (ix3 k b ch)
      = st (ix4 k (1 : Fin 2) b ch) := by
  refine (shapeCast_apply _ _ (ix3 k b ch) (ix4 k (0 : Fin 1) b ch) ?_).trans ?_
  · rw [Shape.rowMajor_val_three, Shape.rowMajor_val_four]
    show ((k.val * 1 + (0 : Fin 1).val) * 2 + b.val) * 64 + ch.val = (k.val * 2 + b.val) * 64 + ch.val
    simp
  refine extractStridedSlice_apply _ _ _ (ix4 k (0 : Fin 1) b ch) (ix4 k (1 : Fin 2) b ch) fun a => ?_
  match a with
  | ⟨0, _⟩ => show k.val = 0 + k.val; omega
  | ⟨1, _⟩ => show (1 : Fin 2).val = 1 + (0 : Fin 1).val; rfl
  | ⟨2, _⟩ => show b.val = 0 + b.val; omega
  | ⟨3, _⟩ => show ch.val = 0 + ch.val; omega

/-- The total over the slots of the first plane. -/
theorem tot0_apply (st : Vec Ideal S16x2x2x64 .f32) (b : Fin 2) (ch : Fin 64) :
    tot0 (F := Ideal) st (ix2 b ch) = ∑ k : Fin 16, st (ix4 k (0 : Fin 2) b ch) := by
  unfold tot0
  rw [red0_apply]
  exact Finset.sum_congr rfl fun k _ => plane0_apply st k b ch

/-- The total over the slots of the second plane. -/
theorem tot1_apply (st : Vec Ideal S16x2x2x64 .f32) (b : Fin 2) (ch : Fin 64) :
    tot1 (F := Ideal) st (ix2 b ch) = ∑ k : Fin 16, st (ix4 k (1 : Fin 2) b ch) := by
  unfold tot1
  rw [red0_apply]
  exact Finset.sum_congr rfl fun k _ => plane1_apply st k b ch

/-- A 2 × 64 array spread over the 64 × 64 positions reads its own entry at (b, ch). -/
theorem spread_apply (f : FVec Ideal S2x64 .f32) (b : Fin 2) (r v ch : Fin 64) :
    broadcastTo S2x64x64x64 (shapeCast S2x1x1x64 f shapeCasts_S2x64_S2x1x1x64) broadcasts_S2x1x1x64_S2x64x64x64 (ix4 b r v ch)
      = f (ix2 b ch) := by
  refine (broadcastTo_apply _ _ (ix4 b r v ch) (ix4 b (0 : Fin 1) (0 : Fin 1) ch) fun a => ?_).trans ?_
  · match a with
    | ⟨0, _⟩ => rfl
    | ⟨1, _⟩ => rfl
    | ⟨2, _⟩ => rfl
    | ⟨3, _⟩ => rfl
  refine shapeCast_apply _ _ (ix4 b (0 : Fin 1) (0 : Fin 1) ch) (ix2 b ch) ?_
  rw [Shape.rowMajor_val_two, Shape.rowMajor_val_four]
  show b.val * 64 + ch.val = ((b.val * 1 + (0 : Fin 1).val) * 1 + (0 : Fin 1).val) * 64 + ch.val
  simp

section Values

variable (x : Fin 2 → Fin 1024 → Fin 64 → Fin 64 → ℝ) (c : Fin 16)
  (xc : Vec Ideal S2x64x64x64 .f32) (st : Vec Ideal S16x2x2x64 .f32)
  (hcnt : Ideal.ofBits .f32 0x47800000#32 = ((65536 : ℝ) : EReal))
  (heps : Ideal.ofBits .f32 0x3727C5AC#32 = ((Cert.Spec.eps : ℝ) : EReal))
  (hone : Ideal.ofBits .f32 0x3F800000#32 = ((1 : ℝ) : EReal))
  (hxc : ∀ b r v ch, xc (ix4 b r v ch) = ((x b (Cert.Spec.rowOf c r) v ch : ℝ) : EReal))
  (hst0 : ∀ (k : Fin 16) b ch, st (ix4 k (0 : Fin 2) b ch) = ((Cert.Spec.blockSum x (Cert.Spec.srcDev c k) b ch : ℝ) : EReal))
  (hst1 : ∀ (k : Fin 16) b ch, st (ix4 k (1 : Fin 2) b ch) = ((Cert.Spec.blockSumSq x (Cert.Spec.srcDev c k) b ch : ℝ) : EReal))

include hcnt hst0 in
/-- The mean at (b, ch). -/
theorem meanV_apply (b : Fin 2) (ch : Fin 64) :
    meanV (F := Ideal) st (ix2 b ch) = ((Cert.Spec.mean x b ch : ℝ) : EReal) := by
  unfold meanV
  show Ideal.div (tot0 (F := Ideal) st (ix2 b ch)) (Ideal.ofBits .f32 0x47800000#32) = _
  rw [hcnt, tot0_apply, Finset.sum_congr rfl fun k _ => hst0 k b ch, ← Cert.LibBatchNorm.coe_sum,
    Ideal.div_coe (by norm_num), ← EReal.coe_mul, total_mean]

include hcnt heps hst0 hst1 in
/-- The reciprocal root of the variance plus ε at (b, ch). -/
theorem rstdV_apply (b : Fin 2) (ch : Fin 64) :
    rstdV (F := Ideal) st (ix2 b ch) = (((Real.sqrt (Cert.Spec.var x b ch + Cert.Spec.eps))⁻¹ : ℝ) : EReal) := by
  unfold rstdV
  show Ideal.rsqrt ((Ideal.div (tot1 (F := Ideal) st (ix2 b ch)) (Ideal.ofBits .f32 0x47800000#32)
      - meanV (F := Ideal) st (ix2 b ch) * meanV (F := Ideal) st (ix2 b ch)) + Ideal.ofBits .f32 0x3727C5AC#32) = _
  rw [meanV_apply x c st hcnt hst0, hcnt, heps, tot1_apply, Finset.sum_congr rfl fun k _ => hst1 k b ch,
    ← Cert.LibBatchNorm.coe_sum, Ideal.div_coe (by norm_num), ← EReal.coe_mul, ← EReal.coe_mul, ← EReal.coe_sub,
    total_var, ← EReal.coe_add, Cert.LibBatchNorm.rsqrt_coe_pos (var_eps_pos x b ch)]

include hcnt heps hxc hst0 hst1 in
/-- The normalised value at (b, r, v, ch). -/
theorem normV_apply (b : Fin 2) (r v ch : Fin 64) :
    normV (F := Ideal) xc st (ix4 b r v ch) = ((Cert.Spec.normed x Cert.Spec.eps b (Cert.Spec.rowOf c r) v ch : ℝ) : EReal) := by
  unfold normV
  rw [mulf_apply, subf_apply, spread_apply, spread_apply, meanV_apply x c st hcnt hst0,
    rstdV_apply x c st hcnt heps hst0 hst1, hxc, ← EReal.coe_sub, ← EReal.coe_mul, ← div_eq_mul_inv]
  rfl

end Values

/-- The activation of a real t: t · (1 / (1 + e^(0 − t))) is t / (1 + e^(−t)). -/
theorem actOf_apply (hone : Ideal.ofBits .f32 0x3F800000#32 = ((1 : ℝ) : EReal))
    (t : FVec Ideal S2x64x64x64 .f32) (i : S2x64x64x64.Idx) (τ : ℝ) (ht : t i = ((τ : ℝ) : EReal)) :
    actOf (F := Ideal) t i = ((τ / (1 + Real.exp (-τ)) : ℝ) : EReal) := by
  unfold actOf
  show t i * Ideal.div (Ideal.ofBits .f32 0x3F800000#32)
      (Ideal.ofBits .f32 0x3F800000#32 + Ideal.exp (Ideal.ofBits .f32 0x00000000#32 - t i)) = _
  have hpos : (1 + Real.exp (-τ)) ≠ 0 := (add_pos_of_pos_of_nonneg one_pos (Real.exp_pos _).le).ne'
  rw [ht, hone, Ideal.ofBits_zero_f32, zero_sub, ← EReal.coe_neg, Ideal.exp_coe, ← EReal.coe_add,
    Ideal.div_coe hpos, ← EReal.coe_mul, ← EReal.coe_mul, one_mul, mul_one_div]

end Cert.KernelValue
end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelMatmul.lean ====
/-
  The contraction with the matrix read at an index.

  The activations a[b, r, v, ch] are laid out as 8192 rows of 64 channels, row (b·64 + r)·64 + v; the product of
  that 8192 × 64 array with the 64 × 128 matrix into the zero array holds Σ_ch a[row, ch] · w[ch, o] at (row, o); and
  the result laid back out as 2 × 64 × 64 × 128 holds at (b, r, v, o) the entry of row (b·64 + r)·64 + v.
-/
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.KernelParts
import proofs.«900424_g7700000000000425_dist_diff_noisepred_hshard_i_b2_h64_w64_c64_v7x_i16_f32_1_alg».proof.Proof.LibPlainMatmul
import Idealize.ShloMosaic.Lib.Pipeline.Value
import Idealize.ShloMosaic.PureOps.Ideal.Laws
import Idealize.ShloMosaic.Lib.ValueIdx

noncomputable section

namespace Cert.KernelValue

open Cert.KernelIdeal Cert.KernelIdeal.Gen Idealize.ShloMosaic Idealize.ShloMosaic.ValueIdx
open scoped BigOperators

/-- The printed dimension numbers are the plain rows-by-columns ones. -/
theorem dot_eq_plain : dot_S8192x64_S64x128_S8192x128_1_0_0_1_n_n = DotDims.plain 8192 64 128 := rfl

/-- Row (b·64 + r)·64 + v of the 8192. -/
def rowAt (b : Fin 2) (r v : Fin 64) : Fin 8192 :=
  ⟨(b.val * 64 + r.val) * 64 + v.val, by have := b.isLt; have := r.isLt; have := v.isLt; omega⟩

/-- The contraction at (b, r, v, o): the sum over the channels. -/
theorem contract_apply (a : FVec Ideal S2x64x64x64 .f32) (w : Vec Ideal S64x128 .f32) (b : Fin 2) (r v : Fin 64) (o : Fin 128) :
    contract (F := Ideal) a w (ix4 b r v o) = ∑ ch : Fin 64, a (ix4 b r v ch) * w (ix2 ch o) := by
  unfold contract
  refine (shapeCast_apply _ _ (ix4 b r v o) (ix2 (rowAt b r v) o) ?_).trans ?_
  · rw [Shape.rowMajor_val_two, Shape.rowMajor_val_four]
    rfl
  rw [shapeCast_self]
  show FloatOps.matmul (F := Ideal) (φ₁ := FTy.f32) (φ₂ := FTy.f32) dot_S8192x64_S64x128_S8192x128_1_0_0_1_n_n none
      (shapeCast S8192x64 a shapeCasts_S2x64x64x64_S8192x64) w (constant S8192x128 .f32 0x00000000#32) (ix2 (rowAt b r v) o) = _
  rw [dot_eq_plain]
  refine (Idealize.ShloMosaic.PlainMatmul.matmul_zero_apply (φ₁ := FTy.f32) (φ₂ := FTy.f32) none
    (shapeCast S8192x64 a shapeCasts_S2x64x64x64_S8192x64) w (rowAt b r v) o).trans ?_
  refine Finset.sum_congr rfl fun ch _ => congrArg (· * w (ix2 ch o)) ?_
  refine shapeCast_apply _ _ (ix2 (rowAt b r v) ch) (ix4 b r v ch) ?_
  rw [Shape.rowMajor_val_two, Shape.rowMajor_val_four]
  rfl

end Cert.KernelValue
end
-- ==== Proof.Consts.lean ====
/-
  The float constants both programs spell, as the extended reals their binary32 patterns denote.
  Each pattern is unfolded here once; the other modules read the values from these statements.
-/
import Idealize.ShloMosaic.PureOps.Ideal
import proofs.«900424_g7700000000000425_dist_diff_noisepred_hshard_i_b2_h64_w64_c64_v7x_i16_f32_1_alg».proof.Proof.Spec

noncomputable section

namespace Cert.Consts

open Idealize.ShloMosaic

/-- The pattern of all zeros denotes `0`. -/
theorem ofBits_zero : Ideal.ofBits .f32 0#32 = 0 := by
  simp [Ideal.ofBits, Ideal.ieee]

/-- The same, as the coercion of the real `0`. -/
theorem ofBits_zero_coe : Ideal.ofBits .f32 0#32 = ((0 : ℝ) : EReal) := by
  rw [ofBits_zero]; rfl

/-- `65536.0`, the number of positions a channel is averaged over: exponent field 143, fraction 0, so 2¹⁶. -/
theorem ofBits_cnt : Ideal.ofBits .f32 0x47800000#32 = ((65536 : ℝ) : EReal) := by
  simp [Ideal.ofBits, Ideal.ieee, -EReal.coe_mul]; norm_num

/-- `1.0`: exponent field 127, fraction 0. -/
theorem ofBits_one : Ideal.ofBits .f32 0x3F800000#32 = ((1 : ℝ) : EReal) := by
  simp [Ideal.ofBits, Ideal.ieee, -EReal.coe_mul]; norm_num

/-- The constant under the root: exponent field 110, fraction 2606508, so (2²³ + 2606508) · 2⁻⁴⁰ = 10995116 · 2⁻⁴⁰. -/
theorem ofBits_eps : Ideal.ofBits .f32 0x3727C5AC#32 = ((Cert.Spec.eps : ℝ) : EReal) := by
  simp [Ideal.ofBits, Ideal.ieee, -EReal.coe_mul, Cert.Spec.eps]; norm_num

/-- The pattern of `+∞`. -/
theorem ofBits_inf : Ideal.ofBits .f32 0x7F800000#32 = ⊤ := by
  simp [Ideal.ofBits, Ideal.ieee]

/-! The same values as the programs spell them: a scalar constant is `FloatOps.ofBits` at the instance, and a
    vector constant is its splat, read at any index. -/

theorem scalar_zero : (FloatOps.ofBits (F := Ideal) .f32 0#32) = ((0 : ℝ) : EReal) := ofBits_zero_coe
theorem scalar_cnt : (FloatOps.ofBits (F := Ideal) .f32 0x47800000#32) = ((65536 : ℝ) : EReal) := ofBits_cnt
theorem scalar_one : (FloatOps.ofBits (F := Ideal) .f32 0x3F800000#32) = ((1 : ℝ) : EReal) := ofBits_one
theorem scalar_eps : (FloatOps.ofBits (F := Ideal) .f32 0x3727C5AC#32) = ((Cert.Spec.eps : ℝ) : EReal) := ofBits_eps

theorem constant_zero (s : Shape) (i : s.Idx) :
    (constant (F := Ideal) s .f32 0#32) i = ((0 : ℝ) : EReal) := ofBits_zero_coe
theorem constant_cnt (s : Shape) (i : s.Idx) :
    (constant (F := Ideal) s .f32 0x47800000#32) i = ((65536 : ℝ) : EReal) := ofBits_cnt
theorem constant_one (s : Shape) (i : s.Idx) :
    (constant (F := Ideal) s .f32 0x3F800000#32) i = ((1 : ℝ) : EReal) := ofBits_one
theorem constant_eps (s : Shape) (i : s.Idx) :
    (constant (F := Ideal) s .f32 0x3727C5AC#32) i = ((Cert.Spec.eps : ℝ) : EReal) := ofBits_eps

end Cert.Consts

end
-- ==== Proof.KernelValue.lean ====
/-
  The kernel's value at an index, over the extended reals.

  A device whose block holds rows 64·c + r of x, whose table of partial sums holds in slot k the sums and sums of
  squares of block srcDev c k, and whose matrix holds w, computes at (b, r, v, o) the specification's result at row
  64·c + r: the totals over the slots are the channel's sums over all 65536 values, so the mean, the variance and
  the normalised value are the specification's; the activation is t / (1 + e^(−t)); and the contraction with the
  matrix is the sum over the 64 channels.
-/
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.KernelParts
import proofs.«900424_g7700000000000425_dist_diff_noisepred_hshard_i_b2_h64_w64_c64_v7x_i16_f32_1_alg».proof.Proof.KernelStats
import proofs.«900424_g7700000000000425_dist_diff_noisepred_hshard_i_b2_h64_w64_c64_v7x_i16_f32_1_alg».proof.Proof.KernelNorm
import proofs.«900424_g7700000000000425_dist_diff_noisepred_hshard_i_b2_h64_w64_c64_v7x_i16_f32_1_alg».proof.Proof.KernelMatmul
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.Consts
import Idealize.ShloMosaic.Lib.Pipeline.Value
import Idealize.ShloMosaic.PureOps.Ideal.Laws
import Idealize.ShloMosaic.Lib.ValueIdx

noncomputable section

namespace Cert.KernelValue

open Cert.KernelIdeal Cert.KernelIdeal.Gen Idealize.ShloMosaic Idealize.ShloMosaic.ValueIdx
open scoped BigOperators

/-- The device's result block at (b, r, v, o) is the specification's result at row 64·c + r. -/
theorem block_value (x : Fin 2 → Fin 1024 → Fin 64 → Fin 64 → ℝ) (w : Fin 64 → Fin 128 → ℝ) (c : Fin 16)
    (xc : Vec Ideal S2x64x64x64 .f32) (st : Vec Ideal S16x2x2x64 .f32) (wc : Vec Ideal S64x128 .f32)
    (hxc : ∀ b r v ch, xc (ix4 b r v ch) = ((x b (Cert.Spec.rowOf c r) v ch : ℝ) : EReal))
    (hst0 : ∀ (k : Fin 16) b ch, st (ix4 k 0 b ch) = ((Cert.Spec.blockSum x (Cert.Spec.srcDev c k) b ch : ℝ) : EReal))
    (hst1 : ∀ (k : Fin 16) b ch, st (ix4 k 1 b ch) = ((Cert.Spec.blockSumSq x (Cert.Spec.srcDev c k) b ch : ℝ) : EReal))
    (hwc : ∀ ch o, wc (ix2 ch o) = ((w ch o : ℝ) : EReal)) :
    ∀ (b : Fin 2) (r : Fin 64) (v : Fin 64) (o : Fin 128),
      k0_pay6 (F := Ideal) (k0_pay1 (F := Ideal) xc) st wc (ix4 b r v o)
        = ((Cert.Spec.out x w Cert.Spec.eps b (Cert.Spec.rowOf c r) v o : ℝ) : EReal) := by
  intro b r v o
  have h1 : k0_pay1 (F := Ideal) xc = xc := by unfold k0_pay1; exact shapeCast_self _ _
  rw [h1, pay6_eq, contract_apply, Cert.Spec.out, Cert.LibBatchNorm.coe_sum]
  refine Finset.sum_congr rfl fun ch _ => ?_
  rw [actOf_apply Cert.Consts.ofBits_one _ _ _
      (normV_apply x c xc st Cert.Consts.ofBits_cnt Cert.Consts.ofBits_eps hxc hst0 hst1 b r v ch),
    hwc, ← EReal.coe_mul]
  rfl

end Cert.KernelValue
end
-- ==== Proof.LibDenseRead.lean ====
/-
  Dense-layer pieces on the host read at one entry, at the extended reals.

  * The host's plain matrix product of an `m × k` by a `k × n` array holds at entry `(a, b)` the sum over the
    contracted position `c` of `A[a,c] · B[c,b]` (no accumulator, whatever the schedule key).
  * A bias vector `[n]` placed as the row `[1, n]` and repeated down `m` rows holds at `(p, c)` the vector's entry `c`.
  * The zero word filled into any shape holds `0` at every index.
-/
import Idealize.ShloMosaic.PureOps.Ideal.Laws
import Idealize.ShloMosaic.Lib.ValueIdx
import Idealize.ShloMosaic.Lib.Pipeline.Value
import proofs.«900424_g7700000000000425_dist_diff_noisepred_hshard_i_b2_h64_w64_c64_v7x_i16_f32_1_alg».proof.Proof.LibPlainMatmul

noncomputable section

open scoped BigOperators

namespace Idealize.ShloMosaic.DenseRead

open Idealize.ShloMosaic Idealize.ShloMosaic.ValueIdx Idealize.ShloMosaic.PlainMatmul

variable {m k n : Nat}

/-- **The host's plain product at an entry**: `∑ c, A[a,c] · B[c,b]`. -/
theorem dotGeneral_apply {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- A bias vector placed as a row and repeated down the rows, at `(p, c)`: the vector's entry `c`. -/
theorem biasRows_apply {α : Type} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (p : Fin m) (c : Fin n) :
    broadcastInDim ⟨2, ![m, n]⟩ ![0, 1] h2 (broadcastInDim ⟨2, ![1, n]⟩ ![1] h1 x) (ix2 p c) = x (ix1 c) := by
  refine (broadcastInDim_apply _ h2 _ (ix2 p c) (ix2 (0 : Fin 1) c) (fun a => ?_)).trans
    (broadcastInDim_apply _ h1 x (ix2 (0 : Fin 1) c) (ix1 c) (fun a => ?_))
  · match a with
    | ⟨0, _⟩ => show 0 = if (1 : Nat) = 1 then 0 else p.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

/-- The zero word filled into a shape, at any index: `0`. -/
theorem zeroFill_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) :=
  (broadcastInDim_apply _ h _ i ix0 (fun a => a.elim0)).trans Ideal.ofBits_zero_f32

end Idealize.ShloMosaic.DenseRead

end
-- ==== Proof.RefStats.lean ====
/-
  The reference's first stages read at an index, over the extended reals, for an input array whose
  entries are reals.

  * The sum over the two middle axes, at a batch entry b and a channel ch, is the double sum
    Σ_h Σ_v y[b, h, v, ch]: the indices of the array that keep (b, ch) once the middle axes are dropped are
    exactly the (b, h, v, ch), one for each pair (h, v).
  * The mean is that sum divided by 65536.
  * The centred value at (b, h, v, ch) is x[b, h, v, ch] minus the mean of (b, ch).
-/
import proofs.«900424_g7700000000000425_dist_diff_noisepred_hshard_i_b2_h64_w64_c64_v7x_i16_f32_1_alg».proof.Proof.RefTerm
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.Consts
import Idealize.ShloMosaic.Lib.IdealHost
import Idealize.ShloMosaic.Lib.Pipeline.Value
import Idealize.ShloMosaic.Lib.ValueIdxCoords

noncomputable section

namespace Cert.RefValue

open Cert.ReferenceIdeal Idealize.ShloMosaic Idealize.ShloMosaic.ValueIdx
open scoped BigOperators

/-- Dropping the two middle axes of an index keeps its batch entry and its channel. -/
theorem drop_val (hR : S2x1024x64x64.ReducesTo [1, 2] S2x64) (i : S2x1024x64x64.Idx) :
    ((hR.drop i 0 : Nat) = (i 0 : Nat)) ∧ ((hR.drop i 1 : Nat) = (i 3 : Nat)) :=
  ⟨Shape.ReducesTo.drop_apply_val_of_eq hR i 0 0, Shape.ReducesTo.drop_apply_val_of_eq hR i 1 3⟩

/-- The sum over the indices that keep the batch entry and the channel is the double sum over the two middle axes. -/
theorem filter_sum (hR : S2x1024x64x64.ReducesTo [1, 2] S2x64) (Y : S2x1024x64x64.Idx → EReal) (b : Fin 2) (ch : Fin 64) :
    ∑ i ∈ Finset.univ.filter (fun i => hR.drop i = ix2 b ch), Y i = ∑ h : Fin 1024, ∑ v : Fin 64, Y (ix4 b h v ch) := by
  rw [← Finset.sum_product']
  have key : ∀ i : S2x1024x64x64.Idx, hR.drop i = ix2 b ch → ix4 b (i 1) (i 2) ch = i := by
    intro i hi
    have h0 : (i 0 : Nat) = b.val := (drop_val hR i).1.symm.trans (by rw [hi])
    have h3 : (i 3 : Nat) = ch.val := (drop_val hR i).2.symm.trans (by rw [hi])
    funext a
    match a with
    | ⟨0, _⟩ => exact Fin.ext h0.symm
    | ⟨1, _⟩ => rfl
    | ⟨2, _⟩ => rfl
    | ⟨3, _⟩ => exact Fin.ext h3.symm
  refine Finset.sum_nbij' (fun i => (i 1, i 2)) (fun p => ix4 b p.1 p.2 ch) ?_ ?_ ?_ ?_ ?_
  · intro i hi; simp
  · intro p hp
    rw [Finset.mem_filter]
    refine ⟨Finset.mem_univ _, ?_⟩
    funext a
    match a with
    | ⟨0, _⟩ => exact Fin.ext (drop_val hR _).1
    | ⟨1, _⟩ => exact Fin.ext (drop_val hR _).2
  · intro i hi
    rw [Finset.mem_filter] at hi
    exact key i hi.2
  · intro p hp; rfl
  · intro i hi
    rw [Finset.mem_filter] at hi
    exact congrArg Y (key i hi.2).symm

/-- The zero scalar denotes zero. -/
theorem zero_apply (k : S_.Idx) : RefTerm.zero (F := Ideal) k = (0 : EReal) := by
  unfold RefTerm.zero; exact Ideal.ofBits_zero_f32

/-- The count scalar denotes 65536. -/
theorem cnt_apply (k : S_.Idx) : RefTerm.cnt (F := Ideal) k = ((65536 : ℝ) : EReal) := by
  unfold RefTerm.cnt; exact Cert.Consts.ofBits_cnt

/-- The sum over the two middle axes at a batch entry and channel: the double sum of the real values. -/
theorem sum4_apply (Y : FVec Ideal S2x1024x64x64 .f32) (y : Fin 2 → Fin 1024 → Fin 64 → Fin 64 → ℝ)
    (hY : ∀ b h v ch, Y (ix4 b h v ch) = ((y b h v ch : ℝ) : EReal)) (b : Fin 2) (p q : Fin 1) (ch : Fin 64) :
    RefTerm.sum4 (F := Ideal) Y (ix4 b p q ch) = ((∑ h : Fin 1024, ∑ v : Fin 64, y b h v ch : ℝ) : EReal) := by
  unfold RefTerm.sum4
  refine (broadcastInDim_apply _ _ _ (ix4 b p q ch) (ix2 b ch) (fun a => ?_)).trans ?_
  · match a with
    | ⟨0, _⟩ => rfl
    | ⟨1, _⟩ => rfl
  rw [hostReduceAdd_apply]
  unfold Ideal.hostReduceAdd
  rw [filter_sum, zero_apply, zero_add, Cert.LibBatchNorm.coe_sum]
  refine Finset.sum_congr rfl fun h _ => ?_
  rw [Cert.LibBatchNorm.coe_sum]
  exact Finset.sum_congr rfl fun v _ => hY b h v ch

/-- The mean of a channel. -/
theorem mean4_apply (X : FVec Ideal S2x1024x64x64 .f32) (x : Fin 2 → Fin 1024 → Fin 64 → Fin 64 → ℝ)
    (hX : ∀ b h v ch, X (ix4 b h v ch) = ((x b h v ch : ℝ) : EReal)) (b : Fin 2) (p q : Fin 1) (ch : Fin 64) :
    RefTerm.mean4 (F := Ideal) X (ix4 b p q ch) = ((Cert.Spec.mean x b ch : ℝ) : EReal) := by
  unfold RefTerm.mean4
  rw [hostDivf_apply, sum4_apply X x hX, broadcastInDim_scalar_apply, cnt_apply,
    Ideal.div_coe (by norm_num), ← EReal.coe_mul]
  unfold Cert.Spec.mean
  rw [mul_one_div]

/-- The deviation from the mean. -/
theorem centred_apply (X : FVec Ideal S2x1024x64x64 .f32) (x : Fin 2 → Fin 1024 → Fin 64 → Fin 64 → ℝ)
    (hX : ∀ b h v ch, X (ix4 b h v ch) = ((x b h v ch : ℝ) : EReal)) (b : Fin 2) (h : Fin 1024) (v : Fin 64) (ch : Fin 64) :
    RefTerm.centred (F := Ideal) X (ix4 b h v ch) = ((x b h v ch - Cert.Spec.mean x b ch : ℝ) : EReal) := by
  unfold RefTerm.centred
  rw [subf_apply, hX]
  rw [broadcastInDim_apply _ _ _ (ix4 b h v ch) (ix4 b (0 : Fin 1) (0 : Fin 1) ch) (fun a => by
    match a with
    | ⟨0, _⟩ => rfl
    | ⟨1, _⟩ => rfl
    | ⟨2, _⟩ => rfl
    | ⟨3, _⟩ => rfl)]
  rw [mean4_apply X x hX, ← EReal.coe_sub]

end Cert.RefValue
end
-- ==== Proof.RefVar.lean ====
/-
  The reference's variance read at an index, over the extended reals, for an input array whose entries
  are reals.

  The divisor is the count 65536 minus the integer zero converted to a float, which is 65536; it is above
  zero, so the comparison gives the bit one and the selection keeps its first branch: the sum of the
  squared deviations divided by 65536.  That is the variance of the channel, and it is not negative.
-/
import proofs.«900424_g7700000000000425_dist_diff_noisepred_hshard_i_b2_h64_w64_c64_v7x_i16_f32_1_alg».proof.Proof.RefTerm
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.Consts
import proofs.«900424_g7700000000000425_dist_diff_noisepred_hshard_i_b2_h64_w64_c64_v7x_i16_f32_1_alg».proof.Proof.RefStats
import Idealize.ShloMosaic.Lib.IdealHost
import Idealize.ShloMosaic.Lib.Pipeline.Value
import Idealize.ShloMosaic.Lib.ValueIdxCoords

noncomputable section

namespace Cert.RefValue

open Cert.ReferenceIdeal Idealize.ShloMosaic Idealize.ShloMosaic.ValueIdx
open scoped BigOperators

/-- The divisor of the variance denotes 65536: the count minus the integer zero converted. -/
theorem divisor_apply (k : S_.Idx) : RefTerm.divisor (F := Ideal) k = ((65536 : ℝ) : EReal) := by
  unfold RefTerm.divisor
  rw [subf_apply, cnt_apply]
  show ((65536 : ℝ) : EReal) - ((((0#32 : BitVec 32).toInt : ℤ) : ℝ) : EReal) = _
  simp

/-- The divisor is above zero, so the comparison gives the bit one. -/
theorem divisor_pos_bit (k : S_.Idx) :
    cmpf (F := Ideal) .ogt (RefTerm.divisor (F := Ideal)) (RefTerm.zero (F := Ideal)) k = 1#1 := by
  rw [cmpf_apply, divisor_apply, zero_apply, Ideal.cmpf_def]
  unfold Ideal.cmp
  have h : (0 : EReal) < ((65536 : ℝ) : EReal) := EReal.coe_pos.mpr (by norm_num)
  simp [h]

/-- The variance of a channel: the comparison holds, so the selection keeps the quotient, which is the mean squared
    deviation. -/
theorem var4_apply (X : FVec Ideal S2x1024x64x64 .f32) (x : Fin 2 → Fin 1024 → Fin 64 → Fin 64 → ℝ)
    (hX : ∀ b h v ch, X (ix4 b h v ch) = ((x b h v ch : ℝ) : EReal)) (b : Fin 2) (p q : Fin 1) (ch : Fin 64) :
    RefTerm.var4 (F := Ideal) X (ix4 b p q ch) = ((Cert.Spec.var x b ch : ℝ) : EReal) := by
  unfold RefTerm.var4
  rw [select_apply, broadcastInDim_scalar_apply, divisor_pos_bit, select_one, hostDivf_apply,
    broadcastInDim_scalar_apply, divisor_apply]
  rw [sum4_apply (mulf (RefTerm.centred X) (RefTerm.centred X))
    (fun b h v ch => (x b h v ch - Cert.Spec.mean x b ch) * (x b h v ch - Cert.Spec.mean x b ch))
    (fun b h v ch => by rw [mulf_apply, centred_apply X x hX, ← EReal.coe_mul])]
  rw [Ideal.div_coe (by norm_num), ← EReal.coe_mul]
  unfold Cert.Spec.var
  rw [mul_one_div]

/-- The variance is not negative. -/
theorem var_nonneg (x : Fin 2 → Fin 1024 → Fin 64 → Fin 64 → ℝ) (b : Fin 2) (ch : Fin 64) : 0 ≤ Cert.Spec.var x b ch := by
  unfold Cert.Spec.var
  exact div_nonneg (Finset.sum_nonneg fun h _ => Finset.sum_nonneg fun v _ => mul_self_nonneg _) (by norm_num)

end Cert.RefValue
end
-- ==== Proof.RefNorm.lean ====
/-
  The reference's normalised value and its activation read at an index, over the extended reals, for an
  input array whose entries are reals.

  The variance is not negative and the constant ε is positive, so the quantity under the root is a positive
  real, its root a positive real, and the deviation divided by it the real quotient.  The denominator
  1 + e^(-t) of the activation is a positive real, so that quotient is the real one too.
-/
import proofs.«900424_g7700000000000425_dist_diff_noisepred_hshard_i_b2_h64_w64_c64_v7x_i16_f32_1_alg».proof.Proof.RefTerm
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.Consts
import proofs.«900424_g7700000000000425_dist_diff_noisepred_hshard_i_b2_h64_w64_c64_v7x_i16_f32_1_alg».proof.Proof.RefStats
import proofs.«900424_g7700000000000425_dist_diff_noisepred_hshard_i_b2_h64_w64_c64_v7x_i16_f32_1_alg».proof.Proof.RefVar
import Idealize.ShloMosaic.Lib.IdealHost
import Idealize.ShloMosaic.Lib.Pipeline.Value
import Idealize.ShloMosaic.Lib.ValueIdxCoords

noncomputable section

namespace Cert.RefValue

open Cert.ReferenceIdeal Idealize.ShloMosaic Idealize.ShloMosaic.ValueIdx
open scoped BigOperators

/-- The host's square root, exponential and negation at an index are the scalar operations on the entries. -/
theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- The normalised value: the deviation over the root of the variance plus the small constant.  The quantity under
    the root is positive, so the root is a positive real and the quotient is the real quotient. -/
theorem normed_apply (X : FVec Ideal S2x1024x64x64 .f32) (x : Fin 2 → Fin 1024 → Fin 64 → Fin 64 → ℝ)
    (hX : ∀ b h v ch, X (ix4 b h v ch) = ((x b h v ch : ℝ) : EReal)) (b : Fin 2) (h : Fin 1024) (v : Fin 64) (ch : Fin 64) :
    RefTerm.normed (F := Ideal) X (ix4 b h v ch) = ((Cert.Spec.normed x Cert.Spec.eps b h v ch : ℝ) : EReal) := by
  have hpos : 0 < Cert.Spec.var x b ch + Cert.Spec.eps := add_pos_of_nonneg_of_pos (var_nonneg x b ch) Cert.Spec.eps_pos
  have hroot : Real.sqrt (Cert.Spec.var x b ch + Cert.Spec.eps) ≠ 0 := (Real.sqrt_pos.mpr hpos).ne'
  unfold RefTerm.normed
  rw [hostDivf_apply, centred_apply X x hX]
  rw [broadcastInDim_apply _ _ _ (ix4 b h v ch) (ix4 b (0 : Fin 1) (0 : Fin 1) ch) (fun a => by
    match a with
    | ⟨0, _⟩ => rfl
    | ⟨1, _⟩ => rfl
    | ⟨2, _⟩ => rfl
    | ⟨3, _⟩ => rfl)]
  rw [hostSqrt_apply, addf_apply, var4_apply X x hX, broadcastInDim_scalar_apply, constant_apply, Cert.Consts.ofBits_eps,
    ← EReal.coe_add, Ideal.sqrt_coe, if_neg (not_lt.mpr hpos.le), Ideal.div_coe hroot, ← EReal.coe_mul]
  unfold Cert.Spec.normed
  rw [mul_one_div]

/-- The activation t / (1 + e^(-t)) of the normalised value: the denominator is a positive real. -/
theorem act_apply (X : FVec Ideal S2x1024x64x64 .f32) (x : Fin 2 → Fin 1024 → Fin 64 → Fin 64 → ℝ)
    (hX : ∀ b h v ch, X (ix4 b h v ch) = ((x b h v ch : ℝ) : EReal)) (b : Fin 2) (h : Fin 1024) (v : Fin 64) (ch : Fin 64) :
    RefTerm.act (F := Ideal) X (ix4 b h v ch) = ((Cert.Spec.act x Cert.Spec.eps b h v ch : ℝ) : EReal) := by
  have hden : (1 : ℝ) + Real.exp (-(Cert.Spec.normed x Cert.Spec.eps b h v ch)) ≠ 0 :=
    (add_pos one_pos (Real.exp_pos _)).ne'
  unfold RefTerm.act
  rw [hostDivf_apply, addf_apply, broadcastInDim_scalar_apply, constant_apply, Cert.Consts.ofBits_one, hostExp_apply,
    hostNegf_apply, normed_apply X x hX, ← EReal.coe_neg, Ideal.exp_coe, ← EReal.coe_add, Ideal.div_coe hden, ← EReal.coe_mul]
  unfold Cert.Spec.act
  rw [mul_one_div]

end Cert.RefValue
end
-- ==== Proof.RefValue.lean ====
/-
  The reference's result read at an index, over the extended reals, for inputs whose entries are reals:
  it is the function of Spec.lean.

  The activations are laid out as 131072 rows of 64 channels, row b·65536 + h·64 + v holding the entries
  (b, h, v, ·); the product with the 64 × 128 matrix holds at (row, o) the sum over the channels of the
  row's entry times the matrix's; and the rows are laid back out so that (b, h, v, o) reads row
  b·65536 + h·64 + v.  Every factor is a real, so the sum of products is the real one.
-/
import proofs.«900424_g7700000000000425_dist_diff_noisepred_hshard_i_b2_h64_w64_c64_v7x_i16_f32_1_alg».proof.Proof.RefTerm
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Spec
import proofs.«900424_g7700000000000425_dist_diff_noisepred_hshard_i_b2_h64_w64_c64_v7x_i16_f32_1_alg».proof.Proof.LibBatchNorm
import proofs.«900424_g7700000000000425_dist_diff_noisepred_hshard_i_b2_h64_w64_c64_v7x_i16_f32_1_alg».proof.Proof.LibDenseRead
import proofs.«900424_g7700000000000425_dist_diff_noisepred_hshard_i_b2_h64_w64_c64_v7x_i16_f32_1_alg».proof.Proof.RefNorm
import Idealize.ShloMosaic.Lib.Pipeline.Value
import Idealize.ShloMosaic.Lib.ValueIdxCoords

noncomputable section

namespace Cert.RefValue

open Cert.ReferenceIdeal Idealize.ShloMosaic Idealize.ShloMosaic.ValueIdx
open scoped BigOperators

/-- Row b·65536 + h·64 + v of the 131072 rows: the position of (b, h, v) in row-major order. -/
def row3 (b : Fin 2) (h : Fin 1024) (v : Fin 64) : Fin 131072 :=
  ⟨b.val * 65536 + h.val * 64 + v.val, by have := b.isLt; have := h.isLt; have := v.isLt; omega⟩

/-- The array laid out as 131072 rows reads, at row (b, h, v) and column c, the entry (b, h, v, c). -/
theorem flatten_apply {α : Type} (A : S2x1024x64x64.Idx → α) (hc : S2x1024x64x64.ShapeCasts S131072x64)
    (b : Fin 2) (h : Fin 1024) (v : Fin 64) (c : Fin 64) :
    shapeCast S131072x64 A hc (ix2 (row3 b h v) c) = A (ix4 b h v c) :=
  shapeCast_apply A hc _ _ (by
    rw [Shape.rowMajor_val_four, Shape.rowMajor_val_two]
    show ((b.val * 1024 + h.val) * 64 + v.val) * 64 + c.val = (b.val * 65536 + h.val * 64 + v.val) * 64 + c.val
    omega)

/-- The 131072 rows laid back out read, at (b, h, v, o), row (b, h, v) and column o. -/
theorem unflatten_apply {α : Type} (D : S131072x128.Idx → α) (hc : S131072x128.ShapeCasts S2x1024x64x128)
    (b : Fin 2) (h : Fin 1024) (v : Fin 64) (o : Fin 128) :
    shapeCast S2x1024x64x128 D hc (ix4 b h v o) = D (ix2 (row3 b h v) o) :=
  shapeCast_apply D hc _ _ (by
    rw [Shape.rowMajor_val_two, Shape.rowMajor_val_four]
    show (b.val * 65536 + h.val * 64 + v.val) * 128 + o.val = ((b.val * 1024 + h.val) * 64 + v.val) * 128 + o.val
    omega)

/-- The contraction record of the reference's product is the plain one: 131072 × 64 by 64 × 128. -/
theorem dot_eq_plain : dot_S131072x64_S64x128_S131072x128_1_0_0_1_n_n = DotDims.plain 131072 64 128 := rfl

/-- **The reference's result at an index**, for inputs whose entries are reals: the activations of the normalised values
    contracted with the matrix over the channels. -/
theorem out_value (X : FVec Ideal S2x1024x64x64 .f32) (W : FVec Ideal S64x128 .f32)
    (x : Fin 2 → Fin 1024 → Fin 64 → Fin 64 → ℝ) (w : Fin 64 → Fin 128 → ℝ)
    (hX : ∀ b h v ch, X (ix4 b h v ch) = ((x b h v ch : ℝ) : EReal)) (hW : ∀ ch o, W (ix2 ch o) = ((w ch o : ℝ) : EReal)) :
    ∀ (b : Fin 2) (h : Fin 1024) (v : Fin 64) (o : Fin 128),
      Cert.ReferenceIdeal.RefTerm.out (F := Ideal) X W (ix4 b h v o) = ((Cert.Spec.out x w Cert.Spec.eps b h v o : ℝ) : EReal) := by
  intro b h v o
  unfold RefTerm.out
  rw [unflatten_apply, dot_eq_plain]
  refine (DenseRead.dotGeneral_apply none .single _ W (row3 b h v) o).trans ?_
  unfold Cert.Spec.out
  rw [Cert.LibBatchNorm.coe_sum]
  refine Finset.sum_congr rfl fun c _ => ?_
  rw [flatten_apply, act_apply X x hX, hW, ← EReal.coe_mul]

end Cert.RefValue
end
-- ==== Proof.AssemblyBlock.lean ====
/-
  The kernel's result on one device against the reference's result, over the extended reals.

  Each device holds block c of the input (rows 64·c … 64·c + 63 of the 1024) and a copy of the matrix,
  and every entry is a real.  Then every entry of the whole input is a real (row h lies in block h / 64
  at row h % 64), the table of partial sums a device ends with holds in slot k the sums and the sums of
  squares of the block k places behind it on the ring, and the device's result at (b, r, v, o) is the
  specification's result at row 64·c + r.  The reference's result at that row is the same number, so the
  device's result is block c of the reference's result.
-/
import proofs.«900424_g7700000000000425_dist_diff_noisepred_hshard_i_b2_h64_w64_c64_v7x_i16_f32_1_alg».proof.Proof.KernelIdealRun.Proto
import proofs.«900424_g7700000000000425_dist_diff_noisepred_hshard_i_b2_h64_w64_c64_v7x_i16_f32_1_alg».proof.Proof.AssemblyStaged
import proofs.«900424_g7700000000000425_dist_diff_noisepred_hshard_i_b2_h64_w64_c64_v7x_i16_f32_1_alg».proof.Proof.KernelValue
import proofs.«900424_g7700000000000425_dist_diff_noisepred_hshard_i_b2_h64_w64_c64_v7x_i16_f32_1_alg».proof.Proof.KernelStats
import proofs.«900424_g7700000000000425_dist_diff_noisepred_hshard_i_b2_h64_w64_c64_v7x_i16_f32_1_alg».proof.Proof.RefValue
import proofs.«900424_g7700000000000425_dist_diff_noisepred_hshard_i_b2_h64_w64_c64_v7x_i16_f32_1_alg».proof.Proof.Spec
import Idealize.ShloMosaic.Lib.Layout

noncomputable section

namespace Cert.Assembly

open Cert.KernelIdeal Cert.KernelIdeal.Gen Idealize.ShloMosaic Idealize.ShloMosaic.TcCoe Idealize.SL.Sem
open Idealize.ShloMosaic.ValueIdx
open Cert.KernelIdealRun
open scoped BigOperators

/-- The device k places behind c on the ring, spelt two ways. -/
theorem bwd_eq_srcDev (c : Dev nD) (k : Fin 16) : bwd c k = Cert.Spec.srcDev c k := rfl

/-- Block c of an array cut along its axis of 1024 rows into 16 blocks of 64 reads, at (b, r, v, o), the array at row
    64·c + r. -/
theorem block_apply4 {α : Type} (n : Nat) (V : (⟨4, ![2, 1024, 64, n]⟩ : Shape).Idx → α)
    (h : Layout.Tiles ⟨4, ![2, 64, 64, n]⟩ ⟨4, ![2, 1024, 64, n]⟩ 1 16) (c : Fin 16)
    (b : Fin 2) (r v : Fin 64) (o : Fin n) :
    Layout.block ⟨4, ![2, 64, 64, n]⟩ ⟨4, ![2, 1024, 64, n]⟩ 1 16 c V h (ix4 b r v o) = V (ix4 b (Cert.Spec.rowOf c r) v o) := by
  rw [Layout.block_apply]
  refine congrArg V (funext fun a => Fin.ext ?_)
  match a with
  | ⟨0, _⟩ => rfl
  | ⟨1, _⟩ => rfl
  | ⟨2, _⟩ => rfl
  | ⟨3, _⟩ => rfl

/-- An extended real that is a real is the coercion of its real part. -/
theorem coe_toReal_of_exists {z : EReal} (h : ∃ r : ℝ, z = ((r : ℝ) : EReal)) : z = ((z.toReal : ℝ) : EReal) := by
  obtain ⟨r, hr⟩ := h
  rw [hr, EReal.toReal_coe]

/-- Every row h of the 1024 is row h % 64 of block h / 64. -/
theorem rowOf_div_mod (h : Fin 1024) :
    Cert.Spec.rowOf ⟨h.val / 64, by have := h.isLt; omega⟩ ⟨h.val % 64, Nat.mod_lt _ (by decide)⟩ = h :=
  Fin.ext (by show h.val / 64 * 64 + h.val % 64 = h.val; omega)

/-- **The kernel's result on device c is block c of the reference's result**, when each device holds its block of the
    input and a copy of the matrix, and every entry is a real. -/
theorem outAt_block (m : (ℓ : Loc nD τ sig) → Buf (Elt Ideal) ℓ) (ρ : Dev nD → PrngReg)
    (X : FVec Ideal ⟨4, ![2, 1024, 64, 64]⟩ .f32) (W : FVec Ideal ⟨2, ![64, 128]⟩ .f32)
    (hX : ∀ c : Dev Cert.KernelIdeal.nD, m ((c.tc : Thread Cert.KernelIdeal.nD Cert.KernelIdeal.τ).loc Cert.KernelIdeal.main_arg0)
      = Layout.block ⟨4, ![2, 64, 64, 64]⟩ ⟨4, ![2, 1024, 64, 64]⟩ 1 16 c X)
    (hW : ∀ c : Dev Cert.KernelIdeal.nD, m ((c.tc : Thread Cert.KernelIdeal.nD Cert.KernelIdeal.τ).loc Cert.KernelIdeal.main_arg1) = W)
    (hfinX : ∀ (c : Dev Cert.KernelIdeal.nD) i, ∃ r : ℝ,
      m ((c.tc : Thread Cert.KernelIdeal.nD Cert.KernelIdeal.τ).loc Cert.KernelIdeal.main_arg0) i = ((r : ℝ) : EReal))
    (hfinW : ∀ i, ∃ r : ℝ, W i = ((r : ℝ) : EReal)) (c : Dev Cert.KernelIdeal.nD) :
    Cert.KernelIdealRun.outAt (F := Ideal) m ρ c
      = Layout.block ⟨4, ![2, 64, 64, 128]⟩ ⟨4, ![2, 1024, 64, 128]⟩ 1 16 c (Cert.ReferenceIdeal.RefTerm.out (F := Ideal) X W) := by
  -- the real entries of the whole input and of the matrix
  let x : Fin 2 → Fin 1024 → Fin 64 → Fin 64 → ℝ := fun b h v ch => (X (ix4 b h v ch)).toReal
  let w : Fin 64 → Fin 128 → ℝ := fun ch o => (W (ix2 ch o)).toReal
  have hWr : ∀ ch o, W (ix2 ch o) = ((w ch o : ℝ) : EReal) := fun ch o => coe_toReal_of_exists (hfinW _)
  -- a device's block at (b, r, v, ch) is the whole input at row 64·d + r
  have hblk : ∀ (d : Dev Cert.KernelIdeal.nD) (b : Fin 2) (r v ch : Fin 64),
      m ((d.tc : Thread Cert.KernelIdeal.nD Cert.KernelIdeal.τ).loc Cert.KernelIdeal.main_arg0) (ix4 b r v ch)
        = X (ix4 b (Cert.Spec.rowOf d r) v ch) := fun d b r v ch => by
    rw [hX d, block_apply4]
  have hXr : ∀ b h v ch, X (ix4 b h v ch) = ((x b h v ch : ℝ) : EReal) := fun b h v ch => by
    refine coe_toReal_of_exists ?_
    have := hfinX (⟨h.val / 64, by have := h.isLt; omega⟩ : Fin 16) (ix4 b ⟨h.val % 64, Nat.mod_lt _ (by decide)⟩ v ch)
    rw [hblk, rowOf_div_mod] at this
    exact this
  -- the staged block of any device, in reals
  have hxd : ∀ (d : Dev Cert.KernelIdeal.nD) (b : Fin 2) (r v ch : Fin 64),
      xstg (F := Ideal) m ρ d (ix4 b r v ch) = ((x b (Cert.Spec.rowOf d r) v ch : ℝ) : EReal) := fun d b r v ch => by
    rw [xstg_eq, hblk, hXr]
  have hst0 : ∀ (k : Fin 16) (b : Fin 2) (ch : Fin 64), gathered (F := Ideal) m ρ c (ix4 k 0 b ch)
      = ((Cert.Spec.blockSum x (Cert.Spec.srcDev c k) b ch : ℝ) : EReal) := fun k b ch => by
    rw [← bwd_eq_srcDev]
    exact Cert.KernelValue.stats_sum (xstg (F := Ideal) m ρ (bwd c k)) (fun b r v ch => x b (Cert.Spec.rowOf (bwd c k) r) v ch)
      (hxd (bwd c k)) b ch
  have hst1 : ∀ (k : Fin 16) (b : Fin 2) (ch : Fin 64), gathered (F := Ideal) m ρ c (ix4 k 1 b ch)
      = ((Cert.Spec.blockSumSq x (Cert.Spec.srcDev c k) b ch : ℝ) : EReal) := fun k b ch => by
    rw [← bwd_eq_srcDev]
    exact Cert.KernelValue.stats_sumsq (xstg (F := Ideal) m ρ (bwd c k)) (fun b r v ch => x b (Cert.Spec.rowOf (bwd c k) r) v ch)
      (hxd (bwd c k)) b ch
  have hwc : ∀ ch o, wstg (F := Ideal) m ρ c (ix2 ch o) = ((w ch o : ℝ) : EReal) := fun ch o => by
    rw [wstg_eq, hW c, hWr]
  -- both sides at (b, r, v, o): the specification's result at row 64·c + r
  have key : ∀ (b : Fin 2) (r v : Fin 64) (o : Fin 128), outAt (F := Ideal) m ρ c (ix4 b r v o)
      = (Layout.block ⟨4, ![2, 64, 64, 128]⟩ ⟨4, ![2, 1024, 64, 128]⟩ 1 16 c (Cert.ReferenceIdeal.RefTerm.out (F := Ideal) X W))
          (ix4 b r v o) := fun b r v o => by
    rw [block_apply4]
    unfold outAt
    rw [Cert.KernelValue.block_value x w c (xstg (F := Ideal) m ρ c) (gathered (F := Ideal) m ρ c) (wstg (F := Ideal) m ρ c)
        (hxd c) hst0 hst1 hwc,
      Cert.RefValue.out_value X W x w hXr hWr]
  funext i
  have hi : i = ix4 (i 0) (i 1) (i 2) (i 3) := eq_ix4 (n0 := 2) (n1 := 64) (n2 := 64) (n3 := 128) i
  exact (congrArg (outAt (F := Ideal) m ρ c) hi).trans ((key (i 0) (i 1) (i 2) (i 3)).trans (congrArg _ hi.symm))

end Cert.Assembly
end
-- ==== Proof.Finite.lean ====
/-
  From the precondition to "every entry is a real".  The precondition says that, on every device, the
  conjunction over all entries of both argument arrays of the test |x| < +∞ comes out 1.  A conjunction
  that is 1 had every conjunct 1; and an extended real whose absolute value is below +∞ is neither
  infinity, hence a real.
-/
import proofs.«900424_g7700000000000425_dist_diff_noisepred_hshard_i_b2_h64_w64_c64_v7x_i16_f32_1_alg».proof.Defs
import proofs.«900424_g7700000000000425_dist_diff_noisepred_hshard_i_b2_h64_w64_c64_v7x_i16_f32_1_alg».proof.Proof.Gen.Pre_finite_inputs_Kernel
import proofs.«900424_g7700000000000425_dist_diff_noisepred_hshard_i_b2_h64_w64_c64_v7x_i16_f32_1_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The shape of a scalar has exactly one index. -/
instance : Subsingleton Cert.Pre_finite_inputs_Kernel.S_.Idx := ⟨fun a b => funext fun d => d.elim0⟩

/-- An extended real whose absolute value `max x (-x)` is below `+∞` is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The test the precondition makes of one entry, read back: the comparison `|x| < +∞` being 1 makes `x` a real. -/
theorem real_of_cmp {s : Shape} (x : FVec Ideal s .f32) (b : FVec Ideal s .f32) (hb : ∀ i, b i = ⊤) (i : s.Idx)
    (h : cmpf .olt (Host.absf x) b i = 1#1) : ∃ r : ℝ, x i = ((r : ℝ) : EReal) := by
  refine real_of_abs_lt_top (x i) ?_
  have h' : Ideal.cmp .olt (max (x i) (-(x i))) (b i) = 1#1 := h
  rw [hb i] at h'
  by_contra hn
  simp [Ideal.cmp, hn] at h'

theorem real_of_pre (m : (ℓ : Loc Cert.KernelIdeal.nD Cert.KernelIdeal.τ Cert.KernelIdeal.sig) → Buf (Elt Ideal) ℓ)
    (h : Cert.Pre_KernelIdeal (hPre_finite_inputs_Kernel := Cert.Pre_finite_inputs_Kernel.Gen.facts) m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal)) := by
  have h0 := congrFun (h c) ValueIdx.ix0
  dsimp only [Cert.Pre_finite_inputs_Kernel.fn] at h0
  obtain ⟨h1, h2⟩ := IntOp.andi_eq_one.1 h0
  have hb : ∀ (s : Shape) (hs : Cert.Pre_finite_inputs_Kernel.S_.BroadcastsInDim s (![] : Fin 0 → Fin s.rank)) (i : s.Idx),
      broadcastInDim s ![] hs (constant (F := Ideal) Cert.Pre_finite_inputs_Kernel.S_ .f32 0x7F800000#32) i = ⊤ :=
    fun s hs i => Cert.Consts.ofBits_inf
  refine ⟨fun i => real_of_cmp _ _ (hb _ _) i (Host.reduce_andi_all _ _ _ _ _ h1 i),
    fun i => real_of_cmp _ _ (hb _ _) i (Host.reduce_andi_all _ _ _ _ _ h2 i)⟩

end Cert.Finite

end
-- ==== Proof.Assembly.lean ====
/-
  The agreement of the two programs, assembled from its parts, with the kernel's run as a hypothesis.

  Given memories in which each of the 16 devices holds its block of the reference's input and a copy of
  its matrix, and the precondition that every entry is finite (hence a real): the value claimed for the
  reference's result is its composed term at its two arguments.  The reference's run ends with that
  term in its result buffer and its arguments unchanged.  The kernel's run, by hypothesis, ends with each
  device's result buffer holding the kernel's result there, which is that device's block of the
  reference's term; its arguments are unchanged.
-/
import proofs.«900424_g7700000000000425_dist_diff_noisepred_hshard_i_b2_h64_w64_c64_v7x_i16_f32_1_alg».proof.Proof.KernelIdealRun.Proto
import proofs.«900424_g7700000000000425_dist_diff_noisepred_hshard_i_b2_h64_w64_c64_v7x_i16_f32_1_alg».proof.Proof.AssemblyBlock
import proofs.«900424_g7700000000000425_dist_diff_noisepred_hshard_i_b2_h64_w64_c64_v7x_i16_f32_1_alg».proof.Proof.RefRun
import proofs.«900424_g7700000000000425_dist_diff_noisepred_hshard_i_b2_h64_w64_c64_v7x_i16_f32_1_alg».proof.Proof.Finite
import proofs.«900424_g7700000000000425_dist_diff_noisepred_hshard_i_b2_h64_w64_c64_v7x_i16_f32_1_alg».proof.Defs
import proofs.«900424_g7700000000000425_dist_diff_noisepred_hshard_i_b2_h64_w64_c64_v7x_i16_f32_1_alg».proof.Proof.Gen.KernelIdeal
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Gen.Pre_finite_inputs_Kernel

noncomputable section

namespace Cert.Assembly

open Cert.KernelIdeal Cert.KernelIdeal.Gen Idealize.ShloMosaic Idealize.ShloMosaic.TcCoe Idealize.SL.Sem
open Idealize.ShloMosaic.ValueIdx
open Cert.KernelIdealRun
open scoped BigOperators

/-- **The algebraic claim from the kernel's run.**  If on every initial memory the kernel's run ends with each device's
    result buffer holding the kernel's result there and its arguments unchanged, then the kernel on 16 devices and the
    reference on one agree: the reference's result is the reference's term at its two arguments, each device's result is
    its block of it, and both programs leave their arguments as they were. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdealRun.outAt (F := Ideal) m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' hpre hblk
  refine ⟨Cert.ReferenceIdeal.RefTerm.out (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run _ _ _).mono (fun _ h c => ?_) (hrun m g)
    obtain ⟨h1, h2, h3⟩ := h c
    refine ⟨h1.trans ?_, h2, h3⟩
    exact outAt_block m g _ _ (fun d => (hblk d).1) (fun d => (hblk d).2)
      (fun d => (Cert.Finite.real_of_pre m hpre d).1)
      (fun i => by
        have h0 := (Cert.Finite.real_of_pre m hpre (0 : Fin 16)).2
        rw [(hblk (0 : Fin 16)).2] at h0
        exact h0 i) c
  · exact (θ_run _ _ _).mono (fun _ h => h 0) (Cert.ReferenceIdeal.RefRun.run (F := Ideal) m' g')

end Cert.Assembly
end
-- ==== Proof.lean ====
/-
  The claim.  The input x[b, h, v, ch] (2 × 1024 × 64 × 64) is cut along h into 16 blocks of 64 rows, one per device; for
  each batch entry and channel the 65536 values are normalised to mean zero and variance one, passed through
  t / (1 + e^(-t)) and contracted with a 64 × 128 matrix.  Run on the 16 devices, the kernel leaves on every device
  its block of what the reference computes on one device from the whole input; both run to the end, fault nowhere and
  leave their arguments as they were.
  Two laws join the two sides.  Every device adds up its own block's sums and sums of squares and gathers the other 15
  devices' partial sums; the 16 partial sums added up are the sums over all 1024 rows.  The kernel takes the variance as the
  mean of the squares minus the squared mean, the reference as the mean squared deviation from the mean; over the reals
  the two are equal.
-/
import proofs.«900424_g7700000000000425_dist_diff_noisepred_hshard_i_b2_h64_w64_c64_v7x_i16_f32_1_alg».proof.Defs
import proofs.«900424_g7700000000000425_dist_diff_noisepred_hshard_i_b2_h64_w64_c64_v7x_i16_f32_1_alg».proof.Proof.Gen.Kernel
import proofs.«900424_g7700000000000425_dist_diff_noisepred_hshard_i_b2_h64_w64_c64_v7x_i16_f32_1_alg».proof.Proof.Gen.Kernel.Skeleton
import proofs.«900424_g7700000000000425_dist_diff_noisepred_hshard_i_b2_h64_w64_c64_v7x_i16_f32_1_alg».proof.Proof.Gen.Kernel.Launch
import proofs.«900424_g7700000000000425_dist_diff_noisepred_hshard_i_b2_h64_w64_c64_v7x_i16_f32_1_alg».proof.Proof.Gen.Kernel.Points
import proofs.«900424_g7700000000000425_dist_diff_noisepred_hshard_i_b2_h64_w64_c64_v7x_i16_f32_1_alg».proof.Proof.Gen.Kernel.Frame
import proofs.«900424_g7700000000000425_dist_diff_noisepred_hshard_i_b2_h64_w64_c64_v7x_i16_f32_1_alg».proof.Proof.Gen.KernelIdeal
import proofs.«900424_g7700000000000425_dist_diff_noisepred_hshard_i_b2_h64_w64_c64_v7x_i16_f32_1_alg».proof.Proof.Gen.KernelIdeal.Skeleton
import proofs.«900424_g7700000000000425_dist_diff_noisepred_hshard_i_b2_h64_w64_c64_v7x_i16_f32_1_alg».proof.Proof.Gen.KernelIdeal.Launch
import proofs.«900424_g7700000000000425_dist_diff_noisepred_hshard_i_b2_h64_w64_c64_v7x_i16_f32_1_alg».proof.Proof.Gen.KernelIdeal.Points
import proofs.«900424_g7700000000000425_dist_diff_noisepred_hshard_i_b2_h64_w64_c64_v7x_i16_f32_1_alg».proof.Proof.Gen.KernelIdeal.Frame
import proofs.«900424_g7700000000000425_dist_diff_noisepred_hshard_i_b2_h64_w64_c64_v7x_i16_f32_1_alg».proof.Proof.Gen.ReferenceIdeal
import proofs.«900424_g7700000000000425_dist_diff_noisepred_hshard_i_b2_h64_w64_c64_v7x_i16_f32_1_alg».proof.Proof.Gen.Pre_finite_inputs_Kernel
import proofs.«900424_g7700000000000425_dist_diff_noisepred_hshard_i_b2_h64_w64_c64_v7x_i16_f32_1_alg».proof.Proof.Gen.Pre_finite_inputs_ReferenceIdeal
import proofs.«900424_g7700000000000425_dist_diff_noisepred_hshard_i_b2_h64_w64_c64_v7x_i16_f32_1_alg».proof.Proof.KernelIdealRun.Claims
import proofs.«900424_g7700000000000425_dist_diff_noisepred_hshard_i_b2_h64_w64_c64_v7x_i16_f32_1_alg».proof.Proof.KernelRun.Claims
import proofs.«900424_g7700000000000425_dist_diff_noisepred_hshard_i_b2_h64_w64_c64_v7x_i16_f32_1_alg».proof.Proof.KernelIdealRun.Body
import proofs.«900424_g7700000000000425_dist_diff_noisepred_hshard_i_b2_h64_w64_c64_v7x_i16_f32_1_alg».proof.Proof.KernelRun.Body
import proofs.«900424_g7700000000000425_dist_diff_noisepred_hshard_i_b2_h64_w64_c64_v7x_i16_f32_1_alg».proof.Proof.RefRun
import proofs.«900424_g7700000000000425_dist_diff_noisepred_hshard_i_b2_h64_w64_c64_v7x_i16_f32_1_alg».proof.Proof.Assembly
import Idealize.ShloMosaic.Adequacy
import Idealize.ShloMosaic.Init

noncomputable section

namespace Cert.Proof

open Idealize.ShloMosaic Idealize.SL.Sem Cert.Kernel

/-- The kernel as printed, at the machine's words: it runs to the end and leaves its arguments as they were. -/
theorem frame_Kernel : Cert.frame_Kernel (hKernel := Cert.Kernel.Gen.facts) (hPre_finite_inputs_Kernel := Cert.Pre_finite_inputs_Kernel.Gen.facts) :=
  fun m ρ _ => Cert.KernelRun.frame_of_body (F := Bits) (fun m ρ c => Cert.KernelRun.body_obligation m ρ c) m ρ

/-- The same program read over the extended reals. -/
theorem frame_KernelIdeal : Cert.frame_KernelIdeal (hKernelIdeal := Cert.KernelIdeal.Gen.facts) (hPre_finite_inputs_Kernel := Cert.Pre_finite_inputs_Kernel.Gen.facts) :=
  fun m ρ _ => Cert.KernelIdealRun.frame_of_body (F := Ideal) (fun m ρ c => Cert.KernelIdealRun.body_obligation m ρ c) m ρ

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  ⟨frame_Kernel, frame_KernelIdeal, Cert.ReferenceIdeal.RefRun.frame, trivial,
    Cert.Assembly.algebraic_of_run (fun m ρ => Cert.KernelIdealRun.run_values m ρ (fun c => Cert.KernelIdealRun.body_obligation m ρ c))⟩⟩

end Cert.Proof

end
